-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg20 : FVec F S2x64 .f32) (main_arg21 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S2x64 .f32 := Host.absf main_arg20
  let main_cst_34 : FVec F S_ .f32 := constant S_ .f32 0x7F800000#32
  let main_v90 : FVec F S2x64 .f32 := broadcastInDim S2x64 ![] bcast_S_S2x64 main_cst_34
  let main_v91 : IVec S2x64 1 := cmpf .olt main_v89 main_v90
  let main_c_35 : IVec S_ 1 := constantI S_ 1 1#1
  let main_v92 : IVec S_ 1 := (fun x v => Host.reduce IntOp.andi x v reducesTo_S2x64_S_d0_1 h_S_) main_v91 main_c_35
  let main_v93 : IVec S_ 1 := andi main_v88 main_v92
  let main_v94 : FVec F S2 .f32 := Host.absf main_arg21
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg16 : FVec F S64 .f32) (main_arg17 : FVec F S64 .f32) (main_arg18 : FVec F S64x64 .f32) (main_arg19 : FVec F S64 .f32) (main_arg20 : FVec F S2x64 .f32) (main_arg21 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64 .f32) (main_arg18 : FVec F S64x64 .f32) (main_arg19 : FVec F S64 .f32) (main_arg20 : FVec F S2x64 .f32) (main_arg21 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64x64 .f32) (main_arg19 : FVec F S64 .f32) (main_arg20 : FVec F S2x64 .f32) (main_arg21 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64x64 .f32) (main_arg19 : FVec F S64 .f32) (main_arg20 : FVec F S2x64 .f32) (main_arg21 : FVec F S2 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x4 .f32) (main_arg1 : IVec S2x3200000 32) (main_arg2 : IVec S100000 32) (main_arg3 : FVec F S64x4 .f32) (main_arg4 : FVec F S64 .f32) (main_arg5 : FVec F S64x4 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64x64 .f32) (main_arg19 : FVec F S64 .f32) (main_arg20 : FVec F S2x64 .f32) (main_arg21 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S64x4 .f32 := Host.absf main_arg3
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg5
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S100000x1 : Shape := ⟨2, ![100000, 1]⟩
abbrev S1x64 : Shape := ⟨2, ![1, 64]⟩
abbrev S100000x64 : Shape := ⟨2, ![100000, 64]⟩
abbrev S10000x4 : Shape := ⟨2, ![10000, 4]⟩
abbrev S10000x64 : Shape := ⟨2, ![10000, 64]⟩
abbrev S4x64 : Shape := ⟨2, ![4, 64]⟩
abbrev S3200000x64 : Shape := ⟨2, ![3200000, 64]⟩
abbrev S128x64 : Shape := ⟨2, ![128, 64]⟩
abbrev S128 : Shape := ⟨1, ![128]⟩
abbrev S128x1 : Shape := ⟨2, ![128, 1]⟩
abbrev S1x2 : Shape := ⟨2, ![1, 2]⟩
abbrev S128x2 : Shape := ⟨2, ![128, 2]⟩
abbrev S64x2 : Shape := ⟨2, ![64, 2]⟩

abbrev nBuf : Space → Nat
  | .hbm => 150
  | .vmem => 63
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S64x4, .f32⟩
  | 4 => ⟨S64, .f32⟩
  | 5 => ⟨S64x4, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64x64, .f32⟩
  | 19 => ⟨S64, .f32⟩
  | 20 => ⟨S2x64, .f32⟩
  | 21 => ⟨S2, .f32⟩
  | 22 => ⟨S1x3200000, .i32⟩
  | 23 => ⟨S3200000, .i32⟩
  | 24 => ⟨S1x3200000, .i32⟩
  | 25 => ⟨S3200000, .i32⟩
  | 26 => ⟨S_, .f32⟩
  | 27 => ⟨S3200000, .f32⟩
  | 28 => ⟨S_, .f32⟩
  | 29 => ⟨S100000, .f32⟩
  | 30 => ⟨S3200000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x4, .f32⟩
  | 47 => ⟨S_, .f32⟩
  | 48 => ⟨S100000x4, .f32⟩
  | 49 => ⟨S3200000x1, .i32⟩
  | 50 => ⟨S100000x4, .f32⟩
  | 51 => ⟨S100000x1, .f32⟩
  | 52 => ⟨S100000x4, .f32⟩
  | 53 => ⟨S100000x4, .f32⟩
  | 54 => ⟨S1x64, .f32⟩
  | 55 => ⟨S100000x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S100000x64, .f32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000x64, .f32⟩
  | 78 => ⟨S_, .f32⟩
  | 79 => ⟨S100000x64, .f32⟩
  | 80 => ⟨S3200000x1, .i32⟩
  | 81 => ⟨S100000x64, .f32⟩
  | 82 => ⟨S100000x1, .f32⟩
  | 83 => ⟨S100000x64, .f32⟩
  | 84 => ⟨S100000x64, .f32⟩
  | 85 => ⟨S1x64, .f32⟩
  | 86 => ⟨S100000x64, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S100000x64, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x64, .f32⟩
  | 109 => ⟨S_, .f32⟩
  | 110 => ⟨S100000x64, .f32⟩
  | 111 => ⟨S3200000x1, .i32⟩
  | 112 => ⟨S100000x64, .f32⟩
  | 113 => ⟨S100000x1, .f32⟩
  | 114 => ⟨S100000x64, .f32⟩
  | 115 => ⟨S100000x64, .f32⟩
  | 116 => ⟨S1x64, .f32⟩
  | 117 => ⟨S100000x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S1x64, .f32⟩
  | _ => ⟨S100000x4, .f32⟩

abbrev hbmTy0_1 (i : Nat) : BufTy := match i % 128 with
  | 0 => ⟨S1x64, .f32⟩
  | 1 => ⟨S1x64, .f32⟩
  | 2 => ⟨S100000x64, .f32⟩
  | 3 => ⟨S_, .f32⟩
  | 4 => ⟨S128x64, .f32⟩
  | 5 => ⟨S100000x1, .i32⟩
  | 6 => ⟨S128x64, .f32⟩
  | 7 => ⟨S_, .f32⟩
  | 8 => ⟨S100000, .f32⟩
  | 9 => ⟨S_, .f32⟩
  | 10 => ⟨S128, .f32⟩
  | 11 => ⟨S100000x1, .i32⟩
  | 12 => ⟨S128, .f32⟩
  | 13 => ⟨S_, .f32⟩
  | 14 => ⟨S128, .f32⟩
  | 15 => ⟨S128, .f32⟩
  | 16 => ⟨S128x1, .f32⟩
  | 17 => ⟨S128x64, .f32⟩
  | 18 => ⟨S128x64, .f32⟩
  | 19 => ⟨S1x64, .f32⟩
  | 20 => ⟨S1x2, .f32⟩
  | 21 => ⟨S128x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S64x4, .f32⟩
  | .local _ .vmem, ⟨5, _⟩ => ⟨S1x64, .f32⟩
  | .local _ .vmem, ⟨6, _⟩ => ⟨S64x4, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S1x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S10000x64, .f32⟩
  | .local _ .vmem, ⟨56, _⟩ => ⟨S10000x64, .f32⟩
  | .local _ .vmem, ⟨57, _⟩ => ⟨S128x64, .f32⟩
  | .local _ .vmem, ⟨58, _⟩ => ⟨S64x64, .f32⟩
  | .local _ .vmem, ⟨59, _⟩ => ⟨S1x64, .f32⟩
  | .local _ .vmem, ⟨60, _⟩ => ⟨S2x64, .f32⟩
  | .local _ .vmem, ⟨61, _⟩ => ⟨S1x2, .f32⟩
  | .local _ .vmem, ⟨62, _⟩ => ⟨S128x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev main_cst_5 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50_0 : Ref sig .tc := ⟨.hbm, 86, rfl⟩
abbrev main_v50_1 : Ref sig .tc := ⟨.hbm, 87, rfl⟩
abbrev main_v50_2 : Ref sig .tc := ⟨.hbm, 88, rfl⟩
abbrev main_cst_10 : Ref sig .tc := ⟨.hbm, 89, rfl⟩
abbrev main_v51 : Ref sig .tc := ⟨.hbm, 90, rfl⟩
abbrev main_v52 : Ref sig .tc := ⟨.hbm, 91, rfl⟩
abbrev main_cst_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_12 : Ref sig .tc := ⟨.hbm, 100, rfl⟩
abbrev main_v60 : Ref sig .tc := ⟨.hbm, 101, rfl⟩
abbrev main_v61 : Ref sig .tc := ⟨.hbm, 102, rfl⟩
abbrev main_c_13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74_0 : Ref sig .tc := ⟨.hbm, 117, rfl⟩
abbrev main_v74_1 : Ref sig .tc := ⟨.hbm, 118, rfl⟩
abbrev main_v74_2 : Ref sig .tc := ⟨.hbm, 119, rfl⟩
abbrev main_cst_15 : Ref sig .tc := ⟨.hbm, 120, rfl⟩
abbrev main_v75 : Ref sig .tc := ⟨.hbm, 121, rfl⟩
abbrev main_v76 : Ref sig .tc := ⟨.hbm, 122, rfl⟩
abbrev main_cst_16 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_17 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_18 : Ref sig .tc := ⟨.hbm, 135, rfl⟩
abbrev main_v87 : Ref sig .tc := ⟨.hbm, 136, rfl⟩
abbrev main_cst_19 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_20 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x4 : S_.BroadcastsInDim S100000x4 (![] : Fin 0 → Fin S100000x4.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  shapeCasts_S10000x4_S10000x4 : S10000x4.ShapeCasts S10000x4
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  bcast_S_S1x64 : S_.BroadcastsInDim S1x64 (![] : Fin 0 → Fin S1x64.rank)
  shapeCasts_S10000x64_S10000x64 : S10000x64.ShapeCasts S10000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S128x64 : S1x64.Broadcasts S128x64
  inb_S2x64_S2x64_0_0 : ∀ a, (![0, 0] : Fin 2 → Nat) a + S2x64.size a ≤ S2x64.size a
  h_S2x64 : 0 < S2x64.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x64_p1_0_S64x2 : S2x64.Transposes [1, 0] S64x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S100000_S3200000x1_S3200000_n_0_0_1_wf : ScatterDims.WF S100000 S3200000x1 S3200000 [] [0] [0] 1
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S10000x4_S4x64_S10000x64_1_0_0_1_n_n_wf : DotDims.WF S10000x4 S4x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S100000x4.size a
  hwx0_1 : ∀ i : grid0.Coords, EltTy.bits .f32 = 32 ∨ (Rect.block (s := S100000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .f32 = 32 ∨ (Rect.block (s := S64x4) S64x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4.size a ≤ S64x4.size a
  hwx0_4 : ∀ i : grid0.Coords, EltTy.bits .f32 = 32 ∨ (Rect.block (s := S64x4) S64x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x64.size a ≤ S128x64.size a
  hwx6_0 : ∀ i : grid6.Coords, EltTy.bits .f32 = 32 ∨ (Rect.block (s := S128x64) S128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2x64.size a ≤ S2x64.size a
  hwx6_3 : ∀ i : grid6.Coords, EltTy.bits .f32 = 32 ∨ (Rect.block (s := S2x64) S2x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x2.size a ≤ S128x2.size a
  hwx6_5 : ∀ i : grid6.Coords, EltTy.bits .f32 = 32 ∨ (Rect.block (s := S128x2) S128x2.size (cc6_transform_5 i) (hinb6_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v74_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v74_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v74_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v95) S128x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg20) S2x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v98) S128x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S2x64 : Shape := ⟨2, ![2, 64]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S100000x1 : Shape := ⟨2, ![100000, 1]⟩
abbrev S4x64 : Shape := ⟨2, ![4, 64]⟩
abbrev S100000x64 : Shape := ⟨2, ![100000, 64]⟩
abbrev S1x64 : Shape := ⟨2, ![1, 64]⟩
abbrev S3200000x64 : Shape := ⟨2, ![3200000, 64]⟩
abbrev S128x64 : Shape := ⟨2, ![128, 64]⟩
abbrev S128 : Shape := ⟨1, ![128]⟩
abbrev S128x1 : Shape := ⟨2, ![128, 1]⟩
abbrev S64x2 : Shape := ⟨2, ![64, 2]⟩
abbrev S128x2 : Shape := ⟨2, ![128, 2]⟩
abbrev S1x2 : Shape := ⟨2, ![1, 2]⟩

abbrev nBuf : Space → Nat
  | .hbm => 238
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S64x4, .f32⟩
  | 4 => ⟨S64, .f32⟩
  | 5 => ⟨S64x4, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64x64, .f32⟩
  | 19 => ⟨S64, .f32⟩
  | 20 => ⟨S2x64, .f32⟩
  | 21 => ⟨S2, .f32⟩
  | 22 => ⟨S1x3200000, .i32⟩
  | 23 => ⟨S3200000, .i32⟩
  | 24 => ⟨S1x3200000, .i32⟩
  | 25 => ⟨S3200000, .i32⟩
  | 26 => ⟨S_, .f32⟩
  | 27 => ⟨S3200000, .f32⟩
  | 28 => ⟨S_, .f32⟩
  | 29 => ⟨S100000, .f32⟩
  | 30 => ⟨S3200000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x4, .f32⟩
  | 47 => ⟨S_, .f32⟩
  | 48 => ⟨S100000x4, .f32⟩
  | 49 => ⟨S3200000x1, .i32⟩
  | 50 => ⟨S100000x4, .f32⟩
  | 51 => ⟨S100000x1, .f32⟩
  | 52 => ⟨S100000x4, .f32⟩
  | 53 => ⟨S100000x4, .f32⟩
  | 54 => ⟨S4x64, .f32⟩
  | 55 => ⟨S100000x64, .f32⟩
  | 56 => ⟨S1x64, .f32⟩
  | 57 => ⟨S100000x64, .f32⟩
  | 58 => ⟨S100000x64, .f32⟩
  | 59 => ⟨S4x64, .f32⟩
  | 60 => ⟨S100000x64, .f32⟩
  | 61 => ⟨S100000x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x64, .f32⟩
  | 104 => ⟨S_, .f32⟩
  | 105 => ⟨S100000x64, .f32⟩
  | 106 => ⟨S3200000x1, .i32⟩
  | 107 => ⟨S100000x64, .f32⟩
  | 108 => ⟨S100000x1, .f32⟩
  | 109 => ⟨S100000x64, .f32⟩
  | 110 => ⟨S100000x64, .f32⟩
  | 111 => ⟨S64x64, .f32⟩
  | 112 => ⟨S100000x64, .f32⟩
  | 113 => ⟨S1x64, .f32⟩
  | 114 => ⟨S100000x64, .f32⟩
  | 115 => ⟨S100000x64, .f32⟩
  | 116 => ⟨S64x64, .f32⟩
  | 117 => ⟨S100000x64, .f32⟩
  | 118 => ⟨S100000x64, .f32⟩
  | 119 => ⟨S_, .f32⟩
  | 120 => ⟨S64, .f32⟩
  | 121 => ⟨S_, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S100000x64, .f32⟩
  | _ => ⟨S100000x4, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S64, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x64, .f32⟩
  | 33 => ⟨S_, .f32⟩
  | 34 => ⟨S100000x64, .f32⟩
  | 35 => ⟨S3200000x1, .i32⟩
  | 36 => ⟨S100000x64, .f32⟩
  | 37 => ⟨S100000x1, .f32⟩
  | 38 => ⟨S100000x64, .f32⟩
  | 39 => ⟨S100000x64, .f32⟩
  | 40 => ⟨S64x64, .f32⟩
  | 41 => ⟨S100000x64, .f32⟩
  | 42 => ⟨S1x64, .f32⟩
  | 43 => ⟨S100000x64, .f32⟩
  | 44 => ⟨S100000x64, .f32⟩
  | 45 => ⟨S64x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S100000x64, .f32⟩
  | 57 => ⟨S_, .f32⟩
  | 58 => ⟨S64, .f32⟩
  | 59 => ⟨S_, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S128x64, .f32⟩
  | 83 => ⟨S100000x1, .i32⟩
  | 84 => ⟨S128x64, .f32⟩
  | 85 => ⟨S_, .f32⟩
  | 86 => ⟨S100000, .f32⟩
  | 87 => ⟨S_, .f32⟩
  | 88 => ⟨S128, .f32⟩
  | 89 => ⟨S100000x1, .i32⟩
  | 90 => ⟨S128, .f32⟩
  | 91 => ⟨S_, .f32⟩
  | 92 => ⟨S128, .f32⟩
  | 93 => ⟨S128, .f32⟩
  | 94 => ⟨S128x1, .f32⟩
  | 95 => ⟨S128x64, .f32⟩
  | 96 => ⟨S128x64, .f32⟩
  | 97 => ⟨S64x64, .f32⟩
  | 98 => ⟨S128x64, .f32⟩
  | 99 => ⟨S1x64, .f32⟩
  | 100 => ⟨S128x64, .f32⟩
  | 101 => ⟨S128x64, .f32⟩
  | 102 => ⟨S_, .f32⟩
  | 103 => ⟨S128x64, .f32⟩
  | 104 => ⟨S128x64, .f32⟩
  | 105 => ⟨S64x2, .f32⟩
  | 106 => ⟨S128x2, .f32⟩
  | 107 => ⟨S1x2, .f32⟩
  | 108 => ⟨S128x2, .f32⟩
  | 109 => ⟨S128x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_9 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call0_cst : Ref sig .tc := ⟨.hbm, 92, rfl⟩
abbrev main_call0_v0 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_12 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_17 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call1_cst : Ref sig .tc := ⟨.hbm, 149, rfl⟩
abbrev main_call1_v0 : Ref sig .tc := ⟨.hbm, 150, rfl⟩
abbrev main_v105 : Ref sig .tc := ⟨.hbm, 151, rfl⟩
abbrev main_c_18 : Ref sig .tc := ⟨.hbm, 152, rfl⟩
abbrev main_v106 : Ref sig .tc := ⟨.hbm, 153, rfl⟩
abbrev main_v107 : Ref sig .tc := ⟨.hbm, 154, rfl⟩
abbrev main_c_19 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_20 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_21 : Ref sig .tc := ⟨.hbm, 176, rfl⟩
abbrev main_v127 : Ref sig .tc := ⟨.hbm, 177, rfl⟩
abbrev main_cst_22 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_23 : Ref sig .tc := ⟨.hbm, 185, rfl⟩
abbrev main_v134 : Ref sig .tc := ⟨.hbm, 186, rfl⟩
abbrev main_cst_24 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_25 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_call2_cst : Ref sig .tc := ⟨.hbm, 206, rfl⟩
abbrev main_call2_v0 : Ref sig .tc := ⟨.hbm, 207, rfl⟩
abbrev main_v152 : Ref sig .tc := ⟨.hbm, 208, rfl⟩
abbrev main_cst_26 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_27 : Ref sig .tc := ⟨.hbm, 213, rfl⟩
abbrev main_v156 : Ref sig .tc := ⟨.hbm, 214, rfl⟩
abbrev main_cst_28 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_29 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_call3_cst : Ref sig .tc := ⟨.hbm, 230, rfl⟩
abbrev main_call3_v0 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x4 : S_.BroadcastsInDim S100000x4 (![] : Fin 0 → Fin S100000x4.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  transposes_S64x4_S4x64_1_0 : S64x4.Transposes [1, 0] S4x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  transposes_S2x64_S64x2_1_0 : S2x64.Transposes [1, 0] S64x2
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S3200000x1_S3200000_n_0_0_1_wf : ScatterDims.WF S100000 S3200000x1 S3200000 [] [0] [0] 1
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x64_S100000x64_1_0_0_1_n_n_wf : DotDims.WF S100000x4 S4x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x2_S128x2_1_0_0_1_n_n_wf : DotDims.WF S128x64 S64x2 S128x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.KRun.lean ====
/-
  The kernel program is seven kernel regions among stretches of host operations. Every weakly fair execution of it
  terminates, and in its final state every buffer that is not scoped to a region holds what the chain of segment
  boundaries says: the contents `W14` reached from the launch memory by applying, in order, each stretch of host
  operations and each region's write-backs. The argument buffers and the result buffer are among those buffers, so
  the value of the result is read off `W14`.
-/
import proofs.«113720_j13494787244371_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates without a
    fault, and its final memory agrees with `W14` on every buffer that no region scopes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run with the result buffer named: it ends at `W14`'s contents of the result buffer, and every argument
    ends as launched. -/
theorem run_value : θ_run defs (onTc (τ := τ) (main (F := F))) ⟨m, fun _ => 0, ρ⟩ (fun r => ∀ c : Dev nD,
      r.2.mem ((c.tc : Thread nD τ).loc main_v98) = W14 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨h c _ (mem_uc main_v98 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c),
     (h c _ (mem_uc main_arg16 (by decide))).trans (W14_main_arg16 m ρ c),
     (h c _ (mem_uc main_arg17 (by decide))).trans (W14_main_arg17 m ρ c),
     (h c _ (mem_uc main_arg18 (by decide))).trans (W14_main_arg18 m ρ c),
     (h c _ (mem_uc main_arg19 (by decide))).trans (W14_main_arg19 m ρ c),
     (h c _ (mem_uc main_arg20 (by decide))).trans (W14_main_arg20 m ρ c),
     (h c _ (mem_uc main_arg21 (by decide))).trans (W14_main_arg21 m ρ c)⟩) (run_all m ρ)

end Cert.KernelIdeal.Run

end
-- ==== Proof.RefFrame.lean ====
/-
  The reference program is a straight line of host operations with no kernel launch. Its run says that every weakly
  fair execution terminates with each buffer at the fold of the operations over the launch contents and with the
  arguments unchanged; forgetting the result leaves the frame claim of the reference.
-/
import proofs.«113720_j13494787244371_1_alg».proof.Defs
import proofs.«113720_j13494787244371_1_alg».proof.Proof.RefRunP

noncomputable section

open Idealize.ShloMosaic Idealize.SL.Sem

namespace Cert.Proof.RefFrame

/-- The reference terminates without a fault and leaves its arguments as launched: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«113720_j13494787244371_1_alg».proof.Proof.LibPlainMatmul
import proofs.«113720_j13494787244371_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«113720_j13494787244371_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibSageLinear.lean ====
/-
  The linear stage of a mean-aggregating graph convolution as one whole-array function over the extended reals, and
  the column sums taken over it.

  For node features X and aggregated neighbour features A (both M × K), weights Wl and Wr (both N × K, applied
  transposed) and a 1 × N bias row b, the stage's value has at entry (r, q)
      (Σ_k A(r, k) · Wl(q, k) + b(q)) + Σ_k X(r, k) · Wr(q, k).
  An entry depends on row r of X and of A only, so the array can be computed block of rows by block of rows. The sum
  of a column over all M rows is the sum, over the blocks, of the column's sum within each block: a finite sum in a
  commutative monoid may be regrouped at will.
-/
import proofs.«113720_j13494787244371_1_alg».proof.Proof.LibLayerForms

noncomputable section

open Idealize.ShloMosaic Idealize.ShloMosaic.ValueIdx Cert.MatrixProduct Cert.Gcn
open scoped BigOperators

namespace Cert.SageLinear

/-- The transpose of a matrix, entry by entry. -/
def tr {a b : ℕ} (W : (⟨2, ![a, b]⟩ : Shape).Idx → EReal) : (⟨2, ![b, a]⟩ : Shape).Idx → EReal :=
  fun i => W (ix2 (i 1) (i 0))

theorem tr_apply {a b : ℕ} (W : (⟨2, ![a, b]⟩ : Shape).Idx → EReal) (p : Fin b) (q : Fin a) :
    tr W (ix2 p q) = W (ix2 q p) := rfl

/-- The linear stage: neighbours through Wlᵀ plus the bias row, plus the node's own features through Wrᵀ. -/
def lin {M K N : ℕ} (X A : (⟨2, ![M, K]⟩ : Shape).Idx → EReal) (Wl Wr : (⟨2, ![N, K]⟩ : Shape).Idx → EReal)
    (b : (⟨2, ![1, N]⟩ : Shape).Idx → EReal) : (⟨2, ![M, N]⟩ : Shape).Idx → EReal :=
  fun i => biasedProduct A (tr Wl) b i + mm X (tr Wr) i

/-- Entry (p, q) of the stage on a block of rows is entry (r, q) of the stage on the whole arrays, when row p of each
    block is row r of its array and the weights and the bias row are the same. -/
theorem lin_row {M R K N : ℕ} (X A : (⟨2, ![M, K]⟩ : Shape).Idx → EReal) (Wl Wr : (⟨2, ![N, K]⟩ : Shape).Idx → EReal)
    (b : (⟨2, ![1, N]⟩ : Shape).Idx → EReal) (x a : (⟨2, ![R, K]⟩ : Shape).Idx → EReal) (p : Fin R) (q : Fin N) (r : Fin M)
    (hx : ∀ k : Fin K, x (ix2 p k) = X (ix2 r k)) (ha : ∀ k : Fin K, a (ix2 p k) = A (ix2 r k)) :
    lin x a Wl Wr b (ix2 p q) = lin X A Wl Wr b (ix2 r q) := by
  show (mm a (tr Wl) (ix2 p q) + b (ix2 (0 : Fin 1) q)) + mm x (tr Wr) (ix2 p q)
    = (mm A (tr Wl) (ix2 r q) + b (ix2 (0 : Fin 1) q)) + mm X (tr Wr) (ix2 r q)
  rw [mm_of_row_col A (tr Wl) a (tr Wl) (ix2 p q) (ix2 r q) ha (fun _ => rfl),
    mm_of_row_col X (tr Wr) x (tr Wr) (ix2 p q) (ix2 r q) hx (fun _ => rfl)]

/-- The sum of each column, as a 1 × N row. -/
def colSum {M N : ℕ} (L : (⟨2, ![M, N]⟩ : Shape).Idx → EReal) : (⟨2, ![1, N]⟩ : Shape).Idx → EReal :=
  fun i => ∑ r : Fin M, L (ix2 r (i 1))

/-- The sum of the squares of each column, as a 1 × N row. -/
def colSumSq {M N : ℕ} (L : (⟨2, ![M, N]⟩ : Shape).Idx → EReal) : (⟨2, ![1, N]⟩ : Shape).Idx → EReal :=
  fun i => ∑ r : Fin M, L (ix2 r (i 1)) * L (ix2 r (i 1))

/-- A sum over T·R indices is the sum over T blocks of the sums over the R indices of each block. -/
theorem sum_blocks {α : Type*} [AddCommMonoid α] {T R N : ℕ} (h : T * R = N) (f : Fin N → α) :
    ∑ r : Fin N, f r
      = ∑ t : Fin T, ∑ p : Fin R, f ⟨R * t.val + p.val, by
          have := t.isLt; have := p.isLt; rw [← h]
          calc R * t.val + p.val < R * t.val + R := by omega
            _ = R * (t.val + 1) := by ring
            _ ≤ R * T := Nat.mul_le_mul_left _ (by omega)
            _ = T * R := Nat.mul_comm _ _⟩ := by
  subst h
  rw [← Equiv.sum_comp finProdFinEquiv, Fintype.sum_prod_type]
  refine Finset.sum_congr rfl fun t _ => Finset.sum_congr rfl fun p _ => congrArg f (Fin.ext ?_)
  show p.val + R * t.val = R * t.val + p.val
  omega

end Cert.SageLinear

end
-- ==== Proof.LibColumnSum.lean ====
/-
  The sum down the columns of a matrix, read at a column.

  Summing an [a, b] matrix over its FIRST axis leaves a vector of length b whose entry j is the sum of the a entries of
  column j. The general statement names the summed entries through the index "entry j with coordinate k inserted on the
  summed axis"; for a matrix and axis 0 that index is (k, j). (The companion for the second axis is the row sum.)
-/
import Idealize.ShloMosaic.PureOps.Ideal.Laws
import Idealize.ShloMosaic.Lib.ValueIdx

open scoped BigOperators

namespace Idealize.ShloMosaic.ValueIdx

open Idealize.ShloMosaic

/-- Inserting coordinate `k` on axis 0 over the column index `j` gives the matrix index `(k, j)`. -/
theorem reduces_cols_lift {a b : ℕ} (h : (⟨2, ![a, b]⟩ : Shape).Reduces [0] ⟨1, ![b]⟩) (j : Fin b) (k : Fin a) :
    h.lift (ix1 j) k = ix2 k j := by
  funext ax; apply Fin.ext
  show h.liftVal (ix1 j) k.val ax = (ix2 k j ax).val
  unfold Shape.Reduces.liftVal
  match ax with
  | ⟨0, _⟩ => rfl
  | ⟨1, _⟩ => rfl

/-- The sum of an `[a, b]` matrix over axis 0, at the exact extended reals, read at column `j`: the sum of that column. -/
theorem multiReduction_add_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (reduces_cols_lift h j k)

end Idealize.ShloMosaic.ValueIdx
-- ==== Proof.KLin0.lean ====
/-
  What region 0 (the linear stage of the graph convolution, with running column sums) leaves in its three output
  arrays.

  The region walks the 100000 rows in ten blocks of 10000. At every point it computes the block of the linear stage
  from the block of node features, the block of aggregated features and the whole weights and bias row, stores it, and
  adds the block's column sums and column sums of squares to two 1 × 64 accumulators that are reset at the first point
  and written back after the last. The blocks of the first output tile it, so it ends holding the whole-array
  function `lin`; the accumulators end holding the sums over the ten blocks of the blocks' column sums, which are the
  column sums (of the entries, and of their squares) of the whole array.
-/
import proofs.«113720_j13494787244371_1_alg».proof.Proof.Gen.KernelIdeal.Frame
import proofs.«113720_j13494787244371_1_alg».proof.Proof.LibSageLinear
import proofs.«113720_j13494787244371_1_alg».proof.Proof.LibColumnSum
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin0

open Cert.KernelIdeal Cert.KernelIdeal.Gen

theorem hz : (![0, 0] : Fin 2 → Nat) = fun _ => 0 := funext fun a => by fin_cases a <;> rfl

/-! ## The body's stored values as whole-array functions of its loaded blocks -/

/-- A weight block narrowed and transposed is the transpose, entry by entry. -/
theorem tr_eq (x : Vec Ideal S64x4 .f32) :
    (transpose S4x64 [1, 0] (truncf .bf16 x bitsLt_bf16_f32) transposes_S64x4_p1_0_S4x64 : FVec Ideal S4x64 .bf16) = tr (a := 64) (b := 4) x := by
  funext i
  obtain ⟨a, b, rfl⟩ : ∃ (a : Fin 4) (b : Fin 64), i = ix2 a b := ⟨i 0, i 1, eq_ix2 i⟩
  exact transpose_ix2_apply (a := 64) (b := 4) _ transposes_S64x4_p1_0_S4x64 a b

/-- The stored block of the first output is the linear stage of the loaded blocks. -/
theorem pay4_eq (x0 x1 : Vec Ideal S10000x4 .f32) (x2 : Vec Ideal S64x4 .f32) (x3 : Vec Ideal S1x64 .f32) (x4 : Vec Ideal S64x4 .f32) :
    k0_pay4 x0 x1 x2 x4 x3 = lin (M := 10000) (K := 4) (N := 64) x0 x1 x2 x4 x3 := by
  funext j
  obtain ⟨p, q, rfl⟩ : ∃ (p : Fin 10000) (q : Fin 64), j = ix2 p q := ⟨j 0, j 1, eq_ix2 j⟩
  have e1 : ∀ (A : FVec Ideal S10000x4 .bf16) (B : FVec Ideal S4x64 .bf16),
      matmul dot_S10000x4_S4x64_S10000x64_1_0_0_1_n_n none A B (constant (F := Ideal) S10000x64 .f32 0x00000000#32) = mm (m := 10000) (k := 4) (n := 64) A B :=
    fun A B => matmul_zero_eq_mm dot_S10000x4_S4x64_S10000x64_1_0_0_1_n_n_wf none A B
  unfold k0_pay4
  simp only [shapeCast_self]
  rw [addf_apply, addf_apply, e1, e1, tr_eq, tr_eq, broadcastTo_1b_ab_apply (a := 10000) (b := 64)]
  rfl

/-- The first accumulator's stored row: what it held plus the block's column sums. -/
theorem pay5_eq (x0 x1 : Vec Ideal S10000x4 .f32) (x2 : Vec Ideal S64x4 .f32) (x3 : Vec Ideal S1x64 .f32) (x4 : Vec Ideal S64x4 .f32) (acc : Vec Ideal S1x64 .f32) :
    k0_pay5 x0 x1 x2 x4 x3 acc
      = fun i => acc i + colSum (lin (M := 10000) (K := 4) (N := 64) x0 x1 x2 x4 x3) i := by
  funext j
  obtain ⟨u, q, rfl⟩ : ∃ (u : Fin 1) (q : Fin 64), j = ix2 u q := ⟨j 0, j 1, eq_ix2 j⟩
  unfold k0_pay5
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The second accumulator's stored row: what it held plus the block's column sums of squares. -/
theorem pay17_eq (x0 x1 : Vec Ideal S10000x4 .f32) (x2 : Vec Ideal S64x4 .f32) (x3 : Vec Ideal S1x64 .f32) (x4 : Vec Ideal S64x4 .f32) (acc : Vec Ideal S1x64 .f32) :
    k0_pay1 (k0_pay6 acc) (k0_pay7 x0 x1 x2 x4 x3)
      = fun i => acc i + colSumSq (lin (M := 10000) (K := 4) (N := 64) x0 x1 x2 x4 x3) i := by
  funext j
  obtain ⟨u, q, rfl⟩ : ∃ (u : Fin 1) (q : Fin 64), j = ix2 u q := ⟨j 0, j 1, eq_ix2 j⟩
  unfold k0_pay1 k0_pay6 k0_pay7
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The zero row the reset stores. -/
abbrev zeroRow : Vec Ideal S1x64 .f32 := fun _ => Ideal.ofBits .f32 0x00000000#32

theorem pay2_eq : (k0_pay2 : FVec Ideal S1x64 .f32) = zeroRow := rfl
theorem pay3_eq : (k0_pay3 : FVec Ideal S1x64 .f32) = zeroRow := rfl

/-! ## What each control case leaves in the three outputs' staging buffers -/

theorem out_A_5 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec Ideal S10000x4 .f32) (x2 : Vec Ideal S64x4 .f32) (x3 : Vec Ideal S1x64 .f32) (x4 : Vec Ideal S64x4 .f32) :
    out0_A_5 (F := Ideal) c i a1 h1 a2 h2 a3 h3 a4 h4 a5 h5 a6 h6 a7 h7 a8 h8 hc x0 x1 x2 x3 x4 = lin (M := 10000) (K := 4) (N := 64) x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  exact pay4_eq x0 x1 x2 x3 x4

theorem out_B_5 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec Ideal S10000x4 .f32) (x2 : Vec Ideal S64x4 .f32) (x3 : Vec Ideal S1x64 .f32) (x4 : Vec Ideal S64x4 .f32) (xo6 xo7 : Vec Ideal S1x64 .f32) :
    out0_B_5 (F := Ideal) c i a1 h1 a2 h2 a3 h3 a4 h4 a5 h5 a6 h6 a7 h7 a8 h8 hc x0 x1 x2 x3 x4 xo6 xo7 = lin (M := 10000) (K := 4) (N := 64) x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  exact pay4_eq x0 x1 x2 x3 x4

theorem out_A_6 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec Ideal S10000x4 .f32) (x2 : Vec Ideal S64x4 .f32) (x3 : Vec Ideal S1x64 .f32) (x4 : Vec Ideal S64x4 .f32) :
    out0_A_6 (F := Ideal) c i a1 h1 a2 h2 a3 h3 a4 h4 a5 h5 a6 h6 a7 h7 a8 h8 hc x0 x1 x2 x3 x4
      = fun j => zeroRow j + colSum (lin (M := 10000) (K := 4) (N := 64) x0 x1 x2 x4 x3) j := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  rw [pay5_eq, pay2_eq]

theorem out_B_6 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec Ideal S10000x4 .f32) (x2 : Vec Ideal S64x4 .f32) (x3 : Vec Ideal S1x64 .f32) (x4 : Vec Ideal S64x4 .f32) (xo6 xo7 : Vec Ideal S1x64 .f32) :
    out0_B_6 (F := Ideal) c i a1 h1 a2 h2 a3 h3 a4 h4 a5 h5 a6 h6 a7 h7 a8 h8 hc x0 x1 x2 x3 x4 xo6 xo7
      = fun j => xo6 j + colSum (lin (M := 10000) (K := 4) (N := 64) x0 x1 x2 x4 x3) j := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  rw [pay5_eq]

theorem out_A_7 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond0_0 i) (x0 x1 : Vec Ideal S10000x4 .f32) (x2 : Vec Ideal S64x4 .f32) (x3 : Vec Ideal S1x64 .f32) (x4 : Vec Ideal S64x4 .f32) :
    out0_A_7 (F := Ideal) c i a1 h1 a2 h2 a3 h3 a4 h4 a5 h5 a6 h6 a7 h7 a8 h8 hc x0 x1 x2 x3 x4
      = fun j => zeroRow j + colSumSq (lin (M := 10000) (K := 4) (N := 64) x0 x1 x2 x4 x3) j := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  rw [pay17_eq, pay3_eq]

theorem out_B_7 (c : Dev nD) (i : grid0.Coords) (a1 : Memref sig .tc .vmem S10000x4 .f32) (h1 : a1.IsWhole) (a2 : Memref sig .tc .vmem S10000x4 .f32) (h2 : a2.IsWhole) (a3 : Memref sig .tc .vmem S64x4 .f32) (h3 : a3.IsWhole) (a4 : Memref sig .tc .vmem S1x64 .f32) (h4 : a4.IsWhole) (a5 : Memref sig .tc .vmem S64x4 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond0_0 i) (x0 x1 : Vec Ideal S10000x4 .f32) (x2 : Vec Ideal S64x4 .f32) (x3 : Vec Ideal S1x64 .f32) (x4 : Vec Ideal S64x4 .f32) (xo6 xo7 : Vec Ideal S1x64 .f32) :
    out0_B_7 (F := Ideal) c i a1 h1 a2 h2 a3 h3 a4 h4 a5 h5 a6 h6 a7 h7 a8 h8 hc x0 x1 x2 x3 x4 xo6 xo7
      = fun j => xo7 j + colSumSq (lin (M := 10000) (K := 4) (N := 64) x0 x1 x2 x4 x3) j := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x4) hz, View.ld_unit_zero (S := S64x4) hz, View.ld_unit_zero (S := S1x64) hz]
  rw [pay17_eq]

end Cert.KernelIdeal.Lin0

end
-- ==== Proof.KLinSum0.lean ====
/-
  Region 0, continued: the accumulation over the ten grid points and the three final arrays.

  After point n the first output's staging buffer holds the linear stage of point n's blocks, and the two accumulators
  hold the zero row plus the column sums (of the entries, of their squares) of the blocks of points 0 … n, added in
  point order. Row p of point t's block is row 10000·t + p of the whole array, so the sums over the ten blocks regroup
  into the column sums over all 100000 rows.
-/
import proofs.«113720_j13494787244371_1_alg».proof.Proof.KLin0

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin0

open Cert.KernelIdeal Cert.KernelIdeal.Gen

variable (V : (c : Dev nD) → (b : Ref sig .tc) → Buf (Elt Ideal) ((c : Thread nD τ).loc b))

/-- The printed index maps over the ten points: the two row-blocked inputs and the first output move down the rows
    with the point; the weights, the bias row and the two accumulators stay put. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The linear stage of the whole arrays the region finds. -/
abbrev whole (c : Dev nD) : S100000x64.Idx → EReal :=
  lin (M := 100000) (K := 4) (N := 64) (V c (Pipeline.arrRef spec0 0)) (V c (Pipeline.arrRef spec0 1))
    (V c (Pipeline.arrRef spec0 2)) (V c (Pipeline.arrRef spec0 4)) (V c (Pipeline.arrRef spec0 3))

/-- The linear stage of point `t`'s blocks. -/
abbrev blk (c : Dev nD) (t : Fin cfg0.N) : S10000x64.Idx → EReal :=
  lin (M := 10000) (K := 4) (N := 64) (iblk0 V c 0 t) (iblk0 V c 1 t) (iblk0 V c 2 t) (iblk0 V c 4 t) (iblk0 V c 3 t)

/-- Row `p` of point `t`'s block is row 10000·t + p of the whole array. -/
theorem blk_apply (c : Dev nD) (t : Fin cfg0.N) (p : Fin 10000) (q : Fin 64) (r : Fin 100000)
    (hr : r.val = 10000 * t.val + p.val) : blk V c t (ix2 p q) = whole V c (ix2 r q) := by
  obtain ⟨e00, e01, e10, e11, e20, e21, e30, e31, e40, e41, e50, e51, e60, e61, e70, e71⟩ := idx_facts t
  have w2 : (iblk0 V c 2 t : S64x4.Idx → EReal) = V c (Pipeline.arrRef spec0 2) := by
    funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 4 + 1 * (y 1).val = (y 1).val; omega
  have w4 : (iblk0 V c 4 t : S64x4.Idx → EReal) = V c (Pipeline.arrRef spec0 4) := by
    funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 4 + 1 * (y 1).val = (y 1).val; omega
  have w3 : (iblk0 V c 3 t : S1x64.Idx → EReal) = V c (Pipeline.arrRef spec0 3) := by
    funext y
    show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  show lin (M := 10000) (K := 4) (N := 64) (iblk0 V c 0 t) (iblk0 V c 1 t) (iblk0 V c 2 t) (iblk0 V c 4 t) (iblk0 V c 3 t) (ix2 p q) = _
  rw [w2, w4, w3]
  refine lin_row (M := 100000) (R := 10000) (K := 4) (N := 64) _ _ _ _ _ _ _ p q r (fun k => ?_) (fun k => ?_)
  · show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 10000 + 1 * p.val = r.val; omega
    | ⟨1, _⟩ => show win0_0.index t (1 : Fin 2) * 4 + 1 * k.val = k.val; omega
  · show V c (Pipeline.arrRef spec0 1) (((cfg0.win 1).blk t).view.emb (ix2 p k)) = V c (Pipeline.arrRef spec0 1) (ix2 r k)
    refine congrArg _ (funext fun a => Fin.ext ?_)
    match a with
    | ⟨0, _⟩ => show win0_1.index t (0 : Fin 2) * 10000 + 1 * p.val = r.val; omega
    | ⟨1, _⟩ => show win0_1.index t (1 : Fin 2) * 4 + 1 * k.val = k.val; omega

/-- The running column sums after point `n`: the zero row, then each point's block added in order. -/
def chain1 (c : Dev nD) : (n : ℕ) → n < cfg0.N → S1x64.Idx → EReal
  | 0, h => fun j => zeroRow j + colSum (blk V c ⟨0, h⟩) j
  | n + 1, h => fun j => chain1 c n (Nat.lt_of_succ_lt h) j + colSum (blk V c ⟨n + 1, h⟩) j

/-- The running column sums of squares after point `n`. -/
def chain2 (c : Dev nD) : (n : ℕ) → n < cfg0.N → S1x64.Idx → EReal
  | 0, h => fun j => zeroRow j + colSumSq (blk V c ⟨0, h⟩) j
  | n + 1, h => fun j => chain2 c n (Nat.lt_of_succ_lt h) j + colSumSq (blk V c ⟨n + 1, h⟩) j

/-- What the three staging buffers hold after point `n`, by induction on the point. -/
theorem outsAt_eq (c : Dev nD) : ∀ (n : ℕ) (h : n < cfg0.N),
    outsAt0 V c n h = (blk V c ⟨n, h⟩, chain1 V c n h, chain2 V c n h)
  | 0, h => by
    rw [outsAt0_A V c ⟨0, h⟩ rfl, out_A_5, out_A_6, out_A_7]
    rfl
  | n + 1, h => by
    have hN : cfg0.N = 10 := N_0
    have hB : ¬(⟨n + 1, h⟩ : Fin cfg0.N).val % 10 = 0 := by dsimp only; omega
    rw [outsAt0_B V c ⟨n + 1, h⟩ hB, out_B_5, out_B_6, out_B_7]
    show (blk V c ⟨n + 1, h⟩, (fun j => (outsAt0 V c n _).2.1 j + colSum (blk V c ⟨n + 1, h⟩) j),
      (fun j => (outsAt0 V c n _).2.2 j + colSumSq (blk V c ⟨n + 1, h⟩) j)) = _
    rw [outsAt_eq c n]
    rfl

end Cert.KernelIdeal.Lin0

end
-- ==== Proof.KLinFinal0.lean ====
/-
  Region 0, concluded: the accumulators in closed form and the three arrays after the region.
-/
import proofs.«113720_j13494787244371_1_alg».proof.Proof.KLinSum0

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin0

open Cert.KernelIdeal Cert.KernelIdeal.Gen

variable (V : (c : Dev nD) → (b : Ref sig .tc) → Buf (Elt Ideal) ((c : Thread nD τ).loc b))

/-- Row `p` of point `t`'s block, as a row of the whole array. -/
def rowAt (t p : ℕ) : Fin 100000 := ⟨(10000 * t + p) % 100000, Nat.mod_lt _ (by norm_num)⟩

theorem rowAt_val (t p : ℕ) (ht : t < 10) (hp : p < 10000) : (rowAt t p).val = 10000 * t + p :=
  Nat.mod_eq_of_lt (by omega)

/-- The running column sum after point `n`, at a column: the zero plus, over the points 0 … n, the sum down the point's block. -/
theorem chain1_apply (c : Dev nD) (u : Fin 1) (q : Fin 64) : ∀ (n : ℕ) (h : n < cfg0.N),
    chain1 V c n h (ix2 u q) = zeroRow (ix2 u q)
      + ∑ t ∈ Finset.range (n + 1), ∑ p : Fin 10000, whole V c (ix2 (rowAt t p.val) q)
  | 0, h => by
    show zeroRow (ix2 u q) + colSum (blk V c ⟨0, h⟩) (ix2 u q) = _
    rw [Finset.sum_range_one]
    refine congrArg (zeroRow (ix2 u q) + ·) (Finset.sum_congr rfl fun p _ => ?_)
    exact blk_apply V c ⟨0, h⟩ p q (rowAt 0 p.val) (rowAt_val 0 p.val (by omega) p.isLt)
  | n + 1, h => by
    have hN : cfg0.N = 10 := N_0
    show chain1 V c n _ (ix2 u q) + colSum (blk V c ⟨n + 1, h⟩) (ix2 u q) = _
    rw [chain1_apply c u q n, Finset.sum_range_succ _ (n + 1), add_assoc]
    refine congrArg (zeroRow (ix2 u q) + ·) (congrArg (_ + ·) (Finset.sum_congr rfl fun p _ => ?_))
    exact blk_apply V c ⟨n + 1, h⟩ p q (rowAt (n + 1) p.val) (rowAt_val (n + 1) p.val (by omega) p.isLt)

/-- The running column sum of squares after point `n`, at a column: the zero plus, over the points 0 … n, the sum down the point's block. -/
theorem chain2_apply (c : Dev nD) (u : Fin 1) (q : Fin 64) : ∀ (n : ℕ) (h : n < cfg0.N),
    chain2 V c n h (ix2 u q) = zeroRow (ix2 u q)
      + ∑ t ∈ Finset.range (n + 1), ∑ p : Fin 10000, (whole V c (ix2 (rowAt t p.val) q) * whole V c (ix2 (rowAt t p.val) q))
  | 0, h => by
    show zeroRow (ix2 u q) + colSumSq (blk V c ⟨0, h⟩) (ix2 u q) = _
    rw [Finset.sum_range_one]
    refine congrArg (zeroRow (ix2 u q) + ·) (Finset.sum_congr rfl fun p _ => ?_)
    show blk V c ⟨0, h⟩ (ix2 p q) * blk V c ⟨0, h⟩ (ix2 p q) = _
    rw [blk_apply V c ⟨0, h⟩ p q (rowAt 0 p.val) (rowAt_val 0 p.val (by omega) p.isLt)]
  | n + 1, h => by
    have hN : cfg0.N = 10 := N_0
    show chain2 V c n _ (ix2 u q) + colSumSq (blk V c ⟨n + 1, h⟩) (ix2 u q) = _
    rw [chain2_apply c u q n, Finset.sum_range_succ _ (n + 1), add_assoc]
    refine congrArg (zeroRow (ix2 u q) + ·) (congrArg (_ + ·) (Finset.sum_congr rfl fun p _ => ?_))
    show blk V c ⟨n + 1, h⟩ (ix2 p q) * blk V c ⟨n + 1, h⟩ (ix2 p q) = _
    rw [blk_apply V c ⟨n + 1, h⟩ p q (rowAt (n + 1) p.val) (rowAt_val (n + 1) p.val (by omega) p.isLt)]

/-- The sums over the ten blocks, block by block, are the sums over all the rows. -/
theorem sum_points (f : Fin 100000 → EReal) :
    ∑ t ∈ Finset.range 10, ∑ p : Fin 10000, f (rowAt t p.val) = ∑ r : Fin 100000, f r := by
  rw [sum_blocks (T := 10) (R := 10000) (N := 100000) (by norm_num) f, Finset.sum_range]
  refine Finset.sum_congr rfl fun t _ => Finset.sum_congr rfl fun p _ => congrArg f (Fin.ext ?_)
  exact rowAt_val t.val p.val t.isLt p.isLt

/-! ## The first output: the whole linear stage -/

/-- What point `t` writes back to the first output is block `t` of the whole linear stage. -/
theorem flushed5_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5, outsAt_eq]
  obtain ⟨e00, e01, e10, e11, e20, e21, e30, e31, e40, e41, e50, e51, e60, e61, e70, e71⟩ := idx_facts t
  funext j
  obtain ⟨p, q, rfl⟩ : ∃ (p : Fin 10000) (q : Fin 64), j = ix2 p q := ⟨j 0, j 1, eq_ix2 j⟩
  have hN : cfg0.N = 10 := N_0
  have ht : t.val < 10 := hN ▸ t.isLt
  refine (blk_apply V c t p q (rowAt t.val p.val) (rowAt_val t.val p.val ht p.isLt)).trans ?_
  show whole V c (ix2 (rowAt t.val p.val) q) = whole V c (((cfg0.win 5).blk t).view.emb (ix2 p q))
  refine congrArg _ (funext fun a => Fin.ext ?_)
  match a with
  | ⟨0, _⟩ => show (rowAt t.val p.val).val = win0_5.index t (0 : Fin 2) * 10000 + 1 * p.val; rw [rowAt_val t.val p.val ht p.isLt]; omega
  | ⟨1, _⟩ => show q.val = win0_5.index t (1 : Fin 2) * 64 + 1 * q.val; omega

theorem mem_blk5 (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v26_0).slice (win0_5.rect t)).set ↔ _
  rw [View.set_slice_whole, Rect.mem_set_unit]
  exact Iff.rfl

/-- The first output's array after the region: the linear stage of the arrays the region found. -/
theorem arr5 (c : Dev nD) : (dat0 V c).arrAt 5 cfg0.N = whole V c :=
  (dat0 V c).arrAt_eq_of_cover 5 (whole V c) (fun t _ => flushed5_eq V c t) fun i => by
    have hi0 : (i 0).val < 100000 := (i 0).isLt
    have hi1 : (i 1).val < 64 := (i 1).isLt
    have hN : cfg0.N = 10 := N_0
    refine ⟨⟨(i 0).val / 10000, by rw [hN]; omega⟩, flush0_5 _, ?_⟩
    rw [mem_blk5]
    obtain ⟨e00, e01, e10, e11, e20, e21, e30, e31, e40, e41, e50, e51, e60, e61, e70, e71⟩ := idx_facts ⟨(i 0).val / 10000, by rw [hN]; omega⟩
    intro a
    match a with
    | ⟨0, _⟩ =>
      show win0_5.index _ (0 : Fin 2) * 10000 ≤ (i 0).val ∧ (i 0).val < win0_5.index _ (0 : Fin 2) * 10000 + 10000
      rw [e50]; dsimp only; omega
    | ⟨1, _⟩ =>
      show win0_5.index _ (1 : Fin 2) * 64 ≤ (i 1).val ∧ (i 1).val < win0_5.index _ (1 : Fin 2) * 64 + 64
      rw [e51]; omega

/-! ## The two accumulators: the column sums of the whole linear stage -/

/-- What the first accumulator holds after the last point. -/
abbrev last6 (c : Dev nD) : Buf (Elt Ideal) ((c : Thread nD τ).loc main_v26_1) :=
  chain1 V c 9 (by rw [show cfg0.N = 10 from N_0]; decide)

/-- The one write-back of the first accumulator, after the last point, writes that: its one block is the whole 1 × 64 array. -/
theorem flushed6_eq (c : Dev nD) (t : Fin cfg0.N) (hf : (cfg0.win 6).flush t = true) :
    (dat0 V c).flushed 6 t = ((cfg0.win 6).blk t).view.read (Elt Ideal) (last6 V c) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6, outsAt_eq]
  have hz' : (fun a => win0_6.index t0_9 a * main_v26_1.ty.shape.size a) = fun _ => 0 := funext fun a => by fin_cases a <;> decide
  exact (Memref.read_access_unit_zero (Elt Ideal) main_v26_1 hz' (fun a => by rw [congrFun hz' a]; simp) (last6 V c)).symm

/-- So the first accumulator's array ends holding it. -/
theorem arr6 (c : Dev nD) : (dat0 V c).arrAt 6 cfg0.N = last6 V c :=
  (dat0 V c).arrAt_eq_of_cover 6 (last6 V c) (flushed6_eq V c) fun i =>
    ⟨t0_9, (flush0_6 t0_9).mpr rfl, by
      show i ∈ ((View.whole main_v26_1).slice (win0_6.rect t0_9)).set
      rw [View.set_slice_whole, Rect.mem_set_unit]
      intro a
      have h0 : (i 0 : Nat) < 1 := (i 0).isLt
      have h1 : (i 1 : Nat) < 64 := (i 1).isLt
      match a with
      | ⟨0, _⟩ => show win0_6.index t0_9 0 * win0_6.size 0 ≤ (i 0 : Nat) ∧ (i 0 : Nat) < win0_6.index t0_9 0 * win0_6.size 0 + win0_6.xsize (grid0.coords t0_9) 0
                  rw [show win0_6.index t0_9 0 * win0_6.size 0 = 0 from by decide +kernel, show win0_6.xsize (grid0.coords t0_9) 0 = 1 from by decide +kernel]; omega
      | ⟨1, _⟩ => show win0_6.index t0_9 1 * win0_6.size 1 ≤ (i 1 : Nat) ∧ (i 1 : Nat) < win0_6.index t0_9 1 * win0_6.size 1 + win0_6.xsize (grid0.coords t0_9) 1
                  rw [show win0_6.index t0_9 1 * win0_6.size 1 = 0 from by decide +kernel, show win0_6.xsize (grid0.coords t0_9) 1 = 64 from by decide +kernel]; omega⟩

/-- What the second accumulator holds after the last point. -/
abbrev last7 (c : Dev nD) : Buf (Elt Ideal) ((c : Thread nD τ).loc main_v26_2) :=
  chain2 V c 9 (by rw [show cfg0.N = 10 from N_0]; decide)

/-- The one write-back of the second accumulator, after the last point, writes that: its one block is the whole 1 × 64 array. -/
theorem flushed7_eq (c : Dev nD) (t : Fin cfg0.N) (hf : (cfg0.win 7).flush t = true) :
    (dat0 V c).flushed 7 t = ((cfg0.win 7).blk t).view.read (Elt Ideal) (last7 V c) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7, outsAt_eq]
  have hz' : (fun a => win0_7.index t0_9 a * main_v26_2.ty.shape.size a) = fun _ => 0 := funext fun a => by fin_cases a <;> decide
  exact (Memref.read_access_unit_zero (Elt Ideal) main_v26_2 hz' (fun a => by rw [congrFun hz' a]; simp) (last7 V c)).symm

/-- So the second accumulator's array ends holding it. -/
theorem arr7 (c : Dev nD) : (dat0 V c).arrAt 7 cfg0.N = last7 V c :=
  (dat0 V c).arrAt_eq_of_cover 7 (last7 V c) (flushed7_eq V c) fun i =>
    ⟨t0_9, (flush0_7 t0_9).mpr rfl, by
      show i ∈ ((View.whole main_v26_2).slice (win0_7.rect t0_9)).set
      rw [View.set_slice_whole, Rect.mem_set_unit]
      intro a
      have h0 : (i 0 : Nat) < 1 := (i 0).isLt
      have h1 : (i 1 : Nat) < 64 := (i 1).isLt
      match a with
      | ⟨0, _⟩ => show win0_7.index t0_9 0 * win0_7.size 0 ≤ (i 0 : Nat) ∧ (i 0 : Nat) < win0_7.index t0_9 0 * win0_7.size 0 + win0_7.xsize (grid0.coords t0_9) 0
                  rw [show win0_7.index t0_9 0 * win0_7.size 0 = 0 from by decide +kernel, show win0_7.xsize (grid0.coords t0_9) 0 = 1 from by decide +kernel]; omega
      | ⟨1, _⟩ => show win0_7.index t0_9 1 * win0_7.size 1 ≤ (i 1 : Nat) ∧ (i 1 : Nat) < win0_7.index t0_9 1 * win0_7.size 1 + win0_7.xsize (grid0.coords t0_9) 1
                  rw [show win0_7.index t0_9 1 * win0_7.size 1 = 0 from by decide +kernel, show win0_7.xsize (grid0.coords t0_9) 1 = 64 from by decide +kernel]; omega⟩

/-- The first accumulator ends at the column sums of the whole linear stage. -/
theorem last6_eq (c : Dev nD) : (last6 V c : S1x64.Idx → EReal) = colSum (whole V c) := by
  funext j
  obtain ⟨u, q, rfl⟩ : ∃ (u : Fin 1) (q : Fin 64), j = ix2 u q := ⟨j 0, j 1, eq_ix2 j⟩
  show chain1 V c 9 _ (ix2 u q) = _
  rw [chain1_apply V c u q 9, sum_points (fun r => whole V c (ix2 r q))]
  show Ideal.ofBits .f32 0x00000000#32 + _ = _
  rw [Ideal.ofBits_zero_f32, zero_add]
  rfl

/-- The second accumulator ends at the column sums of squares of the whole linear stage. -/
theorem last7_eq (c : Dev nD) : (last7 V c : S1x64.Idx → EReal) = colSumSq (whole V c) := by
  funext j
  obtain ⟨u, q, rfl⟩ : ∃ (u : Fin 1) (q : Fin 64), j = ix2 u q := ⟨j 0, j 1, eq_ix2 j⟩
  show chain2 V c 9 _ (ix2 u q) = _
  rw [chain2_apply V c u q 9, sum_points (fun r => whole V c (ix2 r q) * whole V c (ix2 r q))]
  show Ideal.ofBits .f32 0x00000000#32 + _ = _
  rw [Ideal.ofBits_zero_f32, zero_add]
  rfl

end Cert.KernelIdeal.Lin0

end
-- ==== Proof.KLin2.lean ====
/-
  What region 2 (the linear stage of the graph convolution, with running column sums) leaves in its three output
  arrays.

  The region walks the 100000 rows in ten blocks of 10000. At every point it computes the block of the linear stage
  from the block of node features, the block of aggregated features and the whole weights and bias row, stores it, and
  adds the block's column sums and column sums of squares to two 1 × 64 accumulators that are reset at the first point
  and written back after the last. The blocks of the first output tile it, so it ends holding the whole-array
  function `lin`; the accumulators end holding the sums over the ten blocks of the blocks' column sums, which are the
  column sums (of the entries, and of their squares) of the whole array.
-/
import proofs.«113720_j13494787244371_1_alg».proof.Proof.Gen.KernelIdeal.Frame
import proofs.«113720_j13494787244371_1_alg».proof.Proof.LibSageLinear
import proofs.«113720_j13494787244371_1_alg».proof.Proof.LibColumnSum
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin2

open Cert.KernelIdeal Cert.KernelIdeal.Gen

theorem hz : (![0, 0] : Fin 2 → Nat) = fun _ => 0 := funext fun a => by fin_cases a <;> rfl

/-! ## The body's stored values as whole-array functions of its loaded blocks -/

/-- A weight block narrowed and transposed is the transpose, entry by entry. -/
theorem tr_eq (x : Vec Ideal S64x64 .f32) :
    (transpose S64x64 [1, 0] (truncf .bf16 x bitsLt_bf16_f32) transposes_S64x64_p1_0_S64x64 : FVec Ideal S64x64 .bf16) = tr (a := 64) (b := 64) x := by
  funext i
  obtain ⟨a, b, rfl⟩ : ∃ (a : Fin 64) (b : Fin 64), i = ix2 a b := ⟨i 0, i 1, eq_ix2 i⟩
  exact transpose_ix2_apply (a := 64) (b := 64) _ transposes_S64x64_p1_0_S64x64 a b

/-- The stored block of the first output is the linear stage of the loaded blocks. -/
theorem pay4_eq (x0 x1 : Vec Ideal S10000x64 .f32) (x2 : Vec Ideal S64x64 .f32) (x3 : Vec Ideal S1x64 .f32) (x4 : Vec Ideal S64x64 .f32) :
    k2_pay4 x0 x1 x2 x4 x3 = lin (M := 10000) (K := 64) (N := 64) x0 x1 x2 x4 x3 := by
  funext j
  obtain ⟨p, q, rfl⟩ : ∃ (p : Fin 10000) (q : Fin 64), j = ix2 p q := ⟨j 0, j 1, eq_ix2 j⟩
  have e1 : ∀ (A : FVec Ideal S10000x64 .bf16) (B : FVec Ideal S64x64 .bf16),
      matmul dot_S10000x64_S64x64_S10000x64_1_0_0_1_n_n none A B (constant (F := Ideal) S10000x64 .f32 0x00000000#32) = mm (m := 10000) (k := 64) (n := 64) A B :=
    fun A B => matmul_zero_eq_mm dot_S10000x64_S64x64_S10000x64_1_0_0_1_n_n_wf none A B
  unfold k2_pay4
  simp only [shapeCast_self]
  rw [addf_apply, addf_apply, e1, e1, tr_eq, tr_eq, broadcastTo_1b_ab_apply (a := 10000) (b := 64)]
  rfl

/-- The first accumulator's stored row: what it held plus the block's column sums. -/
theorem pay5_eq (x0 x1 : Vec Ideal S10000x64 .f32) (x2 : Vec Ideal S64x64 .f32) (x3 : Vec Ideal S1x64 .f32) (x4 : Vec Ideal S64x64 .f32) (acc : Vec Ideal S1x64 .f32) :
    k2_pay5 x0 x1 x2 x4 x3 acc
      = fun i => acc i + colSum (lin (M := 10000) (K := 64) (N := 64) x0 x1 x2 x4 x3) i := by
  funext j
  obtain ⟨u, q, rfl⟩ : ∃ (u : Fin 1) (q : Fin 64), j = ix2 u q := ⟨j 0, j 1, eq_ix2 j⟩
  unfold k2_pay5
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The second accumulator's stored row: what it held plus the block's column sums of squares. -/
theorem pay17_eq (x0 x1 : Vec Ideal S10000x64 .f32) (x2 : Vec Ideal S64x64 .f32) (x3 : Vec Ideal S1x64 .f32) (x4 : Vec Ideal S64x64 .f32) (acc : Vec Ideal S1x64 .f32) :
    k2_pay1 (k2_pay6 acc) (k2_pay7 x0 x1 x2 x4 x3)
      = fun i => acc i + colSumSq (lin (M := 10000) (K := 64) (N := 64) x0 x1 x2 x4 x3) i := by
  funext j
  obtain ⟨u, q, rfl⟩ : ∃ (u : Fin 1) (q : Fin 64), j = ix2 u q := ⟨j 0, j 1, eq_ix2 j⟩
  unfold k2_pay1 k2_pay6 k2_pay7
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The zero row the reset stores. -/
abbrev zeroRow : Vec Ideal S1x64 .f32 := fun _ => Ideal.ofBits .f32 0x00000000#32

theorem pay2_eq : (k2_pay2 : FVec Ideal S1x64 .f32) = zeroRow := rfl
theorem pay3_eq : (k2_pay3 : FVec Ideal S1x64 .f32) = zeroRow := rfl

/-! ## What each control case leaves in the three outputs' staging buffers -/

theorem out_A_5 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond2_0 i) (x0 x1 : Vec Ideal S10000x64 .f32) (x2 : Vec Ideal S64x64 .f32) (x3 : Vec Ideal S1x64 .f32) (x4 : Vec Ideal S64x64 .f32) :
    out2_A_5 (F := Ideal) c i a1 h1 a2 h2 a3 h3 a4 h4 a5 h5 a6 h6 a7 h7 a8 h8 hc x0 x1 x2 x3 x4 = lin (M := 10000) (K := 64) (N := 64) x0 x1 x2 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  exact pay4_eq x0 x1 x2 x3 x4

theorem out_B_5 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond2_0 i) (x0 x1 : Vec Ideal S10000x64 .f32) (x2 : Vec Ideal S64x64 .f32) (x3 : Vec Ideal S1x64 .f32) (x4 : Vec Ideal S64x64 .f32) (xo6 xo7 : Vec Ideal S1x64 .f32) :
    out2_B_5 (F := Ideal) c i a1 h1 a2 h2 a3 h3 a4 h4 a5 h5 a6 h6 a7 h7 a8 h8 hc x0 x1 x2 x3 x4 xo6 xo7 = lin (M := 10000) (K := 64) (N := 64) x0 x1 x2 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  exact pay4_eq x0 x1 x2 x3 x4

theorem out_A_6 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond2_0 i) (x0 x1 : Vec Ideal S10000x64 .f32) (x2 : Vec Ideal S64x64 .f32) (x3 : Vec Ideal S1x64 .f32) (x4 : Vec Ideal S64x64 .f32) :
    out2_A_6 (F := Ideal) c i a1 h1 a2 h2 a3 h3 a4 h4 a5 h5 a6 h6 a7 h7 a8 h8 hc x0 x1 x2 x3 x4
      = fun j => zeroRow j + colSum (lin (M := 10000) (K := 64) (N := 64) x0 x1 x2 x4 x3) j := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay5_eq, pay2_eq]

theorem out_B_6 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond2_0 i) (x0 x1 : Vec Ideal S10000x64 .f32) (x2 : Vec Ideal S64x64 .f32) (x3 : Vec Ideal S1x64 .f32) (x4 : Vec Ideal S64x64 .f32) (xo6 xo7 : Vec Ideal S1x64 .f32) :
    out2_B_6 (F := Ideal) c i a1 h1 a2 h2 a3 h3 a4 h4 a5 h5 a6 h6 a7 h7 a8 h8 hc x0 x1 x2 x3 x4 xo6 xo7
      = fun j => xo6 j + colSum (lin (M := 10000) (K := 64) (N := 64) x0 x1 x2 x4 x3) j := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay5_eq]

theorem out_A_7 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond2_0 i) (x0 x1 : Vec Ideal S10000x64 .f32) (x2 : Vec Ideal S64x64 .f32) (x3 : Vec Ideal S1x64 .f32) (x4 : Vec Ideal S64x64 .f32) :
    out2_A_7 (F := Ideal) c i a1 h1 a2 h2 a3 h3 a4 h4 a5 h5 a6 h6 a7 h7 a8 h8 hc x0 x1 x2 x3 x4
      = fun j => zeroRow j + colSumSq (lin (M := 10000) (K := 64) (N := 64) x0 x1 x2 x4 x3) j := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay17_eq, pay3_eq]

theorem out_B_7 (c : Dev nD) (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond2_0 i) (x0 x1 : Vec Ideal S10000x64 .f32) (x2 : Vec Ideal S64x64 .f32) (x3 : Vec Ideal S1x64 .f32) (x4 : Vec Ideal S64x64 .f32) (xo6 xo7 : Vec Ideal S1x64 .f32) :
    out2_B_7 (F := Ideal) c i a1 h1 a2 h2 a3 h3 a4 h4 a5 h5 a6 h6 a7 h7 a8 h8 hc x0 x1 x2 x3 x4 xo6 xo7
      = fun j => xo7 j + colSumSq (lin (M := 10000) (K := 64) (N := 64) x0 x1 x2 x4 x3) j := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay17_eq]

end Cert.KernelIdeal.Lin2

end
-- ==== Proof.KLinSum2.lean ====
/-
  Region 2, continued: the accumulation over the ten grid points and the three final arrays.

  After point n the first output's staging buffer holds the linear stage of point n's blocks, and the two accumulators
  hold the zero row plus the column sums (of the entries, of their squares) of the blocks of points 0 … n, added in
  point order. Row p of point t's block is row 10000·t + p of the whole array, so the sums over the ten blocks regroup
  into the column sums over all 100000 rows.
-/
import proofs.«113720_j13494787244371_1_alg».proof.Proof.KLin2

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin2

open Cert.KernelIdeal Cert.KernelIdeal.Gen

variable (V : (c : Dev nD) → (b : Ref sig .tc) → Buf (Elt Ideal) ((c : Thread nD τ).loc b))

/-- The printed index maps over the ten points: the two row-blocked inputs and the first output move down the rows
    with the point; the weights, the bias row and the two accumulators stay put. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The linear stage of the whole arrays the region finds. -/
abbrev whole (c : Dev nD) : S100000x64.Idx → EReal :=
  lin (M := 100000) (K := 64) (N := 64) (V c (Pipeline.arrRef spec2 0)) (V c (Pipeline.arrRef spec2 1))
    (V c (Pipeline.arrRef spec2 2)) (V c (Pipeline.arrRef spec2 4)) (V c (Pipeline.arrRef spec2 3))

/-- The linear stage of point `t`'s blocks. -/
abbrev blk (c : Dev nD) (t : Fin cfg2.N) : S10000x64.Idx → EReal :=
  lin (M := 10000) (K := 64) (N := 64) (iblk2 V c 0 t) (iblk2 V c 1 t) (iblk2 V c 2 t) (iblk2 V c 4 t) (iblk2 V c 3 t)

/-- Row `p` of point `t`'s block is row 10000·t + p of the whole array. -/
theorem blk_apply (c : Dev nD) (t : Fin cfg2.N) (p : Fin 10000) (q : Fin 64) (r : Fin 100000)
    (hr : r.val = 10000 * t.val + p.val) : blk V c t (ix2 p q) = whole V c (ix2 r q) := by
  obtain ⟨e00, e01, e10, e11, e20, e21, e30, e31, e40, e41, e50, e51, e60, e61, e70, e71⟩ := idx_facts t
  have w2 : (iblk2 V c 2 t : S64x64.Idx → EReal) = V c (Pipeline.arrRef spec2 2) := by
    funext y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  have w4 : (iblk2 V c 4 t : S64x64.Idx → EReal) = V c (Pipeline.arrRef spec2 4) := by
    funext y
    show V c (Pipeline.arrRef spec2 4) (((cfg2.win 4).blk t).view.emb y) = V c (Pipeline.arrRef spec2 4) y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  have w3 : (iblk2 V c 3 t : S1x64.Idx → EReal) = V c (Pipeline.arrRef spec2 3) := by
    funext y
    show V c (Pipeline.arrRef spec2 3) (((cfg2.win 3).blk t).view.emb y) = V c (Pipeline.arrRef spec2 3) y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  show lin (M := 10000) (K := 64) (N := 64) (iblk2 V c 0 t) (iblk2 V c 1 t) (iblk2 V c 2 t) (iblk2 V c 4 t) (iblk2 V c 3 t) (ix2 p q) = _
  rw [w2, w4, w3]
  refine lin_row (M := 100000) (R := 10000) (K := 64) (N := 64) _ _ _ _ _ _ _ p q r (fun k => ?_) (fun k => ?_)
  · show V c (Pipeline.arrRef spec2 0) (((cfg2.win 0).blk t).view.emb (ix2 p k)) = V c (Pipeline.arrRef spec2 0) (ix2 r k)
    refine congrArg _ (funext fun a => Fin.ext ?_)
    match a with
    | ⟨0, _⟩ => show win2_0.index t (0 : Fin 2) * 10000 + 1 * p.val = r.val; omega
    | ⟨1, _⟩ => show win2_0.index t (1 : Fin 2) * 64 + 1 * k.val = k.val; omega
  · show V c (Pipeline.arrRef spec2 1) (((cfg2.win 1).blk t).view.emb (ix2 p k)) = V c (Pipeline.arrRef spec2 1) (ix2 r k)
    refine congrArg _ (funext fun a => Fin.ext ?_)
    match a with
    | ⟨0, _⟩ => show win2_1.index t (0 : Fin 2) * 10000 + 1 * p.val = r.val; omega
    | ⟨1, _⟩ => show win2_1.index t (1 : Fin 2) * 64 + 1 * k.val = k.val; omega

/-- The running column sums after point `n`: the zero row, then each point's block added in order. -/
def chain1 (c : Dev nD) : (n : ℕ) → n < cfg2.N → S1x64.Idx → EReal
  | 0, h => fun j => zeroRow j + colSum (blk V c ⟨0, h⟩) j
  | n + 1, h => fun j => chain1 c n (Nat.lt_of_succ_lt h) j + colSum (blk V c ⟨n + 1, h⟩) j

/-- The running column sums of squares after point `n`. -/
def chain2 (c : Dev nD) : (n : ℕ) → n < cfg2.N → S1x64.Idx → EReal
  | 0, h => fun j => zeroRow j + colSumSq (blk V c ⟨0, h⟩) j
  | n + 1, h => fun j => chain2 c n (Nat.lt_of_succ_lt h) j + colSumSq (blk V c ⟨n + 1, h⟩) j

/-- What the three staging buffers hold after point `n`, by induction on the point. -/
theorem outsAt_eq (c : Dev nD) : ∀ (n : ℕ) (h : n < cfg2.N),
    outsAt2 V c n h = (blk V c ⟨n, h⟩, chain1 V c n h, chain2 V c n h)
  | 0, h => by
    rw [outsAt2_A V c ⟨0, h⟩ rfl, out_A_5, out_A_6, out_A_7]
    rfl
  | n + 1, h => by
    have hN : cfg2.N = 10 := N_2
    have hB : ¬(⟨n + 1, h⟩ : Fin cfg2.N).val % 10 = 0 := by dsimp only; omega
    rw [outsAt2_B V c ⟨n + 1, h⟩ hB, out_B_5, out_B_6, out_B_7]
    show (blk V c ⟨n + 1, h⟩, (fun j => (outsAt2 V c n _).2.1 j + colSum (blk V c ⟨n + 1, h⟩) j),
      (fun j => (outsAt2 V c n _).2.2 j + colSumSq (blk V c ⟨n + 1, h⟩) j)) = _
    rw [outsAt_eq c n]
    rfl

end Cert.KernelIdeal.Lin2

end
-- ==== Proof.KLinFinal2.lean ====
/-
  Region 2, concluded: the accumulators in closed form and the three arrays after the region.
-/
import proofs.«113720_j13494787244371_1_alg».proof.Proof.KLinSum2

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin2

open Cert.KernelIdeal Cert.KernelIdeal.Gen

variable (V : (c : Dev nD) → (b : Ref sig .tc) → Buf (Elt Ideal) ((c : Thread nD τ).loc b))

/-- Row `p` of point `t`'s block, as a row of the whole array. -/
def rowAt (t p : ℕ) : Fin 100000 := ⟨(10000 * t + p) % 100000, Nat.mod_lt _ (by norm_num)⟩

theorem rowAt_val (t p : ℕ) (ht : t < 10) (hp : p < 10000) : (rowAt t p).val = 10000 * t + p :=
  Nat.mod_eq_of_lt (by omega)

/-- The running column sum after point `n`, at a column: the zero plus, over the points 0 … n, the sum down the point's block. -/
theorem chain1_apply (c : Dev nD) (u : Fin 1) (q : Fin 64) : ∀ (n : ℕ) (h : n < cfg2.N),
    chain1 V c n h (ix2 u q) = zeroRow (ix2 u q)
      + ∑ t ∈ Finset.range (n + 1), ∑ p : Fin 10000, whole V c (ix2 (rowAt t p.val) q)
  | 0, h => by
    show zeroRow (ix2 u q) + colSum (blk V c ⟨0, h⟩) (ix2 u q) = _
    rw [Finset.sum_range_one]
    refine congrArg (zeroRow (ix2 u q) + ·) (Finset.sum_congr rfl fun p _ => ?_)
    exact blk_apply V c ⟨0, h⟩ p q (rowAt 0 p.val) (rowAt_val 0 p.val (by omega) p.isLt)
  | n + 1, h => by
    have hN : cfg2.N = 10 := N_2
    show chain1 V c n _ (ix2 u q) + colSum (blk V c ⟨n + 1, h⟩) (ix2 u q) = _
    rw [chain1_apply c u q n, Finset.sum_range_succ _ (n + 1), add_assoc]
    refine congrArg (zeroRow (ix2 u q) + ·) (congrArg (_ + ·) (Finset.sum_congr rfl fun p _ => ?_))
    exact blk_apply V c ⟨n + 1, h⟩ p q (rowAt (n + 1) p.val) (rowAt_val (n + 1) p.val (by omega) p.isLt)

/-- The running column sum of squares after point `n`, at a column: the zero plus, over the points 0 … n, the sum down the point's block. -/
theorem chain2_apply (c : Dev nD) (u : Fin 1) (q : Fin 64) : ∀ (n : ℕ) (h : n < cfg2.N),
    chain2 V c n h (ix2 u q) = zeroRow (ix2 u q)
      + ∑ t ∈ Finset.range (n + 1), ∑ p : Fin 10000, (whole V c (ix2 (rowAt t p.val) q) * whole V c (ix2 (rowAt t p.val) q))
  | 0, h => by
    show zeroRow (ix2 u q) + colSumSq (blk V c ⟨0, h⟩) (ix2 u q) = _
    rw [Finset.sum_range_one]
    refine congrArg (zeroRow (ix2 u q) + ·) (Finset.sum_congr rfl fun p _ => ?_)
    show blk V c ⟨0, h⟩ (ix2 p q) * blk V c ⟨0, h⟩ (ix2 p q) = _
    rw [blk_apply V c ⟨0, h⟩ p q (rowAt 0 p.val) (rowAt_val 0 p.val (by omega) p.isLt)]
  | n + 1, h => by
    have hN : cfg2.N = 10 := N_2
    show chain2 V c n _ (ix2 u q) + colSumSq (blk V c ⟨n + 1, h⟩) (ix2 u q) = _
    rw [chain2_apply c u q n, Finset.sum_range_succ _ (n + 1), add_assoc]
    refine congrArg (zeroRow (ix2 u q) + ·) (congrArg (_ + ·) (Finset.sum_congr rfl fun p _ => ?_))
    show blk V c ⟨n + 1, h⟩ (ix2 p q) * blk V c ⟨n + 1, h⟩ (ix2 p q) = _
    rw [blk_apply V c ⟨n + 1, h⟩ p q (rowAt (n + 1) p.val) (rowAt_val (n + 1) p.val (by omega) p.isLt)]

/-- The sums over the ten blocks, block by block, are the sums over all the rows. -/
theorem sum_points (f : Fin 100000 → EReal) :
    ∑ t ∈ Finset.range 10, ∑ p : Fin 10000, f (rowAt t p.val) = ∑ r : Fin 100000, f r := by
  rw [sum_blocks (T := 10) (R := 10000) (N := 100000) (by norm_num) f, Finset.sum_range]
  refine Finset.sum_congr rfl fun t _ => Finset.sum_congr rfl fun p _ => congrArg f (Fin.ext ?_)
  exact rowAt_val t.val p.val t.isLt p.isLt

/-! ## The first output: the whole linear stage -/

/-- What point `t` writes back to the first output is block `t` of the whole linear stage. -/
theorem flushed5_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5, outsAt_eq]
  obtain ⟨e00, e01, e10, e11, e20, e21, e30, e31, e40, e41, e50, e51, e60, e61, e70, e71⟩ := idx_facts t
  funext j
  obtain ⟨p, q, rfl⟩ : ∃ (p : Fin 10000) (q : Fin 64), j = ix2 p q := ⟨j 0, j 1, eq_ix2 j⟩
  have hN : cfg2.N = 10 := N_2
  have ht : t.val < 10 := hN ▸ t.isLt
  refine (blk_apply V c t p q (rowAt t.val p.val) (rowAt_val t.val p.val ht p.isLt)).trans ?_
  show whole V c (ix2 (rowAt t.val p.val) q) = whole V c (((cfg2.win 5).blk t).view.emb (ix2 p q))
  refine congrArg _ (funext fun a => Fin.ext ?_)
  match a with
  | ⟨0, _⟩ => show (rowAt t.val p.val).val = win2_5.index t (0 : Fin 2) * 10000 + 1 * p.val; rw [rowAt_val t.val p.val ht p.isLt]; omega
  | ⟨1, _⟩ => show q.val = win2_5.index t (1 : Fin 2) * 64 + 1 * q.val; omega

theorem mem_blk5 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v50_0).slice (win2_5.rect t)).set ↔ _
  rw [View.set_slice_whole, Rect.mem_set_unit]
  exact Iff.rfl

/-- The first output's array after the region: the linear stage of the arrays the region found. -/
theorem arr5 (c : Dev nD) : (dat2 V c).arrAt 5 cfg2.N = whole V c :=
  (dat2 V c).arrAt_eq_of_cover 5 (whole V c) (fun t _ => flushed5_eq V c t) fun i => by
    have hi0 : (i 0).val < 100000 := (i 0).isLt
    have hi1 : (i 1).val < 64 := (i 1).isLt
    have hN : cfg2.N = 10 := N_2
    refine ⟨⟨(i 0).val / 10000, by rw [hN]; omega⟩, flush2_5 _, ?_⟩
    rw [mem_blk5]
    obtain ⟨e00, e01, e10, e11, e20, e21, e30, e31, e40, e41, e50, e51, e60, e61, e70, e71⟩ := idx_facts ⟨(i 0).val / 10000, by rw [hN]; omega⟩
    intro a
    match a with
    | ⟨0, _⟩ =>
      show win2_5.index _ (0 : Fin 2) * 10000 ≤ (i 0).val ∧ (i 0).val < win2_5.index _ (0 : Fin 2) * 10000 + 10000
      rw [e50]; dsimp only; omega
    | ⟨1, _⟩ =>
      show win2_5.index _ (1 : Fin 2) * 64 ≤ (i 1).val ∧ (i 1).val < win2_5.index _ (1 : Fin 2) * 64 + 64
      rw [e51]; omega

/-! ## The two accumulators: the column sums of the whole linear stage -/

/-- What the first accumulator holds after the last point. -/
abbrev last6 (c : Dev nD) : Buf (Elt Ideal) ((c : Thread nD τ).loc main_v50_1) :=
  chain1 V c 9 (by rw [show cfg2.N = 10 from N_2]; decide)

/-- The one write-back of the first accumulator, after the last point, writes that: its one block is the whole 1 × 64 array. -/
theorem flushed6_eq (c : Dev nD) (t : Fin cfg2.N) (hf : (cfg2.win 6).flush t = true) :
    (dat2 V c).flushed 6 t = ((cfg2.win 6).blk t).view.read (Elt Ideal) (last6 V c) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6, outsAt_eq]
  have hz' : (fun a => win2_6.index t2_9 a * main_v50_1.ty.shape.size a) = fun _ => 0 := funext fun a => by fin_cases a <;> decide
  exact (Memref.read_access_unit_zero (Elt Ideal) main_v50_1 hz' (fun a => by rw [congrFun hz' a]; simp) (last6 V c)).symm

/-- So the first accumulator's array ends holding it. -/
theorem arr6 (c : Dev nD) : (dat2 V c).arrAt 6 cfg2.N = last6 V c :=
  (dat2 V c).arrAt_eq_of_cover 6 (last6 V c) (flushed6_eq V c) fun i =>
    ⟨t2_9, (flush2_6 t2_9).mpr rfl, by
      show i ∈ ((View.whole main_v50_1).slice (win2_6.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_6.index t2_9 0 * win2_6.size 0 ≤ (i 0 : Nat) ∧ (i 0 : Nat) < win2_6.index t2_9 0 * win2_6.size 0 + win2_6.xsize (grid2.coords t2_9) 0
                  rw [show win2_6.index t2_9 0 * win2_6.size 0 = 0 from by decide +kernel, show win2_6.xsize (grid2.coords t2_9) 0 = 1 from by decide +kernel]; omega
      | ⟨1, _⟩ => show win2_6.index t2_9 1 * win2_6.size 1 ≤ (i 1 : Nat) ∧ (i 1 : Nat) < win2_6.index t2_9 1 * win2_6.size 1 + win2_6.xsize (grid2.coords t2_9) 1
                  rw [show win2_6.index t2_9 1 * win2_6.size 1 = 0 from by decide +kernel, show win2_6.xsize (grid2.coords t2_9) 1 = 64 from by decide +kernel]; omega⟩

/-- What the second accumulator holds after the last point. -/
abbrev last7 (c : Dev nD) : Buf (Elt Ideal) ((c : Thread nD τ).loc main_v50_2) :=
  chain2 V c 9 (by rw [show cfg2.N = 10 from N_2]; decide)

/-- The one write-back of the second accumulator, after the last point, writes that: its one block is the whole 1 × 64 array. -/
theorem flushed7_eq (c : Dev nD) (t : Fin cfg2.N) (hf : (cfg2.win 7).flush t = true) :
    (dat2 V c).flushed 7 t = ((cfg2.win 7).blk t).view.read (Elt Ideal) (last7 V c) := by
  have hN : cfg2.N = 10 := N_2
  have h9 : t.val = 9 := by have := (flush2_7 t).mp hf; have := t.isLt; omega
  obtain rfl : t = t2_9 := Fin.ext h9
  show (cfg2.win 7).cut (grid2.coords t2_9) ((dat2 V c).after 7 t2_9) = _
  rw [after2_7, outsAt_eq]
  have hz' : (fun a => win2_7.index t2_9 a * main_v50_2.ty.shape.size a) = fun _ => 0 := funext fun a => by fin_cases a <;> decide
  exact (Memref.read_access_unit_zero (Elt Ideal) main_v50_2 hz' (fun a => by rw [congrFun hz' a]; simp) (last7 V c)).symm

/-- So the second accumulator's array ends holding it. -/
theorem arr7 (c : Dev nD) : (dat2 V c).arrAt 7 cfg2.N = last7 V c :=
  (dat2 V c).arrAt_eq_of_cover 7 (last7 V c) (flushed7_eq V c) fun i =>
    ⟨t2_9, (flush2_7 t2_9).mpr rfl, by
      show i ∈ ((View.whole main_v50_2).slice (win2_7.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_7.index t2_9 0 * win2_7.size 0 ≤ (i 0 : Nat) ∧ (i 0 : Nat) < win2_7.index t2_9 0 * win2_7.size 0 + win2_7.xsize (grid2.coords t2_9) 0
                  rw [show win2_7.index t2_9 0 * win2_7.size 0 = 0 from by decide +kernel, show win2_7.xsize (grid2.coords t2_9) 0 = 1 from by decide +kernel]; omega
      | ⟨1, _⟩ => show win2_7.index t2_9 1 * win2_7.size 1 ≤ (i 1 : Nat) ∧ (i 1 : Nat) < win2_7.index t2_9 1 * win2_7.size 1 + win2_7.xsize (grid2.coords t2_9) 1
                  rw [show win2_7.index t2_9 1 * win2_7.size 1 = 0 from by decide +kernel, show win2_7.xsize (grid2.coords t2_9) 1 = 64 from by decide +kernel]; omega⟩

/-- The first accumulator ends at the column sums of the whole linear stage. -/
theorem last6_eq (c : Dev nD) : (last6 V c : S1x64.Idx → EReal) = colSum (whole V c) := by
  funext j
  obtain ⟨u, q, rfl⟩ : ∃ (u : Fin 1) (q : Fin 64), j = ix2 u q := ⟨j 0, j 1, eq_ix2 j⟩
  show chain1 V c 9 _ (ix2 u q) = _
  rw [chain1_apply V c u q 9, sum_points (fun r => whole V c (ix2 r q))]
  show Ideal.ofBits .f32 0x00000000#32 + _ = _
  rw [Ideal.ofBits_zero_f32, zero_add]
  rfl

/-- The second accumulator ends at the column sums of squares of the whole linear stage. -/
theorem last7_eq (c : Dev nD) : (last7 V c : S1x64.Idx → EReal) = colSumSq (whole V c) := by
  funext j
  obtain ⟨u, q, rfl⟩ : ∃ (u : Fin 1) (q : Fin 64), j = ix2 u q := ⟨j 0, j 1, eq_ix2 j⟩
  show chain2 V c 9 _ (ix2 u q) = _
  rw [chain2_apply V c u q 9, sum_points (fun r => whole V c (ix2 r q) * whole V c (ix2 r q))]
  show Ideal.ofBits .f32 0x00000000#32 + _ = _
  rw [Ideal.ofBits_zero_f32, zero_add]
  rfl

end Cert.KernelIdeal.Lin2

end
-- ==== Proof.KLin4.lean ====
/-
  What region 4 (the linear stage of the graph convolution, with running column sums) leaves in its three output
  arrays.

  The region walks the 100000 rows in ten blocks of 10000. At every point it computes the block of the linear stage
  from the block of node features, the block of aggregated features and the whole weights and bias row, stores it, and
  adds the block's column sums and column sums of squares to two 1 × 64 accumulators that are reset at the first point
  and written back after the last. The blocks of the first output tile it, so it ends holding the whole-array
  function `lin`; the accumulators end holding the sums over the ten blocks of the blocks' column sums, which are the
  column sums (of the entries, and of their squares) of the whole array.
-/
import proofs.«113720_j13494787244371_1_alg».proof.Proof.Gen.KernelIdeal.Frame
import proofs.«113720_j13494787244371_1_alg».proof.Proof.LibSageLinear
import proofs.«113720_j13494787244371_1_alg».proof.Proof.LibColumnSum
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin4

open Cert.KernelIdeal Cert.KernelIdeal.Gen

theorem hz : (![0, 0] : Fin 2 → Nat) = fun _ => 0 := funext fun a => by fin_cases a <;> rfl

/-! ## The body's stored values as whole-array functions of its loaded blocks -/

/-- A weight block narrowed and transposed is the transpose, entry by entry. -/
theorem tr_eq (x : Vec Ideal S64x64 .f32) :
    (transpose S64x64 [1, 0] (truncf .bf16 x bitsLt_bf16_f32) transposes_S64x64_p1_0_S64x64 : FVec Ideal S64x64 .bf16) = tr (a := 64) (b := 64) x := by
  funext i
  obtain ⟨a, b, rfl⟩ : ∃ (a : Fin 64) (b : Fin 64), i = ix2 a b := ⟨i 0, i 1, eq_ix2 i⟩
  exact transpose_ix2_apply (a := 64) (b := 64) _ transposes_S64x64_p1_0_S64x64 a b

/-- The stored block of the first output is the linear stage of the loaded blocks. -/
theorem pay4_eq (x0 x1 : Vec Ideal S10000x64 .f32) (x2 : Vec Ideal S64x64 .f32) (x3 : Vec Ideal S1x64 .f32) (x4 : Vec Ideal S64x64 .f32) :
    k4_pay4 x0 x1 x2 x4 x3 = lin (M := 10000) (K := 64) (N := 64) x0 x1 x2 x4 x3 := by
  funext j
  obtain ⟨p, q, rfl⟩ : ∃ (p : Fin 10000) (q : Fin 64), j = ix2 p q := ⟨j 0, j 1, eq_ix2 j⟩
  have e1 : ∀ (A : FVec Ideal S10000x64 .bf16) (B : FVec Ideal S64x64 .bf16),
      matmul dot_S10000x64_S64x64_S10000x64_1_0_0_1_n_n none A B (constant (F := Ideal) S10000x64 .f32 0x00000000#32) = mm (m := 10000) (k := 64) (n := 64) A B :=
    fun A B => matmul_zero_eq_mm dot_S10000x64_S64x64_S10000x64_1_0_0_1_n_n_wf none A B
  unfold k4_pay4
  simp only [shapeCast_self]
  rw [addf_apply, addf_apply, e1, e1, tr_eq, tr_eq, broadcastTo_1b_ab_apply (a := 10000) (b := 64)]
  rfl

/-- The first accumulator's stored row: what it held plus the block's column sums. -/
theorem pay5_eq (x0 x1 : Vec Ideal S10000x64 .f32) (x2 : Vec Ideal S64x64 .f32) (x3 : Vec Ideal S1x64 .f32) (x4 : Vec Ideal S64x64 .f32) (acc : Vec Ideal S1x64 .f32) :
    k4_pay5 x0 x1 x2 x4 x3 acc
      = fun i => acc i + colSum (lin (M := 10000) (K := 64) (N := 64) x0 x1 x2 x4 x3) i := by
  funext j
  obtain ⟨u, q, rfl⟩ : ∃ (u : Fin 1) (q : Fin 64), j = ix2 u q := ⟨j 0, j 1, eq_ix2 j⟩
  unfold k4_pay5
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The second accumulator's stored row: what it held plus the block's column sums of squares. -/
theorem pay17_eq (x0 x1 : Vec Ideal S10000x64 .f32) (x2 : Vec Ideal S64x64 .f32) (x3 : Vec Ideal S1x64 .f32) (x4 : Vec Ideal S64x64 .f32) (acc : Vec Ideal S1x64 .f32) :
    k4_pay1 (k4_pay6 acc) (k4_pay7 x0 x1 x2 x4 x3)
      = fun i => acc i + colSumSq (lin (M := 10000) (K := 64) (N := 64) x0 x1 x2 x4 x3) i := by
  funext j
  obtain ⟨u, q, rfl⟩ : ∃ (u : Fin 1) (q : Fin 64), j = ix2 u q := ⟨j 0, j 1, eq_ix2 j⟩
  unfold k4_pay1 k4_pay6 k4_pay7
  simp only [shapeCast_self]
  rw [addf_apply, shapeCast_a_1a_apply (a := 64)]
  refine congrArg (acc (ix2 u q) + ·) ?_
  refine (multiReduction_add_cols_apply (a := 10000) (b := 64) _ _ _ _ _ q).trans ?_
  rw [pay4_eq]
  rfl

/-- The zero row the reset stores. -/
abbrev zeroRow : Vec Ideal S1x64 .f32 := fun _ => Ideal.ofBits .f32 0x00000000#32

theorem pay2_eq : (k4_pay2 : FVec Ideal S1x64 .f32) = zeroRow := rfl
theorem pay3_eq : (k4_pay3 : FVec Ideal S1x64 .f32) = zeroRow := rfl

/-! ## What each control case leaves in the three outputs' staging buffers -/

theorem out_A_5 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec Ideal S10000x64 .f32) (x2 : Vec Ideal S64x64 .f32) (x3 : Vec Ideal S1x64 .f32) (x4 : Vec Ideal S64x64 .f32) :
    out4_A_5 (F := Ideal) c i a1 h1 a2 h2 a3 h3 a4 h4 a5 h5 a6 h6 a7 h7 a8 h8 hc x0 x1 x2 x3 x4 = lin (M := 10000) (K := 64) (N := 64) x0 x1 x2 x4 x3 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  exact pay4_eq x0 x1 x2 x3 x4

theorem out_B_5 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec Ideal S10000x64 .f32) (x2 : Vec Ideal S64x64 .f32) (x3 : Vec Ideal S1x64 .f32) (x4 : Vec Ideal S64x64 .f32) (xo6 xo7 : Vec Ideal S1x64 .f32) :
    out4_B_5 (F := Ideal) c i a1 h1 a2 h2 a3 h3 a4 h4 a5 h5 a6 h6 a7 h7 a8 h8 hc x0 x1 x2 x3 x4 xo6 xo7 = lin (M := 10000) (K := 64) (N := 64) x0 x1 x2 x4 x3 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  exact pay4_eq x0 x1 x2 x3 x4

theorem out_A_6 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec Ideal S10000x64 .f32) (x2 : Vec Ideal S64x64 .f32) (x3 : Vec Ideal S1x64 .f32) (x4 : Vec Ideal S64x64 .f32) :
    out4_A_6 (F := Ideal) c i a1 h1 a2 h2 a3 h3 a4 h4 a5 h5 a6 h6 a7 h7 a8 h8 hc x0 x1 x2 x3 x4
      = fun j => zeroRow j + colSum (lin (M := 10000) (K := 64) (N := 64) x0 x1 x2 x4 x3) j := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay5_eq, pay2_eq]

theorem out_B_6 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec Ideal S10000x64 .f32) (x2 : Vec Ideal S64x64 .f32) (x3 : Vec Ideal S1x64 .f32) (x4 : Vec Ideal S64x64 .f32) (xo6 xo7 : Vec Ideal S1x64 .f32) :
    out4_B_6 (F := Ideal) c i a1 h1 a2 h2 a3 h3 a4 h4 a5 h5 a6 h6 a7 h7 a8 h8 hc x0 x1 x2 x3 x4 xo6 xo7
      = fun j => xo6 j + colSum (lin (M := 10000) (K := 64) (N := 64) x0 x1 x2 x4 x3) j := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay5_eq]

theorem out_A_7 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec Ideal S10000x64 .f32) (x2 : Vec Ideal S64x64 .f32) (x3 : Vec Ideal S1x64 .f32) (x4 : Vec Ideal S64x64 .f32) :
    out4_A_7 (F := Ideal) c i a1 h1 a2 h2 a3 h3 a4 h4 a5 h5 a6 h6 a7 h7 a8 h8 hc x0 x1 x2 x3 x4
      = fun j => zeroRow j + colSumSq (lin (M := 10000) (K := 64) (N := 64) x0 x1 x2 x4 x3) j := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay17_eq, pay3_eq]

theorem out_B_7 (c : Dev nD) (i : grid4.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec Ideal S10000x64 .f32) (x2 : Vec Ideal S64x64 .f32) (x3 : Vec Ideal S1x64 .f32) (x4 : Vec Ideal S64x64 .f32) (xo6 xo7 : Vec Ideal S1x64 .f32) :
    out4_B_7 (F := Ideal) c i a1 h1 a2 h2 a3 h3 a4 h4 a5 h5 a6 h6 a7 h7 a8 h8 hc x0 x1 x2 x3 x4 xo6 xo7
      = fun j => xo7 j + colSumSq (lin (M := 10000) (K := 64) (N := 64) x0 x1 x2 x4 x3) j := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  try sl_unfold_words
  rw [View.canon_unit_zero hz]
  simp only [View.readAt_eq_ld, h1.read_unread, h2.read_unread, h3.read_unread, h4.read_unread, h5.read_unread, h7.read_unread, h8.read_unread, View.ld_unit_zero (S := S10000x64) hz, View.ld_unit_zero (S := S64x64) hz, View.ld_unit_zero (S := S1x64) hz]
  rw [pay17_eq]

end Cert.KernelIdeal.Lin4

end
-- ==== Proof.KLinSum4.lean ====
/-
  Region 4, continued: the accumulation over the ten grid points and the three final arrays.

  After point n the first output's staging buffer holds the linear stage of point n's blocks, and the two accumulators
  hold the zero row plus the column sums (of the entries, of their squares) of the blocks of points 0 … n, added in
  point order. Row p of point t's block is row 10000·t + p of the whole array, so the sums over the ten blocks regroup
  into the column sums over all 100000 rows.
-/
import proofs.«113720_j13494787244371_1_alg».proof.Proof.KLin4

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin4

open Cert.KernelIdeal Cert.KernelIdeal.Gen

variable (V : (c : Dev nD) → (b : Ref sig .tc) → Buf (Elt Ideal) ((c : Thread nD τ).loc b))

/-- The printed index maps over the ten points: the two row-blocked inputs and the first output move down the rows
    with the point; the weights, the bias row and the two accumulators stay put. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- The linear stage of the whole arrays the region finds. -/
abbrev whole (c : Dev nD) : S100000x64.Idx → EReal :=
  lin (M := 100000) (K := 64) (N := 64) (V c (Pipeline.arrRef spec4 0)) (V c (Pipeline.arrRef spec4 1))
    (V c (Pipeline.arrRef spec4 2)) (V c (Pipeline.arrRef spec4 4)) (V c (Pipeline.arrRef spec4 3))

/-- The linear stage of point `t`'s blocks. -/
abbrev blk (c : Dev nD) (t : Fin cfg4.N) : S10000x64.Idx → EReal :=
  lin (M := 10000) (K := 64) (N := 64) (iblk4 V c 0 t) (iblk4 V c 1 t) (iblk4 V c 2 t) (iblk4 V c 4 t) (iblk4 V c 3 t)

/-- Row `p` of point `t`'s block is row 10000·t + p of the whole array. -/
theorem blk_apply (c : Dev nD) (t : Fin cfg4.N) (p : Fin 10000) (q : Fin 64) (r : Fin 100000)
    (hr : r.val = 10000 * t.val + p.val) : blk V c t (ix2 p q) = whole V c (ix2 r q) := by
  obtain ⟨e00, e01, e10, e11, e20, e21, e30, e31, e40, e41, e50, e51, e60, e61, e70, e71⟩ := idx_facts t
  have w2 : (iblk4 V c 2 t : S64x64.Idx → EReal) = V c (Pipeline.arrRef spec4 2) := by
    funext y
    show V c (Pipeline.arrRef spec4 2) (((cfg4.win 2).blk t).view.emb y) = V c (Pipeline.arrRef spec4 2) y
    refine congrArg _ (funext fun a => Fin.ext ?_)
    match a with
    | ⟨0, _⟩ => show win4_2.index t (0 : Fin 2) * 64 + 1 * (y 0).val = (y 0).val; omega
    | ⟨1, _⟩ => show win4_2.index t (1 : Fin 2) * 64 + 1 * (y 1).val = (y 1).val; omega
  have w4 : (iblk4 V c 4 t : S64x64.Idx → EReal) = V c (Pipeline.arrRef spec4 4) := by
    funext y
    show V c (Pipeline.arrRef spec4 4) (((cfg4.win 4).blk t).view.emb y) = V c (Pipeline.arrRef spec4 4) y
    refine congrArg _ (funext fun a => Fin.ext ?_)
    match a with
    | ⟨0, _⟩ => show win4_4.index t (0 : Fin 2) * 64 + 1 * (y 0).val = (y 0).val; omega
    | ⟨1, _⟩ => show win4_4.index t (1 : Fin 2) * 64 + 1 * (y 1).val = (y 1).val; omega
  have w3 : (iblk4 V c 3 t : S1x64.Idx → EReal) = V c (Pipeline.arrRef spec4 3) := by
    funext y
    show V c (Pipeline.arrRef spec4 3) (((cfg4.win 3).blk t).view.emb y) = V c (Pipeline.arrRef spec4 3) y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 64 + 1 * (y 1).val = (y 1).val; omega
  show lin (M := 10000) (K := 64) (N := 64) (iblk4 V c 0 t) (iblk4 V c 1 t) (iblk4 V c 2 t) (iblk4 V c 4 t) (iblk4 V c 3 t) (ix2 p q) = _
  rw [w2, w4, w3]
  refine lin_row (M := 100000) (R := 10000) (K := 64) (N := 64) _ _ _ _ _ _ _ p q r (fun k => ?_) (fun k => ?_)
  · show V c (Pipeline.arrRef spec4 0) (((cfg4.win 0).blk t).view.emb (ix2 p k)) = V c (Pipeline.arrRef spec4 0) (ix2 r k)
    refine congrArg _ (funext fun a => Fin.ext ?_)
    match a with
    | ⟨0, _⟩ => show win4_0.index t (0 : Fin 2) * 10000 + 1 * p.val = r.val; omega
    | ⟨1, _⟩ => show win4_0.index t (1 : Fin 2) * 64 + 1 * k.val = k.val; omega
  · show V c (Pipeline.arrRef spec4 1) (((cfg4.win 1).blk t).view.emb (ix2 p k)) = V c (Pipeline.arrRef spec4 1) (ix2 r k)
    refine congrArg _ (funext fun a => Fin.ext ?_)
    match a with
    | ⟨0, _⟩ => show win4_1.index t (0 : Fin 2) * 10000 + 1 * p.val = r.val; omega
    | ⟨1, _⟩ => show win4_1.index t (1 : Fin 2) * 64 + 1 * k.val = k.val; omega

/-- The running column sums after point `n`: the zero row, then each point's block added in order. -/
def chain1 (c : Dev nD) : (n : ℕ) → n < cfg4.N → S1x64.Idx → EReal
  | 0, h => fun j => zeroRow j + colSum (blk V c ⟨0, h⟩) j
  | n + 1, h => fun j => chain1 c n (Nat.lt_of_succ_lt h) j + colSum (blk V c ⟨n + 1, h⟩) j

/-- The running column sums of squares after point `n`. -/
def chain2 (c : Dev nD) : (n : ℕ) → n < cfg4.N → S1x64.Idx → EReal
  | 0, h => fun j => zeroRow j + colSumSq (blk V c ⟨0, h⟩) j
  | n + 1, h => fun j => chain2 c n (Nat.lt_of_succ_lt h) j + colSumSq (blk V c ⟨n + 1, h⟩) j

/-- What the three staging buffers hold after point `n`, by induction on the point. -/
theorem outsAt_eq (c : Dev nD) : ∀ (n : ℕ) (h : n < cfg4.N),
    outsAt4 V c n h = (blk V c ⟨n, h⟩, chain1 V c n h, chain2 V c n h)
  | 0, h => by
    rw [outsAt4_A V c ⟨0, h⟩ rfl, out_A_5, out_A_6, out_A_7]
    rfl
  | n + 1, h => by
    have hN : cfg4.N = 10 := N_4
    have hB : ¬(⟨n + 1, h⟩ : Fin cfg4.N).val % 10 = 0 := by dsimp only; omega
    rw [outsAt4_B V c ⟨n + 1, h⟩ hB, out_B_5, out_B_6, out_B_7]
    show (blk V c ⟨n + 1, h⟩, (fun j => (outsAt4 V c n _).2.1 j + colSum (blk V c ⟨n + 1, h⟩) j),
      (fun j => (outsAt4 V c n _).2.2 j + colSumSq (blk V c ⟨n + 1, h⟩) j)) = _
    rw [outsAt_eq c n]
    rfl

end Cert.KernelIdeal.Lin4

end
-- ==== Proof.KLinFinal4.lean ====
/-
  Region 4, concluded: the accumulators in closed form and the three arrays after the region.
-/
import proofs.«113720_j13494787244371_1_alg».proof.Proof.KLinSum4

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear
open scoped BigOperators

namespace Cert.KernelIdeal.Lin4

open Cert.KernelIdeal Cert.KernelIdeal.Gen

variable (V : (c : Dev nD) → (b : Ref sig .tc) → Buf (Elt Ideal) ((c : Thread nD τ).loc b))

/-- Row `p` of point `t`'s block, as a row of the whole array. -/
def rowAt (t p : ℕ) : Fin 100000 := ⟨(10000 * t + p) % 100000, Nat.mod_lt _ (by norm_num)⟩

theorem rowAt_val (t p : ℕ) (ht : t < 10) (hp : p < 10000) : (rowAt t p).val = 10000 * t + p :=
  Nat.mod_eq_of_lt (by omega)

/-- The running column sum after point `n`, at a column: the zero plus, over the points 0 … n, the sum down the point's block. -/
theorem chain1_apply (c : Dev nD) (u : Fin 1) (q : Fin 64) : ∀ (n : ℕ) (h : n < cfg4.N),
    chain1 V c n h (ix2 u q) = zeroRow (ix2 u q)
      + ∑ t ∈ Finset.range (n + 1), ∑ p : Fin 10000, whole V c (ix2 (rowAt t p.val) q)
  | 0, h => by
    show zeroRow (ix2 u q) + colSum (blk V c ⟨0, h⟩) (ix2 u q) = _
    rw [Finset.sum_range_one]
    refine congrArg (zeroRow (ix2 u q) + ·) (Finset.sum_congr rfl fun p _ => ?_)
    exact blk_apply V c ⟨0, h⟩ p q (rowAt 0 p.val) (rowAt_val 0 p.val (by omega) p.isLt)
  | n + 1, h => by
    have hN : cfg4.N = 10 := N_4
    show chain1 V c n _ (ix2 u q) + colSum (blk V c ⟨n + 1, h⟩) (ix2 u q) = _
    rw [chain1_apply c u q n, Finset.sum_range_succ _ (n + 1), add_assoc]
    refine congrArg (zeroRow (ix2 u q) + ·) (congrArg (_ + ·) (Finset.sum_congr rfl fun p _ => ?_))
    exact blk_apply V c ⟨n + 1, h⟩ p q (rowAt (n + 1) p.val) (rowAt_val (n + 1) p.val (by omega) p.isLt)

/-- The running column sum of squares after point `n`, at a column: the zero plus, over the points 0 … n, the sum down the point's block. -/
theorem chain2_apply (c : Dev nD) (u : Fin 1) (q : Fin 64) : ∀ (n : ℕ) (h : n < cfg4.N),
    chain2 V c n h (ix2 u q) = zeroRow (ix2 u q)
      + ∑ t ∈ Finset.range (n + 1), ∑ p : Fin 10000, (whole V c (ix2 (rowAt t p.val) q) * whole V c (ix2 (rowAt t p.val) q))
  | 0, h => by
    show zeroRow (ix2 u q) + colSumSq (blk V c ⟨0, h⟩) (ix2 u q) = _
    rw [Finset.sum_range_one]
    refine congrArg (zeroRow (ix2 u q) + ·) (Finset.sum_congr rfl fun p _ => ?_)
    show blk V c ⟨0, h⟩ (ix2 p q) * blk V c ⟨0, h⟩ (ix2 p q) = _
    rw [blk_apply V c ⟨0, h⟩ p q (rowAt 0 p.val) (rowAt_val 0 p.val (by omega) p.isLt)]
  | n + 1, h => by
    have hN : cfg4.N = 10 := N_4
    show chain2 V c n _ (ix2 u q) + colSumSq (blk V c ⟨n + 1, h⟩) (ix2 u q) = _
    rw [chain2_apply c u q n, Finset.sum_range_succ _ (n + 1), add_assoc]
    refine congrArg (zeroRow (ix2 u q) + ·) (congrArg (_ + ·) (Finset.sum_congr rfl fun p _ => ?_))
    show blk V c ⟨n + 1, h⟩ (ix2 p q) * blk V c ⟨n + 1, h⟩ (ix2 p q) = _
    rw [blk_apply V c ⟨n + 1, h⟩ p q (rowAt (n + 1) p.val) (rowAt_val (n + 1) p.val (by omega) p.isLt)]

/-- The sums over the ten blocks, block by block, are the sums over all the rows. -/
theorem sum_points (f : Fin 100000 → EReal) :
    ∑ t ∈ Finset.range 10, ∑ p : Fin 10000, f (rowAt t p.val) = ∑ r : Fin 100000, f r := by
  rw [sum_blocks (T := 10) (R := 10000) (N := 100000) (by norm_num) f, Finset.sum_range]
  refine Finset.sum_congr rfl fun t _ => Finset.sum_congr rfl fun p _ => congrArg f (Fin.ext ?_)
  exact rowAt_val t.val p.val t.isLt p.isLt

/-! ## The first output: the whole linear stage -/

/-- What point `t` writes back to the first output is block `t` of the whole linear stage. -/
theorem flushed5_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5, outsAt_eq]
  obtain ⟨e00, e01, e10, e11, e20, e21, e30, e31, e40, e41, e50, e51, e60, e61, e70, e71⟩ := idx_facts t
  funext j
  obtain ⟨p, q, rfl⟩ : ∃ (p : Fin 10000) (q : Fin 64), j = ix2 p q := ⟨j 0, j 1, eq_ix2 j⟩
  have hN : cfg4.N = 10 := N_4
  have ht : t.val < 10 := hN ▸ t.isLt
  refine (blk_apply V c t p q (rowAt t.val p.val) (rowAt_val t.val p.val ht p.isLt)).trans ?_
  show whole V c (ix2 (rowAt t.val p.val) q) = whole V c (((cfg4.win 5).blk t).view.emb (ix2 p q))
  refine congrArg _ (funext fun a => Fin.ext ?_)
  match a with
  | ⟨0, _⟩ => show (rowAt t.val p.val).val = win4_5.index t (0 : Fin 2) * 10000 + 1 * p.val; rw [rowAt_val t.val p.val ht p.isLt]; omega
  | ⟨1, _⟩ => show q.val = win4_5.index t (1 : Fin 2) * 64 + 1 * q.val; omega

theorem mem_blk5 (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v74_0).slice (win4_5.rect t)).set ↔ _
  rw [View.set_slice_whole, Rect.mem_set_unit]
  exact Iff.rfl

/-- The first output's array after the region: the linear stage of the arrays the region found. -/
theorem arr5 (c : Dev nD) : (dat4 V c).arrAt 5 cfg4.N = whole V c :=
  (dat4 V c).arrAt_eq_of_cover 5 (whole V c) (fun t _ => flushed5_eq V c t) fun i => by
    have hi0 : (i 0).val < 100000 := (i 0).isLt
    have hi1 : (i 1).val < 64 := (i 1).isLt
    have hN : cfg4.N = 10 := N_4
    refine ⟨⟨(i 0).val / 10000, by rw [hN]; omega⟩, flush4_5 _, ?_⟩
    rw [mem_blk5]
    obtain ⟨e00, e01, e10, e11, e20, e21, e30, e31, e40, e41, e50, e51, e60, e61, e70, e71⟩ := idx_facts ⟨(i 0).val / 10000, by rw [hN]; omega⟩
    intro a
    match a with
    | ⟨0, _⟩ =>
      show win4_5.index _ (0 : Fin 2) * 10000 ≤ (i 0).val ∧ (i 0).val < win4_5.index _ (0 : Fin 2) * 10000 + 10000
      rw [e50]; dsimp only; omega
    | ⟨1, _⟩ =>
      show win4_5.index _ (1 : Fin 2) * 64 ≤ (i 1).val ∧ (i 1).val < win4_5.index _ (1 : Fin 2) * 64 + 64
      rw [e51]; omega

/-! ## The two accumulators: the column sums of the whole linear stage -/

/-- What the first accumulator holds after the last point. -/
abbrev last6 (c : Dev nD) : Buf (Elt Ideal) ((c : Thread nD τ).loc main_v74_1) :=
  chain1 V c 9 (by rw [show cfg4.N = 10 from N_4]; decide)

/-- The one write-back of the first accumulator, after the last point, writes that: its one block is the whole 1 × 64 array. -/
theorem flushed6_eq (c : Dev nD) (t : Fin cfg4.N) (hf : (cfg4.win 6).flush t = true) :
    (dat4 V c).flushed 6 t = ((cfg4.win 6).blk t).view.read (Elt Ideal) (last6 V c) := by
  have hN : cfg4.N = 10 := N_4
  have h9 : t.val = 9 := by have := (flush4_6 t).mp hf; have := t.isLt; omega
  obtain rfl : t = t4_9 := Fin.ext h9
  show (cfg4.win 6).cut (grid4.coords t4_9) ((dat4 V c).after 6 t4_9) = _
  rw [after4_6, outsAt_eq]
  have hz' : (fun a => win4_6.index t4_9 a * main_v74_1.ty.shape.size a) = fun _ => 0 := funext fun a => by fin_cases a <;> decide
  exact (Memref.read_access_unit_zero (Elt Ideal) main_v74_1 hz' (fun a => by rw [congrFun hz' a]; simp) (last6 V c)).symm

/-- So the first accumulator's array ends holding it. -/
theorem arr6 (c : Dev nD) : (dat4 V c).arrAt 6 cfg4.N = last6 V c :=
  (dat4 V c).arrAt_eq_of_cover 6 (last6 V c) (flushed6_eq V c) fun i =>
    ⟨t4_9, (flush4_6 t4_9).mpr rfl, by
      show i ∈ ((View.whole main_v74_1).slice (win4_6.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_6.index t4_9 0 * win4_6.size 0 ≤ (i 0 : Nat) ∧ (i 0 : Nat) < win4_6.index t4_9 0 * win4_6.size 0 + win4_6.xsize (grid4.coords t4_9) 0
                  rw [show win4_6.index t4_9 0 * win4_6.size 0 = 0 from by decide +kernel, show win4_6.xsize (grid4.coords t4_9) 0 = 1 from by decide +kernel]; omega
      | ⟨1, _⟩ => show win4_6.index t4_9 1 * win4_6.size 1 ≤ (i 1 : Nat) ∧ (i 1 : Nat) < win4_6.index t4_9 1 * win4_6.size 1 + win4_6.xsize (grid4.coords t4_9) 1
                  rw [show win4_6.index t4_9 1 * win4_6.size 1 = 0 from by decide +kernel, show win4_6.xsize (grid4.coords t4_9) 1 = 64 from by decide +kernel]; omega⟩

/-- What the second accumulator holds after the last point. -/
abbrev last7 (c : Dev nD) : Buf (Elt Ideal) ((c : Thread nD τ).loc main_v74_2) :=
  chain2 V c 9 (by rw [show cfg4.N = 10 from N_4]; decide)

/-- The one write-back of the second accumulator, after the last point, writes that: its one block is the whole 1 × 64 array. -/
theorem flushed7_eq (c : Dev nD) (t : Fin cfg4.N) (hf : (cfg4.win 7).flush t = true) :
    (dat4 V c).flushed 7 t = ((cfg4.win 7).blk t).view.read (Elt Ideal) (last7 V c) := by
  have hN : cfg4.N = 10 := N_4
  have h9 : t.val = 9 := by have := (flush4_7 t).mp hf; have := t.isLt; omega
  obtain rfl : t = t4_9 := Fin.ext h9
  show (cfg4.win 7).cut (grid4.coords t4_9) ((dat4 V c).after 7 t4_9) = _
  rw [after4_7, outsAt_eq]
  have hz' : (fun a => win4_7.index t4_9 a * main_v74_2.ty.shape.size a) = fun _ => 0 := funext fun a => by fin_cases a <;> decide
  exact (Memref.read_access_unit_zero (Elt Ideal) main_v74_2 hz' (fun a => by rw [congrFun hz' a]; simp) (last7 V c)).symm

/-- So the second accumulator's array ends holding it. -/
theorem arr7 (c : Dev nD) : (dat4 V c).arrAt 7 cfg4.N = last7 V c :=
  (dat4 V c).arrAt_eq_of_cover 7 (last7 V c) (flushed7_eq V c) fun i =>
    ⟨t4_9, (flush4_7 t4_9).mpr rfl, by
      show i ∈ ((View.whole main_v74_2).slice (win4_7.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_7.index t4_9 0 * win4_7.size 0 ≤ (i 0 : Nat) ∧ (i 0 : Nat) < win4_7.index t4_9 0 * win4_7.size 0 + win4_7.xsize (grid4.coords t4_9) 0
                  rw [show win4_7.index t4_9 0 * win4_7.size 0 = 0 from by decide +kernel, show win4_7.xsize (grid4.coords t4_9) 0 = 1 from by decide +kernel]; omega
      | ⟨1, _⟩ => show win4_7.index t4_9 1 * win4_7.size 1 ≤ (i 1 : Nat) ∧ (i 1 : Nat) < win4_7.index t4_9 1 * win4_7.size 1 + win4_7.xsize (grid4.coords t4_9) 1
                  rw [show win4_7.index t4_9 1 * win4_7.size 1 = 0 from by decide +kernel, show win4_7.xsize (grid4.coords t4_9) 1 = 64 from by decide +kernel]; omega⟩

/-- The first accumulator ends at the column sums of the whole linear stage. -/
theorem last6_eq (c : Dev nD) : (last6 V c : S1x64.Idx → EReal) = colSum (whole V c) := by
  funext j
  obtain ⟨u, q, rfl⟩ : ∃ (u : Fin 1) (q : Fin 64), j = ix2 u q := ⟨j 0, j 1, eq_ix2 j⟩
  show chain1 V c 9 _ (ix2 u q) = _
  rw [chain1_apply V c u q 9, sum_points (fun r => whole V c (ix2 r q))]
  show Ideal.ofBits .f32 0x00000000#32 + _ = _
  rw [Ideal.ofBits_zero_f32, zero_add]
  rfl

/-- The second accumulator ends at the column sums of squares of the whole linear stage. -/
theorem last7_eq (c : Dev nD) : (last7 V c : S1x64.Idx → EReal) = colSumSq (whole V c) := by
  funext j
  obtain ⟨u, q, rfl⟩ : ∃ (u : Fin 1) (q : Fin 64), j = ix2 u q := ⟨j 0, j 1, eq_ix2 j⟩
  show chain2 V c 9 _ (ix2 u q) = _
  rw [chain2_apply V c u q 9, sum_points (fun r => whole V c (ix2 r q) * whole V c (ix2 r q))]
  show Ideal.ofBits .f32 0x00000000#32 + _ = _
  rw [Ideal.ofBits_zero_f32, zero_add]
  rfl

end Cert.KernelIdeal.Lin4

end
-- ==== Proof.LibNormalizeRows.lean ====
/-
  Batch normalisation followed by the positive part, as one whole-array function over the extended reals.

  For an M × C array L and four 1 × C rows (mean, variance, scale, shift), entry (r, q) of the result is
      max((L(r, q) − mean(q)) · rsqrt(variance(q) + ε) · scale(q) + shift(q), 0),
  with ε and 0 kept as the float words the programs write. Each entry depends on the one entry of L at the same place
  and on column q of the four rows only, so the function can be computed block of rows by block of rows.
-/
import Idealize.ShloMosaic.PureOps.Ideal.Laws
import Idealize.ShloMosaic.Lib.ValueIdx

noncomputable section

open Idealize.ShloMosaic Idealize.ShloMosaic.ValueIdx

namespace Cert.NormalizeRows

/-- Normalise each column by its mean and variance, scale, shift, and take the positive part. -/
def normRelu {M C : ℕ} (L : (⟨2, ![M, C]⟩ : Shape).Idx → EReal) (mean var g b : (⟨2, ![1, C]⟩ : Shape).Idx → EReal) :
    (⟨2, ![M, C]⟩ : Shape).Idx → EReal :=
  fun i => max ((L i - mean (ix2 (0 : Fin 1) (i 1))) * Ideal.rsqrt (var (ix2 (0 : Fin 1) (i 1)) + Ideal.ofBits .f32 0x3727C5AC#32)
      * g (ix2 (0 : Fin 1) (i 1)) + b (ix2 (0 : Fin 1) (i 1))) (Ideal.ofBits .f32 0x00000000#32)

/-- An entry of the function on a block of rows is an entry of the function on the whole arrays, when the block's
    entry is the array's and the four rows agree on that entry's column. -/
theorem normRelu_entry {M R C : ℕ} (L : (⟨2, ![M, C]⟩ : Shape).Idx → EReal) (mean var g b : (⟨2, ![1, C]⟩ : Shape).Idx → EReal)
    (x0 : (⟨2, ![R, C]⟩ : Shape).Idx → EReal) (x1 x2 x3 x4 : (⟨2, ![1, C]⟩ : Shape).Idx → EReal)
    (j : (⟨2, ![R, C]⟩ : Shape).Idx) (i : (⟨2, ![M, C]⟩ : Shape).Idx)
    (h0 : x0 j = L i) (h1 : x1 (ix2 (0 : Fin 1) (j 1)) = mean (ix2 (0 : Fin 1) (i 1)))
    (h2 : x2 (ix2 (0 : Fin 1) (j 1)) = var (ix2 (0 : Fin 1) (i 1)))
    (h3 : x3 (ix2 (0 : Fin 1) (j 1)) = g (ix2 (0 : Fin 1) (i 1)))
    (h4 : x4 (ix2 (0 : Fin 1) (j 1)) = b (ix2 (0 : Fin 1) (i 1))) :
    normRelu x0 x1 x2 x3 x4 j = normRelu L mean var g b i := by
  unfold normRelu
  rw [h0, h1, h2, h3, h4]

end Cert.NormalizeRows

end
-- ==== Proof.KNorm1.lean ====
/-
  What region 1 (normalise, scale, shift, positive part) leaves in its output array.

  The region walks the 100000 rows in ten blocks of 10000 rows. At every point it loads one block of the input
  array and the four 1 × 64 rows whole, and stores, over the whole output block, the normalised block. Each entry
  depends on the entry at the same place and on its own column of the four rows only, and the ten output blocks tile
  the output array, so the array ends holding the whole-array function `normRelu` of the five arrays as the region
  finds them.
-/
import proofs.«113720_j13494787244371_1_alg».proof.Proof.Gen.KernelIdeal.Frame
import proofs.«113720_j13494787244371_1_alg».proof.Proof.LibNormalizeRows
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open Cert.NormalizeRows

namespace Cert.KernelIdeal.Norm1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the whole-array function of its five loaded blocks. -/
theorem pay_eq (x0 : Vec Ideal S10000x64 .f32) (x1 x2 x3 x4 : Vec Ideal S1x64 .f32) :
    k1_pay1 x0 x1 x2 x3 x4 = normRelu (M := 10000) (C := 64) x0 x1 x2 x3 x4 := by
  funext j
  obtain ⟨p, q, rfl⟩ : ∃ (p : Fin 10000) (q : Fin 64), j = ix2 p q := ⟨j 0, j 1, eq_ix2 j⟩
  have hb : ∀ v : FVec Ideal S1x64 .f32,
      broadcastTo S10000x64 v broadcasts_S1x64_S10000x64 (ix2 p q) = v (ix2 (0 : Fin 1) q) :=
    fun v => broadcastTo_1b_ab_apply (a := 10000) (b := 64) v broadcasts_S1x64_S10000x64 p q
  unfold k1_pay1
  simp only [shapeCast_self]
  rw [maximumf_apply, addf_apply, mulf_apply, mulf_apply, subf_apply, hb, hb, hb, hb]
  rfl

/-- The printed index maps over the ten points: the input block moves with the output block, down the rows; the four
    rows stay put. -/
theorem idx_facts : ∀ t : Fin cfg1.N, win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The five arrays the region reads, as it finds them. -/
abbrev result (c : Dev nD) : S100000x64.Idx → EReal :=
  normRelu (M := 100000) (C := 64) (V c (Pipeline.arrRef spec1 0)) (V c (Pipeline.arrRef spec1 1))
    (V c (Pipeline.arrRef spec1 2)) (V c (Pipeline.arrRef spec1 3)) (V c (Pipeline.arrRef spec1 4))

set_option maxHeartbeats 2000000 in
/-- What point `t` writes back is block `t` of the whole-array function. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  refine normRelu_entry (M := 100000) (R := 10000) (C := 64) _ _ _ _ _ _ _ _ _ _ j (((cfg1.win 5).blk t).view.emb j) ?_ ?_ ?_ ?_ ?_
  · show V c (Pipeline.arrRef spec1 0) (((cfg1.win 0).blk t).view.emb j) = V c (Pipeline.arrRef spec1 0) (((cfg1.win 5).blk t).view.emb j)
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * (j 1).val = win1_5.index t (1 : Fin 2) * 64 + 1 * (j 1).val; omega
  · show V c (Pipeline.arrRef spec1 1) (((cfg1.win 1).blk t).view.emb (ix2 (0 : Fin 1) (j 1)))
      = V c (Pipeline.arrRef spec1 1) (ix2 (0 : Fin 1) ((((cfg1.win 5).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_5.index t (1 : Fin 2) * 64 + 1 * (j 1).val; omega
  · show V c (Pipeline.arrRef spec1 2) (((cfg1.win 2).blk t).view.emb (ix2 (0 : Fin 1) (j 1)))
      = V c (Pipeline.arrRef spec1 2) (ix2 (0 : Fin 1) ((((cfg1.win 5).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_5.index t (1 : Fin 2) * 64 + 1 * (j 1).val; omega
  · show V c (Pipeline.arrRef spec1 3) (((cfg1.win 3).blk t).view.emb (ix2 (0 : Fin 1) (j 1)))
      = V c (Pipeline.arrRef spec1 3) (ix2 (0 : Fin 1) ((((cfg1.win 5).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega
  · show V c (Pipeline.arrRef spec1 4) (((cfg1.win 4).blk t).view.emb (ix2 (0 : Fin 1) (j 1)))
      = V c (Pipeline.arrRef spec1 4) (ix2 (0 : Fin 1) ((((cfg1.win 5).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array lies in point `t`'s block iff each coordinate lies in the block's range. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v35).slice (win1_5.rect t)).set ↔ _
  rw [View.set_slice_whole, Rect.mem_set_unit]
  exact Iff.rfl

/-- The output array after the region: the whole-array function of the arrays the region found. -/
theorem final (c : Dev nD) : (dat1 V c).arrAt 5 cfg1.N = result V c :=
  (dat1 V c).arrAt_eq_of_cover 5 (result V c) (fun t _ => flushed_eq V c t) fun i => by
    have hi0 : (i 0).val < 100000 := (i 0).isLt
    have hi1 : (i 1).val < 64 := (i 1).isLt
    have hN : cfg1.N = 10 := N_1
    refine ⟨⟨(i 0).val / 10000, by rw [hN]; omega⟩, flush1_5 _, ?_⟩
    rw [mem_blk]
    obtain ⟨e0, e1, e2, e3, e4, e5, e6, e7, e8, e9, e10, e11⟩ := idx_facts ⟨(i 0).val / 10000, by rw [hN]; omega⟩
    intro a
    match a with
    | ⟨0, _⟩ =>
      show win1_5.index _ (0 : Fin 2) * 10000 ≤ (i 0).val ∧ (i 0).val < win1_5.index _ (0 : Fin 2) * 10000 + 10000
      rw [e10]; dsimp only; omega
    | ⟨1, _⟩ =>
      show win1_5.index _ (1 : Fin 2) * 64 ≤ (i 1).val ∧ (i 1).val < win1_5.index _ (1 : Fin 2) * 64 + 64
      rw [e11]; omega

end Cert.KernelIdeal.Norm1

end
-- ==== Proof.KNorm3.lean ====
/-
  What region 3 (normalise, scale, shift, positive part) leaves in its output array.

  The region walks the 100000 rows in ten blocks of 10000 rows. At every point it loads one block of the input
  array and the four 1 × 64 rows whole, and stores, over the whole output block, the normalised block. Each entry
  depends on the entry at the same place and on its own column of the four rows only, and the ten output blocks tile
  the output array, so the array ends holding the whole-array function `normRelu` of the five arrays as the region
  finds them.
-/
import proofs.«113720_j13494787244371_1_alg».proof.Proof.Gen.KernelIdeal.Frame
import proofs.«113720_j13494787244371_1_alg».proof.Proof.LibNormalizeRows
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open Cert.NormalizeRows

namespace Cert.KernelIdeal.Norm3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the whole-array function of its five loaded blocks. -/
theorem pay_eq (x0 : Vec Ideal S10000x64 .f32) (x1 x2 x3 x4 : Vec Ideal S1x64 .f32) :
    k3_pay1 x0 x1 x2 x3 x4 = normRelu (M := 10000) (C := 64) x0 x1 x2 x3 x4 := by
  funext j
  obtain ⟨p, q, rfl⟩ : ∃ (p : Fin 10000) (q : Fin 64), j = ix2 p q := ⟨j 0, j 1, eq_ix2 j⟩
  have hb : ∀ v : FVec Ideal S1x64 .f32,
      broadcastTo S10000x64 v broadcasts_S1x64_S10000x64 (ix2 p q) = v (ix2 (0 : Fin 1) q) :=
    fun v => broadcastTo_1b_ab_apply (a := 10000) (b := 64) v broadcasts_S1x64_S10000x64 p q
  unfold k3_pay1
  simp only [shapeCast_self]
  rw [maximumf_apply, addf_apply, mulf_apply, mulf_apply, subf_apply, hb, hb, hb, hb]
  rfl

/-- The printed index maps over the ten points: the input block moves with the output block, down the rows; the four
    rows stay put. -/
theorem idx_facts : ∀ t : Fin cfg3.N, win3_0.index t (0 : Fin 2) = win3_5.index t (0 : Fin 2)
    ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The five arrays the region reads, as it finds them. -/
abbrev result (c : Dev nD) : S100000x64.Idx → EReal :=
  normRelu (M := 100000) (C := 64) (V c (Pipeline.arrRef spec3 0)) (V c (Pipeline.arrRef spec3 1))
    (V c (Pipeline.arrRef spec3 2)) (V c (Pipeline.arrRef spec3 3)) (V c (Pipeline.arrRef spec3 4))

set_option maxHeartbeats 2000000 in
/-- What point `t` writes back is block `t` of the whole-array function. -/
theorem flushed_eq (c : Dev nD) (t : Fin cfg3.N) :
    (dat3 V c).flushed 5 t = ((cfg3.win 5).blk t).view.read (Elt Ideal) (result V c) := by
  show (cfg3.win 5).cut (grid3.coords t) ((dat3 V c).after 5 t) = _
  rw [after3_5]
  unfold out3_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  refine normRelu_entry (M := 100000) (R := 10000) (C := 64) _ _ _ _ _ _ _ _ _ _ j (((cfg3.win 5).blk t).view.emb j) ?_ ?_ ?_ ?_ ?_
  · show V c (Pipeline.arrRef spec3 0) (((cfg3.win 0).blk t).view.emb j) = V c (Pipeline.arrRef spec3 0) (((cfg3.win 5).blk t).view.emb j)
    refine congrArg _ (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * (j 1).val = win3_5.index t (1 : Fin 2) * 64 + 1 * (j 1).val; omega
  · show V c (Pipeline.arrRef spec3 1) (((cfg3.win 1).blk t).view.emb (ix2 (0 : Fin 1) (j 1)))
      = V c (Pipeline.arrRef spec3 1) (ix2 (0 : Fin 1) ((((cfg3.win 5).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_5.index t (1 : Fin 2) * 64 + 1 * (j 1).val; omega
  · show V c (Pipeline.arrRef spec3 2) (((cfg3.win 2).blk t).view.emb (ix2 (0 : Fin 1) (j 1)))
      = V c (Pipeline.arrRef spec3 2) (ix2 (0 : Fin 1) ((((cfg3.win 5).blk t).view.emb j) 1))
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_5.index t (1 : Fin 2) * 64 + 1 * (j 1).val; omega
  · show V c (Pipeline.arrRef spec3 3) (((cfg3.win 3).blk t).view.emb (ix2 (0 : Fin 1) (j 1)))
      = V c (Pipeline.arrRef spec3 3) (ix2 (0 : Fin 1) ((((cfg3.win 5).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega
  · show V c (Pipeline.arrRef spec3 4) (((cfg3.win 4).blk t).view.emb (ix2 (0 : Fin 1) (j 1)))
      = V c (Pipeline.arrRef spec3 4) (ix2 (0 : Fin 1) ((((cfg3.win 5).blk t).view.emb j) 1))
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

/-- An index of the output array lies in point `t`'s block iff each coordinate lies in the block's range. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v59).slice (win3_5.rect t)).set ↔ _
  rw [View.set_slice_whole, Rect.mem_set_unit]
  exact Iff.rfl

/-- The output array after the region: the whole-array function of the arrays the region found. -/
theorem final (c : Dev nD) : (dat3 V c).arrAt 5 cfg3.N = result V c :=
  (dat3 V c).arrAt_eq_of_cover 5 (result V c) (fun t _ => flushed_eq V c t) fun i => by
    have hi0 : (i 0).val < 100000 := (i 0).isLt
    have hi1 : (i 1).val < 64 := (i 1).isLt
    have hN : cfg3.N = 10 := N_3
    refine ⟨⟨(i 0).val / 10000, by rw [hN]; omega⟩, flush3_5 _, ?_⟩
    rw [mem_blk]
    obtain ⟨e0, e1, e2, e3, e4, e5, e6, e7, e8, e9, e10, e11⟩ := idx_facts ⟨(i 0).val / 10000, by rw [hN]; omega⟩
    intro a
    match a with
    | ⟨0, _⟩ =>
      show win3_5.index _ (0 : Fin 2) * 10000 ≤ (i 0).val ∧ (i 0).val < win3_5.index _ (0 : Fin 2) * 10000 + 10000
      rw [e10]; dsimp only; omega
    | ⟨1, _⟩ =>
      show win3_5.index _ (1 : Fin 2) * 64 ≤ (i 1).val ∧ (i 1).val < win3_5.index _ (1 : Fin 2) * 64 + 64
      rw [e11]; omega

end Cert.KernelIdeal.Norm3

end
-- ==== Proof.KNorm5.lean ====
/-
  What region 5 (normalise, scale, shift, positive part) leaves in its output array.

  The region walks the 100000 rows in ten blocks of 10000 rows. At every point it loads one block of the input
  array and the four 1 × 64 rows whole, and stores, over the whole output block, the normalised block. Each entry
  depends on the entry at the same place and on its own column of the four rows only, and the ten output blocks tile
  the output array, so the array ends holding the whole-array function `normRelu` of the five arrays as the region
  finds them.
-/
import proofs.«113720_j13494787244371_1_alg».proof.Proof.Gen.KernelIdeal.Frame
import proofs.«113720_j13494787244371_1_alg».proof.Proof.LibNormalizeRows
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open Cert.NormalizeRows

namespace Cert.KernelIdeal.Norm5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the whole-array function of its five loaded blocks. -/
theorem pay_eq (x0 : Vec Ideal S10000x64 .f32) (x1 x2 x3 x4 : Vec Ideal S1x64 .f32) :
    k5_pay1 x0 x1 x2 x3 x4 = normRelu (M := 10000) (C := 64) x0 x1 x2 x3 x4 := by
  funext j
  obtain ⟨p, q, rfl⟩ : ∃ (p : Fin 10000) (q : Fin 64), j = ix2 p q := ⟨j 0, j 1, eq_ix2 j⟩
  have hb : ∀ v : FVec Ideal S1x64 .f32,
      broadcastTo S10000x64 v broadcasts_S1x64_S10000x64 (ix2 p q) = v (ix2 (0 : Fin 1) q) :=
    fun v => broadcastTo_1b_ab_apply (a := 10000) (b := 64) v broadcasts_S1x64_S10000x64 p q
  unfold k5_pay1
  simp only [shapeCast_self]
  rw [maximumf_apply, addf_apply, mulf_apply, mulf_apply, subf_apply, hb, hb, hb, hb]
  rfl

/-- The printed index maps over the ten points: the input block moves with the output block, down the rows; the four
    rows stay put. -/
theorem idx_facts : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The five arrays the region reads, as it finds them. -/
abbrev result (c : Dev nD) : S100000x64.Idx → EReal :=
  normRelu (M := 100000) (C := 64) (V c (Pipeline.arrRef spec5 0)) (V c (Pipeline.arrRef spec5 1))
    (V c (Pipeline.arrRef spec5 2)) (V c (Pipeline.arrRef spec5 3)) (V c (Pipeline.arrRef spec5 4))

set_option maxHeartbeats 2000000 in
/-- What point `t` writes back is block `t` of the whole-array function. -/
theorem flushed_eq (c : Dev nD) (t : Fin cfg5.N) :
    (dat5 V c).flushed 5 t = ((cfg5.win 5).blk t).view.read (Elt Ideal) (result V c) := by
  show (cfg5.win 5).cut (grid5.coords t) ((dat5 V c).after 5 t) = _
  rw [after5_5]
  unfold out5_5
  rw [View.canon_unit_zero hz]
  simp only [View.ld_unit_zero (S := S10000x64) hz, View.ld_unit_zero (S := S1x64) hz]
  rw [pay_eq]
  obtain ⟨e0, e1, e2, e3, e4, e5, e6, e7, e8, e9, e10, e11⟩ := idx_facts t
  funext j
  refine normRelu_entry (M := 100000) (R := 10000) (C := 64) _ _ _ _ _ _ _ _ _ _ j (((cfg5.win 5).blk t).view.emb j) ?_ ?_ ?_ ?_ ?_
  · show V c (Pipeline.arrRef spec5 0) (((cfg5.win 0).blk t).view.emb j) = V c (Pipeline.arrRef spec5 0) (((cfg5.win 5).blk t).view.emb j)
    refine congrArg _ (funext fun a => Fin.ext ?_)
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 64 + 1 * (j 1).val = win5_5.index t (1 : Fin 2) * 64 + 1 * (j 1).val; omega
  · show V c (Pipeline.arrRef spec5 1) (((cfg5.win 1).blk t).view.emb (ix2 (0 : Fin 1) (j 1)))
      = V c (Pipeline.arrRef spec5 1) (ix2 (0 : Fin 1) ((((cfg5.win 5).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_5.index t (1 : Fin 2) * 64 + 1 * (j 1).val; omega
  · show V c (Pipeline.arrRef spec5 2) (((cfg5.win 2).blk t).view.emb (ix2 (0 : Fin 1) (j 1)))
      = V c (Pipeline.arrRef spec5 2) (ix2 (0 : Fin 1) ((((cfg5.win 5).blk t).view.emb j) 1))
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_5.index t (1 : Fin 2) * 64 + 1 * (j 1).val; omega
  · show V c (Pipeline.arrRef spec5 3) (((cfg5.win 3).blk t).view.emb (ix2 (0 : Fin 1) (j 1)))
      = V c (Pipeline.arrRef spec5 3) (ix2 (0 : Fin 1) ((((cfg5.win 5).blk t).view.emb j) 1))
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * (j 1).val = win5_5.index t (1 : Fin 2) * 64 + 1 * (j 1).val; omega
  · show V c (Pipeline.arrRef spec5 4) (((cfg5.win 4).blk t).view.emb (ix2 (0 : Fin 1) (j 1)))
      = V c (Pipeline.arrRef spec5 4) (ix2 (0 : Fin 1) ((((cfg5.win 5).blk t).view.emb j) 1))
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * (j 1).val = win5_5.index t (1 : Fin 2) * 64 + 1 * (j 1).val; omega

/-- An index of the output array lies in point `t`'s block iff each coordinate lies in the block's range. -/
theorem mem_blk (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v83).slice (win5_5.rect t)).set ↔ _
  rw [View.set_slice_whole, Rect.mem_set_unit]
  exact Iff.rfl

/-- The output array after the region: the whole-array function of the arrays the region found. -/
theorem final (c : Dev nD) : (dat5 V c).arrAt 5 cfg5.N = result V c :=
  (dat5 V c).arrAt_eq_of_cover 5 (result V c) (fun t _ => flushed_eq V c t) fun i => by
    have hi0 : (i 0).val < 100000 := (i 0).isLt
    have hi1 : (i 1).val < 64 := (i 1).isLt
    have hN : cfg5.N = 10 := N_5
    refine ⟨⟨(i 0).val / 10000, by rw [hN]; omega⟩, flush5_5 _, ?_⟩
    rw [mem_blk]
    obtain ⟨e0, e1, e2, e3, e4, e5, e6, e7, e8, e9, e10, e11⟩ := idx_facts ⟨(i 0).val / 10000, by rw [hN]; omega⟩
    intro a
    match a with
    | ⟨0, _⟩ =>
      show win5_5.index _ (0 : Fin 2) * 10000 ≤ (i 0).val ∧ (i 0).val < win5_5.index _ (0 : Fin 2) * 10000 + 10000
      rw [e10]; dsimp only; omega
    | ⟨1, _⟩ =>
      show win5_5.index _ (1 : Fin 2) * 64 ≤ (i 1).val ∧ (i 1).val < win5_5.index _ (1 : Fin 2) * 64 + 64
      rw [e11]; omega

end Cert.KernelIdeal.Norm5

end
-- ==== Proof.LibDenseHead.lean ====
/-
  A two-layer dense head over the extended reals: Y = max(P · W1ᵀ + b1, 0) · W2ᵀ + b2, with P a G × H array of pooled
  features, W1 (H1 × H) and W2 (O × H1) weight matrices applied transposed, and b1, b2 bias rows. The zero of the positive
  part is kept as the float word the programs write.
-/
import proofs.«113720_j13494787244371_1_alg».proof.Proof.LibSageLinear

noncomputable section

open Idealize.ShloMosaic Idealize.ShloMosaic.ValueIdx Cert.MatrixProduct Cert.Gcn Cert.SageLinear

namespace Cert.DenseHead

/-- The positive part of every entry. -/
def relu {a b : ℕ} (X : (⟨2, ![a, b]⟩ : Shape).Idx → EReal) : (⟨2, ![a, b]⟩ : Shape).Idx → EReal :=
  fun i => max (X i) (Ideal.ofBits .f32 0x00000000#32)

/-- The head: a dense layer, the positive part, a second dense layer. -/
def head {G H H1 O : ℕ} (Pl : (⟨2, ![G, H]⟩ : Shape).Idx → EReal) (W1 : (⟨2, ![H1, H]⟩ : Shape).Idx → EReal)
    (b1 : (⟨2, ![1, H1]⟩ : Shape).Idx → EReal) (W2 : (⟨2, ![O, H1]⟩ : Shape).Idx → EReal)
    (b2 : (⟨2, ![1, O]⟩ : Shape).Idx → EReal) : (⟨2, ![G, O]⟩ : Shape).Idx → EReal :=
  biasedProduct (relu (biasedProduct Pl (tr W1) b1)) (tr W2) b2

end Cert.DenseHead

end
-- ==== Proof.KHead.lean ====
/-
  What region 6 (the pooled two-layer head) leaves in its output array.

  The region has one grid point; every window's block is its whole array. The body multiplies the pooled features by
  the first weight matrix transposed, adds the first bias row, takes the positive part, multiplies by the second
  weight matrix transposed and adds the second bias row: the whole-array function `head` of the five arrays the region
  finds.
-/
import proofs.«113720_j13494787244371_1_alg».proof.Proof.Gen.KernelIdeal.Frame
import proofs.«113720_j13494787244371_1_alg».proof.Proof.LibDenseHead
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open Cert.MatrixProduct Cert.Gcn Cert.SageLinear Cert.DenseHead

namespace Cert.KernelIdeal.Head

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem tr1_eq (x : Vec Ideal S64x64 .f32) :
    (transpose S64x64 [1, 0] (truncf .bf16 x bitsLt_bf16_f32) transposes_S64x64_p1_0_S64x64 : FVec Ideal S64x64 .bf16)
      = tr (a := 64) (b := 64) x := by
  funext i
  obtain ⟨a, b, rfl⟩ : ∃ (a : Fin 64) (b : Fin 64), i = ix2 a b := ⟨i 0, i 1, eq_ix2 i⟩
  exact transpose_ix2_apply (a := 64) (b := 64) _ transposes_S64x64_p1_0_S64x64 a b

theorem tr2_eq (x : Vec Ideal S2x64 .f32) :
    (transpose S64x2 [1, 0] (truncf .bf16 x bitsLt_bf16_f32) transposes_S2x64_p1_0_S64x2 : FVec Ideal S64x2 .bf16)
      = tr (a := 2) (b := 64) x := by
  funext i
  obtain ⟨a, b, rfl⟩ : ∃ (a : Fin 64) (b : Fin 2), i = ix2 a b := ⟨i 0, i 1, eq_ix2 i⟩
  exact transpose_ix2_apply (a := 2) (b := 64) _ transposes_S2x64_p1_0_S64x2 a b

/-- The body's stored value is the head of its five loaded arrays. -/
theorem pay_eq (x0 : Vec Ideal S128x64 .f32) (x1 : Vec Ideal S64x64 .f32) (x2 : Vec Ideal S1x64 .f32)
    (x3 : Vec Ideal S2x64 .f32) (x4 : Vec Ideal S1x2 .f32) :
    k6_pay1 x0 x1 x2 x3 x4 = head (G := 128) (H := 64) (H1 := 64) (O := 2) x0 x1 x2 x3 x4 := by
  have e1 : ∀ (A : FVec Ideal S128x64 .bf16) (B : FVec Ideal S64x64 .bf16),
      matmul dot_S128x64_S64x64_S128x64_1_0_0_1_n_n none A B (constant (F := Ideal) S128x64 .f32 0x00000000#32)
        = mm (m := 128) (k := 64) (n := 64) A B :=
    fun A B => matmul_zero_eq_mm dot_S128x64_S64x64_S128x64_1_0_0_1_n_n_wf none A B
  have e2 : ∀ (A : FVec Ideal S128x64 .bf16) (B : FVec Ideal S64x2 .bf16),
      matmul dot_S128x64_S64x2_S128x2_1_0_0_1_n_n none A B (constant (F := Ideal) S128x2 .f32 0x00000000#32)
        = mm (m := 128) (k := 64) (n := 2) A B :=
    fun A B => matmul_zero_eq_mm dot_S128x64_S64x2_S128x2_1_0_0_1_n_n_wf none A B
  funext j
  obtain ⟨p, q, rfl⟩ : ∃ (p : Fin 128) (q : Fin 2), j = ix2 p q := ⟨j 0, j 1, eq_ix2 j⟩
  unfold k6_pay1
  simp only [shapeCast_self]
  rw [addf_apply, e2, e1, tr1_eq, tr2_eq, broadcastTo_1b_ab_apply (a := 128) (b := 2)]
  refine congrArg (· + x4 (ix2 (0 : Fin 1) q)) ?_
  refine mm_of_row_col (M := 128) (K := 64) (N := 2) (R := 128) (Q := 2) _ _ _ _ (ix2 p q) (ix2 p q) (fun k => ?_) (fun _ => rfl)
  rw [truncf_apply, maximumf_apply, addf_apply, broadcastTo_1b_ab_apply (a := 128) (b := 64)]
  rfl

/-- Every window's one block is its whole array: the printed index maps at the one point. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The head of the five arrays the region finds. -/
abbrev result (c : Dev nD) : S128x2.Idx → EReal :=
  head (G := 128) (H := 64) (H1 := 64) (O := 2) (V c (Pipeline.arrRef spec6 0)) (V c (Pipeline.arrRef spec6 1))
    (V c (Pipeline.arrRef spec6 2)) (V c (Pipeline.arrRef spec6 3)) (V c (Pipeline.arrRef spec6 4))

set_option maxHeartbeats 2000000 in
/-- What the one point writes back is the head of the whole arrays. -/
theorem flushed_eq (c : Dev nD) (t : Fin cfg6.N) :
    (dat6 V c).flushed 5 t = ((cfg6.win 5).blk t).view.read (Elt Ideal) (result V c) := by
  obtain ⟨e00, e01, e10, e11, e20, e21, e30, e31, e40, e41, e50, e51⟩ := idx_facts t
  have w0 : (iblk6 V c 0 t : S128x64.Idx → EReal) = V c (Pipeline.arrRef spec6 0) := by
    funext y
    show V c (Pipeline.arrRef spec6 0) (((cfg6.win 0).blk t).view.emb y) = V c (Pipeline.arrRef spec6 0) y
    refine congrArg _ (funext fun a => Fin.ext ?_)
    match a with
    | ⟨0, _⟩ => show win6_0.index t (0 : Fin 2) * 128 + 1 * (y 0).val = (y 0).val; omega
    | ⟨1, _⟩ => show win6_0.index t (1 : Fin 2) * 64 + 1 * (y 1).val = (y 1).val; omega
  have w1 : (iblk6 V c 1 t : S64x64.Idx → EReal) = V c (Pipeline.arrRef spec6 1) := by
    funext y
    show V c (Pipeline.arrRef spec6 1) (((cfg6.win 1).blk t).view.emb y) = V c (Pipeline.arrRef spec6 1) y
    refine congrArg _ (funext fun a => Fin.ext ?_)
    match a with
    | ⟨0, _⟩ => show win6_1.index t (0 : Fin 2) * 64 + 1 * (y 0).val = (y 0).val; omega
    | ⟨1, _⟩ => show win6_1.index t (1 : Fin 2) * 64 + 1 * (y 1).val = (y 1).val; omega
  have w2 : (iblk6 V c 2 t : S1x64.Idx → EReal) = V c (Pipeline.arrRef spec6 2) := by
    funext y
    show V c (Pipeline.arrRef spec6 2) (((cfg6.win 2).blk t).view.emb y) = V c (Pipeline.arrRef spec6 2) y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 64 + 1 * (y 1).val = (y 1).val; omega
  have w3 : (iblk6 V c 3 t : S2x64.Idx → EReal) = V c (Pipeline.arrRef spec6 3) := by
    funext y
    show V c (Pipeline.arrRef spec6 3) (((cfg6.win 3).blk t).view.emb y) = V c (Pipeline.arrRef spec6 3) y
    refine congrArg _ (funext fun a => Fin.ext ?_)
    match a with
    | ⟨0, _⟩ => show win6_3.index t (0 : Fin 2) * 2 + 1 * (y 0).val = (y 0).val; omega
    | ⟨1, _⟩ => show win6_3.index t (1 : Fin 2) * 64 + 1 * (y 1).val = (y 1).val; omega
  have w4 : (iblk6 V c 4 t : S1x2.Idx → EReal) = V c (Pipeline.arrRef spec6 4) := by
    funext y
    show V c (Pipeline.arrRef spec6 4) (((cfg6.win 4).blk t).view.emb y) = V c (Pipeline.arrRef spec6 4) y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 2 + 1 * (y 1).val = (y 1).val; omega
  show (cfg6.win 5).cut (grid6.coords t) ((dat6 V c).after 5 t) = _
  rw [after6_5]
  unfold out6_5
  rw [View.canon_unit_zero hz]
  simp only [View.ld_unit_zero (S := S128x64) hz, View.ld_unit_zero (S := S64x64) hz, View.ld_unit_zero (S := S1x64) hz,
    View.ld_unit_zero (S := S2x64) hz, View.ld_unit_zero (S := S1x2) hz]
  rw [pay_eq, w0, w1, w2, w3, w4]
  funext j
  show result V c j = result V c (((cfg6.win 5).blk t).view.emb j)
  refine congrArg _ (funext fun a => Fin.ext ?_)
  match a with
  | ⟨0, _⟩ => show (j 0).val = win6_5.index t (0 : Fin 2) * 128 + 1 * (j 0).val; omega
  | ⟨1, _⟩ => show (j 1).val = win6_5.index t (1 : Fin 2) * 2 + 1 * (j 1).val; omega

theorem mem_blk (t : Fin cfg6.N) (i : S128x2.Idx) :
    i ∈ ((cfg6.win 5).blk t).view.set ↔ ∀ a : Fin 2, win6_5.index t a * S128x2.size a ≤ (i a).val
      ∧ (i a).val < win6_5.index t a * S128x2.size a + S128x2.size a := by
  show i ∈ ((View.whole main_v98).slice (win6_5.rect t)).set ↔ _
  rw [View.set_slice_whole, Rect.mem_set_unit]
  exact Iff.rfl

/-- The output array after the region: the head of the arrays the region found. -/
theorem final (c : Dev nD) : (dat6 V c).arrAt 5 cfg6.N = result V c :=
  (dat6 V c).arrAt_eq_of_cover 5 (result V c) (fun t _ => flushed_eq V c t) fun i => by
    have hi0 : (i 0).val < 128 := (i 0).isLt
    have hi1 : (i 1).val < 2 := (i 1).isLt
    refine ⟨t6_0, (by decide +kernel : (cfg6.win 5).flush t6_0 = true), ?_⟩
    rw [mem_blk]
    obtain ⟨e00, e01, e10, e11, e20, e21, e30, e31, e40, e41, e50, e51⟩ := idx_facts t6_0
    intro a
    match a with
    | ⟨0, _⟩ =>
      show win6_5.index t6_0 (0 : Fin 2) * 128 ≤ (i 0).val ∧ (i 0).val < win6_5.index t6_0 (0 : Fin 2) * 128 + 128
      rw [e50]; omega
    | ⟨1, _⟩ =>
      show win6_5.index t6_0 (1 : Fin 2) * 2 ≤ (i 1).val ∧ (i 1).val < win6_5.index t6_0 (1 : Fin 2) * 2 + 2
      rw [e51]; omega

end Cert.KernelIdeal.Head

end
-- ==== Proof.KExit.lean ====
/-
  Each kernel region's output arrays at the boundary after it, as the region's whole-array function of the contents
  at the boundary before it: the linear stage with its two column-sum rows (regions 0, 2, 4), the normalised features
  (regions 1, 3, 5), the head (region 6).
-/
import proofs.«113720_j13494787244371_1_alg».proof.Proof.KLinFinal0
import proofs.«113720_j13494787244371_1_alg».proof.Proof.KLinFinal2
import proofs.«113720_j13494787244371_1_alg».proof.Proof.KLinFinal4
import proofs.«113720_j13494787244371_1_alg».proof.Proof.KNorm1
import proofs.«113720_j13494787244371_1_alg».proof.Proof.KNorm3
import proofs.«113720_j13494787244371_1_alg».proof.Proof.KNorm5
import proofs.«113720_j13494787244371_1_alg».proof.Proof.KHead

set_option maxRecDepth 16384

noncomputable section

open Idealize.ShloMosaic Idealize.ShloMosaic.TcCoe Idealize.SL.Sem Idealize.ShloMosaic.ValueIdx
open Cert.Gcn Cert.SageLinear Cert.NormalizeRows Cert.DenseHead

namespace Cert.KernelIdeal.Exit

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem exit0_lin : Cert.KernelIdeal.Gen.W2 (F := Ideal) m ρ c (Proc.devRef .tc Cert.KernelIdeal.main_v26_0) = lin (M := 100000) (K := 4) (N := 64) (Cert.KernelIdeal.Gen.W1 (F := Ideal) m ρ c (Proc.devRef .tc Cert.KernelIdeal.main_arg0)) (Cert.KernelIdeal.Gen.W1 (F := Ideal) m ρ c (Proc.devRef .tc Cert.KernelIdeal.main_v24)) (Cert.KernelIdeal.Gen.W1 (F := Ideal) m ρ c (Proc.devRef .tc Cert.KernelIdeal.main_arg3)) (Cert.KernelIdeal.Gen.W1 (F := Ideal) m ρ c (Proc.devRef .tc Cert.KernelIdeal.main_arg5)) (Cert.KernelIdeal.Gen.W1 (F := Ideal) m ρ c (Proc.devRef .tc Cert.KernelIdeal.main_v25)) :=
  (Cert.KernelIdeal.Gen.W2_arr m ρ c 5).trans (Cert.KernelIdeal.Lin0.arr5 (Cert.KernelIdeal.Gen.V1 m ρ) c)

theorem exit0_sum : Cert.KernelIdeal.Gen.W2 (F := Ideal) m ρ c (Proc.devRef .tc Cert.KernelIdeal.main_v26_1) = colSum (lin (M := 100000) (K := 4) (N := 64) (Cert.KernelIdeal.Gen.W1 (F := Ideal) m ρ c (Proc.devRef .tc Cert.KernelIdeal.main_arg0)) (Cert.KernelIdeal.Gen.W1 (F := Ideal) m ρ c (Proc.devRef .tc Cert.KernelIdeal.main_v24)) (Cert.KernelIdeal.Gen.W1 (F := Ideal) m ρ c (Proc.devRef .tc Cert.KernelIdeal.main_arg3)) (Cert.KernelIdeal.Gen.W1 (F := Ideal) m ρ c (Proc.devRef .tc Cert.KernelIdeal.main_arg5)) (Cert.KernelIdeal.Gen.W1 (F := Ideal) m ρ c (Proc.devRef .tc Cert.KernelIdeal.main_v25))) :=
  (Cert.KernelIdeal.Gen.W2_arr m ρ c 6).trans ((Cert.KernelIdeal.Lin0.arr6 (Cert.KernelIdeal.Gen.V1 m ρ) c).trans (Cert.KernelIdeal.Lin0.last6_eq (Cert.KernelIdeal.Gen.V1 m ρ) c))

theorem exit0_sumsq : Cert.KernelIdeal.Gen.W2 (F := Ideal) m ρ c (Proc.devRef .tc Cert.KernelIdeal.main_v26_2) = colSumSq (lin (M := 100000) (K := 4) (N := 64) (Cert.KernelIdeal.Gen.W1 (F := Ideal) m ρ c (Proc.devRef .tc Cert.KernelIdeal.main_arg0)) (Cert.KernelIdeal.Gen.W1 (F := Ideal) m ρ c (Proc.devRef .tc Cert.KernelIdeal.main_v24)) (Cert.KernelIdeal.Gen.W1 (F := Ideal) m ρ c (Proc.devRef .tc Cert.KernelIdeal.main_arg3)) (Cert.KernelIdeal.Gen.W1 (F := Ideal) m ρ c (Proc.devRef .tc Cert.KernelIdeal.main_arg5)) (Cert.KernelIdeal.Gen.W1 (F := Ideal) m ρ c (Proc.devRef .tc Cert.KernelIdeal.main_v25))) :=
  (Cert.KernelIdeal.Gen.W2_arr m ρ c 7).trans ((Cert.KernelIdeal.Lin0.arr7 (Cert.KernelIdeal.Gen.V1 m ρ) c).trans (Cert.KernelIdeal.Lin0.last7_eq (Cert.KernelIdeal.Gen.V1 m ρ) c))

theorem exit1 : Cert.KernelIdeal.Gen.W4 (F := Ideal) m ρ c (Proc.devRef .tc Cert.KernelIdeal.main_v35) = normRelu (M := 100000) (C := 64) (Cert.KernelIdeal.Gen.W3 (F := Ideal) m ρ c (Proc.devRef .tc Cert.KernelIdeal.main_v26_0)) (Cert.KernelIdeal.Gen.W3 (F := Ideal) m ρ c (Proc.devRef .tc Cert.KernelIdeal.main_v28)) (Cert.KernelIdeal.Gen.W3 (F := Ideal) m ρ c (Proc.devRef .tc Cert.KernelIdeal.main_v32)) (Cert.KernelIdeal.Gen.W3 (F := Ideal) m ρ c (Proc.devRef .tc Cert.KernelIdeal.main_v33)) (Cert.KernelIdeal.Gen.W3 (F := Ideal) m ρ c (Proc.devRef .tc Cert.KernelIdeal.main_v34)) :=
  (Cert.KernelIdeal.Gen.W4_arr m ρ c 5).trans (Cert.KernelIdeal.Norm1.final (Cert.KernelIdeal.Gen.V3 m ρ) c)

theorem exit2_lin : Cert.KernelIdeal.Gen.W6 (F := Ideal) m ρ c (Proc.devRef .tc Cert.KernelIdeal.main_v50_0) = lin (M := 100000) (K := 64) (N := 64) (Cert.KernelIdeal.Gen.W5 (F := Ideal) m ρ c (Proc.devRef .tc Cert.KernelIdeal.main_v35)) (Cert.KernelIdeal.Gen.W5 (F := Ideal) m ρ c (Proc.devRef .tc Cert.KernelIdeal.main_v48)) (Cert.KernelIdeal.Gen.W5 (F := Ideal) m ρ c (Proc.devRef .tc Cert.KernelIdeal.main_arg8)) (Cert.KernelIdeal.Gen.W5 (F := Ideal) m ρ c (Proc.devRef .tc Cert.KernelIdeal.main_arg10)) (Cert.KernelIdeal.Gen.W5 (F := Ideal) m ρ c (Proc.devRef .tc Cert.KernelIdeal.main_v49)) :=
  (Cert.KernelIdeal.Gen.W6_arr m ρ c 5).trans (Cert.KernelIdeal.Lin2.arr5 (Cert.KernelIdeal.Gen.V5 m ρ) c)

theorem exit2_sum : Cert.KernelIdeal.Gen.W6 (F := Ideal) m ρ c (Proc.devRef .tc Cert.KernelIdeal.main_v50_1) = colSum (lin (M := 100000) (K := 64) (N := 64) (Cert.KernelIdeal.Gen.W5 (F := Ideal) m ρ c (Proc.devRef .tc Cert.KernelIdeal.main_v35)) (Cert.KernelIdeal.Gen.W5 (F := Ideal) m ρ c (Proc.devRef .tc Cert.KernelIdeal.main_v48)) (Cert.KernelIdeal.Gen.W5 (F := Ideal) m ρ c (Proc.devRef .tc Cert.KernelIdeal.main_arg8)) (Cert.KernelIdeal.Gen.W5 (F := Ideal) m ρ c (Proc.devRef .tc Cert.KernelIdeal.main_arg10)) (Cert.KernelIdeal.Gen.W5 (F := Ideal) m ρ c (Proc.devRef .tc Cert.KernelIdeal.main_v49))) :=
  (Cert.KernelIdeal.Gen.W6_arr m ρ c 6).trans ((Cert.KernelIdeal.Lin2.arr6 (Cert.KernelIdeal.Gen.V5 m ρ) c).trans (Cert.KernelIdeal.Lin2.last6_eq (Cert.KernelIdeal.Gen.V5 m ρ) c))

theorem exit2_sumsq : Cert.KernelIdeal.Gen.W6 (F := Ideal) m ρ c (Proc.devRef .tc Cert.KernelIdeal.main_v50_2) = colSumSq (lin (M := 100000) (K := 64) (N := 64) (Cert.KernelIdeal.Gen.W5 (F := Ideal) m ρ c (Proc.devRef .tc Cert.KernelIdeal.main_v35)) (Cert.KernelIdeal.Gen.W5 (F := Ideal) m ρ c (Proc.devRef .tc Cert.KernelIdeal.main_v48)) (Cert.KernelIdeal.Gen.W5 (F := Ideal) m ρ c (Proc.devRef .tc Cert.KernelIdeal.main_arg8)) (Cert.KernelIdeal.Gen.W5 (F := Ideal) m ρ c (Proc.devRef .tc Cert.KernelIdeal.main_arg10)) (Cert.KernelIdeal.Gen.W5 (F := Ideal) m ρ c (Proc.devRef .tc Cert.KernelIdeal.main_v49))) :=
  (Cert.KernelIdeal.Gen.W6_arr m ρ c 7).trans ((Cert.KernelIdeal.Lin2.arr7 (Cert.KernelIdeal.Gen.V5 m ρ) c).trans (Cert.KernelIdeal.Lin2.last7_eq (Cert.KernelIdeal.Gen.V5 m ρ) c))

theorem exit3 : Cert.KernelIdeal.Gen.W8 (F := Ideal) m ρ c (Proc.devRef .tc Cert.KernelIdeal.main_v59) = normRelu (M := 100000) (C := 64) (Cert.KernelIdeal.Gen.W7 (F := Ideal) m ρ c (Proc.devRef .tc Cert.KernelIdeal.main_v50_0)) (Cert.KernelIdeal.Gen.W7 (F := Ideal) m ρ c (Proc.devRef .tc Cert.KernelIdeal.main_v52)) (Cert.KernelIdeal.Gen.W7 (F := Ideal) m ρ c (Proc.devRef .tc Cert.KernelIdeal.main_v56)) (Cert.KernelIdeal.Gen.W7 (F := Ideal) m ρ c (Proc.devRef .tc Cert.KernelIdeal.main_v57)) (Cert.KernelIdeal.Gen.W7 (F := Ideal) m ρ c (Proc.devRef .tc Cert.KernelIdeal.main_v58)) :=
  (Cert.KernelIdeal.Gen.W8_arr m ρ c 5).trans (Cert.KernelIdeal.Norm3.final (Cert.KernelIdeal.Gen.V7 m ρ) c)

theorem exit4_lin : Cert.KernelIdeal.Gen.W10 (F := Ideal) m ρ c (Proc.devRef .tc Cert.KernelIdeal.main_v74_0) = lin (M := 100000) (K := 64) (N := 64) (Cert.KernelIdeal.Gen.W9 (F := Ideal) m ρ c (Proc.devRef .tc Cert.KernelIdeal.main_v59)) (Cert.KernelIdeal.Gen.W9 (F := Ideal) m ρ c (Proc.devRef .tc Cert.KernelIdeal.main_v72)) (Cert.KernelIdeal.Gen.W9 (F := Ideal) m ρ c (Proc.devRef .tc Cert.KernelIdeal.main_arg13)) (Cert.KernelIdeal.Gen.W9 (F := Ideal) m ρ c (Proc.devRef .tc Cert.KernelIdeal.main_arg15)) (Cert.KernelIdeal.Gen.W9 (F := Ideal) m ρ c (Proc.devRef .tc Cert.KernelIdeal.main_v73)) :=
  (Cert.KernelIdeal.Gen.W10_arr m ρ c 5).trans (Cert.KernelIdeal.Lin4.arr5 (Cert.KernelIdeal.Gen.V9 m ρ) c)

theorem exit4_sum : Cert.KernelIdeal.Gen.W10 (F := Ideal) m ρ c (Proc.devRef .tc Cert.KernelIdeal.main_v74_1) = colSum (lin (M := 100000) (K := 64) (N := 64) (Cert.KernelIdeal.Gen.W9 (F := Ideal) m ρ c (Proc.devRef .tc Cert.KernelIdeal.main_v59)) (Cert.KernelIdeal.Gen.W9 (F := Ideal) m ρ c (Proc.devRef .tc Cert.KernelIdeal.main_v72)) (Cert.KernelIdeal.Gen.W9 (F := Ideal) m ρ c (Proc.devRef .tc Cert.KernelIdeal.main_arg13)) (Cert.KernelIdeal.Gen.W9 (F := Ideal) m ρ c (Proc.devRef .tc Cert.KernelIdeal.main_arg15)) (Cert.KernelIdeal.Gen.W9 (F := Ideal) m ρ c (Proc.devRef .tc Cert.KernelIdeal.main_v73))) :=
  (Cert.KernelIdeal.Gen.W10_arr m ρ c 6).trans ((Cert.KernelIdeal.Lin4.arr6 (Cert.KernelIdeal.Gen.V9 m ρ) c).trans (Cert.KernelIdeal.Lin4.last6_eq (Cert.KernelIdeal.Gen.V9 m ρ) c))

theorem exit4_sumsq : Cert.KernelIdeal.Gen.W10 (F := Ideal) m ρ c (Proc.devRef .tc Cert.KernelIdeal.main_v74_2) = colSumSq (lin (M := 100000) (K := 64) (N := 64) (Cert.KernelIdeal.Gen.W9 (F := Ideal) m ρ c (Proc.devRef .tc Cert.KernelIdeal.main_v59)) (Cert.KernelIdeal.Gen.W9 (F := Ideal) m ρ c (Proc.devRef .tc Cert.KernelIdeal.main_v72)) (Cert.KernelIdeal.Gen.W9 (F := Ideal) m ρ c (Proc.devRef .tc Cert.KernelIdeal.main_arg13)) (Cert.KernelIdeal.Gen.W9 (F := Ideal) m ρ c (Proc.devRef .tc Cert.KernelIdeal.main_arg15)) (Cert.KernelIdeal.Gen.W9 (F := Ideal) m ρ c (Proc.devRef .tc Cert.KernelIdeal.main_v73))) :=
  (Cert.KernelIdeal.Gen.W10_arr m ρ c 7).trans ((Cert.KernelIdeal.Lin4.arr7 (Cert.KernelIdeal.Gen.V9 m ρ) c).trans (Cert.KernelIdeal.Lin4.last7_eq (Cert.KernelIdeal.Gen.V9 m ρ) c))

theorem exit5 : Cert.KernelIdeal.Gen.W12 (F := Ideal) m ρ c (Proc.devRef .tc Cert.KernelIdeal.main_v83) = normRelu (M := 100000) (C := 64) (Cert.KernelIdeal.Gen.W11 (F := Ideal) m ρ c (Proc.devRef .tc Cert.KernelIdeal.main_v74_0)) (Cert.KernelIdeal.Gen.W11 (F := Ideal) m ρ c (Proc.devRef .tc Cert.KernelIdeal.main_v76)) (Cert.KernelIdeal.Gen.W11 (F := Ideal) m ρ c (Proc.devRef .tc Cert.KernelIdeal.main_v80)) (Cert.KernelIdeal.Gen.W11 (F := Ideal) m ρ c (Proc.devRef .tc Cert.KernelIdeal.main_v81)) (Cert.KernelIdeal.Gen.W11 (F := Ideal) m ρ c (Proc.devRef .tc Cert.KernelIdeal.main_v82)) :=
  (Cert.KernelIdeal.Gen.W12_arr m ρ c 5).trans (Cert.KernelIdeal.Norm5.final (Cert.KernelIdeal.Gen.V11 m ρ) c)

theorem exit6 : Cert.KernelIdeal.Gen.W14 (F := Ideal) m ρ c (Proc.devRef .tc Cert.KernelIdeal.main_v98) = head (G := 128) (H := 64) (H1 := 64) (O := 2) (Cert.KernelIdeal.Gen.W13 (F := Ideal) m ρ c (Proc.devRef .tc Cert.KernelIdeal.main_v95)) (Cert.KernelIdeal.Gen.W13 (F := Ideal) m ρ c (Proc.devRef .tc Cert.KernelIdeal.main_arg18)) (Cert.KernelIdeal.Gen.W13 (F := Ideal) m ρ c (Proc.devRef .tc Cert.KernelIdeal.main_v96)) (Cert.KernelIdeal.Gen.W13 (F := Ideal) m ρ c (Proc.devRef .tc Cert.KernelIdeal.main_arg20)) (Cert.KernelIdeal.Gen.W13 (F := Ideal) m ρ c (Proc.devRef .tc Cert.KernelIdeal.main_v97)) :=
  (Cert.KernelIdeal.Gen.W14_arr m ρ c 5).trans (Cert.KernelIdeal.Head.final (Cert.KernelIdeal.Gen.V13 m ρ) c)

end Cert.KernelIdeal.Exit

end
-- ==== Proof.LibVarianceForms.lean ====
/-
  Two spellings of the variance of finitely many real numbers, over the extended reals.

  For real numbers x_i indexed by a finite type with n ≠ 0 elements, write S = Σ x_i, Q = Σ x_i², and μ = S / n.
  The mean of the squares minus the square of the mean, Q / n − μ², and the mean of the squared deviations,
  (Σ (x_i − μ)²) / n, are the same real number: Σ (x_i − μ)² = Q − 2 μ S + n μ² = Q − S² / n.
  The statement is made with the extended-real quotient `Ideal.div` and extended-real sums of coerced reals, which
  is how both forms appear in programs read at the exact instance; it needs every x_i to be a real number, since at an
  infinite entry the first form is ⊤ − ⊤ and the second is ⊤.
-/
import Idealize.ShloMosaic.PureOps.Ideal.Laws

noncomputable section

open Idealize.ShloMosaic

namespace Cert.VarianceForms

/-- The coercion of reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity between the two forms, in the reals. -/
theorem variance_real {ι : Type*} [Fintype ι] (x : ι → ℝ) (n : ℝ) (hn : n ≠ 0) (hcard : (Fintype.card ι : ℝ) = n) :
    (∑ i, x i * x i) * (1 / n) - ((∑ i, x i) * (1 / n)) * ((∑ i, x i) * (1 / n))
      = (∑ i, (x i - (∑ j, x j) * (1 / n)) * (x i - (∑ j, x j) * (1 / n))) * (1 / n) := by
  set S := ∑ j, x j with hS
  have e : ∑ i, (x i - S * (1 / n)) * (x i - S * (1 / n))
      = (∑ i, x i * x i) - 2 * (S * (1 / n)) * S + n * ((S * (1 / n)) * (S * (1 / n))) := by
    have : ∀ i, (x i - S * (1 / n)) * (x i - S * (1 / n))
        = x i * x i - 2 * (S * (1 / n)) * x i + (S * (1 / n)) * (S * (1 / n)) := fun i => by ring
    simp only [this, Finset.sum_add_distrib, Finset.sum_sub_distrib, ← Finset.mul_sum, Finset.sum_const,
      Finset.card_univ, nsmul_eq_mul, hcard, ← hS]
    ring
  rw [e]
  field_simp
  ring

/-- The mean of the squares minus the square of the mean is the mean of the squared deviations, for real entries,
    in the extended reals with the exact quotient. -/
theorem variance_forms {ι : Type*} [Fintype ι] (x : ι → ℝ) (n : ℝ) (hn : n ≠ 0) (hcard : (Fintype.card ι : ℝ) = n) :
    Ideal.div (∑ i, (x i : EReal) * (x i : EReal)) (n : EReal)
        - Ideal.div (∑ i, (x i : EReal)) (n : EReal) * Ideal.div (∑ i, (x i : EReal)) (n : EReal)
      = Ideal.div (∑ i, ((x i : EReal) - Ideal.div (∑ j, (x j : EReal)) (n : EReal))
          * ((x i : EReal) - Ideal.div (∑ j, (x j : EReal)) (n : EReal))) (n : EReal) := by
  simp only [Ideal.div_coe hn, ← EReal.coe_mul, ← coe_sum, ← EReal.coe_sub]
  exact congrArg _ (variance_real x n hn hcard)

/-- The mean of finitely many reals, taken with the exact quotient, is a real. -/
theorem mean_real {ι : Type*} [Fintype ι] (x : ι → ℝ) (n : ℝ) (hn : n ≠ 0) :
    Ideal.div (∑ i, (x i : EReal)) (n : EReal) = (((∑ i, x i) * (1 / n) : ℝ) : EReal) := by
  simp only [Ideal.div_coe hn, ← EReal.coe_mul, ← coe_sum]

/-- The mean of the squared deviations of finitely many reals, over a positive count, is a nonnegative real. -/
theorem variance_nonneg {ι : Type*} [Fintype ι] (x : ι → ℝ) (n : ℝ) (hn : 0 < n) :
    ∃ v : ℝ, 0 ≤ v ∧ Ideal.div (∑ i, ((x i : EReal) - Ideal.div (∑ j, (x j : EReal)) (n : EReal))
          * ((x i : EReal) - Ideal.div (∑ j, (x j : EReal)) (n : EReal))) (n : EReal) = (v : EReal) := by
  refine ⟨(∑ i, (x i - (∑ j, x j) * (1 / n)) * (x i - (∑ j, x j) * (1 / n))) * (1 / n), ?_, ?_⟩
  · exact mul_nonneg (Finset.sum_nonneg fun i _ => mul_self_nonneg _) (by positivity)
  · simp only [Ideal.div_coe hn.ne', ← EReal.coe_mul, ← coe_sum, ← EReal.coe_sub]

end Cert.VarianceForms

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«113720_j13494787244371_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibHostForms.lean ====
/-
  The host program's spellings of the stages of a mean-aggregating graph network, as the whole-array functions.

  A host program writes a 1 × n row as a broadcast of a length-n vector along a new leading axis and repeats it down
  the rows by a second broadcast; it writes a scalar constant as a rank-0 array broadcast to the shape it is used at; a
  matrix product is a `dot_general`, a transpose is a `transpose`, a column mean is a sum over axis 0 from the zero
  word divided by the row count. Read entry by entry at the exact extended reals these are the functions `lin`,
  `normRelu` (at the column means and the column means of the squared deviations) and `head`.
-/
import proofs.«113720_j13494787244371_1_alg».proof.Proof.LibDenseHead
import proofs.«113720_j13494787244371_1_alg».proof.Proof.LibBiasedBlock
import proofs.«113720_j13494787244371_1_alg».proof.Proof.LibNormalizeRows
import proofs.«113720_j13494787244371_1_alg».proof.Proof.LibColumnSum
import Idealize.ShloMosaic.Lib.Pipeline.Value
import Idealize.ShloMosaic.Lib.ValueLayout

noncomputable section

open Idealize.ShloMosaic Idealize.ShloMosaic.ValueIdx
open Cert.MatrixProduct Cert.Gcn Cert.SageLinear Cert.DenseHead Cert.NormalizeRows
open scoped BigOperators

namespace Cert.HostForms

/-- A 1 × n row repeated down M rows reads the row at the entry's column. -/
theorem bcast_rows_apply {M n : ℕ} (B : (⟨2, ![1, n]⟩ : Shape).Idx → EReal)
    (h2 : (⟨2, ![1, n]⟩ : Shape).BroadcastsInDim ⟨2, ![M, n]⟩ (![0, 1] : Fin 2 → Fin 2)) (p : Fin M) (q : Fin n) :
    broadcastInDim ⟨2, ![M, n]⟩ (![0, 1] : Fin 2 → Fin 2) h2 B (ix2 p q) = B (ix2 (0 : Fin 1) q) := by
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if n = 1 then 0 else q.val
    split
    · have := q.isLt; omega
    · rfl

/-- A scalar constant broadcast to a shape reads the constant's value everywhere. -/
theorem bcast_const_apply {t : Shape} (h : (⟨0, ![]⟩ : Shape).BroadcastsInDim t (![] : Fin 0 → Fin t.rank))
    (w : BitVec 32) (j : t.Idx) :
    broadcastInDim t (![] : Fin 0 → Fin t.rank) h (constant (F := Ideal) ⟨0, ![]⟩ .f32 w) j = Ideal.ofBits .f32 w :=
  broadcastInDim_apply _ h _ j (fun a => a.elim0) (fun a => a.elim0)

/-- A host transpose is the transpose, entry by entry. -/
theorem transpose_eq_tr {a b : ℕ} (x : (⟨2, ![a, b]⟩ : Shape).Idx → EReal)
    (h : (⟨2, ![a, b]⟩ : Shape).Transposes [1, 0] ⟨2, ![b, a]⟩) :
    transpose ⟨2, ![b, a]⟩ [1, 0] x h = tr x := by
  funext i
  obtain ⟨p, q, rfl⟩ : ∃ (p : Fin b) (q : Fin a), i = ix2 p q := ⟨i 0, i 1, eq_ix2 i⟩
  exact transpose_ix2_apply x h p q

/-- The host's linear stage. -/
theorem host_lin {M K N : ℕ}
    (wd : DotDims.WF ⟨2, ![M, K]⟩ ⟨2, ![K, N]⟩ ⟨2, ![M, N]⟩ [1] [0] [0] [1] [] [])
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X A : FVec Ideal ⟨2, ![M, K]⟩ .f32) (Wl Wr : FVec Ideal ⟨2, ![N, K]⟩ .f32) (b : FVec Ideal ⟨1, ![N]⟩ .f32) :
    addf (addf (Host.dotGeneral (⟨[1], [0], [0], [1], [], [], wd⟩ : DotDims ⟨2, ![M, K]⟩ ⟨2, ![K, N]⟩ ⟨2, ![M, N]⟩) none A
            (transpose ⟨2, ![K, N]⟩ [1, 0] Wl ht))
          (broadcastInDim ⟨2, ![M, N]⟩ (![0, 1] : Fin 2 → Fin 2) h2 (broadcastInDim ⟨2, ![1, N]⟩ (![1] : Fin 1 → Fin 2) h1 b)))
        (Host.dotGeneral (⟨[1], [0], [0], [1], [], [], wd⟩ : DotDims ⟨2, ![M, K]⟩ ⟨2, ![K, N]⟩ ⟨2, ![M, N]⟩) none X
          (transpose ⟨2, ![K, N]⟩ [1, 0] Wr ht))
      = lin X A Wl Wr (rowOf b) := by
  funext j
  obtain ⟨p, q, rfl⟩ : ∃ (p : Fin M) (q : Fin N), j = ix2 p q := ⟨j 0, j 1, eq_ix2 j⟩
  rw [addf_apply, addf_apply, dotGeneral_eq_mm, dotGeneral_eq_mm, bcast_rows_apply, bcast_row_eq_rowOf,
    transpose_eq_tr, transpose_eq_tr]
  rfl

/-- The column means as the host takes them: the sum down each column from the zero word, over the count word. -/
def colMean {M C : ℕ} (cnt : BitVec 32) (L : (⟨2, ![M, C]⟩ : Shape).Idx → EReal) : (⟨1, ![C]⟩ : Shape).Idx → EReal :=
  fun i => Ideal.div (Ideal.ofBits .f32 0x00000000#32 + ∑ r : Fin M, L (ix2 r (i 0))) (Ideal.ofBits .f32 cnt)

/-- The column means of the squared deviations from given column centres. -/
def colVar {M C : ℕ} (cnt : BitVec 32) (L : (⟨2, ![M, C]⟩ : Shape).Idx → EReal) (mu : (⟨1, ![C]⟩ : Shape).Idx → EReal) :
    (⟨1, ![C]⟩ : Shape).Idx → EReal :=
  fun i => Ideal.div (Ideal.ofBits .f32 0x00000000#32
      + ∑ r : Fin M, (L (ix2 r (i 0)) - mu i) * (L (ix2 r (i 0)) - mu i)) (Ideal.ofBits .f32 cnt)

/-- The host's sum down the columns from an initial scalar, read at a column. -/
theorem reduceAdd_cols_apply {M C : ℕ} (hr : (⟨2, ![M, C]⟩ : Shape).ReducesTo [0] ⟨1, ![C]⟩)
    (hR : (⟨2, ![M, C]⟩ : Shape).Reduces [0] ⟨1, ![C]⟩) (h0 : 0 < (⟨0, ![]⟩ : Shape).numel)
    (L : FVec Ideal ⟨2, ![M, C]⟩ .f32) (w : BitVec 32) (q : Fin C) :
    Host.reduceAdd L (constant (F := Ideal) ⟨0, ![]⟩ .f32 w) hr h0 (ix1 q) = Ideal.ofBits .f32 w + ∑ r : Fin M, L (ix2 r q) := by
  show Ideal.hostReduceAdd hr L (Ideal.ofBits .f32 w) (ix1 q) = _
  rw [Ideal.hostReduceAdd_single hr hR]
  exact congrArg (Ideal.ofBits .f32 w + ·) (Finset.sum_congr rfl fun k _ => congrArg L (reduces_cols_lift hR q k))

/-- A length-C vector written as a row and repeated down M rows. -/
def hRows {M C : ℕ} (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (v : FVec Ideal ⟨1, ![C]⟩ .f32) : FVec Ideal ⟨2, ![M, C]⟩ .f32 :=
  broadcastInDim ⟨2, ![M, C]⟩ (![0, 1] : Fin 2 → Fin 2) h2 (broadcastInDim ⟨2, ![1, C]⟩ (![1] : Fin 1 → Fin 2) h1 v)

theorem hRows_apply {M C : ℕ} (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (v : FVec Ideal ⟨1, ![C]⟩ .f32) (p : Fin M) (q : Fin C) : hRows h1 h2 v (ix2 p q) = v (ix1 q) := by
  unfold hRows
  rw [bcast_rows_apply, bcast_row_eq_rowOf]
  rfl

/-- The host's column means: the sum down the columns from the zero word, over the count word. -/
def hMean {M C : ℕ} (cnt : BitVec 32) (hr : (⟨2, ![M, C]⟩ : Shape).ReducesTo [0] ⟨1, ![C]⟩)
    (h0 : 0 < (⟨0, ![]⟩ : Shape).numel) (b0 : (⟨0, ![]⟩ : Shape).BroadcastsInDim ⟨1, ![C]⟩ (![] : Fin 0 → Fin 1))
    (L : FVec Ideal ⟨2, ![M, C]⟩ .f32) : FVec Ideal ⟨1, ![C]⟩ .f32 :=
  Host.divf (Host.reduceAdd L (constant (F := Ideal) ⟨0, ![]⟩ .f32 0x00000000#32) hr h0)
    (broadcastInDim ⟨1, ![C]⟩ (![] : Fin 0 → Fin 1) b0 (constant (F := Ideal) ⟨0, ![]⟩ .f32 cnt))

theorem hMean_apply {M C : ℕ} (cnt : BitVec 32) (hr : (⟨2, ![M, C]⟩ : Shape).ReducesTo [0] ⟨1, ![C]⟩)
    (hR : (⟨2, ![M, C]⟩ : Shape).Reduces [0] ⟨1, ![C]⟩)
    (h0 : 0 < (⟨0, ![]⟩ : Shape).numel) (b0 : (⟨0, ![]⟩ : Shape).BroadcastsInDim ⟨1, ![C]⟩ (![] : Fin 0 → Fin 1))
    (L : FVec Ideal ⟨2, ![M, C]⟩ .f32) (q : Fin C) :
    hMean cnt hr h0 b0 L (ix1 q)
      = Ideal.div (Ideal.ofBits .f32 0x00000000#32 + ∑ r : Fin M, L (ix2 r q)) (Ideal.ofBits .f32 cnt) := by
  unfold hMean
  show Ideal.div (Host.reduceAdd L (constant (F := Ideal) ⟨0, ![]⟩ .f32 0x00000000#32) hr h0 (ix1 q))
    (broadcastInDim ⟨1, ![C]⟩ (![] : Fin 0 → Fin 1) b0 (constant (F := Ideal) ⟨0, ![]⟩ .f32 cnt) (ix1 q)) = _
  rw [reduceAdd_cols_apply hr hR h0, bcast_const_apply]

/-- The host's column means of the squared deviations from the column means. -/
def hVar {M C : ℕ} (cnt : BitVec 32) (hr : (⟨2, ![M, C]⟩ : Shape).ReducesTo [0] ⟨1, ![C]⟩)
    (h0 : 0 < (⟨0, ![]⟩ : Shape).numel) (b0 : (⟨0, ![]⟩ : Shape).BroadcastsInDim ⟨1, ![C]⟩ (![] : Fin 0 → Fin 1))
    (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (L : FVec Ideal ⟨2, ![M, C]⟩ .f32) : FVec Ideal ⟨1, ![C]⟩ .f32 :=
  hMean cnt hr h0 b0 (mulf (subf L (hRows h1 h2 (hMean cnt hr h0 b0 L))) (subf L (hRows h1 h2 (hMean cnt hr h0 b0 L))))

theorem hVar_apply {M C : ℕ} (cnt : BitVec 32) (hr : (⟨2, ![M, C]⟩ : Shape).ReducesTo [0] ⟨1, ![C]⟩)
    (hR : (⟨2, ![M, C]⟩ : Shape).Reduces [0] ⟨1, ![C]⟩)
    (h0 : 0 < (⟨0, ![]⟩ : Shape).numel) (b0 : (⟨0, ![]⟩ : Shape).BroadcastsInDim ⟨1, ![C]⟩ (![] : Fin 0 → Fin 1))
    (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (L : FVec Ideal ⟨2, ![M, C]⟩ .f32) (q : Fin C) :
    hVar cnt hr h0 b0 h1 h2 L (ix1 q) = colVar cnt L (colMean cnt L) (ix1 q) := by
  unfold hVar
  rw [hMean_apply cnt hr hR h0 b0]
  show _ = Ideal.div (Ideal.ofBits .f32 0x00000000#32
      + ∑ r : Fin M, (L (ix2 r q) - colMean cnt L (ix1 q)) * (L (ix2 r q) - colMean cnt L (ix1 q))) (Ideal.ofBits .f32 cnt)
  refine congrArg (fun s => Ideal.div (Ideal.ofBits .f32 0x00000000#32 + s) (Ideal.ofBits .f32 cnt)) (Finset.sum_congr rfl fun r _ => ?_)
  rw [mulf_apply, subf_apply, hRows_apply, hMean_apply cnt hr hR h0 b0]
  rfl

/-- The host's normalise stage, operation by operation: the deviations from the column means scaled by the inverse
    root of the column variance plus ε, scaled and shifted by two rows, and the positive part. -/
def hostNorm {M C : ℕ} (cnt : BitVec 32) (hr : (⟨2, ![M, C]⟩ : Shape).ReducesTo [0] ⟨1, ![C]⟩)
    (h0 : 0 < (⟨0, ![]⟩ : Shape).numel)
    (b0 : (⟨0, ![]⟩ : Shape).BroadcastsInDim ⟨1, ![C]⟩ (![] : Fin 0 → Fin 1))
    (b0' : (⟨0, ![]⟩ : Shape).BroadcastsInDim ⟨2, ![M, C]⟩ (![] : Fin 0 → Fin 2))
    (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (L : FVec Ideal ⟨2, ![M, C]⟩ .f32) (g b : FVec Ideal ⟨1, ![C]⟩ .f32) : FVec Ideal ⟨2, ![M, C]⟩ .f32 :=
  maximumf (addf (mulf (mulf (subf L (hRows h1 h2 (hMean cnt hr h0 b0 L)))
      (hRows h1 h2 (Host.rsqrt (addf (hVar cnt hr h0 b0 h1 h2 L) (broadcastInDim ⟨1, ![C]⟩ (![] : Fin 0 → Fin 1) b0
        (constant (F := Ideal) ⟨0, ![]⟩ .f32 0x3727C5AC#32)))))) (hRows h1 h2 g)) (hRows h1 h2 b))
    (broadcastInDim ⟨2, ![M, C]⟩ (![] : Fin 0 → Fin 2) b0' (constant (F := Ideal) ⟨0, ![]⟩ .f32 0x00000000#32))

/-- The host's normalise stage is `normRelu` at the column means and the column means of the squared deviations. -/
theorem hostNorm_eq {M C : ℕ} (cnt : BitVec 32) (hr : (⟨2, ![M, C]⟩ : Shape).ReducesTo [0] ⟨1, ![C]⟩)
    (hR : (⟨2, ![M, C]⟩ : Shape).Reduces [0] ⟨1, ![C]⟩) (h0 : 0 < (⟨0, ![]⟩ : Shape).numel)
    (b0 : (⟨0, ![]⟩ : Shape).BroadcastsInDim ⟨1, ![C]⟩ (![] : Fin 0 → Fin 1))
    (b0' : (⟨0, ![]⟩ : Shape).BroadcastsInDim ⟨2, ![M, C]⟩ (![] : Fin 0 → Fin 2))
    (h1 : (⟨1, ![C]⟩ : Shape).BroadcastsInDim ⟨2, ![1, C]⟩ (![1] : Fin 1 → Fin 2))
    (h2 : (⟨2, ![1, C]⟩ : Shape).BroadcastsInDim ⟨2, ![M, C]⟩ (![0, 1] : Fin 2 → Fin 2))
    (L : FVec Ideal ⟨2, ![M, C]⟩ .f32) (g b : FVec Ideal ⟨1, ![C]⟩ .f32) :
    hostNorm cnt hr h0 b0 b0' h1 h2 L g b
      = normRelu L (rowOf (colMean cnt L)) (rowOf (colVar cnt L (colMean cnt L))) (rowOf g) (rowOf b) := by
  funext j
  obtain ⟨p, q, rfl⟩ : ∃ (p : Fin M) (q : Fin C), j = ix2 p q := ⟨j 0, j 1, eq_ix2 j⟩
  unfold hostNorm
  rw [maximumf_apply, addf_apply, mulf_apply, mulf_apply, subf_apply, hRows_apply, hRows_apply, hRows_apply, hRows_apply,
    bcast_const_apply, hMean_apply cnt hr hR h0 b0]
  show max ((L (ix2 p q) - colMean cnt L (ix1 q))
      * Ideal.rsqrt (hVar cnt hr h0 b0 h1 h2 L (ix1 q)
        + broadcastInDim ⟨1, ![C]⟩ (![] : Fin 0 → Fin 1) b0 (constant (F := Ideal) ⟨0, ![]⟩ .f32 0x3727C5AC#32) (ix1 q))
      * g (ix1 q) + b (ix1 q)) (Ideal.ofBits .f32 0x00000000#32) = _
  rw [hVar_apply cnt hr hR h0 b0 h1 h2, bcast_const_apply]
  rfl

/-- The host's head: two `dot_general`s against transposed weights, each plus a repeated bias row, the positive part
    between. -/
theorem host_head {G H H1 O : ℕ}
    (w1 : DotDims.WF ⟨2, ![G, H]⟩ ⟨2, ![H, H1]⟩ ⟨2, ![G, H1]⟩ [1] [0] [0] [1] [] [])
    (w2 : DotDims.WF ⟨2, ![G, H1]⟩ ⟨2, ![H1, O]⟩ ⟨2, ![G, O]⟩ [1] [0] [0] [1] [] [])
    (t1 : (⟨2, ![H1, H]⟩ : Shape).Transposes [1, 0] ⟨2, ![H, H1]⟩) (t2 : (⟨2, ![O, H1]⟩ : Shape).Transposes [1, 0] ⟨2, ![H1, O]⟩)
    (a1 : (⟨1, ![H1]⟩ : Shape).BroadcastsInDim ⟨2, ![1, H1]⟩ (![1] : Fin 1 → Fin 2))
    (a2 : (⟨2, ![1, H1]⟩ : Shape).BroadcastsInDim ⟨2, ![G, H1]⟩ (![0, 1] : Fin 2 → Fin 2))
    (c1 : (⟨1, ![O]⟩ : Shape).BroadcastsInDim ⟨2, ![1, O]⟩ (![1] : Fin 1 → Fin 2))
    (c2 : (⟨2, ![1, O]⟩ : Shape).BroadcastsInDim ⟨2, ![G, O]⟩ (![0, 1] : Fin 2 → Fin 2))
    (z : (⟨0, ![]⟩ : Shape).BroadcastsInDim ⟨2, ![G, H1]⟩ (![] : Fin 0 → Fin 2))
    (Pl : FVec Ideal ⟨2, ![G, H]⟩ .f32) (W1 : FVec Ideal ⟨2, ![H1, H]⟩ .f32) (b1 : FVec Ideal ⟨1, ![H1]⟩ .f32)
    (W2 : FVec Ideal ⟨2, ![O, H1]⟩ .f32) (b2 : FVec Ideal ⟨1, ![O]⟩ .f32) :
    addf (Host.dotGeneral (⟨[1], [0], [0], [1], [], [], w2⟩ : DotDims ⟨2, ![G, H1]⟩ ⟨2, ![H1, O]⟩ ⟨2, ![G, O]⟩) none
          (maximumf (addf (Host.dotGeneral (⟨[1], [0], [0], [1], [], [], w1⟩ : DotDims ⟨2, ![G, H]⟩ ⟨2, ![H, H1]⟩ ⟨2, ![G, H1]⟩) none Pl
              (transpose ⟨2, ![H, H1]⟩ [1, 0] W1 t1))
            (broadcastInDim ⟨2, ![G, H1]⟩ (![0, 1] : Fin 2 → Fin 2) a2 (broadcastInDim ⟨2, ![1, H1]⟩ (![1] : Fin 1 → Fin 2) a1 b1)))
            (broadcastInDim ⟨2, ![G, H1]⟩ (![] : Fin 0 → Fin 2) z (constant (F := Ideal) ⟨0, ![]⟩ .f32 0x00000000#32)))
          (transpose ⟨2, ![H1, O]⟩ [1, 0] W2 t2))
        (broadcastInDim ⟨2, ![G, O]⟩ (![0, 1] : Fin 2 → Fin 2) c2 (broadcastInDim ⟨2, ![1, O]⟩ (![1] : Fin 1 → Fin 2) c1 b2))
      = head Pl W1 (rowOf b1) W2 (rowOf b2) := by
  funext j
  obtain ⟨p, q, rfl⟩ : ∃ (p : Fin G) (q : Fin O), j = ix2 p q := ⟨j 0, j 1, eq_ix2 j⟩
  rw [addf_apply, dotGeneral_eq_mm, bcast_rows_apply, bcast_row_eq_rowOf, bcast_row_eq_rowOf, transpose_eq_tr, transpose_eq_tr]
  refine congrArg (· + rowOf b2 (ix2 (0 : Fin 1) q)) ?_
  show mm _ (tr W2) (ix2 p q) = mm (relu (biasedProduct Pl (tr W1) (rowOf b1))) (tr W2) (ix2 p q)
  rw [mm_apply, mm_apply]
  refine Finset.sum_congr rfl fun k _ => congrArg (· * tr W2 (ix2 k q)) ?_
  rw [maximumf_apply, addf_apply, dotGeneral_eq_mm, bcast_rows_apply, bcast_const_apply]
  rfl

end Cert.HostForms

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.LibSoftmaxShift.lean ====
/-
  The softmax of a rank-one sum, on the extended reals [−∞, +∞].

  If the logits of a row are e j = a + d j with a and every d j real numbers, then the row's maximum is a plus the
  maximum of the d j, so the shifted logits e j − max e are the shifted d j − max d: the row's softmax does not depend
  on a. Adding a real number is a monotone map of [−∞, +∞] that fixes −∞, so it commutes with a maximum folded from −∞
  (this needs no finiteness of the entries and no nonemptiness of the index set); the cancellation
  (a + x) − (a + ρ) = x − ρ is where the entries have to be real.

  Also here: the reassociation of one term of an attention product (no finiteness: the product of [−∞, +∞] is
  commutative and associative), and the two facts about a 0/1 mask m: (a · (1 − m)) · m = 0 and 1 − m ∈ {0, 1}.
-/
import Idealize.ShloMosaic.PureOps.Ideal
import proofs.«113720_j13494787244371_1_alg».proof.Proof.LibERealSums

noncomputable section

namespace Cert.GatSgc

/-- Adding a real number commutes with a binary maximum on [−∞, +∞]: x ↦ a + x is monotone. -/
theorem coe_add_max (a : ℝ) (x y : EReal) :
    (a : EReal) + max x y = max ((a : EReal) + x) ((a : EReal) + y) :=
  Monotone.map_max (f := fun z : EReal => (a : EReal) + z) (fun _ _ h => add_le_add le_rfl h)

/-- A fold of any commutative associative operation that is pointwise the maximum is the fold of the maximum. -/
theorem fold_op_eq_fold_max {ι : Type} (s : Finset ι) (op : EReal → EReal → EReal) [Std.Commutative op]
    [Std.Associative op] (hop : ∀ x y, op x y = max x y) (b : EReal) (f : ι → EReal) :
    s.fold op b f = s.fold max b f := by
  have h : op = max := funext fun x => funext fun y => hop x y
  subst h
  rfl

/-- The max-fold shift: the maximum, from −∞, of the a + f j is a plus the maximum of the f j, for a real a and ANY
    extended-real entries f j, over any finite index set (empty included: a + −∞ = −∞). -/
theorem fold_max_coe_add {ι : Type} (s : Finset ι) (a : ℝ) (f : ι → EReal) :
    s.fold max (⊥ : EReal) (fun j => (a : EReal) + f j) = (a : EReal) + s.fold max (⊥ : EReal) f := by
  classical
  induction s using Finset.induction_on with
  | empty => simp
  | insert j s hj ih => rw [Finset.fold_insert hj, Finset.fold_insert hj, ih, coe_add_max]

/-- The maximum, from −∞, of real entries over a nonempty finite type is a real number. -/
theorem fold_max_real {ι : Type} [Fintype ι] [Nonempty ι] (f : ι → EReal) (hf : ∀ j, ∃ r : ℝ, f j = (r : EReal)) :
    ∃ ρ : ℝ, Finset.univ.fold max (⊥ : EReal) f = (ρ : EReal) := by
  choose g hg using hf
  obtain ⟨ρ, hρ⟩ := Cert.Attn.fold_max_coe_exists Finset.univ Finset.univ_nonempty g
  exact ⟨ρ, by rw [show f = fun k => ((g k : ℝ) : EReal) from funext hg]; exact hρ⟩

/-- The same with the outer max(−∞, ·) both programs apply to the folded maximum. -/
theorem max_bot_fold_max_real {ι : Type} [Fintype ι] [Nonempty ι] (f : ι → EReal)
    (hf : ∀ j, ∃ r : ℝ, f j = (r : EReal)) :
    ∃ ρ : ℝ, max (⊥ : EReal) (Finset.univ.fold max (⊥ : EReal) f) = (ρ : EReal) := by
  obtain ⟨ρ, hρ⟩ := fold_max_real f hf
  exact ⟨ρ, by rw [max_bot_left, hρ]⟩

/-- The shifted logits of a rank-one row: with a and every d k real, (a + d j) − max(−∞, max_k (a + d k)) is
    d j − max(−∞, max_k d k). -/
theorem sub_max_fold_shift {ι : Type} [Fintype ι] (a : EReal) (d : ι → EReal)
    (ha : ∃ r : ℝ, a = (r : EReal)) (hd : ∀ k, ∃ r : ℝ, d k = (r : EReal)) (j : ι) :
    (a + d j) - max (⊥ : EReal) (Finset.univ.fold max (⊥ : EReal) fun k => a + d k)
      = d j - max (⊥ : EReal) (Finset.univ.fold max (⊥ : EReal) d) := by
  haveI : Nonempty ι := ⟨j⟩
  obtain ⟨a', rfl⟩ := ha
  obtain ⟨ρ, hρ⟩ := fold_max_real d hd
  obtain ⟨x, hx⟩ := hd j
  rw [fold_max_coe_add, hρ, hx, max_bot_left, max_bot_left, ← EReal.coe_add, ← EReal.coe_add, ← EReal.coe_sub,
    ← EReal.coe_sub, add_sub_add_left_eq_sub]

/-- The same when the outer maximum is taken against any b below the folded maximum (b = −∞ in the programs). -/
theorem sub_max_fold_shift_of_le {ι : Type} [Fintype ι] (a : EReal) (d : ι → EReal) (b b' : EReal)
    (ha : ∃ r : ℝ, a = (r : EReal)) (hd : ∀ k, ∃ r : ℝ, d k = (r : EReal))
    (hb : b ≤ Finset.univ.fold max (⊥ : EReal) fun k => a + d k) (hb' : b' ≤ Finset.univ.fold max (⊥ : EReal) d)
    (j : ι) :
    (a + d j) - max b (Finset.univ.fold max (⊥ : EReal) fun k => a + d k)
      = d j - max b' (Finset.univ.fold max (⊥ : EReal) d) := by
  have h := sub_max_fold_shift a d ha hd j
  rw [max_bot_left, max_bot_left] at h
  rw [max_eq_right hb, max_eq_right hb', h]

/-- The row softmax collapse. Let e k = a + d k with a and every d k real, M the row maximum max(−∞, max_k e k) and
    M' the maximum max(−∞, max_k d k). Then for ANY φ (the exponential in the programs), ψ (the quotient) and z (the
    sum's initial value): ψ (φ (e j − M)) (z + Σ_k φ (e k − M)) = ψ (φ (d j − M')) (z + Σ_k φ (d k − M')). -/
theorem softmax_row_collapse {ι : Type} [Fintype ι] (φ : EReal → EReal) (ψ : EReal → EReal → EReal) (z : EReal)
    (a : EReal) (d e : ι → EReal) (M M' : EReal)
    (ha : ∃ r : ℝ, a = (r : EReal)) (hd : ∀ k, ∃ r : ℝ, d k = (r : EReal)) (he : ∀ k, e k = a + d k)
    (hM : M = max (⊥ : EReal) (Finset.univ.fold max (⊥ : EReal) e))
    (hM' : M' = max (⊥ : EReal) (Finset.univ.fold max (⊥ : EReal) d)) (j : ι) :
    ψ (φ (e j - M)) (z + ∑ k, φ (e k - M)) = ψ (φ (d j - M')) (z + ∑ k, φ (d k - M')) := by
  have key : ∀ k, e k - M = d k - M' := by
    intro k
    rw [hM, hM', show e = fun k => a + d k from funext he]
    exact sub_max_fold_shift a d ha hd k
  simp only [key]

/-- One row of the attention product, reassociated: Σ_j (s j · adj i j) · h j f = Σ_j adj i j · (h j f · s j).
    No finiteness: the product of [−∞, +∞] is commutative and associative. -/
theorem attention_sum_comm {ι κ μ : Type} [Fintype ι] (s : ι → EReal) (adj : κ → ι → EReal) (h : ι → μ → EReal)
    (i : κ) (f : μ) :
    ∑ j, (s j * adj i j) * h j f = ∑ j, adj i j * (h j f * s j) :=
  Finset.sum_congr rfl fun j _ => by rw [mul_comm (s j) (adj i j), mul_assoc, mul_comm (s j) (h j f)]

/-- One entry of a dense attention layer with rank-one logits. The row's weights are the softmax of e i k = src i + d k
    (shifted by the row maximum M i = max(−∞, max_k e i k), written with ANY φ, ψ, z as in `softmax_row_collapse`),
    multiplied by adj i j and contracted with h; the result is adj contracted with h scaled by the ONE softmax of d:
    Σ_j (ψ (φ (e i j − M i)) (z + Σ_k φ (e i k − M i)) · adj i j) · h j f = Σ_j adj i j · (h j f · s j),
    s j = ψ (φ (d j − M')) (z + Σ_k φ (d k − M')), M' = max(−∞, max_k d k); src i and every d k real. -/
theorem attention_row_collapse {ι μ : Type} [Fintype ι] (φ : EReal → EReal) (ψ : EReal → EReal → EReal) (z : EReal)
    (src d : ι → EReal) (adj : ι → ι → EReal) (h : ι → μ → EReal)
    (hsrc : ∀ i, ∃ r : ℝ, src i = (r : EReal)) (hd : ∀ k, ∃ r : ℝ, d k = (r : EReal)) (i : ι) (f : μ) :
    ∑ j, (ψ (φ ((src i + d j) - max (⊥ : EReal) (Finset.univ.fold max (⊥ : EReal) fun k => src i + d k)))
            (z + ∑ k, φ ((src i + d k) - max (⊥ : EReal) (Finset.univ.fold max (⊥ : EReal) fun k => src i + d k)))
          * adj i j) * h j f
      = ∑ j, adj i j * (h j f * ψ (φ (d j - max (⊥ : EReal) (Finset.univ.fold max (⊥ : EReal) d)))
            (z + ∑ k, φ (d k - max (⊥ : EReal) (Finset.univ.fold max (⊥ : EReal) d)))) := by
  rw [← attention_sum_comm (fun j => ψ (φ (d j - max (⊥ : EReal) (Finset.univ.fold max (⊥ : EReal) d)))
    (z + ∑ k, φ (d k - max (⊥ : EReal) (Finset.univ.fold max (⊥ : EReal) d)))) adj h i f]
  refine Finset.sum_congr rfl fun j _ => ?_
  rw [softmax_row_collapse φ ψ z (src i) d (fun k => src i + d k) _ _ (hsrc i) hd (fun _ => rfl) rfl rfl j]

/-- 1 − 1 = 0 on [−∞, +∞]. -/
theorem one_sub_one : (1 : EReal) - 1 = 0 := by
  rw [← EReal.coe_one, ← EReal.coe_sub, sub_self, EReal.coe_zero]

/-- A 0/1 mask kills what was multiplied by its complement: (a · (1 − m)) · m = 0, for every a in [−∞, +∞]. -/
theorem mask_cancel (a m : EReal) (hm : m = 0 ∨ m = 1) : (a * (1 - m)) * m = 0 := by
  rcases hm with rfl | rfl
  · exact mul_zero _
  · rw [one_sub_one, mul_zero, zero_mul]

/-- The complement of a 0/1 mask is a 0/1 mask. -/
theorem one_sub_mask (m : EReal) (hm : m = 0 ∨ m = 1) : 1 - m = 0 ∨ 1 - m = 1 := by
  rcases hm with rfl | rfl
  · exact Or.inr (sub_zero _)
  · exact Or.inl one_sub_one

/-- A 0/1 mask and its complement are real numbers. -/
theorem mask_real (m : EReal) (hm : m = 0 ∨ m = 1) : ∃ r : ℝ, m = (r : EReal) := by
  rcases hm with rfl | rfl
  · exact ⟨0, EReal.coe_zero.symm⟩
  · exact ⟨1, EReal.coe_one.symm⟩

end Cert.GatSgc

end
-- ==== Proof.LibRealClosure.lean ====
/-
  "Every entry is a real number" propagates through the operations of a dense graph attention layer, read on the
  extended reals [−∞, +∞].

  A real number is an element of [−∞, +∞] of the form (r : ℝ). Sums, differences and products of real numbers are
  real, hence finite sums of products are; the exponential of a real number is a positive real number; a nonempty
  finite sum of positive real numbers is a positive real number; the quotient of a real number by a positive (or just
  nonzero) real number is real; the maximum of finitely many real numbers over a nonempty index set is real. So every
  entry of a softmax of real logits is real. The exponential linear unit maps a real number r to r when r > 0 and to
  exp r − 1 otherwise, a real number either way. The unsigned reading of a one-bit word is 0 or 1.
-/
import Idealize.ShloMosaic.PureOps.Ideal
import Idealize.ShloMosaic.PureOps.Ideal.Laws
import proofs.«113720_j13494787244371_1_alg».proof.Proof.LibERealSums
import proofs.«113720_j13494787244371_1_alg».proof.Proof.LibSoftmaxShift

noncomputable section

namespace Cert.GatSgc

open Idealize.ShloMosaic

/-! ### The patterns of −∞, +∞ and 1 -/

/-- The f32 pattern of −∞ denotes −∞. -/
theorem ofBits_neg_inf_f32 : Ideal.ofBits .f32 0xFF800000#32 = ⊥ := by simp [Ideal.ofBits, Ideal.ieee]

/-- The f32 pattern of +∞ denotes +∞. -/
theorem ofBits_inf_f32 : Ideal.ofBits .f32 0x7F800000#32 = ⊤ := by simp [Ideal.ofBits, Ideal.ieee]

/-- The f32 pattern of 1.0 denotes 1. -/
theorem ofBits_one_f32 : Ideal.ofBits .f32 0x3F800000#32 = 1 := by
  simp [Ideal.ofBits, Ideal.ieee, -EReal.coe_mul]; norm_num

/-- A fold of the idealized `maximumf` is the fold of the maximum of [−∞, +∞]. -/
theorem fold_maximumf_eq_fold_max {ι : Type} (s : Finset ι) (φ : FTy) (b : EReal) (f : ι → EReal) :
    s.fold (FloatOps.maximumf (F := Ideal) (φ := φ)) b f = s.fold max b f :=
  fold_op_eq_fold_max s (FloatOps.maximumf (F := Ideal) (φ := φ)) (fun _ _ => rfl) b f

/-! ### Real numbers inside [−∞, +∞] -/

/-- x is real exactly when it is neither infinity. -/
theorem real_iff_ne (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- x is real exactly when |x| = max x (−x) is below +∞ (the form a finiteness precondition takes). -/
theorem real_iff_abs_lt_top (x : EReal) : (∃ r : ℝ, x = (r : EReal)) ↔ max x (-x) < ⊤ := by
  rw [real_iff_ne]
  induction x using EReal.rec with
  | bot => simp
  | top => simp
  | coe r =>
    refine iff_of_true ⟨EReal.coe_ne_bot r, EReal.coe_ne_top r⟩ ?_
    rw [← EReal.coe_neg, max_lt_iff]
    exact ⟨EReal.coe_lt_top _, EReal.coe_lt_top _⟩

theorem real_zero : ∃ r : ℝ, (0 : EReal) = (r : EReal) := ⟨0, EReal.coe_zero.symm⟩

theorem real_one : ∃ r : ℝ, (1 : EReal) = (r : EReal) := ⟨1, EReal.coe_one.symm⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- A finite sum of real numbers is real. -/
theorem real_sum {ι : Type} [Fintype ι] (f : ι → EReal) (hf : ∀ k, ∃ r : ℝ, f k = (r : EReal)) :
    ∃ r : ℝ, ∑ k, f k = (r : EReal) := by
  choose g hg using hf
  exact ⟨∑ k, g k, by rw [Cert.Attn.coe_sum_univ]; exact Finset.sum_congr rfl fun k _ => hg k⟩

/-- A finite sum of products of real numbers is real. -/
theorem real_sum_mul {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ fun k => real_mul (hf k) (hg k)

/-- The same from a zero accumulator, the form of a host product's entry. -/
theorem real_zero_add_sum_mul {ι : Type} [Fintype ι] (f g : ι → EReal) (hf : ∀ k, ∃ r : ℝ, f k = (r : EReal))
    (hg : ∀ k, ∃ r : ℝ, g k = (r : EReal)) : ∃ r : ℝ, 0 + ∑ k, f k * g k = (r : EReal) := by
  rw [zero_add]; exact real_sum_mul f g hf hg

/-! ### Exponential, positive sums, quotient: a softmax entry is real -/

/-- The exponential of a real number is a positive real number. -/
theorem exp_real_pos {x : EReal} (hx : ∃ r : ℝ, x = (r : EReal)) :
    ∃ r : ℝ, 0 < r ∧ Ideal.exp x = (r : EReal) := by
  obtain ⟨a, rfl⟩ := hx; exact ⟨Real.exp a, Real.exp_pos a, rfl⟩

/-- A finite sum of positive real numbers over a nonempty index set is a positive real number. -/
theorem sum_pos_real {ι : Type} [Fintype ι] [Nonempty ι] (f : ι → EReal)
    (hf : ∀ k, ∃ r : ℝ, 0 < r ∧ f k = (r : EReal)) : ∃ r : ℝ, 0 < r ∧ ∑ k, f k = (r : EReal) := by
  choose g hg using hf
  exact ⟨∑ k, g k, Finset.sum_pos (fun k _ => (hg k).1) Finset.univ_nonempty,
    by rw [Cert.Attn.coe_sum_univ]; exact Finset.sum_congr rfl fun k _ => (hg k).2⟩

/-- The quotient of a real number by a nonzero real number is real. -/
theorem div_real_of_ne_zero {x y : EReal} (hx : ∃ r : ℝ, x = (r : EReal)) (hy : ∃ r : ℝ, r ≠ 0 ∧ y = (r : EReal)) :
    ∃ r : ℝ, Ideal.div x y = (r : EReal) := by
  obtain ⟨a, rfl⟩ := hx; obtain ⟨b, hb, rfl⟩ := hy
  exact ⟨a * (1 / b), by rw [Ideal.div_coe hb, EReal.coe_mul]⟩

/-- The quotient of a real number by a positive real number is real. -/
theorem div_real_pos {x y : EReal} (hx : ∃ r : ℝ, x = (r : EReal)) (hy : ∃ r : ℝ, 0 < r ∧ y = (r : EReal)) :
    ∃ r : ℝ, Ideal.div x y = (r : EReal) := by
  obtain ⟨b, hb, hyb⟩ := hy; exact div_real_of_ne_zero hx ⟨b, hb.ne', hyb⟩

/-- An entry of the softmax of real logits d, shifted by a real M, the sum taken from a zero accumulator:
    exp (d j − M) / (0 + Σ_k exp (d k − M)) is real. -/
theorem softmax_entry_real {ι : Type} [Fintype ι] (d : ι → EReal) (M : EReal)
    (hd : ∀ k, ∃ r : ℝ, d k = (r : EReal)) (hM : ∃ r : ℝ, M = (r : EReal)) (j : ι) :
    ∃ r : ℝ, Ideal.div (Ideal.exp (d j - M)) (0 + ∑ k, Ideal.exp (d k - M)) = (r : EReal) := by
  haveI : Nonempty ι := ⟨j⟩
  have hpos : ∀ k, ∃ r : ℝ, 0 < r ∧ Ideal.exp (d k - M) = (r : EReal) := fun k => exp_real_pos (real_sub (hd k) hM)
  obtain ⟨e, _, he⟩ := hpos j
  refine div_real_pos ⟨e, he⟩ ?_
  rw [zero_add]; exact sum_pos_real _ hpos

/-- The same with M the maximum the programs compute, max(−∞, max_k d k). -/
theorem softmax_entry_real_max {ι : Type} [Fintype ι] (d : ι → EReal) (hd : ∀ k, ∃ r : ℝ, d k = (r : EReal))
    (j : ι) :
    ∃ r : ℝ, Ideal.div (Ideal.exp (d j - max (⊥ : EReal) (Finset.univ.fold max (⊥ : EReal) d)))
        (0 + ∑ k, Ideal.exp (d k - max (⊥ : EReal) (Finset.univ.fold max (⊥ : EReal) d))) = (r : EReal) := by
  haveI : Nonempty ι := ⟨j⟩
  exact softmax_entry_real d _ hd (max_bot_fold_max_real d hd) j

/-! ### The exponential linear unit -/

/-- The exponential linear unit as the programs compute it at one entry: v if v > 0, else 1 · (exp w − 1) with
    w = 0 if v > 0, else v. -/
def elu (v : EReal) : EReal :=
  Scalar.select (Ideal.cmp .ogt v 0) v (1 * (Ideal.exp (Scalar.select (Ideal.cmp .ogt v 0) 0 v) - 1))

/-- At a real number r the unit is r for r > 0 and exp r − 1 otherwise. -/
theorem elu_coe (r : ℝ) : elu (r : EReal) = ((if 0 < r then r else Real.exp r - 1 : ℝ) : EReal) := by
  unfold elu Scalar.select
  by_cases h : 0 < r
  · have hc : Ideal.cmp .ogt (r : EReal) 0 = 1 := by
      show BitVec.ofBool (decide ((0 : EReal) < (r : EReal))) = 1
      rw [decide_eq_true (by exact_mod_cast h)]; rfl
    rw [if_pos hc, if_pos h]
  · have hc : ¬ Ideal.cmp .ogt (r : EReal) 0 = 1 := by
      show ¬ BitVec.ofBool (decide ((0 : EReal) < (r : EReal))) = 1
      rw [decide_eq_false (by exact_mod_cast h)]; decide
    rw [if_neg hc, if_neg hc, if_neg h, one_mul, EReal.coe_sub, EReal.coe_one]
    rfl

/-- The exponential linear unit maps real numbers to real numbers. -/
theorem elu_real {v : EReal} (hv : ∃ r : ℝ, v = (r : EReal)) : ∃ r : ℝ, elu v = (r : EReal) := by
  obtain ⟨r, rfl⟩ := hv; exact ⟨_, elu_coe r⟩

/-! ### The mask -/

/-- The unsigned reading of a one-bit word is 0 or 1. -/
theorem uitofp_bit (b : BitVec 1) : ((b.toNat : ℝ) : EReal) = 0 ∨ ((b.toNat : ℝ) : EReal) = 1 := by
  have hlt : b.toNat < 2 := b.isLt
  rcases (by omega : b.toNat = 0 ∨ b.toNat = 1) with h | h
  · left; rw [h]; simp
  · right; rw [h]; simp

/-- The same for the conversion as the programs spell it. -/
theorem uitofp_i1 (φ : FTy) (b : BitVec 1) :
    FloatOps.uitofp (F := Ideal) φ b = 0 ∨ FloatOps.uitofp (F := Ideal) φ b = 1 := uitofp_bit b

end Cert.GatSgc

end
-- ==== Proof.LibRealArrays.lean ====
/-
  Arrays all of whose entries are real numbers, over the extended reals.

  The extended reals carry ±∞, at which cancellation and distributivity fail; an argument that uses them needs every
  entry involved to be a real. This module propagates "every entry is a real" through the operations a graph network's
  host code is made of: a gather reads entries of its operand, an accumulating scatter adds finitely many update entries
  to an operand entry, the pointwise sum, difference, product and maximum of real entries are real, and the reciprocal
  of a count clamped below by one is a positive real.
-/
import Idealize.ShloMosaic.PureOps.Ideal.Laws
import Idealize.ShloMosaic.Lib.ValueIdx
import Idealize.ShloMosaic.Lib.Pipeline.Value
import proofs.«113720_j13494787244371_1_alg».proof.Proof.LibRealClosure

noncomputable section

open Idealize.ShloMosaic

namespace Cert.RealArrays

/-- Every entry of the array is a real number. -/
def AllReal {ι : Type*} (v : ι → EReal) : Prop := ∀ i, ∃ r : ℝ, v i = (r : EReal)

/-- A finite sum of reals is a real. -/
theorem real_finset_sum {ι : Type*} (s : Finset ι) (f : ι → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    obtain ⟨r1, h1⟩ := hf a (Finset.mem_insert_self _ _)
    obtain ⟨r2, h2⟩ := ih (fun k hk => hf k (Finset.mem_insert_of_mem hk))
    exact ⟨r1 + r2, by rw [h1, h2, EReal.coe_add]⟩

/-- The maximum of two reals is a real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total a b with h | h
  · exact ⟨b, max_eq_right (EReal.coe_le_coe_iff.mpr h)⟩
  · exact ⟨a, max_eq_left (EReal.coe_le_coe_iff.mpr h)⟩

/-- A gather reads entries of its operand. -/
theorem allReal_gather {s si t : Shape} {w : ℕ} (d : GatherDims s si t) (x : s.Idx → EReal) (idx : IVec si w)
    (hx : AllReal x) : AllReal (Host.gather d x idx) := fun _ => hx _

/-- An accumulating scatter adds finitely many update entries to an operand entry. -/
theorem allReal_scatterAdd {s si u : Shape} {w : ℕ} {φ : FTy} (d : ScatterDims s si u) (x : FVec Ideal s φ) (idx : IVec si w)
    (upd : FVec Ideal u φ) (hx : AllReal x) (hu : AllReal upd) : AllReal (Host.scatterAdd d x idx upd) := fun i => by
  show ∃ r : ℝ, x i + ∑ j ∈ Finset.univ.filter (fun j => d.resultIdx? j idx = some i), upd j = (r : EReal)
  obtain ⟨r1, h1⟩ := hx i
  obtain ⟨r2, h2⟩ := real_finset_sum _ upd (fun k _ => hu k)
  exact ⟨r1 + r2, by rw [h1, h2, EReal.coe_add]⟩

theorem allReal_mulf {s : Shape} {φ : FTy} (a b : FVec Ideal s φ) (ha : AllReal a) (hb : AllReal b) : AllReal (mulf a b) :=
  fun i => Cert.GatSgc.real_mul (ha i) (hb i)

theorem allReal_addf {s : Shape} {φ : FTy} (a b : FVec Ideal s φ) (ha : AllReal a) (hb : AllReal b) : AllReal (addf a b) :=
  fun i => Cert.GatSgc.real_add (ha i) (hb i)

theorem allReal_subf {s : Shape} {φ : FTy} (a b : FVec Ideal s φ) (ha : AllReal a) (hb : AllReal b) : AllReal (subf a b) :=
  fun i => Cert.GatSgc.real_sub (ha i) (hb i)

theorem allReal_maximumf {s : Shape} {φ : FTy} (a b : FVec Ideal s φ) (ha : AllReal a) (hb : AllReal b) :
    AllReal (maximumf a b) := fun i => real_max (ha i) (hb i)

/-- A broadcast reads entries of its operand. -/
theorem allReal_broadcastInDim {s t : Shape} (dims : Fin s.rank → Fin t.rank) (h : s.BroadcastsInDim t dims) (x : s.Idx → EReal)
    (hx : AllReal x) : AllReal (broadcastInDim t dims h x) := fun j => by
  unfold broadcastInDim
  exact hx _

/-- The zero word read anywhere is the real 0. -/
theorem allReal_zero (s : Shape) : AllReal (constant (F := Ideal) s .f32 0x00000000#32) := fun _ =>
  ⟨0, by show Ideal.ofBits .f32 0x00000000#32 = _; rw [Ideal.ofBits_zero_f32]; rfl⟩

/-- The word of 1.0 read anywhere is the real 1. -/
theorem allReal_one (s : Shape) : AllReal (constant (F := Ideal) s .f32 0x3F800000#32) := fun _ =>
  ⟨1, by show Ideal.ofBits .f32 0x3F800000#32 = _; rw [Cert.GatSgc.ofBits_one_f32]; rfl⟩

/-- The reciprocal of a count clamped below by one: ones scattered into zeros give a real count at every entry, its
    maximum with one is a positive real, and one over that is a real. -/
theorem allReal_inv_count {s si su : Shape} {w : ℕ} (d : ScatterDims s si su) (idx : IVec si w)
    (b1 b0 b1' : (⟨0, ![]⟩ : Shape).BroadcastsInDim s (![] : Fin 0 → Fin s.rank))
    (bu : (⟨0, ![]⟩ : Shape).BroadcastsInDim su (![] : Fin 0 → Fin su.rank)) :
    AllReal (Host.divf (broadcastInDim s (![] : Fin 0 → Fin s.rank) b1 (constant (F := Ideal) ⟨0, ![]⟩ .f32 0x3F800000#32))
      (maximumf (Host.scatterAdd d (broadcastInDim s (![] : Fin 0 → Fin s.rank) b0 (constant (F := Ideal) ⟨0, ![]⟩ .f32 0x00000000#32)) idx
          (broadcastInDim su (![] : Fin 0 → Fin su.rank) bu (constant (F := Ideal) ⟨0, ![]⟩ .f32 0x3F800000#32)))
        (broadcastInDim s (![] : Fin 0 → Fin s.rank) b1' (constant (F := Ideal) ⟨0, ![]⟩ .f32 0x3F800000#32)))) := fun i => by
  have hone : ∀ (b : (⟨0, ![]⟩ : Shape).BroadcastsInDim s (![] : Fin 0 → Fin s.rank)),
      broadcastInDim s (![] : Fin 0 → Fin s.rank) b (constant (F := Ideal) ⟨0, ![]⟩ .f32 0x3F800000#32) i = (1 : EReal) := fun b => by
    unfold broadcastInDim
    show Ideal.ofBits .f32 0x3F800000#32 = _
    exact Cert.GatSgc.ofBits_one_f32
  obtain ⟨r, hr⟩ := allReal_scatterAdd d _ idx _ (allReal_broadcastInDim _ b0 _ (allReal_zero _))
    (allReal_broadcastInDim _ bu _ (allReal_one _)) i
  show ∃ q : ℝ, Ideal.div (broadcastInDim s (![] : Fin 0 → Fin s.rank) b1 (constant (F := Ideal) ⟨0, ![]⟩ .f32 0x3F800000#32) i)
    (max (Host.scatterAdd d (broadcastInDim s (![] : Fin 0 → Fin s.rank) b0 (constant (F := Ideal) ⟨0, ![]⟩ .f32 0x00000000#32)) idx
        (broadcastInDim su (![] : Fin 0 → Fin su.rank) bu (constant (F := Ideal) ⟨0, ![]⟩ .f32 0x3F800000#32)) i)
      (broadcastInDim s (![] : Fin 0 → Fin s.rank) b1' (constant (F := Ideal) ⟨0, ![]⟩ .f32 0x3F800000#32) i)) = (q : EReal)
  rw [hone b1, hr]
  refine Cert.GatSgc.div_real_pos Cert.GatSgc.real_one ⟨max r 1, lt_max_of_lt_right one_pos, ?_⟩
  rcases le_total r 1 with h | h
  · rw [max_eq_right h, max_eq_right (by exact_mod_cast h)]; rfl
  · rw [max_eq_left h, max_eq_left (by exact_mod_cast h)]

end Cert.RealArrays

end
-- ==== Proof.LayerBridge.lean ====
/-
  One layer's statistics in the two programs' spellings, and why the layer's output has real entries.

  The kernel program keeps, per column of the linear stage L, the sum S and the sum of squares Q over the 100000 rows,
  and forms the mean S / n and the variance Q / n − (S / n)². The reference forms the mean (0 + S) / n and the variance
  (0 + Σ (x − mean)²) / n. The means are the same extended real always; the variances are the same when every entry of
  the column is a real number (`variance_forms`). For real entries the variance is a nonnegative real, so
  rsqrt(variance + ε), with ε a positive real, is a real, and the normalised, scaled, shifted, clipped entry is a real.
-/
import proofs.«113720_j13494787244371_1_alg».proof.Proof.LibVarianceForms
import proofs.«113720_j13494787244371_1_alg».proof.Proof.LibHostForms
import proofs.«113720_j13494787244371_1_alg».proof.Proof.LibRealArrays

noncomputable section

open Idealize.ShloMosaic Idealize.ShloMosaic.ValueIdx
open Cert.MatrixProduct Cert.Gcn Cert.SageLinear Cert.NormalizeRows Cert.HostForms Cert.RealArrays Cert.VarianceForms
open scoped BigOperators

namespace Cert.LayerBridge

/-! ## The float words the two programs write -/

/-- The row count 100000.0. -/
theorem ofBits_count : Ideal.ofBits .f32 0x47C35000#32 = ((100000 : ℝ) : EReal) := by
  simp [Ideal.ofBits, Ideal.ieee, -EReal.coe_mul]; norm_num

/-- The ε of the normalisation, 10995116 / 2^40. -/
theorem ofBits_eps : Ideal.ofBits .f32 0x3727C5AC#32 = ((10995116 / 1099511627776 : ℝ) : EReal) := by
  simp [Ideal.ofBits, Ideal.ieee, -EReal.coe_mul]; norm_num

/-! ## The kernel program's mean and variance rows -/

/-- The mean row: each column sum over the count word. -/
def kMean {C : ℕ} (cnt : BitVec 32) (S : (⟨2, ![1, C]⟩ : Shape).Idx → EReal) : (⟨2, ![1, C]⟩ : Shape).Idx → EReal :=
  fun i => Ideal.div (S i) (Ideal.ofBits .f32 cnt)

/-- The variance row: the mean of the squares minus the square of the mean. -/
def kVar {C : ℕ} (cnt : BitVec 32) (S Q : (⟨2, ![1, C]⟩ : Shape).Idx → EReal) : (⟨2, ![1, C]⟩ : Shape).Idx → EReal :=
  fun i => Ideal.div (Q i) (Ideal.ofBits .f32 cnt) - kMean cnt S i * kMean cnt S i

/-- The kernel's mean row is the host's column means as a row. -/
theorem kMean_eq {M C : ℕ} (cnt : BitVec 32) (L : (⟨2, ![M, C]⟩ : Shape).Idx → EReal) :
    kMean cnt (colSum L) = rowOf (colMean cnt L) := by
  funext j
  obtain ⟨u, q, rfl⟩ : ∃ (u : Fin 1) (q : Fin C), j = ix2 u q := ⟨j 0, j 1, eq_ix2 j⟩
  show Ideal.div (∑ r : Fin M, L (ix2 r q)) _ = Ideal.div (Ideal.ofBits .f32 0x00000000#32 + ∑ r : Fin M, L (ix2 r q)) _
  rw [Ideal.ofBits_zero_f32, zero_add]

/-- The kernel's variance row is the host's column variances as a row, when every entry is a real number. -/
theorem kVar_eq (C : ℕ) (L : (⟨2, ![100000, C]⟩ : Shape).Idx → EReal) (hL : AllReal L) :
    kVar 0x47C35000#32 (colSum L) (colSumSq L) = rowOf (colVar 0x47C35000#32 L (colMean 0x47C35000#32 L)) := by
  funext j
  obtain ⟨u, q, rfl⟩ : ∃ (u : Fin 1) (q : Fin C), j = ix2 u q := ⟨j 0, j 1, eq_ix2 j⟩
  choose x hx using fun r : Fin 100000 => hL (ix2 r q)
  show Ideal.div (∑ r : Fin 100000, L (ix2 r q) * L (ix2 r q)) (Ideal.ofBits .f32 0x47C35000#32)
      - Ideal.div (∑ r : Fin 100000, L (ix2 r q)) (Ideal.ofBits .f32 0x47C35000#32)
        * Ideal.div (∑ r : Fin 100000, L (ix2 r q)) (Ideal.ofBits .f32 0x47C35000#32)
    = Ideal.div (Ideal.ofBits .f32 0x00000000#32 + ∑ r : Fin 100000,
        (L (ix2 r q) - Ideal.div (Ideal.ofBits .f32 0x00000000#32 + ∑ s : Fin 100000, L (ix2 s q)) (Ideal.ofBits .f32 0x47C35000#32))
        * (L (ix2 r q) - Ideal.div (Ideal.ofBits .f32 0x00000000#32 + ∑ s : Fin 100000, L (ix2 s q)) (Ideal.ofBits .f32 0x47C35000#32)))
      (Ideal.ofBits .f32 0x47C35000#32)
  simp only [hx, Ideal.ofBits_zero_f32, zero_add, ofBits_count]
  exact variance_forms x 100000 (by norm_num) (by simp)

/-! ## Real entries -/

/-- The linear stage of arrays with real entries has real entries. -/
theorem lin_real {M K N : ℕ} (X A : (⟨2, ![M, K]⟩ : Shape).Idx → EReal) (Wl Wr : (⟨2, ![N, K]⟩ : Shape).Idx → EReal)
    (b : (⟨2, ![1, N]⟩ : Shape).Idx → EReal) (hX : AllReal X) (hA : AllReal A) (hWl : AllReal Wl) (hWr : AllReal Wr)
    (hb : AllReal b) : AllReal (lin X A Wl Wr b) := fun i =>
  Cert.GatSgc.real_add (Cert.GatSgc.real_add (Cert.GatSgc.real_sum_mul _ _ (fun k => hA _) (fun k => hWl _)) (hb _))
    (Cert.GatSgc.real_sum_mul _ _ (fun k => hX _) (fun k => hWr _))

/-- The host's column means of an array with real entries are reals. -/
theorem colMean_real (C : ℕ) (L : (⟨2, ![100000, C]⟩ : Shape).Idx → EReal) (hL : AllReal L) :
    AllReal (colMean 0x47C35000#32 L) := fun i => by
  choose x hx using fun r : Fin 100000 => hL (ix2 r (i 0))
  refine ⟨(∑ r, x r) * (1 / 100000), ?_⟩
  show Ideal.div (Ideal.ofBits .f32 0x00000000#32 + ∑ r : Fin 100000, L (ix2 r (i 0))) (Ideal.ofBits .f32 0x47C35000#32) = _
  simp only [hx, Ideal.ofBits_zero_f32, zero_add, ofBits_count]
  exact mean_real x 100000 (by norm_num)

/-- The host's column variances of an array with real entries are nonnegative reals. -/
theorem colVar_nonneg (C : ℕ) (L : (⟨2, ![100000, C]⟩ : Shape).Idx → EReal) (hL : AllReal L) (i : (⟨1, ![C]⟩ : Shape).Idx) :
    ∃ v : ℝ, 0 ≤ v ∧ colVar 0x47C35000#32 L (colMean 0x47C35000#32 L) i = (v : EReal) := by
  choose x hx using fun r : Fin 100000 => hL (ix2 r (i 0))
  obtain ⟨v, hv, e⟩ := variance_nonneg x 100000 (by norm_num)
  refine ⟨v, hv, ?_⟩
  show Ideal.div (Ideal.ofBits .f32 0x00000000#32 + ∑ r : Fin 100000,
        (L (ix2 r (i 0)) - Ideal.div (Ideal.ofBits .f32 0x00000000#32 + ∑ s : Fin 100000, L (ix2 s (i 0))) (Ideal.ofBits .f32 0x47C35000#32))
        * (L (ix2 r (i 0)) - Ideal.div (Ideal.ofBits .f32 0x00000000#32 + ∑ s : Fin 100000, L (ix2 s (i 0))) (Ideal.ofBits .f32 0x47C35000#32)))
      (Ideal.ofBits .f32 0x47C35000#32) = _
  simp only [hx, Ideal.ofBits_zero_f32, zero_add, ofBits_count]
  exact e

/-- The inverse square root of a nonnegative real plus ε is a real. -/
theorem rsqrt_real {v : ℝ} (hv : 0 ≤ v) :
    ∃ r : ℝ, Ideal.rsqrt ((v : EReal) + Ideal.ofBits .f32 0x3727C5AC#32) = (r : EReal) := by
  rw [ofBits_eps, ← EReal.coe_add, Ideal.rsqrt_coe]
  have hpos : 0 < v + 10995116 / 1099511627776 := by positivity
  rw [if_neg (not_lt.mpr hpos.le), if_neg hpos.ne']
  exact ⟨_, rfl⟩

/-- The normalised, scaled, shifted and clipped array has real entries when its five inputs do and the variance row is
    nonnegative. -/
theorem normRelu_real {M C : ℕ} (L : (⟨2, ![M, C]⟩ : Shape).Idx → EReal) (mean var g b : (⟨2, ![1, C]⟩ : Shape).Idx → EReal)
    (hL : AllReal L) (hmean : AllReal mean) (hvar : ∀ i, ∃ v : ℝ, 0 ≤ v ∧ var i = (v : EReal)) (hg : AllReal g) (hb : AllReal b) :
    AllReal (normRelu L mean var g b) := fun i => by
  obtain ⟨v, hv, ev⟩ := hvar (ix2 (0 : Fin 1) (i 1))
  show ∃ r : ℝ, max ((L i - mean (ix2 (0 : Fin 1) (i 1))) * Ideal.rsqrt (var (ix2 (0 : Fin 1) (i 1)) + Ideal.ofBits .f32 0x3727C5AC#32)
      * g (ix2 (0 : Fin 1) (i 1)) + b (ix2 (0 : Fin 1) (i 1))) (Ideal.ofBits .f32 0x00000000#32) = (r : EReal)
  rw [ev, Ideal.ofBits_zero_f32]
  exact real_max (Cert.GatSgc.real_add (Cert.GatSgc.real_mul (Cert.GatSgc.real_mul (Cert.GatSgc.real_sub (hL i) (hmean _))
    (rsqrt_real hv)) (hg _)) (hb _)) Cert.GatSgc.real_zero

end Cert.LayerBridge

end
-- ==== Proof.KEval.lean ====
/-
  The kernel program's small host stretches, evaluated from arbitrary contents: a bias, scale or shift vector reshaped
  to a 1 × C row is the vector's row; the mean row is the column-sum row over the count word; the variance row is the
  sum-of-squares row over the count word minus the square of the mean row.
-/
import proofs.«113720_j13494787244371_1_alg».proof.Proof.Gen.KernelIdeal.Frame
import proofs.«113720_j13494787244371_1_alg».proof.Proof.LayerBridge
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx
open Cert.Gcn Cert.SageLinear Cert.HostForms Cert.LayerBridge

namespace Cert.KernelIdeal.Eval

open Cert.KernelIdeal Cert.KernelIdeal.Gen

/-- A 1 × C row over the broadcast count word is the mean row. -/
theorem divf_count_eq {C : ℕ} (cnt : BitVec 32) (S : FVec Ideal ⟨2, ![1, C]⟩ .f32)
    (b : (⟨0, ![]⟩ : Shape).BroadcastsInDim ⟨2, ![1, C]⟩ (![] : Fin 0 → Fin 2)) :
    Host.divf S (broadcastInDim ⟨2, ![1, C]⟩ (![] : Fin 0 → Fin 2) b (constant (F := Ideal) ⟨0, ![]⟩ .f32 cnt)) = kMean cnt S := by
  funext i
  show Ideal.div (S i) (broadcastInDim ⟨2, ![1, C]⟩ (![] : Fin 0 → Fin 2) b (constant (F := Ideal) ⟨0, ![]⟩ .f32 cnt) i) = _
  rw [bcast_const_apply]
  rfl

set_option maxHeartbeats 4000000 in
theorem main_v25_eq (W : Valuation τ sig (Elt Ideal)) :
    after (hostOps0 (F := Ideal)) W (Proc.devRef .tc main_v25) = rowOf (n := 64) (W (Proc.devRef .tc main_arg4)) := by
  after_results_simp
  exact cast_row_eq_rowOf _ _

set_option maxHeartbeats 4000000 in
theorem main_v49_eq (W : Valuation τ sig (Elt Ideal)) :
    after (hostOps2 (F := Ideal)) W (Proc.devRef .tc main_v49) = rowOf (n := 64) (W (Proc.devRef .tc main_arg9)) := by
  after_results_simp
  exact cast_row_eq_rowOf _ _

set_option maxHeartbeats 4000000 in
theorem main_v73_eq (W : Valuation τ sig (Elt Ideal)) :
    after (hostOps4 (F := Ideal)) W (Proc.devRef .tc main_v73) = rowOf (n := 64) (W (Proc.devRef .tc main_arg14)) := by
  after_results_simp
  exact cast_row_eq_rowOf _ _

set_option maxHeartbeats 4000000 in
theorem main_v96_eq (W : Valuation τ sig (Elt Ideal)) :
    after (hostOps6 (F := Ideal)) W (Proc.devRef .tc main_v96) = rowOf (n := 64) (W (Proc.devRef .tc main_arg19)) := by
  after_results_simp
  exact cast_row_eq_rowOf _ _

set_option maxHeartbeats 4000000 in
theorem main_v97_eq (W : Valuation τ sig (Elt Ideal)) :
    after (hostOps6 (F := Ideal)) W (Proc.devRef .tc main_v97) = rowOf (n := 2) (W (Proc.devRef .tc main_arg21)) := by
  after_results_simp
  exact cast_row_eq_rowOf _ _

set_option maxHeartbeats 4000000 in
theorem main_v28_eq (W : Valuation τ sig (Elt Ideal)) :
    after (hostOps1 (F := Ideal)) W (Proc.devRef .tc main_v28) = kMean (C := 64) 0x47C35000#32 (W (Proc.devRef .tc main_v26_1)) := by
  after_results_simp
  exact divf_count_eq _ _ _

set_option maxHeartbeats 4000000 in
theorem main_v32_eq (W : Valuation τ sig (Elt Ideal)) :
    after (hostOps1 (F := Ideal)) W (Proc.devRef .tc main_v32)
      = kVar (C := 64) 0x47C35000#32 (W (Proc.devRef .tc main_v26_1)) (W (Proc.devRef .tc main_v26_2)) := by
  after_results_simp
  rw [divf_count_eq, divf_count_eq]
  rfl

set_option maxHeartbeats 4000000 in
theorem main_v33_eq (W : Valuation τ sig (Elt Ideal)) :
    after (hostOps1 (F := Ideal)) W (Proc.devRef .tc main_v33) = rowOf (n := 64) (W (Proc.devRef .tc main_arg6)) := by
  after_results_simp
  exact cast_row_eq_rowOf _ _

set_option maxHeartbeats 4000000 in
theorem main_v34_eq (W : Valuation τ sig (Elt Ideal)) :
    after (hostOps1 (F := Ideal)) W (Proc.devRef .tc main_v34) = rowOf (n := 64) (W (Proc.devRef .tc main_arg7)) := by
  after_results_simp
  exact cast_row_eq_rowOf _ _

set_option maxHeartbeats 4000000 in
theorem main_v52_eq (W : Valuation τ sig (Elt Ideal)) :
    after (hostOps3 (F := Ideal)) W (Proc.devRef .tc main_v52) = kMean (C := 64) 0x47C35000#32 (W (Proc.devRef .tc main_v50_1)) := by
  after_results_simp
  exact divf_count_eq _ _ _

set_option maxHeartbeats 4000000 in
theorem main_v56_eq (W : Valuation τ sig (Elt Ideal)) :
    after (hostOps3 (F := Ideal)) W (Proc.devRef .tc main_v56)
      = kVar (C := 64) 0x47C35000#32 (W (Proc.devRef .tc main_v50_1)) (W (Proc.devRef .tc main_v50_2)) := by
  after_results_simp
  rw [divf_count_eq, divf_count_eq]
  rfl

set_option maxHeartbeats 4000000 in
theorem main_v57_eq (W : Valuation τ sig (Elt Ideal)) :
    after (hostOps3 (F := Ideal)) W (Proc.devRef .tc main_v57) = rowOf (n := 64) (W (Proc.devRef .tc main_arg11)) := by
  after_results_simp
  exact cast_row_eq_rowOf _ _

set_option maxHeartbeats 4000000 in
theorem main_v58_eq (W : Valuation τ sig (Elt Ideal)) :
    after (hostOps3 (F := Ideal)) W (Proc.devRef .tc main_v58) = rowOf (n := 64) (W (Proc.devRef .tc main_arg12)) := by
  after_results_simp
  exact cast_row_eq_rowOf _ _

set_option maxHeartbeats 4000000 in
theorem main_v76_eq (W : Valuation τ sig (Elt Ideal)) :
    after (hostOps5 (F := Ideal)) W (Proc.devRef .tc main_v76) = kMean (C := 64) 0x47C35000#32 (W (Proc.devRef .tc main_v74_1)) := by
  after_results_simp
  exact divf_count_eq _ _ _

set_option maxHeartbeats 4000000 in
theorem main_v80_eq (W : Valuation τ sig (Elt Ideal)) :
    after (hostOps5 (F := Ideal)) W (Proc.devRef .tc main_v80)
      = kVar (C := 64) 0x47C35000#32 (W (Proc.devRef .tc main_v74_1)) (W (Proc.devRef .tc main_v74_2)) := by
  after_results_simp
  rw [divf_count_eq, divf_count_eq]
  rfl

set_option maxHeartbeats 4000000 in
theorem main_v81_eq (W : Valuation τ sig (Elt Ideal)) :
    after (hostOps5 (F := Ideal)) W (Proc.devRef .tc main_v81) = rowOf (n := 64) (W (Proc.devRef .tc main_arg16)) := by
  after_results_simp
  exact cast_row_eq_rowOf _ _

set_option maxHeartbeats 4000000 in
theorem main_v82_eq (W : Valuation τ sig (Elt Ideal)) :
    after (hostOps5 (F := Ideal)) W (Proc.devRef .tc main_v82) = rowOf (n := 64) (W (Proc.devRef .tc main_arg17)) := by
  after_results_simp
  exact cast_row_eq_rowOf _ _

end Cert.KernelIdeal.Eval

end
-- ==== Proof.RefPieces.lean ====
/-
  The reference program's 216 host operations, cut into eleven consecutive pieces, one per stage of the network:
  the edge lists, degrees and first aggregation (A); then per layer the linear stage (B, E, H), the normalisation with
  its statistics and positive part (C, F, I) and the next aggregation (D, G); the pooling over graphs (J); the head (K).
  The contents after the whole list are the contents after the pieces applied in order.
-/
import proofs.«113720_j13494787244371_1_alg».proof.Proof.RefRunP

noncomputable section

namespace Cert.ReferenceIdeal.Pieces

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The contents after two lines of operations run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 0 … 31. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S3200000 ![] bcast_S_S3200000 : (⟨S_, .i32⟩ : BufTy).Contents (Elt F) → (⟨S3200000, .i32⟩ : BufTy).Contents (Elt F)),
    binary main_v1 main_v12 main_v13 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v14 (broadcastInDim S3200000 ![] bcast_S_S3200000 : (⟨S_, .i32⟩ : BufTy).Contents (Elt F) → (⟨S3200000, .i32⟩ : BufTy).Contents (Elt F)),
    binary main_v1 main_v14 main_v15 (addi : (⟨S3200000, .i32⟩ : BufTy).Contents (Elt F) → (⟨S3200000, .i32⟩ : BufTy).Contents (Elt F) → (⟨S3200000, .i32⟩ : BufTy).Contents (Elt F)),
    ternary main_v13 main_v15 main_v1 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v16 main_v17 (broadcastInDim S3200000x1 ![0] bcast_S3200000_S3200000x1_0 : (⟨S3200000, .i32⟩ : BufTy).Contents (Elt F) → (⟨S3200000x1, .i32⟩ : BufTy).Contents (Elt F)),
    binary main_arg0 main_v17 main_v18 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    nullary main_cst_4 (constant S_ .f32 0x00000000#32),
    unary main_cst_4 main_v19 (broadcastInDim S100000x4 ![] bcast_S_S100000x4 : (⟨S_, .f32⟩ : BufTy).Contents (Elt F) → (⟨S100000x4, .f32⟩ : BufTy).Contents (Elt F)),
    unary main_v3 main_v20 (broadcastInDim S3200000x1 ![0] bcast_S3200000_S3200000x1_0 : (⟨S3200000, .i32⟩ : BufTy).Contents (Elt F) → (⟨S3200000x1, .i32⟩ : BufTy).Contents (Elt F)),
    ternary main_v19 main_v20 main_v18 main_v21 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x4 ![0, 1] bcast_S100000x1_S100000x4_0_1 : (⟨S100000x1, .f32⟩ : BufTy).Contents (Elt F) → (⟨S100000x4, .f32⟩ : BufTy).Contents (Elt F)),
    binary main_v21 main_v23 main_v24 (mulf : (⟨S100000x4, .f32⟩ : BufTy).Contents (Elt F) → (⟨S100000x4, .f32⟩ : BufTy).Contents (Elt F) → (⟨S100000x4, .f32⟩ : BufTy).Contents (Elt F)) ]

/-- Operations 32 … 39. -/
abbrev opsB : List (HloOp τ sig (Elt F)) :=
  [ unary main_arg3 main_v25 ((transpose S4x64 [1, 0] · transposes_S64x4_S4x64_1_0) : (⟨S64x4, .f32⟩ : BufTy).Contents (Elt F) → (⟨S4x64, .f32⟩ : BufTy).Contents (Elt F)),
    binary main_v24 main_v25 main_v26 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    unary main_arg4 main_v27 (broadcastInDim S1x64 ![1] bcast_S64_S1x64_1 : (⟨S64, .f32⟩ : BufTy).Contents (Elt F) → (⟨S1x64, .f32⟩ : BufTy).Contents (Elt F)),
    unary main_v27 main_v28 (broadcastInDim S100000x64 ![0, 1] bcast_S1x64_S100000x64_0_1 : (⟨S1x64, .f32⟩ : BufTy).Contents (Elt F) → (⟨S100000x64, .f32⟩ : BufTy).Contents (Elt F)),
    binary main_v26 main_v28 main_v29 (addf : (⟨S100000x64, .f32⟩ : BufTy).Contents (Elt F) → (⟨S100000x64, .f32⟩ : BufTy).Contents (Elt F) → (⟨S100000x64, .f32⟩ : BufTy).Contents (Elt F)),
    unary main_arg5 main_v30 ((transpose S4x64 [1, 0] · transposes_S64x4_S4x64_1_0) : (⟨S64x4, .f32⟩ : BufTy).Contents (Elt F) → (⟨S4x64, .f32⟩ : BufTy).Contents (Elt F)),
    binary main_arg0 main_v30 main_v31 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)) ]

/-- Operations 40 … 72. -/
abbrev opsC : List (HloOp τ sig (Elt F)) :=
  [ nullary main_cst_5 (constant S_ .f32 0x00000000#32),
    binary main_v32 main_cst_5 main_v33 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v34 (broadcastInDim S64 ![] bcast_S_S64 : (⟨S_, .f32⟩ : BufTy).Contents (Elt F) → (⟨S64, .f32⟩ : BufTy).Contents (Elt F)),
    binary main_v33 main_v34 main_v35 (Host.divf : (⟨S64, .f32⟩ : BufTy).Contents (Elt F) → (⟨S64, .f32⟩ : BufTy).Contents (Elt F) → (⟨S64, .f32⟩ : BufTy).Contents (Elt F)),
    unary main_v35 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v32 main_v37 main_v38 (subf : (⟨S100000x64, .f32⟩ : BufTy).Contents (Elt F) → (⟨S100000x64, .f32⟩ : BufTy).Contents (Elt F) → (⟨S100000x64, .f32⟩ : BufTy).Contents (Elt F)),
    binary main_v38 main_v38 main_v39 (mulf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x00000000#32),
    binary main_v39 main_cst_7 main_v40 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_8 (constant S_ .f32 0x47C35000#32),
    unary main_cst_8 main_v41 (broadcastInDim S64 ![] bcast_S_S64 : (⟨S_, .f32⟩ : BufTy).Contents (Elt F) → (⟨S64, .f32⟩ : BufTy).Contents (Elt F)),
    binary main_v40 main_v41 main_v42 (Host.divf : (⟨S64, .f32⟩ : BufTy).Contents (Elt F) → (⟨S64, .f32⟩ : BufTy).Contents (Elt F) → (⟨S64, .f32⟩ : BufTy).Contents (Elt F)),
    unary main_v35 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v32 main_v44 main_v45 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v46 (broadcastInDim S64 ![] bcast_S_S64 : (⟨S_, .f32⟩ : BufTy).Contents (Elt F) → (⟨S64, .f32⟩ : BufTy).Contents (Elt F)),
    binary main_v42 main_v46 main_v47 (addf : (⟨S64, .f32⟩ : BufTy).Contents (Elt F) → (⟨S64, .f32⟩ : BufTy).Contents (Elt F) → (⟨S64, .f32⟩ : BufTy).Contents (Elt F)),
    unary main_v47 main_v48 (Host.rsqrt : (⟨S64, .f32⟩ : BufTy).Contents (Elt F) → (⟨S64, .f32⟩ : BufTy).Contents (Elt F)),
    unary main_v48 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v45 main_v50 main_v51 (mulf : (⟨S100000x64, .f32⟩ : BufTy).Contents (Elt F) → (⟨S100000x64, .f32⟩ : BufTy).Contents (Elt F) → (⟨S100000x64, .f32⟩ : BufTy).Contents (Elt F)),
    unary main_arg6 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v51 main_v53 main_v54 (mulf : (⟨S100000x64, .f32⟩ : BufTy).Contents (Elt F) → (⟨S100000x64, .f32⟩ : BufTy).Contents (Elt F) → (⟨S100000x64, .f32⟩ : BufTy).Contents (Elt F)),
    unary main_arg7 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v54 main_v56 main_v57 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v57) (TRef.of (T := ⟨S100000x64, .f32⟩) main_call0_v0) (TRef.of (T := ⟨S100000x64, .f32⟩) main_v58) maximumf ]

/-- Operations 73 … 88. -/
abbrev opsD : List (HloOp τ sig (Elt F)) :=
  [ nullary main_c_10 (constantI S_ 32 0#32),
    unary main_c_10 main_v59 (broadcastInDim S3200000 ![] bcast_S_S3200000 : (⟨S_, .i32⟩ : BufTy).Contents (Elt F) → (⟨S3200000, .i32⟩ : BufTy).Contents (Elt F)),
    binary main_v1 main_v59 main_v60 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v61 (broadcastInDim S3200000 ![] bcast_S_S3200000 : (⟨S_, .i32⟩ : BufTy).Contents (Elt F) → (⟨S3200000, .i32⟩ : BufTy).Contents (Elt F)),
    binary main_v1 main_v61 main_v62 (addi : (⟨S3200000, .i32⟩ : BufTy).Contents (Elt F) → (⟨S3200000, .i32⟩ : BufTy).Contents (Elt F) → (⟨S3200000, .i32⟩ : BufTy).Contents (Elt F)),
    ternary main_v60 main_v62 main_v1 main_v63 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v63 main_v64 (broadcastInDim S3200000x1 ![0] bcast_S3200000_S3200000x1_0 : (⟨S3200000, .i32⟩ : BufTy).Contents (Elt F) → (⟨S3200000x1, .i32⟩ : BufTy).Contents (Elt F)),
    binary main_v58 main_v64 main_v65 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_12 (constant S_ .f32 0x00000000#32),
    unary main_cst_12 main_v66 (broadcastInDim S100000x64 ![] bcast_S_S100000x64 : (⟨S_, .f32⟩ : BufTy).Contents (Elt F) → (⟨S100000x64, .f32⟩ : BufTy).Contents (Elt F)),
    unary main_v3 main_v67 (broadcastInDim S3200000x1 ![0] bcast_S3200000_S3200000x1_0 : (⟨S3200000, .i32⟩ : BufTy).Contents (Elt F) → (⟨S3200000x1, .i32⟩ : BufTy).Contents (Elt F)),
    ternary main_v66 main_v67 main_v65 main_v68 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_v11 main_v69 (broadcastInDim S100000x1 ![0] bcast_S100000_S100000x1_0 : (⟨S100000, .f32⟩ : BufTy).Contents (Elt F) → (⟨S100000x1, .f32⟩ : BufTy).Contents (Elt F)),
    unary main_v69 main_v70 (broadcastInDim S100000x64 ![0, 1] bcast_S100000x1_S100000x64_0_1 : (⟨S100000x1, .f32⟩ : BufTy).Contents (Elt F) → (⟨S100000x64, .f32⟩ : BufTy).Contents (Elt F)),
    binary main_v68 main_v70 main_v71 (mulf : (⟨S100000x64, .f32⟩ : BufTy).Contents (Elt F) → (⟨S100000x64, .f32⟩ : BufTy).Contents (Elt F) → (⟨S100000x64, .f32⟩ : BufTy).Contents (Elt F)) ]

/-- Operations 89 … 96. -/
abbrev opsE : List (HloOp τ sig (Elt F)) :=
  [ unary main_arg8 main_v72 ((transpose S64x64 [1, 0] · transposes_S64x64_S64x64_1_0) : (⟨S64x64, .f32⟩ : BufTy).Contents (Elt F) → (⟨S64x64, .f32⟩ : BufTy).Contents (Elt F)),
    binary main_v71 main_v72 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg9 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v73 main_v75 main_v76 (addf : (⟨S100000x64, .f32⟩ : BufTy).Contents (Elt F) → (⟨S100000x64, .f32⟩ : BufTy).Contents (Elt F) → (⟨S100000x64, .f32⟩ : BufTy).Contents (Elt F)),
    unary main_arg10 main_v77 ((transpose S64x64 [1, 0] · transposes_S64x64_S64x64_1_0) : (⟨S64x64, .f32⟩ : BufTy).Contents (Elt F) → (⟨S64x64, .f32⟩ : BufTy).Contents (Elt F)),
    binary main_v58 main_v77 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v76 main_v78 main_v79 (addf : (⟨S100000x64, .f32⟩ : BufTy).Contents (Elt F) → (⟨S100000x64, .f32⟩ : BufTy).Contents (Elt F) → (⟨S100000x64, .f32⟩ : BufTy).Contents (Elt F)) ]

/-- Operations 97 … 129. -/
abbrev opsF : List (HloOp τ sig (Elt F)) :=
  [ nullary main_cst_13 (constant S_ .f32 0x00000000#32),
    binary main_v79 main_cst_13 main_v80 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v81 (broadcastInDim S64 ![] bcast_S_S64 : (⟨S_, .f32⟩ : BufTy).Contents (Elt F) → (⟨S64, .f32⟩ : BufTy).Contents (Elt F)),
    binary main_v80 main_v81 main_v82 (Host.divf : (⟨S64, .f32⟩ : BufTy).Contents (Elt F) → (⟨S64, .f32⟩ : BufTy).Contents (Elt F) → (⟨S64, .f32⟩ : BufTy).Contents (Elt F)),
    unary main_v82 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v79 main_v84 main_v85 (subf : (⟨S100000x64, .f32⟩ : BufTy).Contents (Elt F) → (⟨S100000x64, .f32⟩ : BufTy).Contents (Elt F) → (⟨S100000x64, .f32⟩ : BufTy).Contents (Elt F)),
    binary main_v85 main_v85 main_v86 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v86 main_cst_15 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v88 (broadcastInDim S64 ![] bcast_S_S64 : (⟨S_, .f32⟩ : BufTy).Contents (Elt F) → (⟨S64, .f32⟩ : BufTy).Contents (Elt F)),
    binary main_v87 main_v88 main_v89 (Host.divf : (⟨S64, .f32⟩ : BufTy).Contents (Elt F) → (⟨S64, .f32⟩ : BufTy).Contents (Elt F) → (⟨S64, .f32⟩ : BufTy).Contents (Elt F)),
    unary main_v82 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v79 main_v91 main_v92 (subf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3727C5AC#32),
    unary main_cst_17 main_v93 (broadcastInDim S64 ![] bcast_S_S64 : (⟨S_, .f32⟩ : BufTy).Contents (Elt F) → (⟨S64, .f32⟩ : BufTy).Contents (Elt F)),
    binary main_v89 main_v93 main_v94 (addf : (⟨S64, .f32⟩ : BufTy).Contents (Elt F) → (⟨S64, .f32⟩ : BufTy).Contents (Elt F) → (⟨S64, .f32⟩ : BufTy).Contents (Elt F)),
    unary main_v94 main_v95 (Host.rsqrt : (⟨S64, .f32⟩ : BufTy).Contents (Elt F) → (⟨S64, .f32⟩ : BufTy).Contents (Elt F)),
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v92 main_v97 main_v98 (mulf : (⟨S100000x64, .f32⟩ : BufTy).Contents (Elt F) → (⟨S100000x64, .f32⟩ : BufTy).Contents (Elt F) → (⟨S100000x64, .f32⟩ : BufTy).Contents (Elt F)),
    unary main_arg11 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (mulf : (⟨S100000x64, .f32⟩ : BufTy).Contents (Elt F) → (⟨S100000x64, .f32⟩ : BufTy).Contents (Elt F) → (⟨S100000x64, .f32⟩ : BufTy).Contents (Elt F)),
    unary main_arg12 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v101 main_v103 main_v104 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v104) (TRef.of (T := ⟨S100000x64, .f32⟩) main_call1_v0) (TRef.of (T := ⟨S100000x64, .f32⟩) main_v105) maximumf ]

/-- Operations 130 … 145. -/
abbrev opsG : List (HloOp τ sig (Elt F)) :=
  [ nullary main_c_18 (constantI S_ 32 0#32),
    unary main_c_18 main_v106 (broadcastInDim S3200000 ![] bcast_S_S3200000 : (⟨S_, .i32⟩ : BufTy).Contents (Elt F) → (⟨S3200000, .i32⟩ : BufTy).Contents (Elt F)),
    binary main_v1 main_v106 main_v107 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 100000#32),
    unary main_c_19 main_v108 (broadcastInDim S3200000 ![] bcast_S_S3200000 : (⟨S_, .i32⟩ : BufTy).Contents (Elt F) → (⟨S3200000, .i32⟩ : BufTy).Contents (Elt F)),
    binary main_v1 main_v108 main_v109 (addi : (⟨S3200000, .i32⟩ : BufTy).Contents (Elt F) → (⟨S3200000, .i32⟩ : BufTy).Contents (Elt F) → (⟨S3200000, .i32⟩ : BufTy).Contents (Elt F)),
    ternary main_v107 main_v109 main_v1 main_v110 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v110 main_v111 (broadcastInDim S3200000x1 ![0] bcast_S3200000_S3200000x1_0 : (⟨S3200000, .i32⟩ : BufTy).Contents (Elt F) → (⟨S3200000x1, .i32⟩ : BufTy).Contents (Elt F)),
    binary main_v105 main_v111 main_v112 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_20 (constant S_ .f32 0x00000000#32),
    unary main_cst_20 main_v113 (broadcastInDim S100000x64 ![] bcast_S_S100000x64 : (⟨S_, .f32⟩ : BufTy).Contents (Elt F) → (⟨S100000x64, .f32⟩ : BufTy).Contents (Elt F)),
    unary main_v3 main_v114 (broadcastInDim S3200000x1 ![0] bcast_S3200000_S3200000x1_0 : (⟨S3200000, .i32⟩ : BufTy).Contents (Elt F) → (⟨S3200000x1, .i32⟩ : BufTy).Contents (Elt F)),
    ternary main_v113 main_v114 main_v112 main_v115 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    unary main_v11 main_v116 (broadcastInDim S100000x1 ![0] bcast_S100000_S100000x1_0 : (⟨S100000, .f32⟩ : BufTy).Contents (Elt F) → (⟨S100000x1, .f32⟩ : BufTy).Contents (Elt F)),
    unary main_v116 main_v117 (broadcastInDim S100000x64 ![0, 1] bcast_S100000x1_S100000x64_0_1 : (⟨S100000x1, .f32⟩ : BufTy).Contents (Elt F) → (⟨S100000x64, .f32⟩ : BufTy).Contents (Elt F)),
    binary main_v115 main_v117 main_v118 (mulf : (⟨S100000x64, .f32⟩ : BufTy).Contents (Elt F) → (⟨S100000x64, .f32⟩ : BufTy).Contents (Elt F) → (⟨S100000x64, .f32⟩ : BufTy).Contents (Elt F)) ]

/-- Operations 146 … 153. -/
abbrev opsH : List (HloOp τ sig (Elt F)) :=
  [ unary main_arg13 main_v119 ((transpose S64x64 [1, 0] · transposes_S64x64_S64x64_1_0) : (⟨S64x64, .f32⟩ : BufTy).Contents (Elt F) → (⟨S64x64, .f32⟩ : BufTy).Contents (Elt F)),
    binary main_v118 main_v119 main_v120 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v120 main_v122 main_v123 (addf : (⟨S100000x64, .f32⟩ : BufTy).Contents (Elt F) → (⟨S100000x64, .f32⟩ : BufTy).Contents (Elt F) → (⟨S100000x64, .f32⟩ : BufTy).Contents (Elt F)),
    unary main_arg15 main_v124 ((transpose S64x64 [1, 0] · transposes_S64x64_S64x64_1_0) : (⟨S64x64, .f32⟩ : BufTy).Contents (Elt F) → (⟨S64x64, .f32⟩ : BufTy).Contents (Elt F)),
    binary main_v105 main_v124 main_v125 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v123 main_v125 main_v126 (addf : (⟨S100000x64, .f32⟩ : BufTy).Contents (Elt F) → (⟨S100000x64, .f32⟩ : BufTy).Contents (Elt F) → (⟨S100000x64, .f32⟩ : BufTy).Contents (Elt F)) ]

/-- Operations 154 … 186. -/
abbrev opsI : List (HloOp τ sig (Elt F)) :=
  [ nullary main_cst_21 (constant S_ .f32 0x00000000#32),
    binary main_v126 main_cst_21 main_v127 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_22 (constant S_ .f32 0x47C35000#32),
    unary main_cst_22 main_v128 (broadcastInDim S64 ![] bcast_S_S64 : (⟨S_, .f32⟩ : BufTy).Contents (Elt F) → (⟨S64, .f32⟩ : BufTy).Contents (Elt F)),
    binary main_v127 main_v128 main_v129 (Host.divf : (⟨S64, .f32⟩ : BufTy).Contents (Elt F) → (⟨S64, .f32⟩ : BufTy).Contents (Elt F) → (⟨S64, .f32⟩ : BufTy).Contents (Elt F)),
    unary main_v129 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v126 main_v131 main_v132 (subf : (⟨S100000x64, .f32⟩ : BufTy).Contents (Elt F) → (⟨S100000x64, .f32⟩ : BufTy).Contents (Elt F) → (⟨S100000x64, .f32⟩ : BufTy).Contents (Elt F)),
    binary main_v132 main_v132 main_v133 (mulf : (⟨S100000x64, .f32⟩ : BufTy).Contents (Elt F) → (⟨S100000x64, .f32⟩ : BufTy).Contents (Elt F) → (⟨S100000x64, .f32⟩ : BufTy).Contents (Elt F)),
    nullary main_cst_23 (constant S_ .f32 0x00000000#32),
    binary main_v133 main_cst_23 main_v134 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v135 (broadcastInDim S64 ![] bcast_S_S64 : (⟨S_, .f32⟩ : BufTy).Contents (Elt F) → (⟨S64, .f32⟩ : BufTy).Contents (Elt F)),
    binary main_v134 main_v135 main_v136 (Host.divf : (⟨S64, .f32⟩ : BufTy).Contents (Elt F) → (⟨S64, .f32⟩ : BufTy).Contents (Elt F) → (⟨S64, .f32⟩ : BufTy).Contents (Elt F)),
    unary main_v129 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v126 main_v138 main_v139 (subf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v140 (broadcastInDim S64 ![] bcast_S_S64 : (⟨S_, .f32⟩ : BufTy).Contents (Elt F) → (⟨S64, .f32⟩ : BufTy).Contents (Elt F)),
    binary main_v136 main_v140 main_v141 (addf : (⟨S64, .f32⟩ : BufTy).Contents (Elt F) → (⟨S64, .f32⟩ : BufTy).Contents (Elt F) → (⟨S64, .f32⟩ : BufTy).Contents (Elt F)),
    unary main_v141 main_v142 (Host.rsqrt : (⟨S64, .f32⟩ : BufTy).Contents (Elt F) → (⟨S64, .f32⟩ : BufTy).Contents (Elt F)),
    unary main_v142 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v139 main_v144 main_v145 (mulf : (⟨S100000x64, .f32⟩ : BufTy).Contents (Elt F) → (⟨S100000x64, .f32⟩ : BufTy).Contents (Elt F) → (⟨S100000x64, .f32⟩ : BufTy).Contents (Elt F)),
    unary main_arg16 main_v146 (broadcastInDim S1x64 ![1] bcast_S64_S1x64_1 : (⟨S64, .f32⟩ : BufTy).Contents (Elt F) → (⟨S1x64, .f32⟩ : BufTy).Contents (Elt F)),
    unary main_v146 main_v147 (broadcastInDim S100000x64 ![0, 1] bcast_S1x64_S100000x64_0_1 : (⟨S1x64, .f32⟩ : BufTy).Contents (Elt F) → (⟨S100000x64, .f32⟩ : BufTy).Contents (Elt F)),
    binary main_v145 main_v147 main_v148 (mulf : (⟨S100000x64, .f32⟩ : BufTy).Contents (Elt F) → (⟨S100000x64, .f32⟩ : BufTy).Contents (Elt F) → (⟨S100000x64, .f32⟩ : BufTy).Contents (Elt F)),
    unary main_arg17 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v148 main_v150 main_v151 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v151) (TRef.of (T := ⟨S100000x64, .f32⟩) main_call2_v0) (TRef.of (T := ⟨S100000x64, .f32⟩) main_v152) maximumf ]

/-- Operations 187 … 202. -/
abbrev opsJ : List (HloOp τ sig (Elt F)) :=
  [ nullary main_cst_26 (constant S_ .f32 0x00000000#32),
    unary main_cst_26 main_v153 (broadcastInDim S128x64 ![] bcast_S_S128x64 : (⟨S_, .f32⟩ : BufTy).Contents (Elt F) → (⟨S128x64, .f32⟩ : BufTy).Contents (Elt F)),
    unary main_arg2 main_v154 (broadcastInDim S100000x1 ![0] bcast_S100000_S100000x1_0 : (⟨S100000, .i32⟩ : BufTy).Contents (Elt F) → (⟨S100000x1, .i32⟩ : BufTy).Contents (Elt F)),
    ternary main_v153 main_v154 main_v152 main_v155 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_27 (constant S_ .f32 0x3F800000#32),
    unary main_cst_27 main_v156 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v157 (broadcastInDim S128 ![] bcast_S_S128 : (⟨S_, .f32⟩ : BufTy).Contents (Elt F) → (⟨S128, .f32⟩ : BufTy).Contents (Elt F)),
    unary main_arg2 main_v158 (broadcastInDim S100000x1 ![0] bcast_S100000_S100000x1_0 : (⟨S100000, .i32⟩ : BufTy).Contents (Elt F) → (⟨S100000x1, .i32⟩ : BufTy).Contents (Elt F)),
    ternary main_v157 main_v158 main_v156 main_v159 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_29 (constant S_ .f32 0x3F800000#32),
    unary main_cst_29 main_v160 (broadcastInDim S128 ![] bcast_S_S128 : (⟨S_, .f32⟩ : BufTy).Contents (Elt F) → (⟨S128, .f32⟩ : BufTy).Contents (Elt F)),
    binary main_v159 main_v160 main_v161 (maximumf : (⟨S128, .f32⟩ : BufTy).Contents (Elt F) → (⟨S128, .f32⟩ : BufTy).Contents (Elt F) → (⟨S128, .f32⟩ : BufTy).Contents (Elt F)),
    unary main_v161 main_v162 (broadcastInDim S128x1 ![0] bcast_S128_S128x1_0 : (⟨S128, .f32⟩ : BufTy).Contents (Elt F) → (⟨S128x1, .f32⟩ : BufTy).Contents (Elt F)),
    unary main_v162 main_v163 (broadcastInDim S128x64 ![0, 1] bcast_S128x1_S128x64_0_1 : (⟨S128x1, .f32⟩ : BufTy).Contents (Elt F) → (⟨S128x64, .f32⟩ : BufTy).Contents (Elt F)),
    binary main_v155 main_v163 main_v164 (Host.divf : (⟨S128x64, .f32⟩ : BufTy).Contents (Elt F) → (⟨S128x64, .f32⟩ : BufTy).Contents (Elt F) → (⟨S128x64, .f32⟩ : BufTy).Contents (Elt F)) ]

/-- Operations 203 … 215. -/
abbrev opsK : List (HloOp τ sig (Elt F)) :=
  [ unary main_arg18 main_v165 ((transpose S64x64 [1, 0] · transposes_S64x64_S64x64_1_0) : (⟨S64x64, .f32⟩ : BufTy).Contents (Elt F) → (⟨S64x64, .f32⟩ : BufTy).Contents (Elt F)),
    binary main_v164 main_v165 main_v166 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg19 main_v167 (broadcastInDim S1x64 ![1] bcast_S64_S1x64_1 : (⟨S64, .f32⟩ : BufTy).Contents (Elt F) → (⟨S1x64, .f32⟩ : BufTy).Contents (Elt F)),
    unary main_v167 main_v168 (broadcastInDim S128x64 ![0, 1] bcast_S1x64_S128x64_0_1 : (⟨S1x64, .f32⟩ : BufTy).Contents (Elt F) → (⟨S128x64, .f32⟩ : BufTy).Contents (Elt F)),
    binary main_v166 main_v168 main_v169 (addf : (⟨S128x64, .f32⟩ : BufTy).Contents (Elt F) → (⟨S128x64, .f32⟩ : BufTy).Contents (Elt F) → (⟨S128x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S128x64, .f32⟩) main_call3_v0) (broadcastInDim S128x64 ![] bcast_S_S128x64),
    TRef.binary (TRef.of (T := ⟨S128x64, .f32⟩) main_v169) (TRef.of (T := ⟨S128x64, .f32⟩) main_call3_v0) (TRef.of (T := ⟨S128x64, .f32⟩) main_v170) maximumf,
    unary main_arg20 main_v171 ((transpose S64x2 [1, 0] · transposes_S2x64_S64x2_1_0) : (⟨S2x64, .f32⟩ : BufTy).Contents (Elt F) → (⟨S64x2, .f32⟩ : BufTy).Contents (Elt F)),
    binary main_v170 main_v171 main_v172 ((fun l r => Host.dotGeneral dot_S128x64_S64x2_S128x2_1_0_0_1_n_n none l r) : (⟨S128x64, .f32⟩ : BufTy).Contents (Elt F) → (⟨S64x2, .f32⟩ : BufTy).Contents (Elt F) → (⟨S128x2, .f32⟩ : BufTy).Contents (Elt F)),
    unary main_arg21 main_v173 (broadcastInDim S1x2 ![1] bcast_S2_S1x2_1 : (⟨S2, .f32⟩ : BufTy).Contents (Elt F) → (⟨S1x2, .f32⟩ : BufTy).Contents (Elt F)),
    unary main_v173 main_v174 (broadcastInDim S128x2 ![0, 1] bcast_S1x2_S128x2_0_1 : (⟨S1x2, .f32⟩ : BufTy).Contents (Elt F) → (⟨S128x2, .f32⟩ : BufTy).Contents (Elt F)),
    binary main_v172 main_v174 main_v175 (addf : (⟨S128x2, .f32⟩ : BufTy).Contents (Elt F) → (⟨S128x2, .f32⟩ : BufTy).Contents (Elt F) → (⟨S128x2, .f32⟩ : BufTy).Contents (Elt F)) ]

set_option maxRecDepth 8192 in
/-- The pieces, in order, are the whole list. -/
theorem ops_split : (ops : List (HloOp τ sig (Elt F))) = opsA ++ (opsB ++ (opsC ++ (opsD ++ (opsE ++ (opsF ++ (opsG ++ (opsH ++ (opsI ++ (opsJ ++ opsK))))))))) := rfl

/-- The contents after the whole program are the contents after the eleven pieces in order. -/
theorem after_ops (V : Valuation τ sig (Elt F)) :
    after ops V = after opsK (after opsJ (after opsI (after opsH (after opsG (after opsF (after opsE (after opsD
      (after opsC (after opsB (after opsA V)))))))))) := by
  rw [ops_split]
  simp only [after_append]

end Cert.ReferenceIdeal.Pieces

end
-- ==== Proof.REval.lean ====
/-
  The reference program's linear, normalisation and head pieces, evaluated from arbitrary contents as the whole-array
  functions: the linear stage `lin`, `normRelu` at the column means and variances, and `head`.
-/
import proofs.«113720_j13494787244371_1_alg».proof.Proof.RefPieces
import proofs.«113720_j13494787244371_1_alg».proof.Proof.LayerBridge

set_option maxRecDepth 16384

noncomputable section

open Idealize.ShloMosaic Idealize.ShloMosaic.TcCoe Idealize.SL.Sem Idealize.ShloMosaic.StableHlo Idealize.ShloMosaic.ValueIdx
open Cert.Gcn Cert.SageLinear Cert.NormalizeRows Cert.DenseHead Cert.HostForms Cert.LayerBridge

namespace Cert.ReferenceIdeal.Eval

open Cert.ReferenceIdeal Cert.ReferenceIdeal.Gen Cert.ReferenceIdeal.Pieces

set_option maxHeartbeats 4000000 in
theorem main_v32_eq (R : Valuation τ sig (Elt Ideal)) :
    after (opsB (F := Ideal)) R (Proc.devRef .tc main_v32)
      = lin (M := 100000) (K := 4) (N := 64) (R (Proc.devRef .tc main_arg0)) (R (Proc.devRef .tc main_v24)) (R (Proc.devRef .tc main_arg3))
          (R (Proc.devRef .tc main_arg5)) (rowOf (n := 64) (R (Proc.devRef .tc main_arg4))) := by
  after_results_simp
  exact host_lin (M := 100000) (K := 4) (N := 64) _ _ _ _ _ _ _ _ _

set_option maxHeartbeats 4000000 in
theorem main_v79_eq (R : Valuation τ sig (Elt Ideal)) :
    after (opsE (F := Ideal)) R (Proc.devRef .tc main_v79)
      = lin (M := 100000) (K := 64) (N := 64) (R (Proc.devRef .tc main_v58)) (R (Proc.devRef .tc main_v71)) (R (Proc.devRef .tc main_arg8))
          (R (Proc.devRef .tc main_arg10)) (rowOf (n := 64) (R (Proc.devRef .tc main_arg9))) := by
  after_results_simp
  exact host_lin (M := 100000) (K := 64) (N := 64) _ _ _ _ _ _ _ _ _

set_option maxHeartbeats 4000000 in
theorem main_v126_eq (R : Valuation τ sig (Elt Ideal)) :
    after (opsH (F := Ideal)) R (Proc.devRef .tc main_v126)
      = lin (M := 100000) (K := 64) (N := 64) (R (Proc.devRef .tc main_v105)) (R (Proc.devRef .tc main_v118)) (R (Proc.devRef .tc main_arg13))
          (R (Proc.devRef .tc main_arg15)) (rowOf (n := 64) (R (Proc.devRef .tc main_arg14))) := by
  after_results_simp
  exact host_lin (M := 100000) (K := 64) (N := 64) _ _ _ _ _ _ _ _ _

set_option maxHeartbeats 4000000 in
theorem main_v58_eq (R : Valuation τ sig (Elt Ideal)) :
    after (opsC (F := Ideal)) R (Proc.devRef .tc main_v58)
      = normRelu (M := 100000) (C := 64) (R (Proc.devRef .tc main_v32))
          (rowOf (colMean 0x47C35000#32 (R (Proc.devRef .tc main_v32))))
          (rowOf (colVar 0x47C35000#32 (R (Proc.devRef .tc main_v32)) (colMean 0x47C35000#32 (R (Proc.devRef .tc main_v32)))))
          (rowOf (n := 64) (R (Proc.devRef .tc main_arg6))) (rowOf (n := 64) (R (Proc.devRef .tc main_arg7))) := by
  after_results_simp
  exact hostNorm_eq (M := 100000) (C := 64) 0x47C35000#32 reducesTo_S100000x64_S64_d0 (by decide) h_S_ bcast_S_S64
    bcast_S_S100000x64 bcast_S64_S1x64_1 bcast_S1x64_S100000x64_0_1 _ _ _

set_option maxHeartbeats 4000000 in
theorem main_v105_eq (R : Valuation τ sig (Elt Ideal)) :
    after (opsF (F := Ideal)) R (Proc.devRef .tc main_v105)
      = normRelu (M := 100000) (C := 64) (R (Proc.devRef .tc main_v79))
          (rowOf (colMean 0x47C35000#32 (R (Proc.devRef .tc main_v79))))
          (rowOf (colVar 0x47C35000#32 (R (Proc.devRef .tc main_v79)) (colMean 0x47C35000#32 (R (Proc.devRef .tc main_v79)))))
          (rowOf (n := 64) (R (Proc.devRef .tc main_arg11))) (rowOf (n := 64) (R (Proc.devRef .tc main_arg12))) := by
  after_results_simp
  exact hostNorm_eq (M := 100000) (C := 64) 0x47C35000#32 reducesTo_S100000x64_S64_d0 (by decide) h_S_ bcast_S_S64
    bcast_S_S100000x64 bcast_S64_S1x64_1 bcast_S1x64_S100000x64_0_1 _ _ _

set_option maxHeartbeats 4000000 in
theorem main_v152_eq (R : Valuation τ sig (Elt Ideal)) :
    after (opsI (F := Ideal)) R (Proc.devRef .tc main_v152)
      = normRelu (M := 100000) (C := 64) (R (Proc.devRef .tc main_v126))
          (rowOf (colMean 0x47C35000#32 (R (Proc.devRef .tc main_v126))))
          (rowOf (colVar 0x47C35000#32 (R (Proc.devRef .tc main_v126)) (colMean 0x47C35000#32 (R (Proc.devRef .tc main_v126)))))
          (rowOf (n := 64) (R (Proc.devRef .tc main_arg16))) (rowOf (n := 64) (R (Proc.devRef .tc main_arg17))) := by
  after_results_simp
  exact hostNorm_eq (M := 100000) (C := 64) 0x47C35000#32 reducesTo_S100000x64_S64_d0 (by decide) h_S_ bcast_S_S64
    bcast_S_S100000x64 bcast_S64_S1x64_1 bcast_S1x64_S100000x64_0_1 _ _ _

set_option maxHeartbeats 4000000 in
theorem main_v175_eq (R : Valuation τ sig (Elt Ideal)) :
    after (opsK (F := Ideal)) R (Proc.devRef .tc main_v175)
      = head (G := 128) (H := 64) (H1 := 64) (O := 2) (R (Proc.devRef .tc main_v164)) (R (Proc.devRef .tc main_arg18))
          (rowOf (n := 64) (R (Proc.devRef .tc main_arg19))) (R (Proc.devRef .tc main_arg20)) (rowOf (n := 2) (R (Proc.devRef .tc main_arg21))) := by
  after_results_simp
  exact host_head (G := 128) (H := 64) (H1 := 64) (O := 2) dot_S128x64_S64x64_S128x64_1_0_0_1_n_n_wf
    dot_S128x64_S64x2_S128x2_1_0_0_1_n_n_wf transposes_S64x64_S64x64_1_0 transposes_S2x64_S64x2_1_0 bcast_S64_S1x64_1
    bcast_S1x64_S128x64_0_1 bcast_S2_S1x2_1 bcast_S1x2_S128x2_0_1 bcast_S_S128x64 _ _ _ _ _

end Cert.ReferenceIdeal.Eval

end
-- ==== Proof.Shared.lean ====
/-
  The host stages the two programs share, read relationally: the edge lists, the reciprocal degrees, the mean
  aggregation of neighbour features, and the mean pooling over graphs are the same operations in both programs, so
  from contents that agree on what a stage reads the two programs leave the same contents in what it writes. And
  on the reference's side, an aggregation of features with real entries has real entries.
-/
import proofs.«113720_j13494787244371_1_alg».proof.Proof.Gen.KernelIdeal.Frame
import proofs.«113720_j13494787244371_1_alg».proof.Proof.RefPieces
import proofs.«113720_j13494787244371_1_alg».proof.Proof.LibRealArrays
import Idealize.ShloMosaic.Lib.StableHlo.Run

set_option maxRecDepth 16384

noncomputable section

open Idealize.ShloMosaic Idealize.ShloMosaic.TcCoe Idealize.SL.Sem Idealize.ShloMosaic.StableHlo Cert.RealArrays

namespace Cert.Shared

set_option maxHeartbeats 8000000 in
theorem src_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_arg1) = R (Proc.devRef .tc Cert.ReferenceIdeal.main_arg1)) :
    after (Cert.KernelIdeal.Gen.hostOps0 (F := Ideal)) W (Proc.devRef .tc Cert.KernelIdeal.main_v1) = after (Cert.ReferenceIdeal.Pieces.opsA (F := Ideal)) R (Proc.devRef .tc Cert.ReferenceIdeal.main_v1) := by
  after_results_simp
  rw [h0]
  rfl

set_option maxHeartbeats 8000000 in
theorem dst_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_arg1) = R (Proc.devRef .tc Cert.ReferenceIdeal.main_arg1)) :
    after (Cert.KernelIdeal.Gen.hostOps0 (F := Ideal)) W (Proc.devRef .tc Cert.KernelIdeal.main_v3) = after (Cert.ReferenceIdeal.Pieces.opsA (F := Ideal)) R (Proc.devRef .tc Cert.ReferenceIdeal.main_v3) := by
  after_results_simp
  rw [h0]
  rfl

set_option maxHeartbeats 8000000 in
theorem degInv_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_arg1) = R (Proc.devRef .tc Cert.ReferenceIdeal.main_arg1)) :
    after (Cert.KernelIdeal.Gen.hostOps0 (F := Ideal)) W (Proc.devRef .tc Cert.KernelIdeal.main_v11) = after (Cert.ReferenceIdeal.Pieces.opsA (F := Ideal)) R (Proc.devRef .tc Cert.ReferenceIdeal.main_v11) := by
  after_results_simp
  rw [h0]
  rfl

set_option maxHeartbeats 8000000 in
theorem agg1_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_arg0) = R (Proc.devRef .tc Cert.ReferenceIdeal.main_arg0))
    (h1 : W (Proc.devRef .tc Cert.KernelIdeal.main_arg1) = R (Proc.devRef .tc Cert.ReferenceIdeal.main_arg1)) :
    after (Cert.KernelIdeal.Gen.hostOps0 (F := Ideal)) W (Proc.devRef .tc Cert.KernelIdeal.main_v24) = after (Cert.ReferenceIdeal.Pieces.opsA (F := Ideal)) R (Proc.devRef .tc Cert.ReferenceIdeal.main_v24) := by
  after_results_simp
  rw [h0, h1]
  rfl

set_option maxHeartbeats 8000000 in
theorem agg2_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_v35) = R (Proc.devRef .tc Cert.ReferenceIdeal.main_v58))
    (h1 : W (Proc.devRef .tc Cert.KernelIdeal.main_v1) = R (Proc.devRef .tc Cert.ReferenceIdeal.main_v1))
    (h2 : W (Proc.devRef .tc Cert.KernelIdeal.main_v3) = R (Proc.devRef .tc Cert.ReferenceIdeal.main_v3))
    (h3 : W (Proc.devRef .tc Cert.KernelIdeal.main_v11) = R (Proc.devRef .tc Cert.ReferenceIdeal.main_v11)) :
    after (Cert.KernelIdeal.Gen.hostOps2 (F := Ideal)) W (Proc.devRef .tc Cert.KernelIdeal.main_v48) = after (Cert.ReferenceIdeal.Pieces.opsD (F := Ideal)) R (Proc.devRef .tc Cert.ReferenceIdeal.main_v71) := by
  after_results_simp
  rw [h0, h1, h2, h3]
  rfl

set_option maxHeartbeats 8000000 in
theorem agg3_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_v59) = R (Proc.devRef .tc Cert.ReferenceIdeal.main_v105))
    (h1 : W (Proc.devRef .tc Cert.KernelIdeal.main_v1) = R (Proc.devRef .tc Cert.ReferenceIdeal.main_v1))
    (h2 : W (Proc.devRef .tc Cert.KernelIdeal.main_v3) = R (Proc.devRef .tc Cert.ReferenceIdeal.main_v3))
    (h3 : W (Proc.devRef .tc Cert.KernelIdeal.main_v11) = R (Proc.devRef .tc Cert.ReferenceIdeal.main_v11)) :
    after (Cert.KernelIdeal.Gen.hostOps4 (F := Ideal)) W (Proc.devRef .tc Cert.KernelIdeal.main_v72) = after (Cert.ReferenceIdeal.Pieces.opsG (F := Ideal)) R (Proc.devRef .tc Cert.ReferenceIdeal.main_v118) := by
  after_results_simp
  rw [h0, h1, h2, h3]
  rfl

set_option maxHeartbeats 8000000 in
theorem pool_agree (W : Valuation Cert.KernelIdeal.τ Cert.KernelIdeal.sig (Elt Ideal)) (R : Valuation Cert.ReferenceIdeal.τ Cert.ReferenceIdeal.sig (Elt Ideal))
    (h0 : W (Proc.devRef .tc Cert.KernelIdeal.main_v83) = R (Proc.devRef .tc Cert.ReferenceIdeal.main_v152))
    (h1 : W (Proc.devRef .tc Cert.KernelIdeal.main_arg2) = R (Proc.devRef .tc Cert.ReferenceIdeal.main_arg2)) :
    after (Cert.KernelIdeal.Gen.hostOps6 (F := Ideal)) W (Proc.devRef .tc Cert.KernelIdeal.main_v95) = after (Cert.ReferenceIdeal.Pieces.opsJ (F := Ideal)) R (Proc.devRef .tc Cert.ReferenceIdeal.main_v164) := by
  after_results_simp
  rw [h0, h1]
  rfl

open Cert.ReferenceIdeal Cert.ReferenceIdeal.Gen Cert.ReferenceIdeal.Pieces in
set_option maxHeartbeats 8000000 in
/-- The reciprocal clamped in-degrees are reals. -/
theorem degInv_real (R : Valuation Cert.ReferenceIdeal.τ Cert.ReferenceIdeal.sig (Elt Ideal)) :
    AllReal (after (opsA (F := Ideal)) R (Proc.devRef .tc main_v11)) := by
  after_results_simp
  exact allReal_inv_count _ _ _ _ _ _

open Cert.ReferenceIdeal Cert.ReferenceIdeal.Gen Cert.ReferenceIdeal.Pieces in
set_option maxHeartbeats 8000000 in
/-- The first aggregation of node features with real entries has real entries. -/
theorem agg1_real (R : Valuation Cert.ReferenceIdeal.τ Cert.ReferenceIdeal.sig (Elt Ideal)) (hx : AllReal (R (Proc.devRef .tc main_arg0))) :
    AllReal (after (opsA (F := Ideal)) R (Proc.devRef .tc main_v24)) := by
  after_results_simp
  exact allReal_mulf _ _ (allReal_scatterAdd _ _ _ _ (allReal_broadcastInDim _ _ _ (allReal_zero _)) (allReal_gather _ _ _ hx))
    (allReal_broadcastInDim _ _ _ (allReal_broadcastInDim _ _ _ (allReal_inv_count _ _ _ _ _ _)))

open Cert.ReferenceIdeal Cert.ReferenceIdeal.Gen Cert.ReferenceIdeal.Pieces in
set_option maxHeartbeats 8000000 in
/-- The second aggregation: real features and real reciprocal degrees give real entries. -/
theorem agg2_real (R : Valuation Cert.ReferenceIdeal.τ Cert.ReferenceIdeal.sig (Elt Ideal)) (hx : AllReal (R (Proc.devRef .tc main_v58)))
    (hd : AllReal (R (Proc.devRef .tc main_v11))) : AllReal (after (opsD (F := Ideal)) R (Proc.devRef .tc main_v71)) := by
  after_results_simp
  exact allReal_mulf _ _ (allReal_scatterAdd _ _ _ _ (allReal_broadcastInDim _ _ _ (allReal_zero _)) (allReal_gather _ _ _ hx))
    (allReal_broadcastInDim _ _ _ (allReal_broadcastInDim _ _ _ hd))

open Cert.ReferenceIdeal Cert.ReferenceIdeal.Gen Cert.ReferenceIdeal.Pieces in
set_option maxHeartbeats 8000000 in
/-- The third aggregation, likewise. -/
theorem agg3_real (R : Valuation Cert.ReferenceIdeal.τ Cert.ReferenceIdeal.sig (Elt Ideal)) (hx : AllReal (R (Proc.devRef .tc main_v105)))
    (hd : AllReal (R (Proc.devRef .tc main_v11))) : AllReal (after (opsG (F := Ideal)) R (Proc.devRef .tc main_v118)) := by
  after_results_simp
  exact allReal_mulf _ _ (allReal_scatterAdd _ _ _ _ (allReal_broadcastInDim _ _ _ (allReal_zero _)) (allReal_gather _ _ _ hx))
    (allReal_broadcastInDim _ _ _ (allReal_broadcastInDim _ _ _ hd))

end Cert.Shared

end
-- ==== Proof.Carry.lean ====
/-
  Buffers that a stretch of host operations does not write, and that a region does not own, keep their contents. The
  arguments are written by nothing; the edge lists and the reciprocal degrees are computed once and read again by each
  later aggregation; each layer's features are read again after the stretch that follows them.
-/
import proofs.«113720_j13494787244371_1_alg».proof.Proof.Gen.KernelIdeal.Frame
import proofs.«113720_j13494787244371_1_alg».proof.Proof.RefPieces
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.StableHlo

namespace Cert.Carry

/-- A buffer no operation of a literal list writes keeps its contents across the list. -/
macro "carry_host" ops:ident : tactic => `(tactic| (
  refine StableHlo.after_of_forall_not_mem (b := _) _ _ (List.forall_iff_forall_mem.mp ?_)
  simp only [$ops:ident, StableHlo.TRef.nullary, StableHlo.TRef.unary, StableHlo.TRef.binary, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

section Kernel
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem k_arg0_1_0 : Cert.KernelIdeal.Gen.W1 (F := Ideal) m ρ c (Proc.devRef .tc Cert.KernelIdeal.main_arg0) = Cert.KernelIdeal.Gen.W0 (F := Ideal) m ρ c (Proc.devRef .tc Cert.KernelIdeal.main_arg0) :=
  calc Cert.KernelIdeal.Gen.W1 (F := Ideal) m ρ c (Proc.devRef .tc Cert.KernelIdeal.main_arg0)
    _ = Cert.KernelIdeal.Gen.W0 (F := Ideal) m ρ c (Proc.devRef .tc Cert.KernelIdeal.main_arg0) := by carry_host Cert.KernelIdeal.Gen.hostOps0

theorem k_arg3_1_0 : Cert.KernelIdeal.Gen.W1 (F := Ideal) m ρ c (Proc.devRef .tc Cert.KernelIdeal.main_arg3) = Cert.KernelIdeal.Gen.W0 (F := Ideal) m ρ c (Proc.devRef .tc Cert.KernelIdeal.main_arg3) :=
  calc Cert.KernelIdeal.Gen.W1 (F := Ideal) m ρ c (Proc.devRef .tc Cert.KernelIdeal.main_arg3)
    _ = Cert.KernelIdeal.Gen.W0 (F := Ideal) m ρ c (Proc.devRef .tc Cert.KernelIdeal.main_arg3) := by carry_host Cert.KernelIdeal.Gen.hostOps0

theorem k_arg5_1_0 : Cert.KernelIdeal.Gen.W1 (F := Ideal) m ρ c (Proc.devRef .tc Cert.KernelIdeal.main_arg5) = Cert.KernelIdeal.Gen.W0 (F := Ideal) m ρ c (Proc.devRef .tc Cert.KernelIdeal.main_arg5) :=
  calc Cert.KernelIdeal.Gen.W1 (F := Ideal) m ρ c (Proc.devRef .tc Cert.KernelIdeal.main_arg5)
    _ = Cert.KernelIdeal.Gen.W0 (F := Ideal) m ρ c (Proc.devRef .tc Cert.KernelIdeal.main_arg5) := by carry_host Cert.KernelIdeal.Gen.hostOps0

theorem k_arg6_2_0 : Cert.KernelIdeal.Gen.W2 (F := Ideal) m ρ c (Proc.devRef .tc Cert.KernelIdeal.main_arg6) = Cert.KernelIdeal.Gen.W0 (F := Ideal) m ρ c (Proc.devRef .tc Cert.KernelIdeal.main_arg6) :=
  calc Cert.KernelIdeal.Gen.W2 (F := Ideal) m ρ c (Proc.devRef .tc Cert.KernelIdeal.main_arg6)
    _ = Cert.KernelIdeal.Gen.W1 (F := Ideal) m ρ c (Proc.devRef .tc Cert.KernelIdeal.main_arg6) := Cert.KernelIdeal.Gen.W2_of_ne m ρ c Cert.KernelIdeal.main_arg6 (by decide)
    _ = Cert.KernelIdeal.Gen.W0 (F := Ideal) m ρ c (Proc.devRef .tc Cert.KernelIdeal.main_arg6) := by carry_host Cert.KernelIdeal.Gen.hostOps0

theorem k_arg7_2_0 : Cert.KernelIdeal.Gen.W2 (F := Ideal) m ρ c (Proc.devRef .tc Cert.KernelIdeal.main_arg7) = Cert.KernelIdeal.Gen.W0 (F := Ideal) m ρ c (Proc.devRef .tc Cert.KernelIdeal.main_arg7) :=
  calc Cert.KernelIdeal.Gen.W2 (F := Ideal) m ρ c (Proc.devRef .tc Cert.KernelIdeal.main_arg7)
    _ = Cert.KernelIdeal.Gen.W1 (F := Ideal) m ρ c (Proc.devRef .tc Cert.KernelIdeal.main_arg7) := Cert.KernelIdeal.Gen.W2_of_ne m ρ c Cert.KernelIdeal.main_arg7 (by decide)
    _ = Cert.KernelIdeal.Gen.W0 (F := Ideal) m ρ c (Proc.devRef .tc Cert.KernelIdeal.main_arg7) := by carry_host Cert.KernelIdeal.Gen.hostOps0

theorem k_arg9_4_0 : Cert.KernelIdeal.Gen.W4 (F := Ideal) m ρ c (Proc.devRef .tc Cert.KernelIdeal.main_arg9) = Cert.KernelIdeal.Gen.W0 (F := Ideal) m ρ c (Proc.devRef .tc Cert.KernelIdeal.main_arg9) :=
  calc Cert.KernelIdeal.Gen.W4 (F := Ideal) m ρ c (Proc.devRef .tc Cert.KernelIdeal.main_arg9)
    _ = Cert.KernelIdeal.Gen.W3 (F := Ideal) m ρ c (Proc.devRef .tc Cert.KernelIdeal.main_arg9) := Cert.KernelIdeal.Gen.W4_of_ne m ρ c Cert.KernelIdeal.main_arg9 (by decide)
    _ = Cert.KernelIdeal.Gen.W2 (F := Ideal) m ρ c (Proc.devRef .tc Cert.KernelIdeal.main_arg9) := by carry_host Cert.KernelIdeal.Gen.hostOps1
    _ = Cert.KernelIdeal.Gen.W1 (F := Ideal) m ρ c (Proc.devRef .tc Cert.KernelIdeal.main_arg9) := Cert.KernelIdeal.Gen.W2_of_ne m ρ c Cert.KernelIdeal.main_arg9 (by decide)
    _ = Cert.KernelIdeal.Gen.W0 (F := Ideal) m ρ c (Proc.devRef .tc Cert.KernelIdeal.main_arg9) := by carry_host Cert.KernelIdeal.Gen.hostOps0

theorem k_arg8_5_0 : Cert.KernelIdeal.Gen.W5 (F := Ideal) m ρ c (Proc.devRef .tc Cert.KernelIdeal.main_arg8) = Cert.KernelIdeal.Gen.W0 (F := Ideal) m ρ c (Proc.devRef .tc Cert.KernelIdeal.main_arg8) :=
  calc Cert.KernelIdeal.Gen.W5 (F := Ideal) m ρ c (Proc.devRef .tc Cert.KernelIdeal.main_arg8)
    _ = Cert.KernelIdeal.Gen.W4 (F := Ideal) m ρ c (Proc.devRef .tc Cert.KernelIdeal.main_arg8) := by carry_host Cert.KernelIdeal.Gen.hostOps2
    _ = Cert.KernelIdeal.Gen.W3 (F := Ideal) m ρ c (Proc.devRef .tc Cert.KernelIdeal.main_arg8) := Cert.KernelIdeal.Gen.W4_of_ne m ρ c Cert.KernelIdeal.main_arg8 (by decide)
    _ = Cert.KernelIdeal.Gen.W2 (F := Ideal) m ρ c (Proc.devRef .tc Cert.KernelIdeal.main_arg8) := by carry_host Cert.KernelIdeal.Gen.hostOps1
    _ = Cert.KernelIdeal.Gen.W1 (F := Ideal) m ρ c (Proc.devRef .tc Cert.KernelIdeal.main_arg8) := Cert.KernelIdeal.Gen.W2_of_ne m ρ c Cert.KernelIdeal.main_arg8 (by decide)
    _ = Cert.KernelIdeal.Gen.W0 (F := Ideal) m ρ c (Proc.devRef .tc Cert.KernelIdeal.main_arg8) := by carry_host Cert.KernelIdeal.Gen.hostOps0

theorem k_arg10_5_0 : Cert.KernelIdeal.Gen.W5 (F := Ideal) m ρ c (Proc.devRef .tc Cert.KernelIdeal.main_arg10) = Cert.KernelIdeal.Gen.W0 (F := Ideal) m ρ c (Proc.devRef .tc Cert.KernelIdeal.main_arg10) :=
  calc Cert.KernelIdeal.Gen.W5 (F := Ideal) m ρ c (Proc.devRef .tc Cert.KernelIdeal.main_arg10)
    _ = Cert.KernelIdeal.Gen.W4 (F := Ideal) m ρ c (Proc.devRef .tc Cert.KernelIdeal.main_arg10) := by carry_host Cert.KernelIdeal.Gen.hostOps2
    _ = Cert.KernelIdeal.Gen.W3 (F := Ideal) m ρ c (Proc.devRef .tc Cert.KernelIdeal.main_arg10) := Cert.KernelIdeal.Gen.W4_of_ne m ρ c Cert.KernelIdeal.main_arg10 (by decide)
    _ = Cert.KernelIdeal.Gen.W2 (F := Ideal) m ρ c (Proc.devRef .tc Cert.KernelIdeal.main_arg10) := by carry_host Cert.KernelIdeal.Gen.hostOps1
    _ = Cert.KernelIdeal.Gen.W1 (F := Ideal) m ρ c (Proc.devRef .tc Cert.KernelIdeal.main_arg10) := Cert.KernelIdeal.Gen.W2_of_ne m ρ c Cert.KernelIdeal.main_arg10 (by decide)
    _ = Cert.KernelIdeal.Gen.W0 (F := Ideal) m ρ c (Proc.devRef .tc Cert.KernelIdeal.main_arg10) := by carry_host Cert.KernelIdeal.Gen.hostOps0

theorem k_arg11_6_0 : Cert.KernelIdeal.Gen.W6 (F := Ideal) m ρ c (Proc.devRef .tc Cert.KernelIdeal.main_arg11) = Cert.KernelIdeal.Gen.W0 (F := Ideal) m ρ c (Proc.devRef .tc Cert.KernelIdeal.main_arg11) :=
  calc Cert.KernelIdeal.Gen.W6 (F := Ideal) m ρ c (Proc.devRef .tc Cert.KernelIdeal.main_arg11)
    _ = Cert.KernelIdeal.Gen.W5 (F := Ideal) m ρ c (Proc.devRef .tc Cert.KernelIdeal.main_arg11) := Cert.KernelIdeal.Gen.W6_of_ne m ρ c Cert.KernelIdeal.main_arg11 (by decide)
    _ = Cert.KernelIdeal.Gen.W4 (F := Ideal) m ρ c (Proc.devRef .tc Cert.KernelIdeal.main_arg11) := by carry_host Cert.KernelIdeal.Gen.hostOps2
    _ = Cert.KernelIdeal.Gen.W3 (F := Ideal) m ρ c (Proc.devRef .tc Cert.KernelIdeal.main_arg11) := Cert.KernelIdeal.Gen.W4_of_ne m ρ c Cert.KernelIdeal.main_arg11 (by decide)
    _ = Cert.KernelIdeal.Gen.W2 (F := Ideal) m ρ c (Proc.devRef .tc Cert.KernelIdeal.main_arg11) := by carry_host Cert.KernelIdeal.Gen.hostOps1
    _ = Cert.KernelIdeal.Gen.W1 (F := Ideal) m ρ c (Proc.devRef .tc Cert.KernelIdeal.main_arg11) := Cert.KernelIdeal.Gen.W2_of_ne m ρ c Cert.KernelIdeal.main_arg11 (by decide)
    _ = Cert.KernelIdeal.Gen.W0 (F := Ideal) m ρ c (Proc.devRef .tc Cert.KernelIdeal.main_arg11) := by carry_host Cert.KernelIdeal.Gen.hostOps0

theorem k_arg12_6_0 : Cert.KernelIdeal.Gen.W6 (F := Ideal) m ρ c (Proc.devRef .tc Cert.KernelIdeal.main_arg12) = Cert.KernelIdeal.Gen.W0 (F := Ideal) m ρ c (Proc.devRef .tc Cert.KernelIdeal.main_arg12) :=
  calc Cert.KernelIdeal.Gen.W6 (F := Ideal) m ρ c (Proc.devRef .tc Cert.KernelIdeal.main_arg12)
    _ = Cert.KernelIdeal.Gen.W5 (F := Ideal) m ρ c (Proc.devRef .tc Cert.KernelIdeal.main_arg12) := Cert.KernelIdeal.Gen.W6_of_ne m ρ c Cert.KernelIdeal.main_arg12 (by decide)
    _ = Cert.KernelIdeal.Gen.W4 (F := Ideal) m ρ c (Proc.devRef .tc Cert.KernelIdeal.main_arg12) := by carry_host Cert.KernelIdeal.Gen.hostOps2
    _ = Cert.KernelIdeal.Gen.W3 (F := Ideal) m ρ c (Proc.devRef .tc Cert.KernelIdeal.main_arg12) := Cert.KernelIdeal.Gen.W4_of_ne m ρ c Cert.KernelIdeal.main_arg12 (by decide)
    _ = Cert.KernelIdeal.Gen.W2 (F := Ideal) m ρ c (Proc.devRef .tc Cert.KernelIdeal.main_arg12) := by carry_host Cert.KernelIdeal.Gen.hostOps1
    _ = Cert.KernelIdeal.Gen.W1 (F := Ideal) m ρ c (Proc.devRef .tc Cert.KernelIdeal.main_arg12) := Cert.KernelIdeal.Gen.W2_of_ne m ρ c Cert.KernelIdeal.main_arg12 (by decide)
    _ = Cert.KernelIdeal.Gen.W0 (F := Ideal) m ρ c (Proc.devRef .tc Cert.KernelIdeal.main_arg12) := by carry_host Cert.KernelIdeal.Gen.hostOps0

theorem k_arg14_8_0 : Cert.KernelIdeal.Gen.W8 (F := Ideal) m ρ c (Proc.devRef .tc Cert.KernelIdeal.main_arg14) = Cert.KernelIdeal.Gen.W0 (F := Ideal) m ρ c (Proc.devRef .tc Cert.KernelIdeal.main_arg14) :=
  calc Cert.KernelIdeal.Gen.W8 (F := Ideal) m ρ c (Proc.devRef .tc Cert.KernelIdeal.main_arg14)
    _ = Cert.KernelIdeal.Gen.W7 (F := Ideal) m ρ c (Proc.devRef .tc Cert.KernelIdeal.main_arg14) := Cert.KernelIdeal.Gen.W8_of_ne m ρ c Cert.KernelIdeal.main_arg14 (by decide)
    _ = Cert.KernelIdeal.Gen.W6 (F := Ideal) m ρ c (Proc.devRef .tc Cert.KernelIdeal.main_arg14) := by carry_host Cert.KernelIdeal.Gen.hostOps3
    _ = Cert.KernelIdeal.Gen.W5 (F := Ideal) m ρ c (Proc.devRef .tc Cert.KernelIdeal.main_arg14) := Cert.KernelIdeal.Gen.W6_of_ne m ρ c Cert.KernelIdeal.main_arg14 (by decide)
    _ = Cert.KernelIdeal.Gen.W4 (F := Ideal) m ρ c (Proc.devRef .tc Cert.KernelIdeal.main_arg14) := by carry_host Cert.KernelIdeal.Gen.hostOps2
    _ = Cert.KernelIdeal.Gen.W3 (F := Ideal) m ρ c (Proc.devRef .tc Cert.KernelIdeal.main_arg14) := Cert.KernelIdeal.Gen.W4_of_ne m ρ c Cert.KernelIdeal.main_arg14 (by decide)
    _ = Cert.KernelIdeal.Gen.W2 (F := Ideal) m ρ c (Proc.devRef .tc Cert.KernelIdeal.main_arg14) := by carry_host Cert.KernelIdeal.Gen.hostOps1
    _ = Cert.KernelIdeal.Gen.W1 (F := Ideal) m ρ c (Proc.devRef .tc Cert.KernelIdeal.main_arg14) := Cert.KernelIdeal.Gen.W2_of_ne m ρ c Cert.KernelIdeal.main_arg14 (by decide)
    _ = Cert.KernelIdeal.Gen.W0 (F := Ideal) m ρ c (Proc.devRef .tc Cert.KernelIdeal.main_arg14) := by carry_host Cert.KernelIdeal.Gen.hostOps0

theorem k_arg13_9_0 : Cert.KernelIdeal.Gen.W9 (F := Ideal) m ρ c (Proc.devRef .tc Cert.KernelIdeal.main_arg13) = Cert.KernelIdeal.Gen.W0 (F := Ideal) m ρ c (Proc.devRef .tc Cert.KernelIdeal.main_arg13) :=
  calc Cert.KernelIdeal.Gen.W9 (F := Ideal) m ρ c (Proc.devRef .tc Cert.KernelIdeal.main_arg13)
    _ = Cert.KernelIdeal.Gen.W8 (F := Ideal) m ρ c (Proc.devRef .tc Cert.KernelIdeal.main_arg13) := by carry_host Cert.KernelIdeal.Gen.hostOps4
    _ = Cert.KernelIdeal.Gen.W7 (F := Ideal) m ρ c (Proc.devRef .tc Cert.KernelIdeal.main_arg13) := Cert.KernelIdeal.Gen.W8_of_ne m ρ c Cert.KernelIdeal.main_arg13 (by decide)
    _ = Cert.KernelIdeal.Gen.W6 (F := Ideal) m ρ c (Proc.devRef .tc Cert.KernelIdeal.main_arg13) := by carry_host Cert.KernelIdeal.Gen.hostOps3
    _ = Cert.KernelIdeal.Gen.W5 (F := Ideal) m ρ c (Proc.devRef .tc Cert.KernelIdeal.main_arg13) := Cert.KernelIdeal.Gen.W6_of_ne m ρ c Cert.KernelIdeal.main_arg13 (by decide)
    _ = Cert.KernelIdeal.Gen.W4 (F := Ideal) m ρ c (Proc.devRef .tc Cert.KernelIdeal.main_arg13) := by carry_host Cert.KernelIdeal.Gen.hostOps2
    _ = Cert.KernelIdeal.Gen.W3 (F := Ideal) m ρ c (Proc.devRef .tc Cert.KernelIdeal.main_arg13) := Cert.KernelIdeal.Gen.W4_of_ne m ρ c Cert.KernelIdeal.main_arg13 (by decide)
    _ = Cert.KernelIdeal.Gen.W2 (F := Ideal) m ρ c (Proc.devRef .tc Cert.KernelIdeal.main_arg13) := by carry_host Cert.KernelIdeal.Gen.hostOps1
    _ = Cert.KernelIdeal.Gen.W1 (F := Ideal) m ρ c (Proc.devRef .tc Cert.KernelIdeal.main_arg13) := Cert.KernelIdeal.Gen.W2_of_ne m ρ c Cert.KernelIdeal.main_arg13 (by decide)
    _ = Cert.KernelIdeal.Gen.W0 (F := Ideal) m ρ c (Proc.devRef .tc Cert.KernelIdeal.main_arg13) := by carry_host Cert.KernelIdeal.Gen.hostOps0

theorem k_arg15_9_0 : Cert.KernelIdeal.Gen.W9 (F := Ideal) m ρ c (Proc.devRef .tc Cert.KernelIdeal.main_arg15) = Cert.KernelIdeal.Gen.W0 (F := Ideal) m ρ c (Proc.devRef .tc Cert.KernelIdeal.main_arg15) :=
  calc Cert.KernelIdeal.Gen.W9 (F := Ideal) m ρ c (Proc.devRef .tc Cert.KernelIdeal.main_arg15)
    _ = Cert.KernelIdeal.Gen.W8 (F := Ideal) m ρ c (Proc.devRef .tc Cert.KernelIdeal.main_arg15) := by carry_host Cert.KernelIdeal.Gen.hostOps4
    _ = Cert.KernelIdeal.Gen.W7 (F := Ideal) m ρ c (Proc.devRef .tc Cert.KernelIdeal.main_arg15) := Cert.KernelIdeal.Gen.W8_of_ne m ρ c Cert.KernelIdeal.main_arg15 (by decide)
    _ = Cert.KernelIdeal.Gen.W6 (F := Ideal) m ρ c (Proc.devRef .tc Cert.KernelIdeal.main_arg15) := by carry_host Cert.KernelIdeal.Gen.hostOps3
    _ = Cert.KernelIdeal.Gen.W5 (F := Ideal) m ρ c (Proc.devRef .tc Cert.KernelIdeal.main_arg15) := Cert.KernelIdeal.Gen.W6_of_ne m ρ c Cert.KernelIdeal.main_arg15 (by decide)
    _ = Cert.KernelIdeal.Gen.W4 (F := Ideal) m ρ c (Proc.devRef .tc Cert.KernelIdeal.main_arg15) := by carry_host Cert.KernelIdeal.Gen.hostOps2
    _ = Cert.KernelIdeal.Gen.W3 (F := Ideal) m ρ c (Proc.devRef .tc Cert.KernelIdeal.main_arg15) := Cert.KernelIdeal.Gen.W4_of_ne m ρ c Cert.KernelIdeal.main_arg15 (by decide)
    _ = Cert.KernelIdeal.Gen.W2 (F := Ideal) m ρ c (Proc.devRef .tc Cert.KernelIdeal.main_arg15) := by carry_host Cert.KernelIdeal.Gen.hostOps1
    _ = Cert.KernelIdeal.Gen.W1 (F := Ideal) m ρ c (Proc.devRef .tc Cert.KernelIdeal.main_arg15) := Cert.KernelIdeal.Gen.W2_of_ne m ρ c Cert.KernelIdeal.main_arg15 (by decide)
    _ = Cert.KernelIdeal.Gen.W0 (F := Ideal) m ρ c (Proc.devRef .tc Cert.KernelIdeal.main_arg15) := by carry_host Cert.KernelIdeal.Gen.hostOps0

theorem k_arg16_10_0 : Cert.KernelIdeal.Gen.W10 (F := Ideal) m ρ c (Proc.devRef .tc Cert.KernelIdeal.main_arg16) = Cert.KernelIdeal.Gen.W0 (F := Ideal) m ρ c (Proc.devRef .tc Cert.KernelIdeal.main_arg16) :=
  calc Cert.KernelIdeal.Gen.W10 (F := Ideal) m ρ c (Proc.devRef .tc Cert.KernelIdeal.main_arg16)
    _ = Cert.KernelIdeal.Gen.W9 (F := Ideal) m ρ c (Proc.devRef .tc Cert.KernelIdeal.main_arg16) := Cert.KernelIdeal.Gen.W10_of_ne m ρ c Cert.KernelIdeal.main_arg16 (by decide)
    _ = Cert.KernelIdeal.Gen.W8 (F := Ideal) m ρ c (Proc.devRef .tc Cert.KernelIdeal.main_arg16) := by carry_host Cert.KernelIdeal.Gen.hostOps4
    _ = Cert.KernelIdeal.Gen.W7 (F := Ideal) m ρ c (Proc.devRef .tc Cert.KernelIdeal.main_arg16) := Cert.KernelIdeal.Gen.W8_of_ne m ρ c Cert.KernelIdeal.main_arg16 (by decide)
    _ = Cert.KernelIdeal.Gen.W6 (F := Ideal) m ρ c (Proc.devRef .tc Cert.KernelIdeal.main_arg16) := by carry_host Cert.KernelIdeal.Gen.hostOps3
    _ = Cert.KernelIdeal.Gen.W5 (F := Ideal) m ρ c (Proc.devRef .tc Cert.KernelIdeal.main_arg16) := Cert.KernelIdeal.Gen.W6_of_ne m ρ c Cert.KernelIdeal.main_arg16 (by decide)
    _ = Cert.KernelIdeal.Gen.W4 (F := Ideal) m ρ c (Proc.devRef .tc Cert.KernelIdeal.main_arg16) := by carry_host Cert.KernelIdeal.Gen.hostOps2
    _ = Cert.KernelIdeal.Gen.W3 (F := Ideal) m ρ c (Proc.devRef .tc Cert.KernelIdeal.main_arg16) := Cert.KernelIdeal.Gen.W4_of_ne m ρ c Cert.KernelIdeal.main_arg16 (by decide)
    _ = Cert.KernelIdeal.Gen.W2 (F := Ideal) m ρ c (Proc.devRef .tc Cert.KernelIdeal.main_arg16) := by carry_host Cert.KernelIdeal.Gen.hostOps1
    _ = Cert.KernelIdeal.Gen.W1 (F := Ideal) m ρ c (Proc.devRef .tc Cert.KernelIdeal.main_arg16) := Cert.KernelIdeal.Gen.W2_of_ne m ρ c Cert.KernelIdeal.main_arg16 (by decide)
    _ = Cert.KernelIdeal.Gen.W0 (F := Ideal) m ρ c (Proc.devRef .tc Cert.KernelIdeal.main_arg16) := by carry_host Cert.KernelIdeal.Gen.hostOps0

theorem k_arg17_10_0 : Cert.KernelIdeal.Gen.W10 (F := Ideal) m ρ c (Proc.devRef .tc Cert.KernelIdeal.main_arg17) = Cert.KernelIdeal.Gen.W0 (F := Ideal) m ρ c (Proc.devRef .tc Cert.KernelIdeal.main_arg17) :=
  calc Cert.KernelIdeal.Gen.W10 (F := Ideal) m ρ c (Proc.devRef .tc Cert.KernelIdeal.main_arg17)
    _ = Cert.KernelIdeal.Gen.W9 (F := Ideal) m ρ c (Proc.devRef .tc Cert.KernelIdeal.main_arg17) := Cert.KernelIdeal.Gen.W10_of_ne m ρ c Cert.KernelIdeal.main_arg17 (by decide)
    _ = Cert.KernelIdeal.Gen.W8 (F := Ideal) m ρ c (Proc.devRef .tc Cert.KernelIdeal.main_arg17) := by carry_host Cert.KernelIdeal.Gen.hostOps4
    _ = Cert.KernelIdeal.Gen.W7 (F := Ideal) m ρ c (Proc.devRef .tc Cert.KernelIdeal.main_arg17) := Cert.KernelIdeal.Gen.W8_of_ne m ρ c Cert.KernelIdeal.main_arg17 (by decide)
    _ = Cert.KernelIdeal.Gen.W6 (F := Ideal) m ρ c (Proc.devRef .tc Cert.KernelIdeal.main_arg17) := by carry_host Cert.KernelIdeal.Gen.hostOps3
    _ = Cert.KernelIdeal.Gen.W5 (F := Ideal) m ρ c (Proc.devRef .tc Cert.KernelIdeal.main_arg17) := Cert.KernelIdeal.Gen.W6_of_ne m ρ c Cert.KernelIdeal.main_arg17 (by decide)
    _ = Cert.KernelIdeal.Gen.W4 (F := Ideal) m ρ c (Proc.devRef .tc Cert.KernelIdeal.main_arg17) := by carry_host Cert.KernelIdeal.Gen.hostOps2
    _ = Cert.KernelIdeal.Gen.W3 (F := Ideal) m ρ c (Proc.devRef .tc Cert.KernelIdeal.main_arg17) := Cert.KernelIdeal.Gen.W4_of_ne m ρ c Cert.KernelIdeal.main_arg17 (by decide)
    _ = Cert.KernelIdeal.Gen.W2 (F := Ideal) m ρ c (Proc.devRef .tc Cert.KernelIdeal.main_arg17) := by carry_host Cert.KernelIdeal.Gen.hostOps1
    _ = Cert.KernelIdeal.Gen.W1 (F := Ideal) m ρ c (Proc.devRef .tc Cert.KernelIdeal.main_arg17) := Cert.KernelIdeal.Gen.W2_of_ne m ρ c Cert.KernelIdeal.main_arg17 (by decide)
    _ = Cert.KernelIdeal.Gen.W0 (F := Ideal) m ρ c (Proc.devRef .tc Cert.KernelIdeal.main_arg17) := by carry_host Cert.KernelIdeal.Gen.hostOps0

theorem k_arg2_12_0 : Cert.KernelIdeal.Gen.W12 (F := Ideal) m ρ c (Proc.devRef .tc Cert.KernelIdeal.main_arg2) = Cert.KernelIdeal.Gen.W0 (F := Ideal) m ρ c (Proc.devRef .tc Cert.KernelIdeal.main_arg2) :=
  calc Cert.KernelIdeal.Gen.W12 (F := Ideal) m ρ c (Proc.devRef .tc Cert.KernelIdeal.main_arg2)
    _ = Cert.KernelIdeal.Gen.W11 (F := Ideal) m ρ c (Proc.devRef .tc Cert.KernelIdeal.main_arg2) := Cert.KernelIdeal.Gen.W12_of_ne m ρ c Cert.KernelIdeal.main_arg2 (by decide)
    _ = Cert.KernelIdeal.Gen.W10 (F := Ideal) m ρ c (Proc.devRef .tc Cert.KernelIdeal.main_arg2) := by carry_host Cert.KernelIdeal.Gen.hostOps5
    _ = Cert.KernelIdeal.Gen.W9 (F := Ideal) m ρ c (Proc.devRef .tc Cert.KernelIdeal.main_arg2) := Cert.KernelIdeal.Gen.W10_of_ne m ρ c Cert.KernelIdeal.main_arg2 (by decide)
    _ = Cert.KernelIdeal.Gen.W8 (F := Ideal) m ρ c (Proc.devRef .tc Cert.KernelIdeal.main_arg2) := by carry_host Cert.KernelIdeal.Gen.hostOps4
    _ = Cert.KernelIdeal.Gen.W7 (F := Ideal) m ρ c (Proc.devRef .tc Cert.KernelIdeal.main_arg2) := Cert.KernelIdeal.Gen.W8_of_ne m ρ c Cert.KernelIdeal.main_arg2 (by decide)
    _ = Cert.KernelIdeal.Gen.W6 (F := Ideal) m ρ c (Proc.devRef .tc Cert.KernelIdeal.main_arg2) := by carry_host Cert.KernelIdeal.Gen.hostOps3
    _ = Cert.KernelIdeal.Gen.W5 (F := Ideal) m ρ c (Proc.devRef .tc Cert.KernelIdeal.main_arg2) := Cert.KernelIdeal.Gen.W6_of_ne m ρ c Cert.KernelIdeal.main_arg2 (by decide)
    _ = Cert.KernelIdeal.Gen.W4 (F := Ideal) m ρ c (Proc.devRef .tc Cert.KernelIdeal.main_arg2) := by carry_host Cert.KernelIdeal.Gen.hostOps2
    _ = Cert.KernelIdeal.Gen.W3 (F := Ideal) m ρ c (Proc.devRef .tc Cert.KernelIdeal.main_arg2) := Cert.KernelIdeal.Gen.W4_of_ne m ρ c Cert.KernelIdeal.main_arg2 (by decide)
    _ = Cert.KernelIdeal.Gen.W2 (F := Ideal) m ρ c (Proc.devRef .tc Cert.KernelIdeal.main_arg2) := by carry_host Cert.KernelIdeal.Gen.hostOps1
    _ = Cert.KernelIdeal.Gen.W1 (F := Ideal) m ρ c (Proc.devRef .tc Cert.KernelIdeal.main_arg2) := Cert.KernelIdeal.Gen.W2_of_ne m ρ c Cert.KernelIdeal.main_arg2 (by decide)
    _ = Cert.KernelIdeal.Gen.W0 (F := Ideal) m ρ c (Proc.devRef .tc Cert.KernelIdeal.main_arg2) := by carry_host Cert.KernelIdeal.Gen.hostOps0

theorem k_arg19_12_0 : Cert.KernelIdeal.Gen.W12 (F := Ideal) m ρ c (Proc.devRef .tc Cert.KernelIdeal.main_arg19) = Cert.KernelIdeal.Gen.W0 (F := Ideal) m ρ c (Proc.devRef .tc Cert.KernelIdeal.main_arg19) :=
  calc Cert.KernelIdeal.Gen.W12 (F := Ideal) m ρ c (Proc.devRef .tc Cert.KernelIdeal.main_arg19)
    _ = Cert.KernelIdeal.Gen.W11 (F := Ideal) m ρ c (Proc.devRef .tc Cert.KernelIdeal.main_arg19) := Cert.KernelIdeal.Gen.W12_of_ne m ρ c Cert.KernelIdeal.main_arg19 (by decide)
    _ = Cert.KernelIdeal.Gen.W10 (F := Ideal) m ρ c (Proc.devRef .tc Cert.KernelIdeal.main_arg19) := by carry_host Cert.KernelIdeal.Gen.hostOps5
    _ = Cert.KernelIdeal.Gen.W9 (F := Ideal) m ρ c (Proc.devRef .tc Cert.KernelIdeal.main_arg19) := Cert.KernelIdeal.Gen.W10_of_ne m ρ c Cert.KernelIdeal.main_arg19 (by decide)
    _ = Cert.KernelIdeal.Gen.W8 (F := Ideal) m ρ c (Proc.devRef .tc Cert.KernelIdeal.main_arg19) := by carry_host Cert.KernelIdeal.Gen.hostOps4
    _ = Cert.KernelIdeal.Gen.W7 (F := Ideal) m ρ c (Proc.devRef .tc Cert.KernelIdeal.main_arg19) := Cert.KernelIdeal.Gen.W8_of_ne m ρ c Cert.KernelIdeal.main_arg19 (by decide)
    _ = Cert.KernelIdeal.Gen.W6 (F := Ideal) m ρ c (Proc.devRef .tc Cert.KernelIdeal.main_arg19) := by carry_host Cert.KernelIdeal.Gen.hostOps3
    _ = Cert.KernelIdeal.Gen.W5 (F := Ideal) m ρ c (Proc.devRef .tc Cert.KernelIdeal.main_arg19) := Cert.KernelIdeal.Gen.W6_of_ne m ρ c Cert.KernelIdeal.main_arg19 (by decide)
    _ = Cert.KernelIdeal.Gen.W4 (F := Ideal) m ρ c (Proc.devRef .tc Cert.KernelIdeal.main_arg19) := by carry_host Cert.KernelIdeal.Gen.hostOps2
    _ = Cert.KernelIdeal.Gen.W3 (F := Ideal) m ρ c (Proc.devRef .tc Cert.KernelIdeal.main_arg19) := Cert.KernelIdeal.Gen.W4_of_ne m ρ c Cert.KernelIdeal.main_arg19 (by decide)
    _ = Cert.KernelIdeal.Gen.W2 (F := Ideal) m ρ c (Proc.devRef .tc Cert.KernelIdeal.main_arg19) := by carry_host Cert.KernelIdeal.Gen.hostOps1
    _ = Cert.KernelIdeal.Gen.W1 (F := Ideal) m ρ c (Proc.devRef .tc Cert.KernelIdeal.main_arg19) := Cert.KernelIdeal.Gen.W2_of_ne m ρ c Cert.KernelIdeal.main_arg19 (by decide)
    _ = Cert.KernelIdeal.Gen.W0 (F := Ideal) m ρ c (Proc.devRef .tc Cert.KernelIdeal.main_arg19) := by carry_host Cert.KernelIdeal.Gen.hostOps0

theorem k_arg21_12_0 : Cert.KernelIdeal.Gen.W12 (F := Ideal) m ρ c (Proc.devRef .tc Cert.KernelIdeal.main_arg21) = Cert.KernelIdeal.Gen.W0 (F := Ideal) m ρ c (Proc.devRef .tc Cert.KernelIdeal.main_arg21) :=
  calc Cert.KernelIdeal.Gen.W12 (F := Ideal) m ρ c (Proc.devRef .tc Cert.KernelIdeal.main_arg21)
    _ = Cert.KernelIdeal.Gen.W11 (F := Ideal) m ρ c (Proc.devRef .tc Cert.KernelIdeal.main_arg21) := Cert.KernelIdeal.Gen.W12_of_ne m ρ c Cert.KernelIdeal.main_arg21 (by decide)
    _ = Cert.KernelIdeal.Gen.W10 (F := Ideal) m ρ c (Proc.devRef .tc Cert.KernelIdeal.main_arg21) := by carry_host Cert.KernelIdeal.Gen.hostOps5
    _ = Cert.KernelIdeal.Gen.W9 (F := Ideal) m ρ c (Proc.devRef .tc Cert.KernelIdeal.main_arg21) := Cert.KernelIdeal.Gen.W10_of_ne m ρ c Cert.KernelIdeal.main_arg21 (by decide)
    _ = Cert.KernelIdeal.Gen.W8 (F := Ideal) m ρ c (Proc.devRef .tc Cert.KernelIdeal.main_arg21) := by carry_host Cert.KernelIdeal.Gen.hostOps4
    _ = Cert.KernelIdeal.Gen.W7 (F := Ideal) m ρ c (Proc.devRef .tc Cert.KernelIdeal.main_arg21) := Cert.KernelIdeal.Gen.W8_of_ne m ρ c Cert.KernelIdeal.main_arg21 (by decide)
    _ = Cert.KernelIdeal.Gen.W6 (F := Ideal) m ρ c (Proc.devRef .tc Cert.KernelIdeal.main_arg21) := by carry_host Cert.KernelIdeal.Gen.hostOps3
    _ = Cert.KernelIdeal.Gen.W5 (F := Ideal) m ρ c (Proc.devRef .tc Cert.KernelIdeal.main_arg21) := Cert.KernelIdeal.Gen.W6_of_ne m ρ c Cert.KernelIdeal.main_arg21 (by decide)
    _ = Cert.KernelIdeal.Gen.W4 (F := Ideal) m ρ c (Proc.devRef .tc Cert.KernelIdeal.main_arg21) := by carry_host Cert.KernelIdeal.Gen.hostOps2
    _ = Cert.KernelIdeal.Gen.W3 (F := Ideal) m ρ c (Proc.devRef .tc Cert.KernelIdeal.main_arg21) := Cert.KernelIdeal.Gen.W4_of_ne m ρ c Cert.KernelIdeal.main_arg21 (by decide)
    _ = Cert.KernelIdeal.Gen.W2 (F := Ideal) m ρ c (Proc.devRef .tc Cert.KernelIdeal.main_arg21) := by carry_host Cert.KernelIdeal.Gen.hostOps1
    _ = Cert.KernelIdeal.Gen.W1 (F := Ideal) m ρ c (Proc.devRef .tc Cert.KernelIdeal.main_arg21) := Cert.KernelIdeal.Gen.W2_of_ne m ρ c Cert.KernelIdeal.main_arg21 (by decide)
    _ = Cert.KernelIdeal.Gen.W0 (F := Ideal) m ρ c (Proc.devRef .tc Cert.KernelIdeal.main_arg21) := by carry_host Cert.KernelIdeal.Gen.hostOps0

theorem k_arg18_13_0 : Cert.KernelIdeal.Gen.W13 (F := Ideal) m ρ c (Proc.devRef .tc Cert.KernelIdeal.main_arg18) = Cert.KernelIdeal.Gen.W0 (F := Ideal) m ρ c (Proc.devRef .tc Cert.KernelIdeal.main_arg18) :=
  calc Cert.KernelIdeal.Gen.W13 (F := Ideal) m ρ c (Proc.devRef .tc Cert.KernelIdeal.main_arg18)
    _ = Cert.KernelIdeal.Gen.W12 (F := Ideal) m ρ c (Proc.devRef .tc Cert.KernelIdeal.main_arg18) := by carry_host Cert.KernelIdeal.Gen.hostOps6
    _ = Cert.KernelIdeal.Gen.W11 (F := Ideal) m ρ c (Proc.devRef .tc Cert.KernelIdeal.main_arg18) := Cert.KernelIdeal.Gen.W12_of_ne m ρ c Cert.KernelIdeal.main_arg18 (by decide)
    _ = Cert.KernelIdeal.Gen.W10 (F := Ideal) m ρ c (Proc.devRef .tc Cert.KernelIdeal.main_arg18) := by carry_host Cert.KernelIdeal.Gen.hostOps5
    _ = Cert.KernelIdeal.Gen.W9 (F := Ideal) m ρ c (Proc.devRef .tc Cert.KernelIdeal.main_arg18) := Cert.KernelIdeal.Gen.W10_of_ne m ρ c Cert.KernelIdeal.main_arg18 (by decide)
    _ = Cert.KernelIdeal.Gen.W8 (F := Ideal) m ρ c (Proc.devRef .tc Cert.KernelIdeal.main_arg18) := by carry_host Cert.KernelIdeal.Gen.hostOps4
    _ = Cert.KernelIdeal.Gen.W7 (F := Ideal) m ρ c (Proc.devRef .tc Cert.KernelIdeal.main_arg18) := Cert.KernelIdeal.Gen.W8_of_ne m ρ c Cert.KernelIdeal.main_arg18 (by decide)
    _ = Cert.KernelIdeal.Gen.W6 (F := Ideal) m ρ c (Proc.devRef .tc Cert.KernelIdeal.main_arg18) := by carry_host Cert.KernelIdeal.Gen.hostOps3
    _ = Cert.KernelIdeal.Gen.W5 (F := Ideal) m ρ c (Proc.devRef .tc Cert.KernelIdeal.main_arg18) := Cert.KernelIdeal.Gen.W6_of_ne m ρ c Cert.KernelIdeal.main_arg18 (by decide)
    _ = Cert.KernelIdeal.Gen.W4 (F := Ideal) m ρ c (Proc.devRef .tc Cert.KernelIdeal.main_arg18) := by carry_host Cert.KernelIdeal.Gen.hostOps2
    _ = Cert.KernelIdeal.Gen.W3 (F := Ideal) m ρ c (Proc.devRef .tc Cert.KernelIdeal.main_arg18) := Cert.KernelIdeal.Gen.W4_of_ne m ρ c Cert.KernelIdeal.main_arg18 (by decide)
    _ = Cert.KernelIdeal.Gen.W2 (F := Ideal) m ρ c (Proc.devRef .tc Cert.KernelIdeal.main_arg18) := by carry_host Cert.KernelIdeal.Gen.hostOps1
    _ = Cert.KernelIdeal.Gen.W1 (F := Ideal) m ρ c (Proc.devRef .tc Cert.KernelIdeal.main_arg18) := Cert.KernelIdeal.Gen.W2_of_ne m ρ c Cert.KernelIdeal.main_arg18 (by decide)
    _ = Cert.KernelIdeal.Gen.W0 (F := Ideal) m ρ c (Proc.devRef .tc Cert.KernelIdeal.main_arg18) := by carry_host Cert.KernelIdeal.Gen.hostOps0

theorem k_arg20_13_0 : Cert.KernelIdeal.Gen.W13 (F := Ideal) m ρ c (Proc.devRef .tc Cert.KernelIdeal.main_arg20) = Cert.KernelIdeal.Gen.W0 (F := Ideal) m ρ c (Proc.devRef .tc Cert.KernelIdeal.main_arg20) :=
  calc Cert.KernelIdeal.Gen.W13 (F := Ideal) m ρ c (Proc.devRef .tc Cert.KernelIdeal.main_arg20)
    _ = Cert.KernelIdeal.Gen.W12 (F := Ideal) m ρ c (Proc.devRef .tc Cert.KernelIdeal.main_arg20) := by carry_host Cert.KernelIdeal.Gen.hostOps6
    _ = Cert.KernelIdeal.Gen.W11 (F := Ideal) m ρ c (Proc.devRef .tc Cert.KernelIdeal.main_arg20) := Cert.KernelIdeal.Gen.W12_of_ne m ρ c Cert.KernelIdeal.main_arg20 (by decide)
    _ = Cert.KernelIdeal.Gen.W10 (F := Ideal) m ρ c (Proc.devRef .tc Cert.KernelIdeal.main_arg20) := by carry_host Cert.KernelIdeal.Gen.hostOps5
    _ = Cert.KernelIdeal.Gen.W9 (F := Ideal) m ρ c (Proc.devRef .tc Cert.KernelIdeal.main_arg20) := Cert.KernelIdeal.Gen.W10_of_ne m ρ c Cert.KernelIdeal.main_arg20 (by decide)
    _ = Cert.KernelIdeal.Gen.W8 (F := Ideal) m ρ c (Proc.devRef .tc Cert.KernelIdeal.main_arg20) := by carry_host Cert.KernelIdeal.Gen.hostOps4
    _ = Cert.KernelIdeal.Gen.W7 (F := Ideal) m ρ c (Proc.devRef .tc Cert.KernelIdeal.main_arg20) := Cert.KernelIdeal.Gen.W8_of_ne m ρ c Cert.KernelIdeal.main_arg20 (by decide)
    _ = Cert.KernelIdeal.Gen.W6 (F := Ideal) m ρ c (Proc.devRef .tc Cert.KernelIdeal.main_arg20) := by carry_host Cert.KernelIdeal.Gen.hostOps3
    _ = Cert.KernelIdeal.Gen.W5 (F := Ideal) m ρ c (Proc.devRef .tc Cert.KernelIdeal.main_arg20) := Cert.KernelIdeal.Gen.W6_of_ne m ρ c Cert.KernelIdeal.main_arg20 (by decide)
    _ = Cert.KernelIdeal.Gen.W4 (F := Ideal) m ρ c (Proc.devRef .tc Cert.KernelIdeal.main_arg20) := by carry_host Cert.KernelIdeal.Gen.hostOps2
    _ = Cert.KernelIdeal.Gen.W3 (F := Ideal) m ρ c (Proc.devRef .tc Cert.KernelIdeal.main_arg20) := Cert.KernelIdeal.Gen.W4_of_ne m ρ c Cert.KernelIdeal.main_arg20 (by decide)
    _ = Cert.KernelIdeal.Gen.W2 (F := Ideal) m ρ c (Proc.devRef .tc Cert.KernelIdeal.main_arg20) := by carry_host Cert.KernelIdeal.Gen.hostOps1
    _ = Cert.KernelIdeal.Gen.W1 (F := Ideal) m ρ c (Proc.devRef .tc Cert.KernelIdeal.main_arg20) := Cert.KernelIdeal.Gen.W2_of_ne m ρ c Cert.KernelIdeal.main_arg20 (by decide)
    _ = Cert.KernelIdeal.Gen.W0 (F := Ideal) m ρ c (Proc.devRef .tc Cert.KernelIdeal.main_arg20) := by carry_host Cert.KernelIdeal.Gen.hostOps0

theorem k_v1_4_1 : Cert.KernelIdeal.Gen.W4 (F := Ideal) m ρ c (Proc.devRef .tc Cert.KernelIdeal.main_v1) = Cert.KernelIdeal.Gen.W1 (F := Ideal) m ρ c (Proc.devRef .tc Cert.KernelIdeal.main_v1) :=
  calc Cert.KernelIdeal.Gen.W4 (F := Ideal) m ρ c (Proc.devRef .tc Cert.KernelIdeal.main_v1)
    _ = Cert.KernelIdeal.Gen.W3 (F := Ideal) m ρ c (Proc.devRef .tc Cert.KernelIdeal.main_v1) := Cert.KernelIdeal.Gen.W4_of_ne m ρ c Cert.KernelIdeal.main_v1 (by decide)
    _ = Cert.KernelIdeal.Gen.W2 (F := Ideal) m ρ c (Proc.devRef .tc Cert.KernelIdeal.main_v1) := by carry_host Cert.KernelIdeal.Gen.hostOps1
    _ = Cert.KernelIdeal.Gen.W1 (F := Ideal) m ρ c (Proc.devRef .tc Cert.KernelIdeal.main_v1) := Cert.KernelIdeal.Gen.W2_of_ne m ρ c Cert.KernelIdeal.main_v1 (by decide)

theorem k_v1_8_4 : Cert.KernelIdeal.Gen.W8 (F := Ideal) m ρ c (Proc.devRef .tc Cert.KernelIdeal.main_v1) = Cert.KernelIdeal.Gen.W4 (F := Ideal) m ρ c (Proc.devRef .tc Cert.KernelIdeal.main_v1) :=
  calc Cert.KernelIdeal.Gen.W8 (F := Ideal) m ρ c (Proc.devRef .tc Cert.KernelIdeal.main_v1)
    _ = Cert.KernelIdeal.Gen.W7 (F := Ideal) m ρ c (Proc.devRef .tc Cert.KernelIdeal.main_v1) := Cert.KernelIdeal.Gen.W8_of_ne m ρ c Cert.KernelIdeal.main_v1 (by decide)
    _ = Cert.KernelIdeal.Gen.W6 (F := Ideal) m ρ c (Proc.devRef .tc Cert.KernelIdeal.main_v1) := by carry_host Cert.KernelIdeal.Gen.hostOps3
    _ = Cert.KernelIdeal.Gen.W5 (F := Ideal) m ρ c (Proc.devRef .tc Cert.KernelIdeal.main_v1) := Cert.KernelIdeal.Gen.W6_of_ne m ρ c Cert.KernelIdeal.main_v1 (by decide)
    _ = Cert.KernelIdeal.Gen.W4 (F := Ideal) m ρ c (Proc.devRef .tc Cert.KernelIdeal.main_v1) := by carry_host Cert.KernelIdeal.Gen.hostOps2

theorem k_v3_4_1 : Cert.KernelIdeal.Gen.W4 (F := Ideal) m ρ c (Proc.devRef .tc Cert.KernelIdeal.main_v3) = Cert.KernelIdeal.Gen.W1 (F := Ideal) m ρ c (Proc.devRef .tc Cert.KernelIdeal.main_v3) :=
  calc Cert.KernelIdeal.Gen.W4 (F := Ideal) m ρ c (Proc.devRef .tc Cert.KernelIdeal.main_v3)
    _ = Cert.KernelIdeal.Gen.W3 (F := Ideal) m ρ c (Proc.devRef .tc Cert.KernelIdeal.main_v3) := Cert.KernelIdeal.Gen.W4_of_ne m ρ c Cert.KernelIdeal.main_v3 (by decide)
    _ = Cert.KernelIdeal.Gen.W2 (F := Ideal) m ρ c (Proc.devRef .tc Cert.KernelIdeal.main_v3) := by carry_host Cert.KernelIdeal.Gen.hostOps1
    _ = Cert.KernelIdeal.Gen.W1 (F := Ideal) m ρ c (Proc.devRef .tc Cert.KernelIdeal.main_v3) := Cert.KernelIdeal.Gen.W2_of_ne m ρ c Cert.KernelIdeal.main_v3 (by decide)

theorem k_v3_8_4 : Cert.KernelIdeal.Gen.W8 (F := Ideal) m ρ c (Proc.devRef .tc Cert.KernelIdeal.main_v3) = Cert.KernelIdeal.Gen.W4 (F := Ideal) m ρ c (Proc.devRef .tc Cert.KernelIdeal.main_v3) :=
  calc Cert.KernelIdeal.Gen.W8 (F := Ideal) m ρ c (Proc.devRef .tc Cert.KernelIdeal.main_v3)
    _ = Cert.KernelIdeal.Gen.W7 (F := Ideal) m ρ c (Proc.devRef .tc Cert.KernelIdeal.main_v3) := Cert.KernelIdeal.Gen.W8_of_ne m ρ c Cert.KernelIdeal.main_v3 (by decide)
    _ = Cert.KernelIdeal.Gen.W6 (F := Ideal) m ρ c (Proc.devRef .tc Cert.KernelIdeal.main_v3) := by carry_host Cert.KernelIdeal.Gen.hostOps3
    _ = Cert.KernelIdeal.Gen.W5 (F := Ideal) m ρ c (Proc.devRef .tc Cert.KernelIdeal.main_v3) := Cert.KernelIdeal.Gen.W6_of_ne m ρ c Cert.KernelIdeal.main_v3 (by decide)
    _ = Cert.KernelIdeal.Gen.W4 (F := Ideal) m ρ c (Proc.devRef .tc Cert.KernelIdeal.main_v3) := by carry_host Cert.KernelIdeal.Gen.hostOps2

theorem k_v11_4_1 : Cert.KernelIdeal.Gen.W4 (F := Ideal) m ρ c (Proc.devRef .tc Cert.KernelIdeal.main_v11) = Cert.KernelIdeal.Gen.W1 (F := Ideal) m ρ c (Proc.devRef .tc Cert.KernelIdeal.main_v11) :=
  calc Cert.KernelIdeal.Gen.W4 (F := Ideal) m ρ c (Proc.devRef .tc Cert.KernelIdeal.main_v11)
    _ = Cert.KernelIdeal.Gen.W3 (F := Ideal) m ρ c (Proc.devRef .tc Cert.KernelIdeal.main_v11) := Cert.KernelIdeal.Gen.W4_of_ne m ρ c Cert.KernelIdeal.main_v11 (by decide)
    _ = Cert.KernelIdeal.Gen.W2 (F := Ideal) m ρ c (Proc.devRef .tc Cert.KernelIdeal.main_v11) := by carry_host Cert.KernelIdeal.Gen.hostOps1
    _ = Cert.KernelIdeal.Gen.W1 (F := Ideal) m ρ c (Proc.devRef .tc Cert.KernelIdeal.main_v11) := Cert.KernelIdeal.Gen.W2_of_ne m ρ c Cert.KernelIdeal.main_v11 (by decide)

theorem k_v11_8_4 : Cert.KernelIdeal.Gen.W8 (F := Ideal) m ρ c (Proc.devRef .tc Cert.KernelIdeal.main_v11) = Cert.KernelIdeal.Gen.W4 (F := Ideal) m ρ c (Proc.devRef .tc Cert.KernelIdeal.main_v11) :=
  calc Cert.KernelIdeal.Gen.W8 (F := Ideal) m ρ c (Proc.devRef .tc Cert.KernelIdeal.main_v11)
    _ = Cert.KernelIdeal.Gen.W7 (F := Ideal) m ρ c (Proc.devRef .tc Cert.KernelIdeal.main_v11) := Cert.KernelIdeal.Gen.W8_of_ne m ρ c Cert.KernelIdeal.main_v11 (by decide)
    _ = Cert.KernelIdeal.Gen.W6 (F := Ideal) m ρ c (Proc.devRef .tc Cert.KernelIdeal.main_v11) := by carry_host Cert.KernelIdeal.Gen.hostOps3
    _ = Cert.KernelIdeal.Gen.W5 (F := Ideal) m ρ c (Proc.devRef .tc Cert.KernelIdeal.main_v11) := Cert.KernelIdeal.Gen.W6_of_ne m ρ c Cert.KernelIdeal.main_v11 (by decide)
    _ = Cert.KernelIdeal.Gen.W4 (F := Ideal) m ρ c (Proc.devRef .tc Cert.KernelIdeal.main_v11) := by carry_host Cert.KernelIdeal.Gen.hostOps2

theorem k_v26_0_3_2 : Cert.KernelIdeal.Gen.W3 (F := Ideal) m ρ c (Proc.devRef .tc Cert.KernelIdeal.main_v26_0) = Cert.KernelIdeal.Gen.W2 (F := Ideal) m ρ c (Proc.devRef .tc Cert.KernelIdeal.main_v26_0) :=
  calc Cert.KernelIdeal.Gen.W3 (F := Ideal) m ρ c (Proc.devRef .tc Cert.KernelIdeal.main_v26_0)
    _ = Cert.KernelIdeal.Gen.W2 (F := Ideal) m ρ c (Proc.devRef .tc Cert.KernelIdeal.main_v26_0) := by carry_host Cert.KernelIdeal.Gen.hostOps1

theorem k_v35_5_4 : Cert.KernelIdeal.Gen.W5 (F := Ideal) m ρ c (Proc.devRef .tc Cert.KernelIdeal.main_v35) = Cert.KernelIdeal.Gen.W4 (F := Ideal) m ρ c (Proc.devRef .tc Cert.KernelIdeal.main_v35) :=
  calc Cert.KernelIdeal.Gen.W5 (F := Ideal) m ρ c (Proc.devRef .tc Cert.KernelIdeal.main_v35)
    _ = Cert.KernelIdeal.Gen.W4 (F := Ideal) m ρ c (Proc.devRef .tc Cert.KernelIdeal.main_v35) := by carry_host Cert.KernelIdeal.Gen.hostOps2

theorem k_v50_0_7_6 : Cert.KernelIdeal.Gen.W7 (F := Ideal) m ρ c (Proc.devRef .tc Cert.KernelIdeal.main_v50_0) = Cert.KernelIdeal.Gen.W6 (F := Ideal) m ρ c (Proc.devRef .tc Cert.KernelIdeal.main_v50_0) :=
  calc Cert.KernelIdeal.Gen.W7 (F := Ideal) m ρ c (Proc.devRef .tc Cert.KernelIdeal.main_v50_0)
    _ = Cert.KernelIdeal.Gen.W6 (F := Ideal) m ρ c (Proc.devRef .tc Cert.KernelIdeal.main_v50_0) := by carry_host Cert.KernelIdeal.Gen.hostOps3

theorem k_v59_9_8 : Cert.KernelIdeal.Gen.W9 (F := Ideal) m ρ c (Proc.devRef .tc Cert.KernelIdeal.main_v59) = Cert.KernelIdeal.Gen.W8 (F := Ideal) m ρ c (Proc.devRef .tc Cert.KernelIdeal.main_v59) :=
  calc Cert.KernelIdeal.Gen.W9 (F := Ideal) m ρ c (Proc.devRef .tc Cert.KernelIdeal.main_v59)
    _ = Cert.KernelIdeal.Gen.W8 (F := Ideal) m ρ c (Proc.devRef .tc Cert.KernelIdeal.main_v59) := by carry_host Cert.KernelIdeal.Gen.hostOps4

theorem k_v74_0_11_10 : Cert.KernelIdeal.Gen.W11 (F := Ideal) m ρ c (Proc.devRef .tc Cert.KernelIdeal.main_v74_0) = Cert.KernelIdeal.Gen.W10 (F := Ideal) m ρ c (Proc.devRef .tc Cert.KernelIdeal.main_v74_0) :=
  calc Cert.KernelIdeal.Gen.W11 (F := Ideal) m ρ c (Proc.devRef .tc Cert.KernelIdeal.main_v74_0)
    _ = Cert.KernelIdeal.Gen.W10 (F := Ideal) m ρ c (Proc.devRef .tc Cert.KernelIdeal.main_v74_0) := by carry_host Cert.KernelIdeal.Gen.hostOps5

end Kernel

section Reference
variable (m' : (ℓ : Loc Cert.ReferenceIdeal.nD Cert.ReferenceIdeal.τ Cert.ReferenceIdeal.sig) → Buf (Elt Ideal) ℓ) (c : Dev Cert.ReferenceIdeal.nD)

/-- The reference's contents at launch and after each piece. -/
abbrev R0 : Valuation Cert.ReferenceIdeal.τ Cert.ReferenceIdeal.sig (Elt Ideal) := launchContents m' c
abbrev RA := after (Cert.ReferenceIdeal.Pieces.opsA (F := Ideal)) (R0 m' c)
abbrev RB := after (Cert.ReferenceIdeal.Pieces.opsB (F := Ideal)) (RA m' c)
abbrev RC := after (Cert.ReferenceIdeal.Pieces.opsC (F := Ideal)) (RB m' c)
abbrev RD := after (Cert.ReferenceIdeal.Pieces.opsD (F := Ideal)) (RC m' c)
abbrev RE := after (Cert.ReferenceIdeal.Pieces.opsE (F := Ideal)) (RD m' c)
abbrev RF := after (Cert.ReferenceIdeal.Pieces.opsF (F := Ideal)) (RE m' c)
abbrev RG := after (Cert.ReferenceIdeal.Pieces.opsG (F := Ideal)) (RF m' c)
abbrev RH := after (Cert.ReferenceIdeal.Pieces.opsH (F := Ideal)) (RG m' c)
abbrev RI := after (Cert.ReferenceIdeal.Pieces.opsI (F := Ideal)) (RH m' c)
abbrev RJ := after (Cert.ReferenceIdeal.Pieces.opsJ (F := Ideal)) (RI m' c)
abbrev RK := after (Cert.ReferenceIdeal.Pieces.opsK (F := Ideal)) (RJ m' c)

theorem r_arg0_A_0 : RA m' c (Proc.devRef .tc Cert.ReferenceIdeal.main_arg0) = R0 m' c (Proc.devRef .tc Cert.ReferenceIdeal.main_arg0) :=
  calc RA m' c (Proc.devRef .tc Cert.ReferenceIdeal.main_arg0)
    _ = R0 m' c (Proc.devRef .tc Cert.ReferenceIdeal.main_arg0) := by carry_host Cert.ReferenceIdeal.Pieces.opsA

theorem r_arg3_A_0 : RA m' c (Proc.devRef .tc Cert.ReferenceIdeal.main_arg3) = R0 m' c (Proc.devRef .tc Cert.ReferenceIdeal.main_arg3) :=
  calc RA m' c (Proc.devRef .tc Cert.ReferenceIdeal.main_arg3)
    _ = R0 m' c (Proc.devRef .tc Cert.ReferenceIdeal.main_arg3) := by carry_host Cert.ReferenceIdeal.Pieces.opsA

theorem r_arg4_A_0 : RA m' c (Proc.devRef .tc Cert.ReferenceIdeal.main_arg4) = R0 m' c (Proc.devRef .tc Cert.ReferenceIdeal.main_arg4) :=
  calc RA m' c (Proc.devRef .tc Cert.ReferenceIdeal.main_arg4)
    _ = R0 m' c (Proc.devRef .tc Cert.ReferenceIdeal.main_arg4) := by carry_host Cert.ReferenceIdeal.Pieces.opsA

theorem r_arg5_A_0 : RA m' c (Proc.devRef .tc Cert.ReferenceIdeal.main_arg5) = R0 m' c (Proc.devRef .tc Cert.ReferenceIdeal.main_arg5) :=
  calc RA m' c (Proc.devRef .tc Cert.ReferenceIdeal.main_arg5)
    _ = R0 m' c (Proc.devRef .tc Cert.ReferenceIdeal.main_arg5) := by carry_host Cert.ReferenceIdeal.Pieces.opsA

theorem r_arg6_B_0 : RB m' c (Proc.devRef .tc Cert.ReferenceIdeal.main_arg6) = R0 m' c (Proc.devRef .tc Cert.ReferenceIdeal.main_arg6) :=
  calc RB m' c (Proc.devRef .tc Cert.ReferenceIdeal.main_arg6)
    _ = RA m' c (Proc.devRef .tc Cert.ReferenceIdeal.main_arg6) := by carry_host Cert.ReferenceIdeal.Pieces.opsB
    _ = R0 m' c (Proc.devRef .tc Cert.ReferenceIdeal.main_arg6) := by carry_host Cert.ReferenceIdeal.Pieces.opsA

theorem r_arg7_B_0 : RB m' c (Proc.devRef .tc Cert.ReferenceIdeal.main_arg7) = R0 m' c (Proc.devRef .tc Cert.ReferenceIdeal.main_arg7) :=
  calc RB m' c (Proc.devRef .tc Cert.ReferenceIdeal.main_arg7)
    _ = RA m' c (Proc.devRef .tc Cert.ReferenceIdeal.main_arg7) := by carry_host Cert.ReferenceIdeal.Pieces.opsB
    _ = R0 m' c (Proc.devRef .tc Cert.ReferenceIdeal.main_arg7) := by carry_host Cert.ReferenceIdeal.Pieces.opsA

theorem r_arg8_D_0 : RD m' c (Proc.devRef .tc Cert.ReferenceIdeal.main_arg8) = R0 m' c (Proc.devRef .tc Cert.ReferenceIdeal.main_arg8) :=
  calc RD m' c (Proc.devRef .tc Cert.ReferenceIdeal.main_arg8)
    _ = RC m' c (Proc.devRef .tc Cert.ReferenceIdeal.main_arg8) := by carry_host Cert.ReferenceIdeal.Pieces.opsD
    _ = RB m' c (Proc.devRef .tc Cert.ReferenceIdeal.main_arg8) := by carry_host Cert.ReferenceIdeal.Pieces.opsC
    _ = RA m' c (Proc.devRef .tc Cert.ReferenceIdeal.main_arg8) := by carry_host Cert.ReferenceIdeal.Pieces.opsB
    _ = R0 m' c (Proc.devRef .tc Cert.ReferenceIdeal.main_arg8) := by carry_host Cert.ReferenceIdeal.Pieces.opsA

theorem r_arg9_D_0 : RD m' c (Proc.devRef .tc Cert.ReferenceIdeal.main_arg9) = R0 m' c (Proc.devRef .tc Cert.ReferenceIdeal.main_arg9) :=
  calc RD m' c (Proc.devRef .tc Cert.ReferenceIdeal.main_arg9)
    _ = RC m' c (Proc.devRef .tc Cert.ReferenceIdeal.main_arg9) := by carry_host Cert.ReferenceIdeal.Pieces.opsD
    _ = RB m' c (Proc.devRef .tc Cert.ReferenceIdeal.main_arg9) := by carry_host Cert.ReferenceIdeal.Pieces.opsC
    _ = RA m' c (Proc.devRef .tc Cert.ReferenceIdeal.main_arg9) := by carry_host Cert.ReferenceIdeal.Pieces.opsB
    _ = R0 m' c (Proc.devRef .tc Cert.ReferenceIdeal.main_arg9) := by carry_host Cert.ReferenceIdeal.Pieces.opsA

theorem r_arg10_D_0 : RD m' c (Proc.devRef .tc Cert.ReferenceIdeal.main_arg10) = R0 m' c (Proc.devRef .tc Cert.ReferenceIdeal.main_arg10) :=
  calc RD m' c (Proc.devRef .tc Cert.ReferenceIdeal.main_arg10)
    _ = RC m' c (Proc.devRef .tc Cert.ReferenceIdeal.main_arg10) := by carry_host Cert.ReferenceIdeal.Pieces.opsD
    _ = RB m' c (Proc.devRef .tc Cert.ReferenceIdeal.main_arg10) := by carry_host Cert.ReferenceIdeal.Pieces.opsC
    _ = RA m' c (Proc.devRef .tc Cert.ReferenceIdeal.main_arg10) := by carry_host Cert.ReferenceIdeal.Pieces.opsB
    _ = R0 m' c (Proc.devRef .tc Cert.ReferenceIdeal.main_arg10) := by carry_host Cert.ReferenceIdeal.Pieces.opsA

theorem r_arg11_E_0 : RE m' c (Proc.devRef .tc Cert.ReferenceIdeal.main_arg11) = R0 m' c (Proc.devRef .tc Cert.ReferenceIdeal.main_arg11) :=
  calc RE m' c (Proc.devRef .tc Cert.ReferenceIdeal.main_arg11)
    _ = RD m' c (Proc.devRef .tc Cert.ReferenceIdeal.main_arg11) := by carry_host Cert.ReferenceIdeal.Pieces.opsE
    _ = RC m' c (Proc.devRef .tc Cert.ReferenceIdeal.main_arg11) := by carry_host Cert.ReferenceIdeal.Pieces.opsD
    _ = RB m' c (Proc.devRef .tc Cert.ReferenceIdeal.main_arg11) := by carry_host Cert.ReferenceIdeal.Pieces.opsC
    _ = RA m' c (Proc.devRef .tc Cert.ReferenceIdeal.main_arg11) := by carry_host Cert.ReferenceIdeal.Pieces.opsB
    _ = R0 m' c (Proc.devRef .tc Cert.ReferenceIdeal.main_arg11) := by carry_host Cert.ReferenceIdeal.Pieces.opsA

theorem r_arg12_E_0 : RE m' c (Proc.devRef .tc Cert.ReferenceIdeal.main_arg12) = R0 m' c (Proc.devRef .tc Cert.ReferenceIdeal.main_arg12) :=
  calc RE m' c (Proc.devRef .tc Cert.ReferenceIdeal.main_arg12)
    _ = RD m' c (Proc.devRef .tc Cert.ReferenceIdeal.main_arg12) := by carry_host Cert.ReferenceIdeal.Pieces.opsE
    _ = RC m' c (Proc.devRef .tc Cert.ReferenceIdeal.main_arg12) := by carry_host Cert.ReferenceIdeal.Pieces.opsD
    _ = RB m' c (Proc.devRef .tc Cert.ReferenceIdeal.main_arg12) := by carry_host Cert.ReferenceIdeal.Pieces.opsC
    _ = RA m' c (Proc.devRef .tc Cert.ReferenceIdeal.main_arg12) := by carry_host Cert.ReferenceIdeal.Pieces.opsB
    _ = R0 m' c (Proc.devRef .tc Cert.ReferenceIdeal.main_arg12) := by carry_host Cert.ReferenceIdeal.Pieces.opsA

theorem r_arg13_G_0 : RG m' c (Proc.devRef .tc Cert.ReferenceIdeal.main_arg13) = R0 m' c (Proc.devRef .tc Cert.ReferenceIdeal.main_arg13) :=
  calc RG m' c (Proc.devRef .tc Cert.ReferenceIdeal.main_arg13)
    _ = RF m' c (Proc.devRef .tc Cert.ReferenceIdeal.main_arg13) := by carry_host Cert.ReferenceIdeal.Pieces.opsG
    _ = RE m' c (Proc.devRef .tc Cert.ReferenceIdeal.main_arg13) := by carry_host Cert.ReferenceIdeal.Pieces.opsF
    _ = RD m' c (Proc.devRef .tc Cert.ReferenceIdeal.main_arg13) := by carry_host Cert.ReferenceIdeal.Pieces.opsE
    _ = RC m' c (Proc.devRef .tc Cert.ReferenceIdeal.main_arg13) := by carry_host Cert.ReferenceIdeal.Pieces.opsD
    _ = RB m' c (Proc.devRef .tc Cert.ReferenceIdeal.main_arg13) := by carry_host Cert.ReferenceIdeal.Pieces.opsC
    _ = RA m' c (Proc.devRef .tc Cert.ReferenceIdeal.main_arg13) := by carry_host Cert.ReferenceIdeal.Pieces.opsB
    _ = R0 m' c (Proc.devRef .tc Cert.ReferenceIdeal.main_arg13) := by carry_host Cert.ReferenceIdeal.Pieces.opsA

theorem r_arg14_G_0 : RG m' c (Proc.devRef .tc Cert.ReferenceIdeal.main_arg14) = R0 m' c (Proc.devRef .tc Cert.ReferenceIdeal.main_arg14) :=
  calc RG m' c (Proc.devRef .tc Cert.ReferenceIdeal.main_arg14)
    _ = RF m' c (Proc.devRef .tc Cert.ReferenceIdeal.main_arg14) := by carry_host Cert.ReferenceIdeal.Pieces.opsG
    _ = RE m' c (Proc.devRef .tc Cert.ReferenceIdeal.main_arg14) := by carry_host Cert.ReferenceIdeal.Pieces.opsF
    _ = RD m' c (Proc.devRef .tc Cert.ReferenceIdeal.main_arg14) := by carry_host Cert.ReferenceIdeal.Pieces.opsE
    _ = RC m' c (Proc.devRef .tc Cert.ReferenceIdeal.main_arg14) := by carry_host Cert.ReferenceIdeal.Pieces.opsD
    _ = RB m' c (Proc.devRef .tc Cert.ReferenceIdeal.main_arg14) := by carry_host Cert.ReferenceIdeal.Pieces.opsC
    _ = RA m' c (Proc.devRef .tc Cert.ReferenceIdeal.main_arg14) := by carry_host Cert.ReferenceIdeal.Pieces.opsB
    _ = R0 m' c (Proc.devRef .tc Cert.ReferenceIdeal.main_arg14) := by carry_host Cert.ReferenceIdeal.Pieces.opsA

theorem r_arg15_G_0 : RG m' c (Proc.devRef .tc Cert.ReferenceIdeal.main_arg15) = R0 m' c (Proc.devRef .tc Cert.ReferenceIdeal.main_arg15) :=
  calc RG m' c (Proc.devRef .tc Cert.ReferenceIdeal.main_arg15)
    _ = RF m' c (Proc.devRef .tc Cert.ReferenceIdeal.main_arg15) := by carry_host Cert.ReferenceIdeal.Pieces.opsG
    _ = RE m' c (Proc.devRef .tc Cert.ReferenceIdeal.main_arg15) := by carry_host Cert.ReferenceIdeal.Pieces.opsF
    _ = RD m' c (Proc.devRef .tc Cert.ReferenceIdeal.main_arg15) := by carry_host Cert.ReferenceIdeal.Pieces.opsE
    _ = RC m' c (Proc.devRef .tc Cert.ReferenceIdeal.main_arg15) := by carry_host Cert.ReferenceIdeal.Pieces.opsD
    _ = RB m' c (Proc.devRef .tc Cert.ReferenceIdeal.main_arg15) := by carry_host Cert.ReferenceIdeal.Pieces.opsC
    _ = RA m' c (Proc.devRef .tc Cert.ReferenceIdeal.main_arg15) := by carry_host Cert.ReferenceIdeal.Pieces.opsB
    _ = R0 m' c (Proc.devRef .tc Cert.ReferenceIdeal.main_arg15) := by carry_host Cert.ReferenceIdeal.Pieces.opsA

theorem r_arg16_H_0 : RH m' c (Proc.devRef .tc Cert.ReferenceIdeal.main_arg16) = R0 m' c (Proc.devRef .tc Cert.ReferenceIdeal.main_arg16) :=
  calc RH m' c (Proc.devRef .tc Cert.ReferenceIdeal.main_arg16)
    _ = RG m' c (Proc.devRef .tc Cert.ReferenceIdeal.main_arg16) := by carry_host Cert.ReferenceIdeal.Pieces.opsH
    _ = RF m' c (Proc.devRef .tc Cert.ReferenceIdeal.main_arg16) := by carry_host Cert.ReferenceIdeal.Pieces.opsG
    _ = RE m' c (Proc.devRef .tc Cert.ReferenceIdeal.main_arg16) := by carry_host Cert.ReferenceIdeal.Pieces.opsF
    _ = RD m' c (Proc.devRef .tc Cert.ReferenceIdeal.main_arg16) := by carry_host Cert.ReferenceIdeal.Pieces.opsE
    _ = RC m' c (Proc.devRef .tc Cert.ReferenceIdeal.main_arg16) := by carry_host Cert.ReferenceIdeal.Pieces.opsD
    _ = RB m' c (Proc.devRef .tc Cert.ReferenceIdeal.main_arg16) := by carry_host Cert.ReferenceIdeal.Pieces.opsC
    _ = RA m' c (Proc.devRef .tc Cert.ReferenceIdeal.main_arg16) := by carry_host Cert.ReferenceIdeal.Pieces.opsB
    _ = R0 m' c (Proc.devRef .tc Cert.ReferenceIdeal.main_arg16) := by carry_host Cert.ReferenceIdeal.Pieces.opsA

theorem r_arg17_H_0 : RH m' c (Proc.devRef .tc Cert.ReferenceIdeal.main_arg17) = R0 m' c (Proc.devRef .tc Cert.ReferenceIdeal.main_arg17) :=
  calc RH m' c (Proc.devRef .tc Cert.ReferenceIdeal.main_arg17)
    _ = RG m' c (Proc.devRef .tc Cert.ReferenceIdeal.main_arg17) := by carry_host Cert.ReferenceIdeal.Pieces.opsH
    _ = RF m' c (Proc.devRef .tc Cert.ReferenceIdeal.main_arg17) := by carry_host Cert.ReferenceIdeal.Pieces.opsG
    _ = RE m' c (Proc.devRef .tc Cert.ReferenceIdeal.main_arg17) := by carry_host Cert.ReferenceIdeal.Pieces.opsF
    _ = RD m' c (Proc.devRef .tc Cert.ReferenceIdeal.main_arg17) := by carry_host Cert.ReferenceIdeal.Pieces.opsE
    _ = RC m' c (Proc.devRef .tc Cert.ReferenceIdeal.main_arg17) := by carry_host Cert.ReferenceIdeal.Pieces.opsD
    _ = RB m' c (Proc.devRef .tc Cert.ReferenceIdeal.main_arg17) := by carry_host Cert.ReferenceIdeal.Pieces.opsC
    _ = RA m' c (Proc.devRef .tc Cert.ReferenceIdeal.main_arg17) := by carry_host Cert.ReferenceIdeal.Pieces.opsB
    _ = R0 m' c (Proc.devRef .tc Cert.ReferenceIdeal.main_arg17) := by carry_host Cert.ReferenceIdeal.Pieces.opsA

theorem r_arg2_I_0 : RI m' c (Proc.devRef .tc Cert.ReferenceIdeal.main_arg2) = R0 m' c (Proc.devRef .tc Cert.ReferenceIdeal.main_arg2) :=
  calc RI m' c (Proc.devRef .tc Cert.ReferenceIdeal.main_arg2)
    _ = RH m' c (Proc.devRef .tc Cert.ReferenceIdeal.main_arg2) := by carry_host Cert.ReferenceIdeal.Pieces.opsI
    _ = RG m' c (Proc.devRef .tc Cert.ReferenceIdeal.main_arg2) := by carry_host Cert.ReferenceIdeal.Pieces.opsH
    _ = RF m' c (Proc.devRef .tc Cert.ReferenceIdeal.main_arg2) := by carry_host Cert.ReferenceIdeal.Pieces.opsG
    _ = RE m' c (Proc.devRef .tc Cert.ReferenceIdeal.main_arg2) := by carry_host Cert.ReferenceIdeal.Pieces.opsF
    _ = RD m' c (Proc.devRef .tc Cert.ReferenceIdeal.main_arg2) := by carry_host Cert.ReferenceIdeal.Pieces.opsE
    _ = RC m' c (Proc.devRef .tc Cert.ReferenceIdeal.main_arg2) := by carry_host Cert.ReferenceIdeal.Pieces.opsD
    _ = RB m' c (Proc.devRef .tc Cert.ReferenceIdeal.main_arg2) := by carry_host Cert.ReferenceIdeal.Pieces.opsC
    _ = RA m' c (Proc.devRef .tc Cert.ReferenceIdeal.main_arg2) := by carry_host Cert.ReferenceIdeal.Pieces.opsB
    _ = R0 m' c (Proc.devRef .tc Cert.ReferenceIdeal.main_arg2) := by carry_host Cert.ReferenceIdeal.Pieces.opsA

theorem r_arg18_J_0 : RJ m' c (Proc.devRef .tc Cert.ReferenceIdeal.main_arg18) = R0 m' c (Proc.devRef .tc Cert.ReferenceIdeal.main_arg18) :=
  calc RJ m' c (Proc.devRef .tc Cert.ReferenceIdeal.main_arg18)
    _ = RI m' c (Proc.devRef .tc Cert.ReferenceIdeal.main_arg18) := by carry_host Cert.ReferenceIdeal.Pieces.opsJ
    _ = RH m' c (Proc.devRef .tc Cert.ReferenceIdeal.main_arg18) := by carry_host Cert.ReferenceIdeal.Pieces.opsI
    _ = RG m' c (Proc.devRef .tc Cert.ReferenceIdeal.main_arg18) := by carry_host Cert.ReferenceIdeal.Pieces.opsH
    _ = RF m' c (Proc.devRef .tc Cert.ReferenceIdeal.main_arg18) := by carry_host Cert.ReferenceIdeal.Pieces.opsG
    _ = RE m' c (Proc.devRef .tc Cert.ReferenceIdeal.main_arg18) := by carry_host Cert.ReferenceIdeal.Pieces.opsF
    _ = RD m' c (Proc.devRef .tc Cert.ReferenceIdeal.main_arg18) := by carry_host Cert.ReferenceIdeal.Pieces.opsE
    _ = RC m' c (Proc.devRef .tc Cert.ReferenceIdeal.main_arg18) := by carry_host Cert.ReferenceIdeal.Pieces.opsD
    _ = RB m' c (Proc.devRef .tc Cert.ReferenceIdeal.main_arg18) := by carry_host Cert.ReferenceIdeal.Pieces.opsC
    _ = RA m' c (Proc.devRef .tc Cert.ReferenceIdeal.main_arg18) := by carry_host Cert.ReferenceIdeal.Pieces.opsB
    _ = R0 m' c (Proc.devRef .tc Cert.ReferenceIdeal.main_arg18) := by carry_host Cert.ReferenceIdeal.Pieces.opsA

theorem r_arg19_J_0 : RJ m' c (Proc.devRef .tc Cert.ReferenceIdeal.main_arg19) = R0 m' c (Proc.devRef .tc Cert.ReferenceIdeal.main_arg19) :=
  calc RJ m' c (Proc.devRef .tc Cert.ReferenceIdeal.main_arg19)
    _ = RI m' c (Proc.devRef .tc Cert.ReferenceIdeal.main_arg19) := by carry_host Cert.ReferenceIdeal.Pieces.opsJ
    _ = RH m' c (Proc.devRef .tc Cert.ReferenceIdeal.main_arg19) := by carry_host Cert.ReferenceIdeal.Pieces.opsI
    _ = RG m' c (Proc.devRef .tc Cert.ReferenceIdeal.main_arg19) := by carry_host Cert.ReferenceIdeal.Pieces.opsH
    _ = RF m' c (Proc.devRef .tc Cert.ReferenceIdeal.main_arg19) := by carry_host Cert.ReferenceIdeal.Pieces.opsG
    _ = RE m' c (Proc.devRef .tc Cert.ReferenceIdeal.main_arg19) := by carry_host Cert.ReferenceIdeal.Pieces.opsF
    _ = RD m' c (Proc.devRef .tc Cert.ReferenceIdeal.main_arg19) := by carry_host Cert.ReferenceIdeal.Pieces.opsE
    _ = RC m' c (Proc.devRef .tc Cert.ReferenceIdeal.main_arg19) := by carry_host Cert.ReferenceIdeal.Pieces.opsD
    _ = RB m' c (Proc.devRef .tc Cert.ReferenceIdeal.main_arg19) := by carry_host Cert.ReferenceIdeal.Pieces.opsC
    _ = RA m' c (Proc.devRef .tc Cert.ReferenceIdeal.main_arg19) := by carry_host Cert.ReferenceIdeal.Pieces.opsB
    _ = R0 m' c (Proc.devRef .tc Cert.ReferenceIdeal.main_arg19) := by carry_host Cert.ReferenceIdeal.Pieces.opsA

theorem r_arg20_J_0 : RJ m' c (Proc.devRef .tc Cert.ReferenceIdeal.main_arg20) = R0 m' c (Proc.devRef .tc Cert.ReferenceIdeal.main_arg20) :=
  calc RJ m' c (Proc.devRef .tc Cert.ReferenceIdeal.main_arg20)
    _ = RI m' c (Proc.devRef .tc Cert.ReferenceIdeal.main_arg20) := by carry_host Cert.ReferenceIdeal.Pieces.opsJ
    _ = RH m' c (Proc.devRef .tc Cert.ReferenceIdeal.main_arg20) := by carry_host Cert.ReferenceIdeal.Pieces.opsI
    _ = RG m' c (Proc.devRef .tc Cert.ReferenceIdeal.main_arg20) := by carry_host Cert.ReferenceIdeal.Pieces.opsH
    _ = RF m' c (Proc.devRef .tc Cert.ReferenceIdeal.main_arg20) := by carry_host Cert.ReferenceIdeal.Pieces.opsG
    _ = RE m' c (Proc.devRef .tc Cert.ReferenceIdeal.main_arg20) := by carry_host Cert.ReferenceIdeal.Pieces.opsF
    _ = RD m' c (Proc.devRef .tc Cert.ReferenceIdeal.main_arg20) := by carry_host Cert.ReferenceIdeal.Pieces.opsE
    _ = RC m' c (Proc.devRef .tc Cert.ReferenceIdeal.main_arg20) := by carry_host Cert.ReferenceIdeal.Pieces.opsD
    _ = RB m' c (Proc.devRef .tc Cert.ReferenceIdeal.main_arg20) := by carry_host Cert.ReferenceIdeal.Pieces.opsC
    _ = RA m' c (Proc.devRef .tc Cert.ReferenceIdeal.main_arg20) := by carry_host Cert.ReferenceIdeal.Pieces.opsB
    _ = R0 m' c (Proc.devRef .tc Cert.ReferenceIdeal.main_arg20) := by carry_host Cert.ReferenceIdeal.Pieces.opsA

theorem r_arg21_J_0 : RJ m' c (Proc.devRef .tc Cert.ReferenceIdeal.main_arg21) = R0 m' c (Proc.devRef .tc Cert.ReferenceIdeal.main_arg21) :=
  calc RJ m' c (Proc.devRef .tc Cert.ReferenceIdeal.main_arg21)
    _ = RI m' c (Proc.devRef .tc Cert.ReferenceIdeal.main_arg21) := by carry_host Cert.ReferenceIdeal.Pieces.opsJ
    _ = RH m' c (Proc.devRef .tc Cert.ReferenceIdeal.main_arg21) := by carry_host Cert.ReferenceIdeal.Pieces.opsI
    _ = RG m' c (Proc.devRef .tc Cert.ReferenceIdeal.main_arg21) := by carry_host Cert.ReferenceIdeal.Pieces.opsH
    _ = RF m' c (Proc.devRef .tc Cert.ReferenceIdeal.main_arg21) := by carry_host Cert.ReferenceIdeal.Pieces.opsG
    _ = RE m' c (Proc.devRef .tc Cert.ReferenceIdeal.main_arg21) := by carry_host Cert.ReferenceIdeal.Pieces.opsF
    _ = RD m' c (Proc.devRef .tc Cert.ReferenceIdeal.main_arg21) := by carry_host Cert.ReferenceIdeal.Pieces.opsE
    _ = RC m' c (Proc.devRef .tc Cert.ReferenceIdeal.main_arg21) := by carry_host Cert.ReferenceIdeal.Pieces.opsD
    _ = RB m' c (Proc.devRef .tc Cert.ReferenceIdeal.main_arg21) := by carry_host Cert.ReferenceIdeal.Pieces.opsC
    _ = RA m' c (Proc.devRef .tc Cert.ReferenceIdeal.main_arg21) := by carry_host Cert.ReferenceIdeal.Pieces.opsB
    _ = R0 m' c (Proc.devRef .tc Cert.ReferenceIdeal.main_arg21) := by carry_host Cert.ReferenceIdeal.Pieces.opsA

theorem r_v1_C_A : RC m' c (Proc.devRef .tc Cert.ReferenceIdeal.main_v1) = RA m' c (Proc.devRef .tc Cert.ReferenceIdeal.main_v1) :=
  calc RC m' c (Proc.devRef .tc Cert.ReferenceIdeal.main_v1)
    _ = RB m' c (Proc.devRef .tc Cert.ReferenceIdeal.main_v1) := by carry_host Cert.ReferenceIdeal.Pieces.opsC
    _ = RA m' c (Proc.devRef .tc Cert.ReferenceIdeal.main_v1) := by carry_host Cert.ReferenceIdeal.Pieces.opsB

theorem r_v1_F_C : RF m' c (Proc.devRef .tc Cert.ReferenceIdeal.main_v1) = RC m' c (Proc.devRef .tc Cert.ReferenceIdeal.main_v1) :=
  calc RF m' c (Proc.devRef .tc Cert.ReferenceIdeal.main_v1)
    _ = RE m' c (Proc.devRef .tc Cert.ReferenceIdeal.main_v1) := by carry_host Cert.ReferenceIdeal.Pieces.opsF
    _ = RD m' c (Proc.devRef .tc Cert.ReferenceIdeal.main_v1) := by carry_host Cert.ReferenceIdeal.Pieces.opsE
    _ = RC m' c (Proc.devRef .tc Cert.ReferenceIdeal.main_v1) := by carry_host Cert.ReferenceIdeal.Pieces.opsD

theorem r_v3_C_A : RC m' c (Proc.devRef .tc Cert.ReferenceIdeal.main_v3) = RA m' c (Proc.devRef .tc Cert.ReferenceIdeal.main_v3) :=
  calc RC m' c (Proc.devRef .tc Cert.ReferenceIdeal.main_v3)
    _ = RB m' c (Proc.devRef .tc Cert.ReferenceIdeal.main_v3) := by carry_host Cert.ReferenceIdeal.Pieces.opsC
    _ = RA m' c (Proc.devRef .tc Cert.ReferenceIdeal.main_v3) := by carry_host Cert.ReferenceIdeal.Pieces.opsB

theorem r_v3_F_C : RF m' c (Proc.devRef .tc Cert.ReferenceIdeal.main_v3) = RC m' c (Proc.devRef .tc Cert.ReferenceIdeal.main_v3) :=
  calc RF m' c (Proc.devRef .tc Cert.ReferenceIdeal.main_v3)
    _ = RE m' c (Proc.devRef .tc Cert.ReferenceIdeal.main_v3) := by carry_host Cert.ReferenceIdeal.Pieces.opsF
    _ = RD m' c (Proc.devRef .tc Cert.ReferenceIdeal.main_v3) := by carry_host Cert.ReferenceIdeal.Pieces.opsE
    _ = RC m' c (Proc.devRef .tc Cert.ReferenceIdeal.main_v3) := by carry_host Cert.ReferenceIdeal.Pieces.opsD

theorem r_v11_C_A : RC m' c (Proc.devRef .tc Cert.ReferenceIdeal.main_v11) = RA m' c (Proc.devRef .tc Cert.ReferenceIdeal.main_v11) :=
  calc RC m' c (Proc.devRef .tc Cert.ReferenceIdeal.main_v11)
    _ = RB m' c (Proc.devRef .tc Cert.ReferenceIdeal.main_v11) := by carry_host Cert.ReferenceIdeal.Pieces.opsC
    _ = RA m' c (Proc.devRef .tc Cert.ReferenceIdeal.main_v11) := by carry_host Cert.ReferenceIdeal.Pieces.opsB

theorem r_v11_F_C : RF m' c (Proc.devRef .tc Cert.ReferenceIdeal.main_v11) = RC m' c (Proc.devRef .tc Cert.ReferenceIdeal.main_v11) :=
  calc RF m' c (Proc.devRef .tc Cert.ReferenceIdeal.main_v11)
    _ = RE m' c (Proc.devRef .tc Cert.ReferenceIdeal.main_v11) := by carry_host Cert.ReferenceIdeal.Pieces.opsF
    _ = RD m' c (Proc.devRef .tc Cert.ReferenceIdeal.main_v11) := by carry_host Cert.ReferenceIdeal.Pieces.opsE
    _ = RC m' c (Proc.devRef .tc Cert.ReferenceIdeal.main_v11) := by carry_host Cert.ReferenceIdeal.Pieces.opsD

theorem r_v58_D_C : RD m' c (Proc.devRef .tc Cert.ReferenceIdeal.main_v58) = RC m' c (Proc.devRef .tc Cert.ReferenceIdeal.main_v58) :=
  calc RD m' c (Proc.devRef .tc Cert.ReferenceIdeal.main_v58)
    _ = RC m' c (Proc.devRef .tc Cert.ReferenceIdeal.main_v58) := by carry_host Cert.ReferenceIdeal.Pieces.opsD

theorem r_v105_G_F : RG m' c (Proc.devRef .tc Cert.ReferenceIdeal.main_v105) = RF m' c (Proc.devRef .tc Cert.ReferenceIdeal.main_v105) :=
  calc RG m' c (Proc.devRef .tc Cert.ReferenceIdeal.main_v105)
    _ = RF m' c (Proc.devRef .tc Cert.ReferenceIdeal.main_v105) := by carry_host Cert.ReferenceIdeal.Pieces.opsG

end Reference

end Cert.Carry

end
-- ==== Proof.PreReal.lean ====
/-
  The precondition says of each of the twenty float arguments that every entry's absolute value is below +∞. On the
  extended reals that is: every entry of every float argument is a real number. (The two integer arguments, the edge
  list and the graph ids, are unconstrained.)
-/
import proofs.«113720_j13494787244371_1_alg».proof.Defs
import proofs.«113720_j13494787244371_1_alg».proof.Proof.LibRealArrays
import Idealize.ShloMosaic.Lib.ReduceAll
import Idealize.ShloMosaic.Lib.ValueIdx
import Idealize.ShloMosaic.Lib.Pipeline.Value

set_option maxRecDepth 16384

noncomputable section

open Idealize.ShloMosaic Idealize.ShloMosaic.ValueIdx Cert.RealArrays

namespace Cert.PreReal

instance : Subsingleton (⟨0, ![]⟩ : Shape).Idx := ⟨fun a b => funext fun d => d.elim0⟩

/-- Where the comparison "|x| < +∞" holds, x is a real number. -/
theorem real_of_lt_inf (x : EReal) (h : FloatOps.cmpf (F := Ideal) .olt (FloatOps.hostAbsf x) (Ideal.ofBits .f32 0x7F800000#32) = 1#1) :
    ∃ r : ℝ, x = (r : EReal) := by
  rw [Cert.GatSgc.ofBits_inf_f32] at h
  induction x using EReal.rec with
  | bot =>
    exfalso; revert h
    show ¬ Ideal.cmp .olt (max (⊥ : EReal) (-⊥)) ⊤ = 1#1
    simp [Ideal.cmp]
  | coe r => exact ⟨r, rfl⟩
  | top =>
    exfalso; revert h
    show ¬ Ideal.cmp .olt (max (⊤ : EReal) (-⊤)) ⊤ = 1#1
    simp [Ideal.cmp]

/-- An argument whose "all entries finite" reduction is 1 has real entries. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s (![] : Fin 0 → Fin s.rank) hb
        (constant (F := Ideal) ⟨0, ![]⟩ .f32 0x7F800000#32))) (constantI ⟨0, ![]⟩ 1 1#1) hr h0 ix0 = 1#1) : AllReal x := fun i => by
  have hi := Host.reduce_andi_all _ _ hr h0 ix0 e i
  refine real_of_lt_inf (x i) ?_
  have hbc : broadcastInDim s (![] : Fin 0 → Fin s.rank) hb (constant (F := Ideal) ⟨0, ![]⟩ .f32 0x7F800000#32) i
      = Ideal.ofBits .f32 0x7F800000#32 := broadcastInDim_apply _ hb _ i (fun a => a.elim0) (fun a => a.elim0)
  rw [← hbc]
  exact hi

open Cert.KernelIdeal in
/-- Under the precondition every float argument of the kernel program has real entries, on every device. -/
theorem args_real [Cert.Pre_finite_inputs.Facts] (m : (ℓ : Loc nD τ sig) → Buf (Elt Ideal) ℓ) (hpre : Cert.Pre_KernelIdeal m) (c : Dev nD) :
    AllReal (m ((c.tc : Thread nD τ).loc main_arg0))
    ∧ AllReal (m ((c.tc : Thread nD τ).loc main_arg3))
    ∧ AllReal (m ((c.tc : Thread nD τ).loc main_arg4))
    ∧ AllReal (m ((c.tc : Thread nD τ).loc main_arg5))
    ∧ AllReal (m ((c.tc : Thread nD τ).loc main_arg6))
    ∧ AllReal (m ((c.tc : Thread nD τ).loc main_arg7))
    ∧ AllReal (m ((c.tc : Thread nD τ).loc main_arg8))
    ∧ AllReal (m ((c.tc : Thread nD τ).loc main_arg9))
    ∧ AllReal (m ((c.tc : Thread nD τ).loc main_arg10))
    ∧ AllReal (m ((c.tc : Thread nD τ).loc main_arg11))
    ∧ AllReal (m ((c.tc : Thread nD τ).loc main_arg12))
    ∧ AllReal (m ((c.tc : Thread nD τ).loc main_arg13))
    ∧ AllReal (m ((c.tc : Thread nD τ).loc main_arg14))
    ∧ AllReal (m ((c.tc : Thread nD τ).loc main_arg15))
    ∧ AllReal (m ((c.tc : Thread nD τ).loc main_arg16))
    ∧ AllReal (m ((c.tc : Thread nD τ).loc main_arg17))
    ∧ AllReal (m ((c.tc : Thread nD τ).loc main_arg18))
    ∧ AllReal (m ((c.tc : Thread nD τ).loc main_arg19))
    ∧ AllReal (m ((c.tc : Thread nD τ).loc main_arg20))
    ∧ AllReal (m ((c.tc : Thread nD τ).loc main_arg21)) := by
  have h := congrFun (hpre c) ix0
  simp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at h
  obtain ⟨h, h21⟩ := IntOp.andi_eq_one.mp h
  obtain ⟨h, h20⟩ := IntOp.andi_eq_one.mp h
  obtain ⟨h, h19⟩ := IntOp.andi_eq_one.mp h
  obtain ⟨h, h18⟩ := IntOp.andi_eq_one.mp h
  obtain ⟨h, h17⟩ := IntOp.andi_eq_one.mp h
  obtain ⟨h, h16⟩ := IntOp.andi_eq_one.mp h
  obtain ⟨h, h15⟩ := IntOp.andi_eq_one.mp h
  obtain ⟨h, h14⟩ := IntOp.andi_eq_one.mp h
  obtain ⟨h, h13⟩ := IntOp.andi_eq_one.mp h
  obtain ⟨h, h12⟩ := IntOp.andi_eq_one.mp h
  obtain ⟨h, h11⟩ := IntOp.andi_eq_one.mp h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  exact ⟨allReal_of_all _ _ _ _ h, allReal_of_all _ _ _ _ h3, allReal_of_all _ _ _ _ h4, allReal_of_all _ _ _ _ h5, allReal_of_all _ _ _ _ h6, allReal_of_all _ _ _ _ h7, allReal_of_all _ _ _ _ h8, allReal_of_all _ _ _ _ h9, allReal_of_all _ _ _ _ h10, allReal_of_all _ _ _ _ h11, allReal_of_all _ _ _ _ h12, allReal_of_all _ _ _ _ h13, allReal_of_all _ _ _ _ h14, allReal_of_all _ _ _ _ h15, allReal_of_all _ _ _ _ h16, allReal_of_all _ _ _ _ h17, allReal_of_all _ _ _ _ h18, allReal_of_all _ _ _ _ h19, allReal_of_all _ _ _ _ h20, allReal_of_all _ _ _ _ h21⟩

end Cert.PreReal

end
-- ==== Proof.Sim.lean ====
/-
  The two programs, stage by stage. From memories that agree on the arguments, and under the precondition, the
  contents the kernel program reaches at the boundary after each layer's two regions are the contents the reference
  reaches after the layer's pieces: the aggregation is the same host operations, the linear stage is the same
  whole-array function, the statistics differ only in the spelling of the variance, which agrees for real entries, and
  the normalised features are then the same function of the same arrays. Real entries pass from layer to layer. The
  pooling is the same host operations again, and the head the same whole-array function.
-/
import proofs.«113720_j13494787244371_1_alg».proof.Proof.KExit
import proofs.«113720_j13494787244371_1_alg».proof.Proof.KEval
import proofs.«113720_j13494787244371_1_alg».proof.Proof.REval
import proofs.«113720_j13494787244371_1_alg».proof.Proof.Shared
import proofs.«113720_j13494787244371_1_alg».proof.Proof.Carry
import proofs.«113720_j13494787244371_1_alg».proof.Proof.PreReal

set_option maxRecDepth 16384

noncomputable section

open Idealize.ShloMosaic Idealize.ShloMosaic.TcCoe Idealize.SL.Sem Idealize.ShloMosaic.StableHlo Idealize.ShloMosaic.ValueIdx
open Cert.Gcn Cert.SageLinear Cert.NormalizeRows Cert.DenseHead Cert.HostForms Cert.LayerBridge Cert.RealArrays

namespace Cert.Sim

variable [Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories hold the same arguments on device `c`. -/
abbrev Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

/-- Layer 1: the kernel program's features after its two regions are the reference's after its three pieces, and
    they have real entries. -/
theorem layer1 (hag : Agree m m' c) (hpre : Cert.Pre_KernelIdeal m) :
    Cert.KernelIdeal.Gen.W4 (F := Ideal) m ρ c (Proc.devRef .tc Cert.KernelIdeal.main_v35) = Cert.Carry.RC m' c (Proc.devRef .tc Cert.ReferenceIdeal.main_v58) ∧ AllReal (Cert.Carry.RC m' c (Proc.devRef .tc Cert.ReferenceIdeal.main_v58)) ∧ AllReal (Cert.Carry.RA m' c (Proc.devRef .tc Cert.ReferenceIdeal.main_v11)) := by
  obtain ⟨a0, a1, a2, a3, a4, a5, a6, a7, a8, a9, a10, a11, a12, a13, a14, a15, a16, a17, a18, a19, a20, a21⟩ := hag
  obtain ⟨p0, p3, p4, p5, p6, p7, p8, p9, p10, p11, p12, p13, p14, p15, p16, p17, p18, p19, p20, p21⟩ := Cert.PreReal.args_real m hpre c
  have e1 := (show Cert.KernelIdeal.Gen.W0 (F := Ideal) m ρ c (Proc.devRef .tc Cert.KernelIdeal.main_arg1) = Cert.Carry.R0 m' c (Proc.devRef .tc Cert.ReferenceIdeal.main_arg1) from a1.symm)
  have hagg : Cert.KernelIdeal.Gen.W1 (F := Ideal) m ρ c (Proc.devRef .tc Cert.KernelIdeal.main_v24) = Cert.Carry.RA m' c (Proc.devRef .tc Cert.ReferenceIdeal.main_v24) := Cert.Shared.agg1_agree _ _ (show Cert.KernelIdeal.Gen.W0 (F := Ideal) m ρ c (Proc.devRef .tc Cert.KernelIdeal.main_arg0) = Cert.Carry.R0 m' c (Proc.devRef .tc Cert.ReferenceIdeal.main_arg0) from a0.symm) e1
  have haggr : AllReal (Cert.Carry.RA m' c (Proc.devRef .tc Cert.ReferenceIdeal.main_v24)) := Cert.Shared.agg1_real _ (show AllReal (Cert.Carry.R0 m' c (Proc.devRef .tc Cert.ReferenceIdeal.main_arg0)) from by rw [show Cert.Carry.R0 m' c (Proc.devRef .tc Cert.ReferenceIdeal.main_arg0) = m ((c.tc : Thread Cert.KernelIdeal.nD Cert.KernelIdeal.τ).loc Cert.KernelIdeal.main_arg0) from a0]; exact p0)
  have hXk : Cert.KernelIdeal.Gen.W1 (F := Ideal) m ρ c (Proc.devRef .tc Cert.KernelIdeal.main_arg0) = Cert.Carry.R0 m' c (Proc.devRef .tc Cert.ReferenceIdeal.main_arg0) := (Cert.Carry.k_arg0_1_0 m ρ c).trans (show Cert.KernelIdeal.Gen.W0 (F := Ideal) m ρ c (Proc.devRef .tc Cert.KernelIdeal.main_arg0) = Cert.Carry.R0 m' c (Proc.devRef .tc Cert.ReferenceIdeal.main_arg0) from a0.symm)
  have hXrR : Cert.Carry.RA m' c (Proc.devRef .tc Cert.ReferenceIdeal.main_arg0) = Cert.Carry.R0 m' c (Proc.devRef .tc Cert.ReferenceIdeal.main_arg0) := Cert.Carry.r_arg0_A_0 m' c
  have hXreal : AllReal (Cert.Carry.R0 m' c (Proc.devRef .tc Cert.ReferenceIdeal.main_arg0)) := (show AllReal (Cert.Carry.R0 m' c (Proc.devRef .tc Cert.ReferenceIdeal.main_arg0)) from by rw [show Cert.Carry.R0 m' c (Proc.devRef .tc Cert.ReferenceIdeal.main_arg0) = m ((c.tc : Thread Cert.KernelIdeal.nD Cert.KernelIdeal.τ).loc Cert.KernelIdeal.main_arg0) from a0]; exact p0)
  -- the linear stage
  have hk : Cert.KernelIdeal.Gen.W2 (F := Ideal) m ρ c (Proc.devRef .tc Cert.KernelIdeal.main_v26_0) = lin (M := 100000) (K := 4) (N := 64) (Cert.Carry.R0 m' c (Proc.devRef .tc Cert.ReferenceIdeal.main_arg0)) (Cert.Carry.RA m' c (Proc.devRef .tc Cert.ReferenceIdeal.main_v24)) (Cert.Carry.R0 m' c (Proc.devRef .tc Cert.ReferenceIdeal.main_arg3)) (Cert.Carry.R0 m' c (Proc.devRef .tc Cert.ReferenceIdeal.main_arg5)) (rowOf (n := 64) (Cert.Carry.R0 m' c (Proc.devRef .tc Cert.ReferenceIdeal.main_arg4))) := by
    rw [Cert.KernelIdeal.Exit.exit0_lin, hXk, hagg, Cert.Carry.k_arg3_1_0 m ρ c, Cert.Carry.k_arg5_1_0 m ρ c,
      show Cert.KernelIdeal.Gen.W1 (F := Ideal) m ρ c (Proc.devRef .tc Cert.KernelIdeal.main_v25) = rowOf (n := 64) (Cert.KernelIdeal.Gen.W0 (F := Ideal) m ρ c (Proc.devRef .tc Cert.KernelIdeal.main_arg4)) from Cert.KernelIdeal.Eval.main_v25_eq _, (show Cert.KernelIdeal.Gen.W0 (F := Ideal) m ρ c (Proc.devRef .tc Cert.KernelIdeal.main_arg3) = Cert.Carry.R0 m' c (Proc.devRef .tc Cert.ReferenceIdeal.main_arg3) from a3.symm), (show Cert.KernelIdeal.Gen.W0 (F := Ideal) m ρ c (Proc.devRef .tc Cert.KernelIdeal.main_arg5) = Cert.Carry.R0 m' c (Proc.devRef .tc Cert.ReferenceIdeal.main_arg5) from a5.symm), (show Cert.KernelIdeal.Gen.W0 (F := Ideal) m ρ c (Proc.devRef .tc Cert.KernelIdeal.main_arg4) = Cert.Carry.R0 m' c (Proc.devRef .tc Cert.ReferenceIdeal.main_arg4) from a4.symm)]
  have hr : Cert.Carry.RB m' c (Proc.devRef .tc Cert.ReferenceIdeal.main_v32) = lin (M := 100000) (K := 4) (N := 64) (Cert.Carry.R0 m' c (Proc.devRef .tc Cert.ReferenceIdeal.main_arg0)) (Cert.Carry.RA m' c (Proc.devRef .tc Cert.ReferenceIdeal.main_v24)) (Cert.Carry.R0 m' c (Proc.devRef .tc Cert.ReferenceIdeal.main_arg3)) (Cert.Carry.R0 m' c (Proc.devRef .tc Cert.ReferenceIdeal.main_arg5)) (rowOf (n := 64) (Cert.Carry.R0 m' c (Proc.devRef .tc Cert.ReferenceIdeal.main_arg4))) := by
    rw [show Cert.Carry.RB m' c (Proc.devRef .tc Cert.ReferenceIdeal.main_v32) = _ from Cert.ReferenceIdeal.Eval.main_v32_eq _, hXrR, Cert.Carry.r_arg3_A_0 m' c,
      Cert.Carry.r_arg5_A_0 m' c, Cert.Carry.r_arg4_A_0 m' c]
  have hL : Cert.KernelIdeal.Gen.W2 (F := Ideal) m ρ c (Proc.devRef .tc Cert.KernelIdeal.main_v26_0) = Cert.Carry.RB m' c (Proc.devRef .tc Cert.ReferenceIdeal.main_v32) := hk.trans hr.symm
  have hLr : AllReal (Cert.Carry.RB m' c (Proc.devRef .tc Cert.ReferenceIdeal.main_v32)) := by
    rw [hr]
    exact lin_real _ _ _ _ _ hXreal haggr (show AllReal (Cert.Carry.R0 m' c (Proc.devRef .tc Cert.ReferenceIdeal.main_arg3)) from by rw [show Cert.Carry.R0 m' c (Proc.devRef .tc Cert.ReferenceIdeal.main_arg3) = m ((c.tc : Thread Cert.KernelIdeal.nD Cert.KernelIdeal.τ).loc Cert.KernelIdeal.main_arg3) from a3]; exact p3) (show AllReal (Cert.Carry.R0 m' c (Proc.devRef .tc Cert.ReferenceIdeal.main_arg5)) from by rw [show Cert.Carry.R0 m' c (Proc.devRef .tc Cert.ReferenceIdeal.main_arg5) = m ((c.tc : Thread Cert.KernelIdeal.nD Cert.KernelIdeal.τ).loc Cert.KernelIdeal.main_arg5) from a5]; exact p5) (fun i => (show AllReal (Cert.Carry.R0 m' c (Proc.devRef .tc Cert.ReferenceIdeal.main_arg4)) from by rw [show Cert.Carry.R0 m' c (Proc.devRef .tc Cert.ReferenceIdeal.main_arg4) = m ((c.tc : Thread Cert.KernelIdeal.nD Cert.KernelIdeal.τ).loc Cert.KernelIdeal.main_arg4) from a4]; exact p4) _)
  have hS : Cert.KernelIdeal.Gen.W2 (F := Ideal) m ρ c (Proc.devRef .tc Cert.KernelIdeal.main_v26_1) = colSum (Cert.Carry.RB m' c (Proc.devRef .tc Cert.ReferenceIdeal.main_v32)) := by
    rw [Cert.KernelIdeal.Exit.exit0_sum, ← Cert.KernelIdeal.Exit.exit0_lin, hL]
  have hQ : Cert.KernelIdeal.Gen.W2 (F := Ideal) m ρ c (Proc.devRef .tc Cert.KernelIdeal.main_v26_2) = colSumSq (Cert.Carry.RB m' c (Proc.devRef .tc Cert.ReferenceIdeal.main_v32)) := by
    rw [Cert.KernelIdeal.Exit.exit0_sumsq, ← Cert.KernelIdeal.Exit.exit0_lin, hL]
  -- the normalisation
  have hkn : Cert.KernelIdeal.Gen.W4 (F := Ideal) m ρ c (Proc.devRef .tc Cert.KernelIdeal.main_v35) = normRelu (M := 100000) (C := 64) (Cert.Carry.RB m' c (Proc.devRef .tc Cert.ReferenceIdeal.main_v32))
      (kMean 0x47C35000#32 (colSum (Cert.Carry.RB m' c (Proc.devRef .tc Cert.ReferenceIdeal.main_v32)))) (kVar 0x47C35000#32 (colSum (Cert.Carry.RB m' c (Proc.devRef .tc Cert.ReferenceIdeal.main_v32))) (colSumSq (Cert.Carry.RB m' c (Proc.devRef .tc Cert.ReferenceIdeal.main_v32))))
      (rowOf (n := 64) (Cert.Carry.R0 m' c (Proc.devRef .tc Cert.ReferenceIdeal.main_arg6))) (rowOf (n := 64) (Cert.Carry.R0 m' c (Proc.devRef .tc Cert.ReferenceIdeal.main_arg7))) := by
    rw [Cert.KernelIdeal.Exit.exit1, Cert.Carry.k_v26_0_3_2 m ρ c, hL,
      show Cert.KernelIdeal.Gen.W3 (F := Ideal) m ρ c (Proc.devRef .tc Cert.KernelIdeal.main_v28) = kMean (C := 64) 0x47C35000#32 (Cert.KernelIdeal.Gen.W2 (F := Ideal) m ρ c (Proc.devRef .tc Cert.KernelIdeal.main_v26_1)) from Cert.KernelIdeal.Eval.main_v28_eq _,
      show Cert.KernelIdeal.Gen.W3 (F := Ideal) m ρ c (Proc.devRef .tc Cert.KernelIdeal.main_v32) = kVar (C := 64) 0x47C35000#32 (Cert.KernelIdeal.Gen.W2 (F := Ideal) m ρ c (Proc.devRef .tc Cert.KernelIdeal.main_v26_1)) (Cert.KernelIdeal.Gen.W2 (F := Ideal) m ρ c (Proc.devRef .tc Cert.KernelIdeal.main_v26_2)) from Cert.KernelIdeal.Eval.main_v32_eq _,
      show Cert.KernelIdeal.Gen.W3 (F := Ideal) m ρ c (Proc.devRef .tc Cert.KernelIdeal.main_v33) = rowOf (n := 64) (Cert.KernelIdeal.Gen.W2 (F := Ideal) m ρ c (Proc.devRef .tc Cert.KernelIdeal.main_arg6)) from Cert.KernelIdeal.Eval.main_v33_eq _,
      show Cert.KernelIdeal.Gen.W3 (F := Ideal) m ρ c (Proc.devRef .tc Cert.KernelIdeal.main_v34) = rowOf (n := 64) (Cert.KernelIdeal.Gen.W2 (F := Ideal) m ρ c (Proc.devRef .tc Cert.KernelIdeal.main_arg7)) from Cert.KernelIdeal.Eval.main_v34_eq _,
      hS, hQ, Cert.Carry.k_arg6_2_0 m ρ c, Cert.Carry.k_arg7_2_0 m ρ c, (show Cert.KernelIdeal.Gen.W0 (F := Ideal) m ρ c (Proc.devRef .tc Cert.KernelIdeal.main_arg6) = Cert.Carry.R0 m' c (Proc.devRef .tc Cert.ReferenceIdeal.main_arg6) from a6.symm), (show Cert.KernelIdeal.Gen.W0 (F := Ideal) m ρ c (Proc.devRef .tc Cert.KernelIdeal.main_arg7) = Cert.Carry.R0 m' c (Proc.devRef .tc Cert.ReferenceIdeal.main_arg7) from a7.symm)]
  have hrn : Cert.Carry.RC m' c (Proc.devRef .tc Cert.ReferenceIdeal.main_v58) = normRelu (M := 100000) (C := 64) (Cert.Carry.RB m' c (Proc.devRef .tc Cert.ReferenceIdeal.main_v32))
      (rowOf (colMean 0x47C35000#32 (Cert.Carry.RB m' c (Proc.devRef .tc Cert.ReferenceIdeal.main_v32)))) (rowOf (colVar 0x47C35000#32 (Cert.Carry.RB m' c (Proc.devRef .tc Cert.ReferenceIdeal.main_v32)) (colMean 0x47C35000#32 (Cert.Carry.RB m' c (Proc.devRef .tc Cert.ReferenceIdeal.main_v32)))))
      (rowOf (n := 64) (Cert.Carry.R0 m' c (Proc.devRef .tc Cert.ReferenceIdeal.main_arg6))) (rowOf (n := 64) (Cert.Carry.R0 m' c (Proc.devRef .tc Cert.ReferenceIdeal.main_arg7))) := by
    rw [show Cert.Carry.RC m' c (Proc.devRef .tc Cert.ReferenceIdeal.main_v58) = _ from Cert.ReferenceIdeal.Eval.main_v58_eq _, Cert.Carry.r_arg6_B_0 m' c,
      Cert.Carry.r_arg7_B_0 m' c]
  refine ⟨?_, ?_, Cert.Shared.degInv_real _⟩
  · rw [hkn, hrn, kMean_eq, kVar_eq 64 _ hLr]
  · rw [hrn]
    exact normRelu_real _ _ _ _ _ hLr (fun i => colMean_real 64 _ hLr _) (fun i => colVar_nonneg 64 _ hLr _)
      (fun i => (show AllReal (Cert.Carry.R0 m' c (Proc.devRef .tc Cert.ReferenceIdeal.main_arg6)) from by rw [show Cert.Carry.R0 m' c (Proc.devRef .tc Cert.ReferenceIdeal.main_arg6) = m ((c.tc : Thread Cert.KernelIdeal.nD Cert.KernelIdeal.τ).loc Cert.KernelIdeal.main_arg6) from a6]; exact p6) _) (fun i => (show AllReal (Cert.Carry.R0 m' c (Proc.devRef .tc Cert.ReferenceIdeal.main_arg7)) from by rw [show Cert.Carry.R0 m' c (Proc.devRef .tc Cert.ReferenceIdeal.main_arg7) = m ((c.tc : Thread Cert.KernelIdeal.nD Cert.KernelIdeal.τ).loc Cert.KernelIdeal.main_arg7) from a7]; exact p7) _)

/-- Layer 2: the kernel program's features after its two regions are the reference's after its three pieces, and
    they have real entries. -/
theorem layer2 (hag : Agree m m' c) (hpre : Cert.Pre_KernelIdeal m)
    (hX : Cert.KernelIdeal.Gen.W4 (F := Ideal) m ρ c (Proc.devRef .tc Cert.KernelIdeal.main_v35) = Cert.Carry.RC m' c (Proc.devRef .tc Cert.ReferenceIdeal.main_v58)) (hXr : AllReal (Cert.Carry.RC m' c (Proc.devRef .tc Cert.ReferenceIdeal.main_v58)))
    (hd : AllReal (Cert.Carry.RA m' c (Proc.devRef .tc Cert.ReferenceIdeal.main_v11))) :
    Cert.KernelIdeal.Gen.W8 (F := Ideal) m ρ c (Proc.devRef .tc Cert.KernelIdeal.main_v59) = Cert.Carry.RF m' c (Proc.devRef .tc Cert.ReferenceIdeal.main_v105) ∧ AllReal (Cert.Carry.RF m' c (Proc.devRef .tc Cert.ReferenceIdeal.main_v105)) := by
  obtain ⟨a0, a1, a2, a3, a4, a5, a6, a7, a8, a9, a10, a11, a12, a13, a14, a15, a16, a17, a18, a19, a20, a21⟩ := hag
  obtain ⟨p0, p3, p4, p5, p6, p7, p8, p9, p10, p11, p12, p13, p14, p15, p16, p17, p18, p19, p20, p21⟩ := Cert.PreReal.args_real m hpre c
  have e1 := (show Cert.KernelIdeal.Gen.W0 (F := Ideal) m ρ c (Proc.devRef .tc Cert.KernelIdeal.main_arg1) = Cert.Carry.R0 m' c (Proc.devRef .tc Cert.ReferenceIdeal.main_arg1) from a1.symm)
  have hs : Cert.KernelIdeal.Gen.W4 (F := Ideal) m ρ c (Proc.devRef .tc Cert.KernelIdeal.main_v1) = Cert.Carry.RC m' c (Proc.devRef .tc Cert.ReferenceIdeal.main_v1) := by
    rw [Cert.Carry.k_v1_4_1 m ρ c, Cert.Carry.r_v1_C_A m' c]
    exact Cert.Shared.src_agree _ _ e1
  have ht : Cert.KernelIdeal.Gen.W4 (F := Ideal) m ρ c (Proc.devRef .tc Cert.KernelIdeal.main_v3) = Cert.Carry.RC m' c (Proc.devRef .tc Cert.ReferenceIdeal.main_v3) := by
    rw [Cert.Carry.k_v3_4_1 m ρ c, Cert.Carry.r_v3_C_A m' c]
    exact Cert.Shared.dst_agree _ _ e1
  have hg : Cert.KernelIdeal.Gen.W4 (F := Ideal) m ρ c (Proc.devRef .tc Cert.KernelIdeal.main_v11) = Cert.Carry.RC m' c (Proc.devRef .tc Cert.ReferenceIdeal.main_v11) := by
    rw [Cert.Carry.k_v11_4_1 m ρ c, Cert.Carry.r_v11_C_A m' c]
    exact Cert.Shared.degInv_agree _ _ e1
  have hdR : AllReal (Cert.Carry.RC m' c (Proc.devRef .tc Cert.ReferenceIdeal.main_v11)) := by
    rw [Cert.Carry.r_v11_C_A m' c]
    exact hd
  have hagg : Cert.KernelIdeal.Gen.W5 (F := Ideal) m ρ c (Proc.devRef .tc Cert.KernelIdeal.main_v48) = Cert.Carry.RD m' c (Proc.devRef .tc Cert.ReferenceIdeal.main_v71) := Cert.Shared.agg2_agree _ _ hX hs ht hg
  have haggr : AllReal (Cert.Carry.RD m' c (Proc.devRef .tc Cert.ReferenceIdeal.main_v71)) := Cert.Shared.agg2_real _ hXr hdR
  have hXk : Cert.KernelIdeal.Gen.W5 (F := Ideal) m ρ c (Proc.devRef .tc Cert.KernelIdeal.main_v35) = Cert.Carry.RC m' c (Proc.devRef .tc Cert.ReferenceIdeal.main_v58) := (Cert.Carry.k_v35_5_4 m ρ c).trans hX
  have hXrR : Cert.Carry.RD m' c (Proc.devRef .tc Cert.ReferenceIdeal.main_v58) = Cert.Carry.RC m' c (Proc.devRef .tc Cert.ReferenceIdeal.main_v58) := Cert.Carry.r_v58_D_C m' c
  have hXreal : AllReal (Cert.Carry.RC m' c (Proc.devRef .tc Cert.ReferenceIdeal.main_v58)) := hXr
  -- the linear stage
  have hk : Cert.KernelIdeal.Gen.W6 (F := Ideal) m ρ c (Proc.devRef .tc Cert.KernelIdeal.main_v50_0) = lin (M := 100000) (K := 64) (N := 64) (Cert.Carry.RC m' c (Proc.devRef .tc Cert.ReferenceIdeal.main_v58)) (Cert.Carry.RD m' c (Proc.devRef .tc Cert.ReferenceIdeal.main_v71)) (Cert.Carry.R0 m' c (Proc.devRef .tc Cert.ReferenceIdeal.main_arg8)) (Cert.Carry.R0 m' c (Proc.devRef .tc Cert.ReferenceIdeal.main_arg10)) (rowOf (n := 64) (Cert.Carry.R0 m' c (Proc.devRef .tc Cert.ReferenceIdeal.main_arg9))) := by
    rw [Cert.KernelIdeal.Exit.exit2_lin, hXk, hagg, Cert.Carry.k_arg8_5_0 m ρ c, Cert.Carry.k_arg10_5_0 m ρ c,
      show Cert.KernelIdeal.Gen.W5 (F := Ideal) m ρ c (Proc.devRef .tc Cert.KernelIdeal.main_v49) = rowOf (n := 64) (Cert.KernelIdeal.Gen.W4 (F := Ideal) m ρ c (Proc.devRef .tc Cert.KernelIdeal.main_arg9)) from Cert.KernelIdeal.Eval.main_v49_eq _,
      Cert.Carry.k_arg9_4_0 m ρ c, (show Cert.KernelIdeal.Gen.W0 (F := Ideal) m ρ c (Proc.devRef .tc Cert.KernelIdeal.main_arg8) = Cert.Carry.R0 m' c (Proc.devRef .tc Cert.ReferenceIdeal.main_arg8) from a8.symm), (show Cert.KernelIdeal.Gen.W0 (F := Ideal) m ρ c (Proc.devRef .tc Cert.KernelIdeal.main_arg10) = Cert.Carry.R0 m' c (Proc.devRef .tc Cert.ReferenceIdeal.main_arg10) from a10.symm), (show Cert.KernelIdeal.Gen.W0 (F := Ideal) m ρ c (Proc.devRef .tc Cert.KernelIdeal.main_arg9) = Cert.Carry.R0 m' c (Proc.devRef .tc Cert.ReferenceIdeal.main_arg9) from a9.symm)]
  have hr : Cert.Carry.RE m' c (Proc.devRef .tc Cert.ReferenceIdeal.main_v79) = lin (M := 100000) (K := 64) (N := 64) (Cert.Carry.RC m' c (Proc.devRef .tc Cert.ReferenceIdeal.main_v58)) (Cert.Carry.RD m' c (Proc.devRef .tc Cert.ReferenceIdeal.main_v71)) (Cert.Carry.R0 m' c (Proc.devRef .tc Cert.ReferenceIdeal.main_arg8)) (Cert.Carry.R0 m' c (Proc.devRef .tc Cert.ReferenceIdeal.main_arg10)) (rowOf (n := 64) (Cert.Carry.R0 m' c (Proc.devRef .tc Cert.ReferenceIdeal.main_arg9))) := by
    rw [show Cert.Carry.RE m' c (Proc.devRef .tc Cert.ReferenceIdeal.main_v79) = _ from Cert.ReferenceIdeal.Eval.main_v79_eq _, hXrR, Cert.Carry.r_arg8_D_0 m' c,
      Cert.Carry.r_arg10_D_0 m' c, Cert.Carry.r_arg9_D_0 m' c]
  have hL : Cert.KernelIdeal.Gen.W6 (F := Ideal) m ρ c (Proc.devRef .tc Cert.KernelIdeal.main_v50_0) = Cert.Carry.RE m' c (Proc.devRef .tc Cert.ReferenceIdeal.main_v79) := hk.trans hr.symm
  have hLr : AllReal (Cert.Carry.RE m' c (Proc.devRef .tc Cert.ReferenceIdeal.main_v79)) := by
    rw [hr]
    exact lin_real _ _ _ _ _ hXreal haggr (show AllReal (Cert.Carry.R0 m' c (Proc.devRef .tc Cert.ReferenceIdeal.main_arg8)) from by rw [show Cert.Carry.R0 m' c (Proc.devRef .tc Cert.ReferenceIdeal.main_arg8) = m ((c.tc : Thread Cert.KernelIdeal.nD Cert.KernelIdeal.τ).loc Cert.KernelIdeal.main_arg8) from a8]; exact p8) (show AllReal (Cert.Carry.R0 m' c (Proc.devRef .tc Cert.ReferenceIdeal.main_arg10)) from by rw [show Cert.Carry.R0 m' c (Proc.devRef .tc Cert.ReferenceIdeal.main_arg10) = m ((c.tc : Thread Cert.KernelIdeal.nD Cert.KernelIdeal.τ).loc Cert.KernelIdeal.main_arg10) from a10]; exact p10) (fun i => (show AllReal (Cert.Carry.R0 m' c (Proc.devRef .tc Cert.ReferenceIdeal.main_arg9)) from by rw [show Cert.Carry.R0 m' c (Proc.devRef .tc Cert.ReferenceIdeal.main_arg9) = m ((c.tc : Thread Cert.KernelIdeal.nD Cert.KernelIdeal.τ).loc Cert.KernelIdeal.main_arg9) from a9]; exact p9) _)
  have hS : Cert.KernelIdeal.Gen.W6 (F := Ideal) m ρ c (Proc.devRef .tc Cert.KernelIdeal.main_v50_1) = colSum (Cert.Carry.RE m' c (Proc.devRef .tc Cert.ReferenceIdeal.main_v79)) := by
    rw [Cert.KernelIdeal.Exit.exit2_sum, ← Cert.KernelIdeal.Exit.exit2_lin, hL]
  have hQ : Cert.KernelIdeal.Gen.W6 (F := Ideal) m ρ c (Proc.devRef .tc Cert.KernelIdeal.main_v50_2) = colSumSq (Cert.Carry.RE m' c (Proc.devRef .tc Cert.ReferenceIdeal.main_v79)) := by
    rw [Cert.KernelIdeal.Exit.exit2_sumsq, ← Cert.KernelIdeal.Exit.exit2_lin, hL]
  -- the normalisation
  have hkn : Cert.KernelIdeal.Gen.W8 (F := Ideal) m ρ c (Proc.devRef .tc Cert.KernelIdeal.main_v59) = normRelu (M := 100000) (C := 64) (Cert.Carry.RE m' c (Proc.devRef .tc Cert.ReferenceIdeal.main_v79))
      (kMean 0x47C35000#32 (colSum (Cert.Carry.RE m' c (Proc.devRef .tc Cert.ReferenceIdeal.main_v79)))) (kVar 0x47C35000#32 (colSum (Cert.Carry.RE m' c (Proc.devRef .tc Cert.ReferenceIdeal.main_v79))) (colSumSq (Cert.Carry.RE m' c (Proc.devRef .tc Cert.ReferenceIdeal.main_v79))))
      (rowOf (n := 64) (Cert.Carry.R0 m' c (Proc.devRef .tc Cert.ReferenceIdeal.main_arg11))) (rowOf (n := 64) (Cert.Carry.R0 m' c (Proc.devRef .tc Cert.ReferenceIdeal.main_arg12))) := by
    rw [Cert.KernelIdeal.Exit.exit3, Cert.Carry.k_v50_0_7_6 m ρ c, hL,
      show Cert.KernelIdeal.Gen.W7 (F := Ideal) m ρ c (Proc.devRef .tc Cert.KernelIdeal.main_v52) = kMean (C := 64) 0x47C35000#32 (Cert.KernelIdeal.Gen.W6 (F := Ideal) m ρ c (Proc.devRef .tc Cert.KernelIdeal.main_v50_1)) from Cert.KernelIdeal.Eval.main_v52_eq _,
      show Cert.KernelIdeal.Gen.W7 (F := Ideal) m ρ c (Proc.devRef .tc Cert.KernelIdeal.main_v56) = kVar (C := 64) 0x47C35000#32 (Cert.KernelIdeal.Gen.W6 (F := Ideal) m ρ c (Proc.devRef .tc Cert.KernelIdeal.main_v50_1)) (Cert.KernelIdeal.Gen.W6 (F := Ideal) m ρ c (Proc.devRef .tc Cert.KernelIdeal.main_v50_2)) from Cert.KernelIdeal.Eval.main_v56_eq _,
      show Cert.KernelIdeal.Gen.W7 (F := Ideal) m ρ c (Proc.devRef .tc Cert.KernelIdeal.main_v57) = rowOf (n := 64) (Cert.KernelIdeal.Gen.W6 (F := Ideal) m ρ c (Proc.devRef .tc Cert.KernelIdeal.main_arg11)) from Cert.KernelIdeal.Eval.main_v57_eq _,
      show Cert.KernelIdeal.Gen.W7 (F := Ideal) m ρ c (Proc.devRef .tc Cert.KernelIdeal.main_v58) = rowOf (n := 64) (Cert.KernelIdeal.Gen.W6 (F := Ideal) m ρ c (Proc.devRef .tc Cert.KernelIdeal.main_arg12)) from Cert.KernelIdeal.Eval.main_v58_eq _,
      hS, hQ, Cert.Carry.k_arg11_6_0 m ρ c, Cert.Carry.k_arg12_6_0 m ρ c, (show Cert.KernelIdeal.Gen.W0 (F := Ideal) m ρ c (Proc.devRef .tc Cert.KernelIdeal.main_arg11) = Cert.Carry.R0 m' c (Proc.devRef .tc Cert.ReferenceIdeal.main_arg11) from a11.symm), (show Cert.KernelIdeal.Gen.W0 (F := Ideal) m ρ c (Proc.devRef .tc Cert.KernelIdeal.main_arg12) = Cert.Carry.R0 m' c (Proc.devRef .tc Cert.ReferenceIdeal.main_arg12) from a12.symm)]
  have hrn : Cert.Carry.RF m' c (Proc.devRef .tc Cert.ReferenceIdeal.main_v105) = normRelu (M := 100000) (C := 64) (Cert.Carry.RE m' c (Proc.devRef .tc Cert.ReferenceIdeal.main_v79))
      (rowOf (colMean 0x47C35000#32 (Cert.Carry.RE m' c (Proc.devRef .tc Cert.ReferenceIdeal.main_v79)))) (rowOf (colVar 0x47C35000#32 (Cert.Carry.RE m' c (Proc.devRef .tc Cert.ReferenceIdeal.main_v79)) (colMean 0x47C35000#32 (Cert.Carry.RE m' c (Proc.devRef .tc Cert.ReferenceIdeal.main_v79)))))
      (rowOf (n := 64) (Cert.Carry.R0 m' c (Proc.devRef .tc Cert.ReferenceIdeal.main_arg11))) (rowOf (n := 64) (Cert.Carry.R0 m' c (Proc.devRef .tc Cert.ReferenceIdeal.main_arg12))) := by
    rw [show Cert.Carry.RF m' c (Proc.devRef .tc Cert.ReferenceIdeal.main_v105) = _ from Cert.ReferenceIdeal.Eval.main_v105_eq _, Cert.Carry.r_arg11_E_0 m' c,
      Cert.Carry.r_arg12_E_0 m' c]
  refine ⟨?_, ?_⟩
  · rw [hkn, hrn, kMean_eq, kVar_eq 64 _ hLr]
  · rw [hrn]
    exact normRelu_real _ _ _ _ _ hLr (fun i => colMean_real 64 _ hLr _) (fun i => colVar_nonneg 64 _ hLr _)
      (fun i => (show AllReal (Cert.Carry.R0 m' c (Proc.devRef .tc Cert.ReferenceIdeal.main_arg11)) from by rw [show Cert.Carry.R0 m' c (Proc.devRef .tc Cert.ReferenceIdeal.main_arg11) = m ((c.tc : Thread Cert.KernelIdeal.nD Cert.KernelIdeal.τ).loc Cert.KernelIdeal.main_arg11) from a11]; exact p11) _) (fun i => (show AllReal (Cert.Carry.R0 m' c (Proc.devRef .tc Cert.ReferenceIdeal.main_arg12)) from by rw [show Cert.Carry.R0 m' c (Proc.devRef .tc Cert.ReferenceIdeal.main_arg12) = m ((c.tc : Thread Cert.KernelIdeal.nD Cert.KernelIdeal.τ).loc Cert.KernelIdeal.main_arg12) from a12]; exact p12) _)

/-- Layer 3: the kernel program's features after its two regions are the reference's after its three pieces, and
    they have real entries. -/
theorem layer3 (hag : Agree m m' c) (hpre : Cert.Pre_KernelIdeal m)
    (hX : Cert.KernelIdeal.Gen.W8 (F := Ideal) m ρ c (Proc.devRef .tc Cert.KernelIdeal.main_v59) = Cert.Carry.RF m' c (Proc.devRef .tc Cert.ReferenceIdeal.main_v105)) (hXr : AllReal (Cert.Carry.RF m' c (Proc.devRef .tc Cert.ReferenceIdeal.main_v105)))
    (hd : AllReal (Cert.Carry.RA m' c (Proc.devRef .tc Cert.ReferenceIdeal.main_v11))) :
    Cert.KernelIdeal.Gen.W12 (F := Ideal) m ρ c (Proc.devRef .tc Cert.KernelIdeal.main_v83) = Cert.Carry.RI m' c (Proc.devRef .tc Cert.ReferenceIdeal.main_v152) ∧ AllReal (Cert.Carry.RI m' c (Proc.devRef .tc Cert.ReferenceIdeal.main_v152)) := by
  obtain ⟨a0, a1, a2, a3, a4, a5, a6, a7, a8, a9, a10, a11, a12, a13, a14, a15, a16, a17, a18, a19, a20, a21⟩ := hag
  obtain ⟨p0, p3, p4, p5, p6, p7, p8, p9, p10, p11, p12, p13, p14, p15, p16, p17, p18, p19, p20, p21⟩ := Cert.PreReal.args_real m hpre c
  have e1 := (show Cert.KernelIdeal.Gen.W0 (F := Ideal) m ρ c (Proc.devRef .tc Cert.KernelIdeal.main_arg1) = Cert.Carry.R0 m' c (Proc.devRef .tc Cert.ReferenceIdeal.main_arg1) from a1.symm)
  have hs : Cert.KernelIdeal.Gen.W8 (F := Ideal) m ρ c (Proc.devRef .tc Cert.KernelIdeal.main_v1) = Cert.Carry.RF m' c (Proc.devRef .tc Cert.ReferenceIdeal.main_v1) := by
    rw [Cert.Carry.k_v1_8_4 m ρ c, Cert.Carry.k_v1_4_1 m ρ c, Cert.Carry.r_v1_F_C m' c, Cert.Carry.r_v1_C_A m' c]
    exact Cert.Shared.src_agree _ _ e1
  have ht : Cert.KernelIdeal.Gen.W8 (F := Ideal) m ρ c (Proc.devRef .tc Cert.KernelIdeal.main_v3) = Cert.Carry.RF m' c (Proc.devRef .tc Cert.ReferenceIdeal.main_v3) := by
    rw [Cert.Carry.k_v3_8_4 m ρ c, Cert.Carry.k_v3_4_1 m ρ c, Cert.Carry.r_v3_F_C m' c, Cert.Carry.r_v3_C_A m' c]
    exact Cert.Shared.dst_agree _ _ e1
  have hg : Cert.KernelIdeal.Gen.W8 (F := Ideal) m ρ c (Proc.devRef .tc Cert.KernelIdeal.main_v11) = Cert.Carry.RF m' c (Proc.devRef .tc Cert.ReferenceIdeal.main_v11) := by
    rw [Cert.Carry.k_v11_8_4 m ρ c, Cert.Carry.k_v11_4_1 m ρ c, Cert.Carry.r_v11_F_C m' c, Cert.Carry.r_v11_C_A m' c]
    exact Cert.Shared.degInv_agree _ _ e1
  have hdR : AllReal (Cert.Carry.RF m' c (Proc.devRef .tc Cert.ReferenceIdeal.main_v11)) := by
    rw [Cert.Carry.r_v11_F_C m' c, Cert.Carry.r_v11_C_A m' c]
    exact hd
  have hagg : Cert.KernelIdeal.Gen.W9 (F := Ideal) m ρ c (Proc.devRef .tc Cert.KernelIdeal.main_v72) = Cert.Carry.RG m' c (Proc.devRef .tc Cert.ReferenceIdeal.main_v118) := Cert.Shared.agg3_agree _ _ hX hs ht hg
  have haggr : AllReal (Cert.Carry.RG m' c (Proc.devRef .tc Cert.ReferenceIdeal.main_v118)) := Cert.Shared.agg3_real _ hXr hdR
  have hXk : Cert.KernelIdeal.Gen.W9 (F := Ideal) m ρ c (Proc.devRef .tc Cert.KernelIdeal.main_v59) = Cert.Carry.RF m' c (Proc.devRef .tc Cert.ReferenceIdeal.main_v105) := (Cert.Carry.k_v59_9_8 m ρ c).trans hX
  have hXrR : Cert.Carry.RG m' c (Proc.devRef .tc Cert.ReferenceIdeal.main_v105) = Cert.Carry.RF m' c (Proc.devRef .tc Cert.ReferenceIdeal.main_v105) := Cert.Carry.r_v105_G_F m' c
  have hXreal : AllReal (Cert.Carry.RF m' c (Proc.devRef .tc Cert.ReferenceIdeal.main_v105)) := hXr
  -- the linear stage
  have hk : Cert.KernelIdeal.Gen.W10 (F := Ideal) m ρ c (Proc.devRef .tc Cert.KernelIdeal.main_v74_0) = lin (M := 100000) (K := 64) (N := 64) (Cert.Carry.RF m' c (Proc.devRef .tc Cert.ReferenceIdeal.main_v105)) (Cert.Carry.RG m' c (Proc.devRef .tc Cert.ReferenceIdeal.main_v118)) (Cert.Carry.R0 m' c (Proc.devRef .tc Cert.ReferenceIdeal.main_arg13)) (Cert.Carry.R0 m' c (Proc.devRef .tc Cert.ReferenceIdeal.main_arg15)) (rowOf (n := 64) (Cert.Carry.R0 m' c (Proc.devRef .tc Cert.ReferenceIdeal.main_arg14))) := by
    rw [Cert.KernelIdeal.Exit.exit4_lin, hXk, hagg, Cert.Carry.k_arg13_9_0 m ρ c, Cert.Carry.k_arg15_9_0 m ρ c,
      show Cert.KernelIdeal.Gen.W9 (F := Ideal) m ρ c (Proc.devRef .tc Cert.KernelIdeal.main_v73) = rowOf (n := 64) (Cert.KernelIdeal.Gen.W8 (F := Ideal) m ρ c (Proc.devRef .tc Cert.KernelIdeal.main_arg14)) from Cert.KernelIdeal.Eval.main_v73_eq _,
      Cert.Carry.k_arg14_8_0 m ρ c, (show Cert.KernelIdeal.Gen.W0 (F := Ideal) m ρ c (Proc.devRef .tc Cert.KernelIdeal.main_arg13) = Cert.Carry.R0 m' c (Proc.devRef .tc Cert.ReferenceIdeal.main_arg13) from a13.symm), (show Cert.KernelIdeal.Gen.W0 (F := Ideal) m ρ c (Proc.devRef .tc Cert.KernelIdeal.main_arg15) = Cert.Carry.R0 m' c (Proc.devRef .tc Cert.ReferenceIdeal.main_arg15) from a15.symm), (show Cert.KernelIdeal.Gen.W0 (F := Ideal) m ρ c (Proc.devRef .tc Cert.KernelIdeal.main_arg14) = Cert.Carry.R0 m' c (Proc.devRef .tc Cert.ReferenceIdeal.main_arg14) from a14.symm)]
  have hr : Cert.Carry.RH m' c (Proc.devRef .tc Cert.ReferenceIdeal.main_v126) = lin (M := 100000) (K := 64) (N := 64) (Cert.Carry.RF m' c (Proc.devRef .tc Cert.ReferenceIdeal.main_v105)) (Cert.Carry.RG m' c (Proc.devRef .tc Cert.ReferenceIdeal.main_v118)) (Cert.Carry.R0 m' c (Proc.devRef .tc Cert.ReferenceIdeal.main_arg13)) (Cert.Carry.R0 m' c (Proc.devRef .tc Cert.ReferenceIdeal.main_arg15)) (rowOf (n := 64) (Cert.Carry.R0 m' c (Proc.devRef .tc Cert.ReferenceIdeal.main_arg14))) := by
    rw [show Cert.Carry.RH m' c (Proc.devRef .tc Cert.ReferenceIdeal.main_v126) = _ from Cert.ReferenceIdeal.Eval.main_v126_eq _, hXrR, Cert.Carry.r_arg13_G_0 m' c,
      Cert.Carry.r_arg15_G_0 m' c, Cert.Carry.r_arg14_G_0 m' c]
  have hL : Cert.KernelIdeal.Gen.W10 (F := Ideal) m ρ c (Proc.devRef .tc Cert.KernelIdeal.main_v74_0) = Cert.Carry.RH m' c (Proc.devRef .tc Cert.ReferenceIdeal.main_v126) := hk.trans hr.symm
  have hLr : AllReal (Cert.Carry.RH m' c (Proc.devRef .tc Cert.ReferenceIdeal.main_v126)) := by
    rw [hr]
    exact lin_real _ _ _ _ _ hXreal haggr (show AllReal (Cert.Carry.R0 m' c (Proc.devRef .tc Cert.ReferenceIdeal.main_arg13)) from by rw [show Cert.Carry.R0 m' c (Proc.devRef .tc Cert.ReferenceIdeal.main_arg13) = m ((c.tc : Thread Cert.KernelIdeal.nD Cert.KernelIdeal.τ).loc Cert.KernelIdeal.main_arg13) from a13]; exact p13) (show AllReal (Cert.Carry.R0 m' c (Proc.devRef .tc Cert.ReferenceIdeal.main_arg15)) from by rw [show Cert.Carry.R0 m' c (Proc.devRef .tc Cert.ReferenceIdeal.main_arg15) = m ((c.tc : Thread Cert.KernelIdeal.nD Cert.KernelIdeal.τ).loc Cert.KernelIdeal.main_arg15) from a15]; exact p15) (fun i => (show AllReal (Cert.Carry.R0 m' c (Proc.devRef .tc Cert.ReferenceIdeal.main_arg14)) from by rw [show Cert.Carry.R0 m' c (Proc.devRef .tc Cert.ReferenceIdeal.main_arg14) = m ((c.tc : Thread Cert.KernelIdeal.nD Cert.KernelIdeal.τ).loc Cert.KernelIdeal.main_arg14) from a14]; exact p14) _)
  have hS : Cert.KernelIdeal.Gen.W10 (F := Ideal) m ρ c (Proc.devRef .tc Cert.KernelIdeal.main_v74_1) = colSum (Cert.Carry.RH m' c (Proc.devRef .tc Cert.ReferenceIdeal.main_v126)) := by
    rw [Cert.KernelIdeal.Exit.exit4_sum, ← Cert.KernelIdeal.Exit.exit4_lin, hL]
  have hQ : Cert.KernelIdeal.Gen.W10 (F := Ideal) m ρ c (Proc.devRef .tc Cert.KernelIdeal.main_v74_2) = colSumSq (Cert.Carry.RH m' c (Proc.devRef .tc Cert.ReferenceIdeal.main_v126)) := by
    rw [Cert.KernelIdeal.Exit.exit4_sumsq, ← Cert.KernelIdeal.Exit.exit4_lin, hL]
  -- the normalisation
  have hkn : Cert.KernelIdeal.Gen.W12 (F := Ideal) m ρ c (Proc.devRef .tc Cert.KernelIdeal.main_v83) = normRelu (M := 100000) (C := 64) (Cert.Carry.RH m' c (Proc.devRef .tc Cert.ReferenceIdeal.main_v126))
      (kMean 0x47C35000#32 (colSum (Cert.Carry.RH m' c (Proc.devRef .tc Cert.ReferenceIdeal.main_v126)))) (kVar 0x47C35000#32 (colSum (Cert.Carry.RH m' c (Proc.devRef .tc Cert.ReferenceIdeal.main_v126))) (colSumSq (Cert.Carry.RH m' c (Proc.devRef .tc Cert.ReferenceIdeal.main_v126))))
      (rowOf (n := 64) (Cert.Carry.R0 m' c (Proc.devRef .tc Cert.ReferenceIdeal.main_arg16))) (rowOf (n := 64) (Cert.Carry.R0 m' c (Proc.devRef .tc Cert.ReferenceIdeal.main_arg17))) := by
    rw [Cert.KernelIdeal.Exit.exit5, Cert.Carry.k_v74_0_11_10 m ρ c, hL,
      show Cert.KernelIdeal.Gen.W11 (F := Ideal) m ρ c (Proc.devRef .tc Cert.KernelIdeal.main_v76) = kMean (C := 64) 0x47C35000#32 (Cert.KernelIdeal.Gen.W10 (F := Ideal) m ρ c (Proc.devRef .tc Cert.KernelIdeal.main_v74_1)) from Cert.KernelIdeal.Eval.main_v76_eq _,
      show Cert.KernelIdeal.Gen.W11 (F := Ideal) m ρ c (Proc.devRef .tc Cert.KernelIdeal.main_v80) = kVar (C := 64) 0x47C35000#32 (Cert.KernelIdeal.Gen.W10 (F := Ideal) m ρ c (Proc.devRef .tc Cert.KernelIdeal.main_v74_1)) (Cert.KernelIdeal.Gen.W10 (F := Ideal) m ρ c (Proc.devRef .tc Cert.KernelIdeal.main_v74_2)) from Cert.KernelIdeal.Eval.main_v80_eq _,
      show Cert.KernelIdeal.Gen.W11 (F := Ideal) m ρ c (Proc.devRef .tc Cert.KernelIdeal.main_v81) = rowOf (n := 64) (Cert.KernelIdeal.Gen.W10 (F := Ideal) m ρ c (Proc.devRef .tc Cert.KernelIdeal.main_arg16)) from Cert.KernelIdeal.Eval.main_v81_eq _,
      show Cert.KernelIdeal.Gen.W11 (F := Ideal) m ρ c (Proc.devRef .tc Cert.KernelIdeal.main_v82) = rowOf (n := 64) (Cert.KernelIdeal.Gen.W10 (F := Ideal) m ρ c (Proc.devRef .tc Cert.KernelIdeal.main_arg17)) from Cert.KernelIdeal.Eval.main_v82_eq _,
      hS, hQ, Cert.Carry.k_arg16_10_0 m ρ c, Cert.Carry.k_arg17_10_0 m ρ c, (show Cert.KernelIdeal.Gen.W0 (F := Ideal) m ρ c (Proc.devRef .tc Cert.KernelIdeal.main_arg16) = Cert.Carry.R0 m' c (Proc.devRef .tc Cert.ReferenceIdeal.main_arg16) from a16.symm), (show Cert.KernelIdeal.Gen.W0 (F := Ideal) m ρ c (Proc.devRef .tc Cert.KernelIdeal.main_arg17) = Cert.Carry.R0 m' c (Proc.devRef .tc Cert.ReferenceIdeal.main_arg17) from a17.symm)]
  have hrn : Cert.Carry.RI m' c (Proc.devRef .tc Cert.ReferenceIdeal.main_v152) = normRelu (M := 100000) (C := 64) (Cert.Carry.RH m' c (Proc.devRef .tc Cert.ReferenceIdeal.main_v126))
      (rowOf (colMean 0x47C35000#32 (Cert.Carry.RH m' c (Proc.devRef .tc Cert.ReferenceIdeal.main_v126)))) (rowOf (colVar 0x47C35000#32 (Cert.Carry.RH m' c (Proc.devRef .tc Cert.ReferenceIdeal.main_v126)) (colMean 0x47C35000#32 (Cert.Carry.RH m' c (Proc.devRef .tc Cert.ReferenceIdeal.main_v126)))))
      (rowOf (n := 64) (Cert.Carry.R0 m' c (Proc.devRef .tc Cert.ReferenceIdeal.main_arg16))) (rowOf (n := 64) (Cert.Carry.R0 m' c (Proc.devRef .tc Cert.ReferenceIdeal.main_arg17))) := by
    rw [show Cert.Carry.RI m' c (Proc.devRef .tc Cert.ReferenceIdeal.main_v152) = _ from Cert.ReferenceIdeal.Eval.main_v152_eq _, Cert.Carry.r_arg16_H_0 m' c,
      Cert.Carry.r_arg17_H_0 m' c]
  refine ⟨?_, ?_⟩
  · rw [hkn, hrn, kMean_eq, kVar_eq 64 _ hLr]
  · rw [hrn]
    exact normRelu_real _ _ _ _ _ hLr (fun i => colMean_real 64 _ hLr _) (fun i => colVar_nonneg 64 _ hLr _)
      (fun i => (show AllReal (Cert.Carry.R0 m' c (Proc.devRef .tc Cert.ReferenceIdeal.main_arg16)) from by rw [show Cert.Carry.R0 m' c (Proc.devRef .tc Cert.ReferenceIdeal.main_arg16) = m ((c.tc : Thread Cert.KernelIdeal.nD Cert.KernelIdeal.τ).loc Cert.KernelIdeal.main_arg16) from a16]; exact p16) _) (fun i => (show AllReal (Cert.Carry.R0 m' c (Proc.devRef .tc Cert.ReferenceIdeal.main_arg17)) from by rw [show Cert.Carry.R0 m' c (Proc.devRef .tc Cert.ReferenceIdeal.main_arg17) = m ((c.tc : Thread Cert.KernelIdeal.nD Cert.KernelIdeal.τ).loc Cert.KernelIdeal.main_arg17) from a17]; exact p17) _)

/-- The result: what the kernel program's last region leaves is what the reference's last piece leaves. -/
theorem result_eq (hag : Agree m m' c) (hpre : Cert.Pre_KernelIdeal m) :
    Cert.KernelIdeal.Gen.W14 (F := Ideal) m ρ c (Proc.devRef .tc Cert.KernelIdeal.main_v98) = Cert.Carry.RK m' c (Proc.devRef .tc Cert.ReferenceIdeal.main_v175) := by
  obtain ⟨h1, r1, hd⟩ := layer1 m ρ m' c hag hpre
  obtain ⟨h2, r2⟩ := layer2 m ρ m' c hag hpre h1 r1 hd
  obtain ⟨h3, -⟩ := layer3 m ρ m' c hag hpre h2 r2 hd
  obtain ⟨a0, a1, a2, a3, a4, a5, a6, a7, a8, a9, a10, a11, a12, a13, a14, a15, a16, a17, a18, a19, a20, a21⟩ := hag
  obtain ⟨p0, p3, p4, p5, p6, p7, p8, p9, p10, p11, p12, p13, p14, p15, p16, p17, p18, p19, p20, p21⟩ := Cert.PreReal.args_real m hpre c
  have e2 := (show Cert.KernelIdeal.Gen.W0 (F := Ideal) m ρ c (Proc.devRef .tc Cert.KernelIdeal.main_arg2) = Cert.Carry.R0 m' c (Proc.devRef .tc Cert.ReferenceIdeal.main_arg2) from a2.symm)
  have hpool : Cert.KernelIdeal.Gen.W13 (F := Ideal) m ρ c (Proc.devRef .tc Cert.KernelIdeal.main_v95) = Cert.Carry.RJ m' c (Proc.devRef .tc Cert.ReferenceIdeal.main_v164) :=
    Cert.Shared.pool_agree _ _ h3 ((Cert.Carry.k_arg2_12_0 m ρ c).trans (e2.trans (Cert.Carry.r_arg2_I_0 m' c).symm))
  rw [Cert.KernelIdeal.Exit.exit6, hpool, Cert.Carry.k_arg18_13_0 m ρ c, Cert.Carry.k_arg20_13_0 m ρ c,
    show Cert.KernelIdeal.Gen.W13 (F := Ideal) m ρ c (Proc.devRef .tc Cert.KernelIdeal.main_v96) = rowOf (n := 64) (Cert.KernelIdeal.Gen.W12 (F := Ideal) m ρ c (Proc.devRef .tc Cert.KernelIdeal.main_arg19)) from Cert.KernelIdeal.Eval.main_v96_eq _,
    show Cert.KernelIdeal.Gen.W13 (F := Ideal) m ρ c (Proc.devRef .tc Cert.KernelIdeal.main_v97) = rowOf (n := 2) (Cert.KernelIdeal.Gen.W12 (F := Ideal) m ρ c (Proc.devRef .tc Cert.KernelIdeal.main_arg21)) from Cert.KernelIdeal.Eval.main_v97_eq _,
    Cert.Carry.k_arg19_12_0 m ρ c, Cert.Carry.k_arg21_12_0 m ρ c, (show Cert.KernelIdeal.Gen.W0 (F := Ideal) m ρ c (Proc.devRef .tc Cert.KernelIdeal.main_arg18) = Cert.Carry.R0 m' c (Proc.devRef .tc Cert.ReferenceIdeal.main_arg18) from a18.symm), (show Cert.KernelIdeal.Gen.W0 (F := Ideal) m ρ c (Proc.devRef .tc Cert.KernelIdeal.main_arg19) = Cert.Carry.R0 m' c (Proc.devRef .tc Cert.ReferenceIdeal.main_arg19) from a19.symm), (show Cert.KernelIdeal.Gen.W0 (F := Ideal) m ρ c (Proc.devRef .tc Cert.KernelIdeal.main_arg20) = Cert.Carry.R0 m' c (Proc.devRef .tc Cert.ReferenceIdeal.main_arg20) from a20.symm), (show Cert.KernelIdeal.Gen.W0 (F := Ideal) m ρ c (Proc.devRef .tc Cert.KernelIdeal.main_arg21) = Cert.Carry.R0 m' c (Proc.devRef .tc Cert.ReferenceIdeal.main_arg21) from a21.symm),
    show Cert.Carry.RK m' c (Proc.devRef .tc Cert.ReferenceIdeal.main_v175) = _ from Cert.ReferenceIdeal.Eval.main_v175_eq _, Cert.Carry.r_arg18_J_0 m' c,
    Cert.Carry.r_arg19_J_0 m' c, Cert.Carry.r_arg20_J_0 m' c, Cert.Carry.r_arg21_J_0 m' c]

end Cert.Sim

end
-- ==== Proof.lean ====
/-
  The claim: a three-layer mean-aggregating graph network with batch normalisation, mean pooling over graphs and a
  two-layer head, computed by seven kernel regions among host operations, equals its plain host reference over the
  extended reals whenever every float input is finite.

  The frames of the two kernel programs are the generated frame certificates; the reference's frame is its run with the
  result forgotten. The kernel program and its idealisation differ by no recorded rewrite. For the value: the kernel
  program's run ends with every unscoped buffer at the contents reached by folding the host stretches and the regions'
  write-backs from the launch memory; each region's write-backs are read as one whole-array function (the linear
  stage with its column sums, the normalisation, the head); the reference's operations are read in eleven pieces as
  the same functions; and layer by layer the two agree, the one real difference being the variance, taken as the mean
  of squares minus the squared mean in one program and as the mean squared deviation in the other — equal for real
  entries, which the precondition gives and every layer preserves.
-/
import proofs.«113720_j13494787244371_1_alg».proof.Defs
import proofs.«113720_j13494787244371_1_alg».proof.Proof.KRun
import proofs.«113720_j13494787244371_1_alg».proof.Proof.RefFrame
import proofs.«113720_j13494787244371_1_alg».proof.Proof.Sim
import proofs.«113720_j13494787244371_1_alg».proof.Proof.Gen.Kernel
import proofs.«113720_j13494787244371_1_alg».proof.Proof.Gen.Kernel.Skeleton
import proofs.«113720_j13494787244371_1_alg».proof.Proof.Gen.Kernel.Launch
import proofs.«113720_j13494787244371_1_alg».proof.Proof.Gen.Kernel.Points
import proofs.«113720_j13494787244371_1_alg».proof.Proof.Gen.Kernel.Frame
import proofs.«113720_j13494787244371_1_alg».proof.Proof.Gen.KernelIdeal
import proofs.«113720_j13494787244371_1_alg».proof.Proof.Gen.KernelIdeal.Skeleton
import proofs.«113720_j13494787244371_1_alg».proof.Proof.Gen.KernelIdeal.Launch
import proofs.«113720_j13494787244371_1_alg».proof.Proof.Gen.KernelIdeal.Points
import proofs.«113720_j13494787244371_1_alg».proof.Proof.Gen.KernelIdeal.Frame
import proofs.«113720_j13494787244371_1_alg».proof.Proof.Gen.ReferenceIdeal
import proofs.«113720_j13494787244371_1_alg».proof.Proof.Gen.Pre_finite_inputs
import Idealize.ShloMosaic.Adequacy
import Idealize.ShloMosaic.Init

noncomputable section

namespace Cert.Proof

open Idealize.ShloMosaic Idealize.SL.Sem Idealize.ShloMosaic.StableHlo

/-- The two idealised programs, run from memories that agree on the arguments and under the precondition, end with the
    same result: the kernel program at the last boundary's contents of its result buffer, the reference at the contents
    after its eleven pieces, and these are equal. -/
theorem algebraic : @Cert.algebraic_KernelIdeal_ReferenceIdeal Cert.KernelIdeal.Gen.facts Cert.ReferenceIdeal.Gen.facts
    Cert.Pre_finite_inputs.Gen.facts := by
  intro m g m' g' hpre hagree
  refine ⟨fun c => Cert.KernelIdeal.Gen.W14 (F := Ideal) m g c (Proc.devRef .tc Cert.KernelIdeal.main_v98),
    Cert.KernelIdeal.Run.run_value (F := Ideal) m g, ?_⟩
  refine (θ_run Cert.ReferenceIdeal.defs _ _).mono (fun r h c => ⟨?_, (h c).2⟩) (Cert.ReferenceIdeal.ValueP.run (F := Ideal) m' g')
  rw [(h c).1, Cert.ReferenceIdeal.Pieces.after_ops]
  exact (@Cert.Sim.result_eq Cert.Pre_finite_inputs.Gen.facts m g m' c (hagree c) hpre).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    @Cert.Proof.RefFrame.frame_ri Cert.ReferenceIdeal.Gen.facts Cert.Pre_finite_inputs.Gen.facts, trivial, algebraic⟩

end Cert.Proof

end
